-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v763) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1x128x3 : Shape := ⟨4, ![16384, 1, 128, 3]⟩
abbrev S16x1x3x3 : Shape := ⟨4, ![16, 1, 3, 3]⟩
abbrev S32x16x3x1 : Shape := ⟨4, ![32, 16, 3, 1]⟩
abbrev S128x1952 : Shape := ⟨2, ![128, 1952]⟩
abbrev S128 : Shape := ⟨1, ![128]⟩
abbrev S_ : Shape := ⟨0, ![]⟩

class Facts : Prop where
  bcast_S_S16384x1x128x3 : S_.BroadcastsInDim S16384x1x128x3 (![] : Fin 0 → Fin S16384x1x128x3.rank)
  reducesTo_S16384x1x128x3_S_d0_1_2_3 : S16384x1x128x3.ReducesTo [0, 1, 2, 3] S_
  h_S_ : 0 < S_.numel
  bcast_S_S16x1x3x3 : S_.BroadcastsInDim S16x1x3x3 (![] : Fin 0 → Fin S16x1x3x3.rank)
  reducesTo_S16x1x3x3_S_d0_1_2_3 : S16x1x3x3.ReducesTo [0, 1, 2, 3] S_
  bcast_S_S32x16x3x1 : S_.BroadcastsInDim S32x16x3x1 (![] : Fin 0 → Fin S32x16x3x1.rank)
  reducesTo_S32x16x3x1_S_d0_1_2_3 : S32x16x3x1.ReducesTo [0, 1, 2, 3] S_
  bcast_S_S128x1952 : S_.BroadcastsInDim S128x1952 (![] : Fin 0 → Fin S128x1952.rank)
  reducesTo_S128x1952_S_d0_1 : S128x1952.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x1952 1) : IVec S_ 1 :=
  let main_c_5 : IVec S_ 1 := constantI S_ 1 1#1
  let main_v17 : IVec S_ 1 := (fun x v => Host.reduce IntOp.andi x v reducesTo_S128x1952_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S16384x1x128x3 .f32) (main_arg1 : FVec F S16x1x3x3 .f32) (main_arg2 : FVec F S32x16x3x1 .f32) (main_arg3 : FVec F S128x1952 .f32) (main_arg4 : FVec F S128 .f32) : IVec S_ 1 :=
  let main_v0 : FVec F S16384x1x128x3 .f32 := Host.absf main_arg0
  let main_cst : FVec F S_ .f32 := constant S_ .f32 0x7F800000#32
  let main_v1 : FVec F S16384x1x128x3 .f32 := broadcastInDim S16384x1x128x3 ![] bcast_S_S16384x1x128x3 main_cst
  let main_v2 : IVec S16384x1x128x3 1 := cmpf .olt main_v0 main_v1
  let main_c : IVec S_ 1 := constantI S_ 1 1#1
  let main_v3 : IVec S_ 1 := (fun x v => Host.reduce IntOp.andi x v reducesTo_S16384x1x128x3_S_d0_1_2_3 h_S_) main_v2 main_c
  let main_v4 : FVec F S16x1x3x3 .f32 := Host.absf main_arg1
  let main_cst_0 : FVec F S_ .f32 := constant S_ .f32 0x7F800000#32
  let main_v5 : FVec F S16x1x3x3 .f32 := broadcastInDim S16x1x3x3 ![] bcast_S_S16x1x3x3 main_cst_0
  let main_v6 : IVec S16x1x3x3 1 := cmpf .olt main_v4 main_v5
  let main_c_1 : IVec S_ 1 := constantI S_ 1 1#1
  let main_v7 : IVec S_ 1 := (fun x v => Host.reduce IntOp.andi x v reducesTo_S16x1x3x3_S_d0_1_2_3 h_S_) main_v6 main_c_1
  let main_v8 : IVec S_ 1 := andi main_v3 main_v7
  let main_v9 : FVec F S32x16x3x1 .f32 := Host.absf main_arg2
  let main_cst_2 : FVec F S_ .f32 := constant S_ .f32 0x7F800000#32
  let main_v10 : FVec F S32x16x3x1 .f32 := broadcastInDim S32x16x3x1 ![] bcast_S_S32x16x3x1 main_cst_2
  let main_v11 : IVec S32x16x3x1 1 := cmpf .olt main_v9 main_v10
  let main_c_3 : IVec S_ 1 := constantI S_ 1 1#1
  let main_v12 : IVec S_ 1 := (fun x v => Host.reduce IntOp.andi x v reducesTo_S32x16x3x1_S_d0_1_2_3 h_S_) main_v11 main_c_3
  let main_v13 : IVec S_ 1 := andi main_v8 main_v12
  let main_v14 : FVec F S128x1952 .f32 := Host.absf main_arg3
  let main_cst_4 : FVec F S_ .f32 := constant S_ .f32 0x7F800000#32
  let main_v15 : FVec F S128x1952 .f32 := broadcastInDim S128x1952 ![] bcast_S_S128x1952 main_cst_4
  let main_v16 : IVec S128x1952 1 := cmpf .olt main_v14 main_v15
  fn_part1 (F := F) main_arg4 main_v13 main_v16
-- ==== Kernel.lean ====
abbrev S16384x1x128x3 : Shape := ⟨4, ![16384, 1, 128, 3]⟩
abbrev S16x1x3x3 : Shape := ⟨4, ![16, 1, 3, 3]⟩
abbrev S32x16x3x1 : Shape := ⟨4, ![32, 16, 3, 1]⟩
abbrev S128x1952 : Shape := ⟨2, ![128, 1952]⟩
abbrev S128 : Shape := ⟨1, ![128]⟩
abbrev S16384x128x3 : Shape := ⟨3, ![16384, 128, 3]⟩
abbrev S16384x384 : Shape := ⟨2, ![16384, 384]⟩
abbrev S384x16384 : Shape := ⟨2, ![384, 16384]⟩
abbrev S16x3x3 : Shape := ⟨3, ![16, 3, 3]⟩
abbrev S16x9 : Shape := ⟨2, ![16, 9]⟩
abbrev S_ : Shape := ⟨0, ![]⟩
abbrev S16x64x203 : Shape := ⟨3, ![16, 64, 203]⟩
abbrev S16x1x9 : Shape := ⟨3, ![16, 1, 9]⟩
abbrev S1 : Shape := ⟨1, ![1]⟩
abbrev S16x64x9 : Shape := ⟨3, ![16, 64, 9]⟩
abbrev S16x12992 : Shape := ⟨2, ![16, 12992]⟩
abbrev S16x12800 : Shape := ⟨2, ![16, 12800]⟩
abbrev S16x64x200 : Shape := ⟨3, ![16, 64, 200]⟩
abbrev S64x16x200 : Shape := ⟨3, ![64, 16, 200]⟩
abbrev S1024x200 : Shape := ⟨2, ![1024, 200]⟩
abbrev S16x62x195 : Shape := ⟨3, ![16, 62, 195]⟩
abbrev S16x62x9 : Shape := ⟨3, ![16, 62, 9]⟩
abbrev S16x12090 : Shape := ⟨2, ![16, 12090]⟩
abbrev S16x11904 : Shape := ⟨2, ![16, 11904]⟩
abbrev S16x62x192 : Shape := ⟨3, ![16, 62, 192]⟩
abbrev S62x16x192 : Shape := ⟨3, ![62, 16, 192]⟩
abbrev S992x192 : Shape := ⟨2, ![992, 192]⟩
abbrev S32x16x3 : Shape := ⟨3, ![32, 16, 3]⟩
abbrev S32x3x16 : Shape := ⟨3, ![32, 3, 16]⟩
abbrev S32x48 : Shape := ⟨2, ![32, 48]⟩
abbrev S32x13x256 : Shape := ⟨3, ![32, 13, 256]⟩
abbrev S32x1x48 : Shape := ⟨3, ![32, 1, 48]⟩
abbrev S32x13x48 : Shape := ⟨3, ![32, 13, 48]⟩
abbrev S32x3328 : Shape := ⟨2, ![32, 3328]⟩
abbrev S32x3120 : Shape := ⟨2, ![32, 3120]⟩
abbrev S32x13x240 : Shape := ⟨3, ![32, 13, 240]⟩
abbrev S13x32x240 : Shape := ⟨3, ![13, 32, 240]⟩
abbrev S416x240 : Shape := ⟨2, ![416, 240]⟩
abbrev S128x32x61 : Shape := ⟨3, ![128, 32, 61]⟩
abbrev S128x32x65 : Shape := ⟨3, ![128, 32, 65]⟩
abbrev S128x65x32 : Shape := ⟨3, ![128, 65, 32]⟩
abbrev S128x2080 : Shape := ⟨2, ![128, 2080]⟩
abbrev S128x1 : Shape := ⟨2, ![128, 1]⟩
abbrev S16384x128 : Shape := ⟨2, ![16384, 128]⟩
abbrev S384x2048 : Shape := ⟨2, ![384, 2048]⟩
abbrev S2048x128 : Shape := ⟨2, ![2048, 128]⟩
abbrev S200x2048 : Shape := ⟨2, ![200, 2048]⟩
abbrev S1024x2048 : Shape := ⟨2, ![1024, 2048]⟩
abbrev S192x2048 : Shape := ⟨2, ![192, 2048]⟩
abbrev S992x2048 : Shape := ⟨2, ![992, 2048]⟩
abbrev S32x32x2048 : Shape := ⟨3, ![32, 32, 2048]⟩
abbrev S31x32x2048 : Shape := ⟨3, ![31, 32, 2048]⟩
abbrev S32x16x2048 : Shape := ⟨3, ![32, 16, 2048]⟩
abbrev S31x16x2048 : Shape := ⟨3, ![31, 16, 2048]⟩
abbrev S63x16x2048 : Shape := ⟨3, ![63, 16, 2048]⟩
abbrev S15x16x2048 : Shape := ⟨3, ![15, 16, 2048]⟩
abbrev S240x2048 : Shape := ⟨2, ![240, 2048]⟩
abbrev S416x2048 : Shape := ⟨2, ![416, 2048]⟩
abbrev S128x416 : Shape := ⟨2, ![128, 416]⟩
abbrev S128x2048 : Shape := ⟨2, ![128, 2048]⟩
abbrev S11x16x2048 : Shape := ⟨3, ![11, 16, 2048]⟩
abbrev S176x2048 : Shape := ⟨2, ![176, 2048]⟩
abbrev S416x176 : Shape := ⟨2, ![416, 176]⟩

abbrev nBuf : Space → Nat
  | .hbm => 57
  | .vmem => 9
  | .smem => 0
  | _ => 0

abbrev bufTy : (tb : Table) → Fin (tcTables nBuf tb) → BufTy
  | .hbm, ⟨0, _⟩ => ⟨S16384x1x128x3, .f32⟩
  | .hbm, ⟨1, _⟩ => ⟨S16x1x3x3, .f32⟩
  | .hbm, ⟨2, _⟩ => ⟨S32x16x3x1, .f32⟩
  | .hbm, ⟨3, _⟩ => ⟨S128x1952, .f32⟩
  | .hbm, ⟨4, _⟩ => ⟨S128, .f32⟩
  | .hbm, ⟨5, _⟩ => ⟨S16384x128x3, .f32⟩
  | .hbm, ⟨6, _⟩ => ⟨S16384x384, .f32⟩
  | .hbm, ⟨7, _⟩ => ⟨S384x16384, .f32⟩
  | .hbm, ⟨8, _⟩ => ⟨S16x3x3, .f32⟩
  | .hbm, ⟨9, _⟩ => ⟨S16x9, .f32⟩
  | .hbm, ⟨10, _⟩ => ⟨S_, .f32⟩
  | .hbm, ⟨11, _⟩ => ⟨S16x64x203, .f32⟩
  | .hbm, ⟨12, _⟩ => ⟨S16x1x9, .f32⟩
  | .hbm, ⟨13, _⟩ => ⟨S_, .i32⟩
  | .hbm, ⟨14, _⟩ => ⟨S1, .i32⟩
  | .hbm, ⟨15, _⟩ => ⟨S16x64x9, .f32⟩
  | .hbm, ⟨16, _⟩ => ⟨S16x64x203, .f32⟩
  | .hbm, ⟨17, _⟩ => ⟨S16x12992, .f32⟩
  | .hbm, ⟨18, _⟩ => ⟨S16x12800, .f32⟩
  | .hbm, ⟨19, _⟩ => ⟨S16x64x200, .f32⟩
  | .hbm, ⟨20, _⟩ => ⟨S64x16x200, .f32⟩
  | .hbm, ⟨21, _⟩ => ⟨S1024x200, .f32⟩
  | .hbm, ⟨22, _⟩ => ⟨S_, .f32⟩
  | .hbm, ⟨23, _⟩ => ⟨S16x62x195, .f32⟩
  | .hbm, ⟨24, _⟩ => ⟨S16x1x9, .f32⟩
  | .hbm, ⟨25, _⟩ => ⟨S_, .i32⟩
  | .hbm, ⟨26, _⟩ => ⟨S1, .i32⟩
  | .hbm, ⟨27, _⟩ => ⟨S16x62x9, .f32⟩
  | .hbm, ⟨28, _⟩ => ⟨S16x62x195, .f32⟩
  | .hbm, ⟨29, _⟩ => ⟨S16x12090, .f32⟩
  | .hbm, ⟨30, _⟩ => ⟨S16x11904, .f32⟩
  | .hbm, ⟨31, _⟩ => ⟨S16x62x192, .f32⟩
  | .hbm, ⟨32, _⟩ => ⟨S62x16x192, .f32⟩
  | .hbm, ⟨33, _⟩ => ⟨S992x192, .f32⟩
  | .hbm, ⟨34, _⟩ => ⟨S32x16x3, .f32⟩
  | .hbm, ⟨35, _⟩ => ⟨S32x3x16, .f32⟩
  | .hbm, ⟨36, _⟩ => ⟨S32x48, .f32⟩
  | .hbm, ⟨37, _⟩ => ⟨S_, .f32⟩
  | .hbm, ⟨38, _⟩ => ⟨S32x13x256, .f32⟩
  | .hbm, ⟨39, _⟩ => ⟨S32x1x48, .f32⟩
  | .hbm, ⟨40, _⟩ => ⟨S_, .i32⟩
  | .hbm, ⟨41, _⟩ => ⟨S1, .i32⟩
  | .hbm, ⟨42, _⟩ => ⟨S32x13x48, .f32⟩
  | .hbm, ⟨43, _⟩ => ⟨S32x13x256, .f32⟩
  | .hbm, ⟨44, _⟩ => ⟨S32x3328, .f32⟩
  | .hbm, ⟨45, _⟩ => ⟨S32x3120, .f32⟩
  | .hbm, ⟨46, _⟩ => ⟨S32x13x240, .f32⟩
  | .hbm, ⟨47, _⟩ => ⟨S13x32x240, .f32⟩
  | .hbm, ⟨48, _⟩ => ⟨S416x240, .f32⟩
  | .hbm, ⟨49, _⟩ => ⟨S128x32x61, .f32⟩
  | .hbm, ⟨50, _⟩ => ⟨S_, .i32⟩
  | .hbm, ⟨51, _⟩ => ⟨S_, .f32⟩
  | .hbm, ⟨52, _⟩ => ⟨S128x32x65, .f32⟩
  | .hbm, ⟨53, _⟩ => ⟨S128x65x32, .f32⟩
  | .hbm, ⟨54, _⟩ => ⟨S128x2080, .f32⟩
  | .hbm, ⟨55, _⟩ => ⟨S128x1, .f32⟩
  | .hbm, ⟨56, _⟩ => ⟨S16384x128, .f32⟩
  | .local _ .vmem, ⟨0, _⟩ => ⟨S384x2048, .f32⟩
  | .local _ .vmem, ⟨1, _⟩ => ⟨S384x2048, .f32⟩
  | .local _ .vmem, ⟨2, _⟩ => ⟨S1024x200, .f32⟩
  | .local _ .vmem, ⟨3, _⟩ => ⟨S992x192, .f32⟩
  | .local _ .vmem, ⟨4, _⟩ => ⟨S416x240, .f32⟩
  | .local _ .vmem, ⟨5, _⟩ => ⟨S128x2080, .f32⟩
  | .local _ .vmem, ⟨6, _⟩ => ⟨S128x1, .f32⟩
  | .local _ .vmem, ⟨7, _⟩ => ⟨S2048x128, .f32⟩
  | .local _ .vmem, ⟨8, _⟩ => ⟨S2048x128, .f32⟩
  | _, _ => ⟨S16384x1x128x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_c_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_4 : Ref sig .tc := ⟨.hbm, 50, rfl⟩
abbrev main_call0_v0 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S992x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S416x240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2080 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S16384x1x128x3_S16384x128x3 : S16384x1x128x3.ShapeCasts S16384x128x3
  shapeCasts_S16384x128x3_S16384x384 : S16384x128x3.ShapeCasts S16384x384
  transposes_S16384x384_S384x16384_1_0 : S16384x384.Transposes [1, 0] S384x16384
  shapeCasts_S16x1x3x3_S16x3x3 : S16x1x3x3.ShapeCasts S16x3x3
  shapeCasts_S16x3x3_S16x9 : S16x3x3.ShapeCasts S16x9
  bcast_S_S16x64x203 : S_.BroadcastsInDim S16x64x203 (![] : Fin 0 → Fin S16x64x203.rank)
  bcast_S16x9_S16x1x9_0_2 : S16x9.BroadcastsInDim S16x1x9 (![0, 2] : Fin 2 → Fin S16x1x9.rank)
  bcast_S_S1 : S_.BroadcastsInDim S1 (![] : Fin 0 → Fin S1.rank)
  bcast_S16x1x9_S16x64x9_0_1_2 : S16x1x9.BroadcastsInDim S16x64x9 (![0, 1, 2] : Fin 3 → Fin S16x64x9.rank)
  shapeCasts_S16x64x203_S16x12992 : S16x64x203.ShapeCasts S16x12992
  slices_S16x12992_S16x12800_0_0 : S16x12992.Slices ![0, 0] S16x12800
  shapeCasts_S16x12800_S16x64x200 : S16x12800.ShapeCasts S16x64x200
  transposes_S16x64x200_S64x16x200_1_0_2 : S16x64x200.Transposes [1, 0, 2] S64x16x200
  shapeCasts_S64x16x200_S1024x200 : S64x16x200.ShapeCasts S1024x200
  bcast_S_S16x62x195 : S_.BroadcastsInDim S16x62x195 (![] : Fin 0 → Fin S16x62x195.rank)
  bcast_S16x1x9_S16x62x9_0_1_2 : S16x1x9.BroadcastsInDim S16x62x9 (![0, 1, 2] : Fin 3 → Fin S16x62x9.rank)
  shapeCasts_S16x62x195_S16x12090 : S16x62x195.ShapeCasts S16x12090
  slices_S16x12090_S16x11904_0_0 : S16x12090.Slices ![0, 0] S16x11904
  shapeCasts_S16x11904_S16x62x192 : S16x11904.ShapeCasts S16x62x192
  transposes_S16x62x192_S62x16x192_1_0_2 : S16x62x192.Transposes [1, 0, 2] S62x16x192
  shapeCasts_S62x16x192_S992x192 : S62x16x192.ShapeCasts S992x192
  shapeCasts_S32x16x3x1_S32x16x3 : S32x16x3x1.ShapeCasts S32x16x3
  transposes_S32x16x3_S32x3x16_0_2_1 : S32x16x3.Transposes [0, 2, 1] S32x3x16
  shapeCasts_S32x3x16_S32x48 : S32x3x16.ShapeCasts S32x48
  bcast_S_S32x13x256 : S_.BroadcastsInDim S32x13x256 (![] : Fin 0 → Fin S32x13x256.rank)
  bcast_S32x48_S32x1x48_0_2 : S32x48.BroadcastsInDim S32x1x48 (![0, 2] : Fin 2 → Fin S32x1x48.rank)
  bcast_S32x1x48_S32x13x48_0_1_2 : S32x1x48.BroadcastsInDim S32x13x48 (![0, 1, 2] : Fin 3 → Fin S32x13x48.rank)
  shapeCasts_S32x13x256_S32x3328 : S32x13x256.ShapeCasts S32x3328
  slices_S32x3328_S32x3120_0_0 : S32x3328.Slices ![0, 0] S32x3120
  shapeCasts_S32x3120_S32x13x240 : S32x3120.ShapeCasts S32x13x240
  transposes_S32x13x240_S13x32x240_1_0_2 : S32x13x240.Transposes [1, 0, 2] S13x32x240
  shapeCasts_S13x32x240_S416x240 : S13x32x240.ShapeCasts S416x240
  shapeCasts_S128x1952_S128x32x61 : S128x1952.ShapeCasts S128x32x61
  pads_S128x32x61_S128x32x65_000_000_040 : S128x32x61.Pads (![0, 0, 0] : Fin 3 → Nat) ![0, 0, 4] ![0, 0, 0] S128x32x65
  h_S_ : 0 < S_.numel
  transposes_S128x32x65_S128x65x32_0_2_1 : S128x32x65.Transposes [0, 2, 1] S128x65x32
  shapeCasts_S128x65x32_S128x2080 : S128x65x32.ShapeCasts S128x2080
  shapeCasts_S128_S128x1 : S128.ShapeCasts S128x1
  inb_S1024x200_S1024x200_0_0 : ∀ a, (![0, 0] : Fin 2 → Nat) a + S1024x200.size a ≤ S1024x200.size a
  h_S1024x200 : 0 < S1024x200.numel
  shapeCasts_S1024x200_S1024x200 : S1024x200.ShapeCasts S1024x200
  inb_S384x2048_S200x2048_0_0 : ∀ a, (![0, 0] : Fin 2 → Nat) a + S200x2048.size a ≤ S384x2048.size a
  h_S200x2048 : 0 < S200x2048.numel
  shapeCasts_S200x2048_S200x2048 : S200x2048.ShapeCasts S200x2048
  inb_S992x192_S992x192_0_0 : ∀ a, (![0, 0] : Fin 2 → Nat) a + S992x192.size a ≤ S992x192.size a
  h_S992x192 : 0 < S992x192.numel
  shapeCasts_S992x192_S992x192 : S992x192.ShapeCasts S992x192
  inb_S384x2048_S192x2048_192_0 : ∀ a, (![192, 0] : Fin 2 → Nat) a + S192x2048.size a ≤ S384x2048.size a
  h_S192x2048 : 0 < S192x2048.numel
  shapeCasts_S192x2048_S192x2048 : S192x2048.ShapeCasts S192x2048
  shapeCasts_S1024x2048_S32x32x2048 : S1024x2048.ShapeCasts S32x32x2048
  shapeCasts_S992x2048_S31x32x2048 : S992x2048.ShapeCasts S31x32x2048
  slices_S32x32x2048_o0_0_0_S32x16x2048 : S32x32x2048.Slices ![0, 0, 0] S32x16x2048
  slices_S32x32x2048_o0_16_0_S32x16x2048 : S32x32x2048.Slices ![0, 16, 0] S32x16x2048
  slices_S31x32x2048_o0_0_0_S31x16x2048 : S31x32x2048.Slices ![0, 0, 0] S31x16x2048
  slices_S31x32x2048_o0_16_0_S31x16x2048 : S31x32x2048.Slices ![0, 16, 0] S31x16x2048
  concatenates_S32x16x2048_S31x16x2048_S63x16x2048_d0 : Shape.Concatenates [S32x16x2048, S31x16x2048] S63x16x2048 0
  inb_S416x240_S416x240_0_0 : ∀ a, (![0, 0] : Fin 2 → Nat) a + S416x240.size a ≤ S416x240.size a
  h_S416x240 : 0 < S416x240.numel
  shapeCasts_S416x240_S416x240 : S416x240.ShapeCasts S416x240
  inb_S128x1_S128x1_0_0 : ∀ a, (![0, 0] : Fin 2 → Nat) a + S128x1.size a ≤ S128x1.size a
  h_S128x1 : 0 < S128x1.numel
  shapeCasts_S128x1_S128x1 : S128x1.ShapeCasts S128x1
  slices_S63x16x2048_o0_0_0_S15x16x2048 : S63x16x2048.Slices ![0, 0, 0] S15x16x2048
  shapeCasts_S15x16x2048_S240x2048 : S15x16x2048.ShapeCasts S240x2048
  inb_S128x2080_S128x416_0_0 : ∀ a, (![0, 0] : Fin 2 → Nat) a + S128x416.size a ≤ S128x2080.size a
  h_S128x416 : 0 < S128x416.numel
  shapeCasts_S128x416_S128x416 : S128x416.ShapeCasts S128x416
  broadcasts_S128x1_S128x2048 : S128x1.Broadcasts S128x2048
  slices_S63x16x2048_o13_0_0_S15x16x2048 : S63x16x2048.Slices ![13, 0, 0] S15x16x2048
  inb_S128x2080_S128x416_0_416 : ∀ a, (![0, 416] : Fin 2 → Nat) a + S128x416.size a ≤ S128x2080.size a
  slices_S63x16x2048_o26_0_0_S15x16x2048 : S63x16x2048.Slices ![26, 0, 0] S15x16x2048
  inb_S128x2080_S128x416_0_832 : ∀ a, (![0, 832] : Fin 2 → Nat) a + S128x416.size a ≤ S128x2080.size a
  slices_S63x16x2048_o39_0_0_S15x16x2048 : S63x16x2048.Slices ![39, 0, 0] S15x16x2048
  inb_S128x2080_S128x416_0_1248 : ∀ a, (![0, 1248] : Fin 2 → Nat) a + S128x416.size a ≤ S128x2080.size a
  slices_S63x16x2048_o52_0_0_S11x16x2048 : S63x16x2048.Slices ![52, 0, 0] S11x16x2048
  shapeCasts_S11x16x2048_S176x2048 : S11x16x2048.ShapeCasts S176x2048
  slices_S416x240_o0_0_S416x176 : S416x240.Slices ![0, 0] S416x176
  inb_S128x2080_S128x416_0_1664 : ∀ a, (![0, 1664] : Fin 2 → Nat) a + S128x416.size a ≤ S128x2080.size a
  transposes_S128x2048_p1_0_S2048x128 : S128x2048.Transposes [1, 0] S2048x128
  inb_S2048x128_S2048x128_0_0 : ∀ a, (![0, 0] : Fin 2 → Nat) a + S2048x128.size a ≤ S2048x128.size a
  h_S2048x128 : 0 < S2048x128.numel
  scatter_S16x64x203_S1_S16x64x9_012_n_2_0_wf : ScatterDims.WF S16x64x203 S1 S16x64x9 [0, 1, 2] [] [2] 0
  scatter_S16x62x195_S1_S16x62x9_012_n_2_0_wf : ScatterDims.WF S16x62x195 S1 S16x62x9 [0, 1, 2] [] [2] 0
  scatter_S32x13x256_S1_S32x13x48_012_n_2_0_wf : ScatterDims.WF S32x13x256 S1 S32x13x48 [0, 1, 2] [] [2] 0
  dot_S1024x200_S200x2048_S1024x2048_1_0_0_1_n_n_wf : DotDims.WF S1024x200 S200x2048 S1024x2048 [1] [0] [0] [1] [] []
  dot_S992x192_S192x2048_S992x2048_1_0_0_1_n_n_wf : DotDims.WF S992x192 S192x2048 S992x2048 [1] [0] [0] [1] [] []
  dot_S416x240_S240x2048_S416x2048_1_0_0_1_n_n_wf : DotDims.WF S416x240 S240x2048 S416x2048 [1] [0] [0] [1] [] []
  dot_S128x416_S416x2048_S128x2048_1_0_0_1_n_n_wf : DotDims.WF S128x416 S416x2048 S128x2048 [1] [0] [0] [1] [] []
  dot_S416x176_S176x2048_S416x2048_1_0_0_1_n_n_wf : DotDims.WF S416x176 S176x2048 S416x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S384x2048.size a ≤ S384x16384.size a
  hwx0_0 : ∀ i : grid0.Coords, EltTy.bits .f32 = 32 ∨ (Rect.block (s := S384x16384) S384x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x200.size a ≤ S1024x200.size a
  hwx0_1 : ∀ i : grid0.Coords, EltTy.bits .f32 = 32 ∨ (Rect.block (s := S1024x200) S1024x200.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S992x192.size a ≤ S992x192.size a
  hwx0_2 : ∀ i : grid0.Coords, EltTy.bits .f32 = 32 ∨ (Rect.block (s := S992x192) S992x192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S416x240.size a ≤ S416x240.size a
  hwx0_3 : ∀ i : grid0.Coords, EltTy.bits .f32 = 32 ∨ (Rect.block (s := S416x240) S416x240.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x2080.size a ≤ S128x2080.size a
  hwx0_4 : ∀ i : grid0.Coords, EltTy.bits .f32 = 32 ∨ (Rect.block (s := S128x2080) S128x2080.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S16384x128.size a
  hwx0_6 : ∀ i : grid0.Coords, EltTy.bits .f32 = 32 ∨ (Rect.block (s := S16384x128) S2048x128.size (cc0_transform_6 i) (hinb0_6 i)).WholeWords (EltTy.packing .f32)

variable [Facts₀]

def scatter_S16x64x203_S1_S16x64x9_012_n_2_0 : ScatterDims S16x64x203 S1 S16x64x9 where
  updateWindowDims := [0, 1, 2]
  insertedWindowDims := []
  scatterDimsToOperandDims := [2]
  indexVectorDim := 0
  wf := scatter_S16x64x203_S1_S16x64x9_012_n_2_0_wf
def scatter_S16x62x195_S1_S16x62x9_012_n_2_0 : ScatterDims S16x62x195 S1 S16x62x9 where
  updateWindowDims := [0, 1, 2]
  insertedWindowDims := []
  scatterDimsToOperandDims := [2]
  indexVectorDim := 0
  wf := scatter_S16x62x195_S1_S16x62x9_012_n_2_0_wf
def scatter_S32x13x256_S1_S32x13x48_012_n_2_0 : ScatterDims S32x13x256 S1 S32x13x48 where
  updateWindowDims := [0, 1, 2]
  insertedWindowDims := []
  scatterDimsToOperandDims := [2]
  indexVectorDim := 0
  wf := scatter_S32x13x256_S1_S32x13x48_012_n_2_0_wf
def dot_S1024x200_S200x2048_S1024x2048_1_0_0_1_n_n : DotDims S1024x200 S200x2048 S1024x2048 where
  lhsContracting := [1]
  rhsContracting := [0]
  lhsNonContracting := [0]
  rhsNonContracting := [1]
  lhsBatch := []
  rhsBatch := []
  wf := dot_S1024x200_S200x2048_S1024x2048_1_0_0_1_n_n_wf
def dot_S992x192_S192x2048_S992x2048_1_0_0_1_n_n : DotDims S992x192 S192x2048 S992x2048 where
  lhsContracting := [1]
  rhsContracting := [0]
  lhsNonContracting := [0]
  rhsNonContracting := [1]
  lhsBatch := []
  rhsBatch := []
  wf := dot_S992x192_S192x2048_S992x2048_1_0_0_1_n_n_wf
def dot_S416x240_S240x2048_S416x2048_1_0_0_1_n_n : DotDims S416x240 S240x2048 S416x2048 where
  lhsContracting := [1]
  rhsContracting := [0]
  lhsNonContracting := [0]
  rhsNonContracting := [1]
  lhsBatch := []
  rhsBatch := []
  wf := dot_S416x240_S240x2048_S416x2048_1_0_0_1_n_n_wf
def dot_S128x416_S416x2048_S128x2048_1_0_0_1_n_n : DotDims S128x416 S416x2048 S128x2048 where
  lhsContracting := [1]
  rhsContracting := [0]
  lhsNonContracting := [0]
  rhsNonContracting := [1]
  lhsBatch := []
  rhsBatch := []
  wf := dot_S128x416_S416x2048_S128x2048_1_0_0_1_n_n_wf
def dot_S416x176_S176x2048_S416x2048_1_0_0_1_n_n : DotDims S416x176 S176x2048 S416x2048 where
  lhsContracting := [1]
  rhsContracting := [0]
  lhsNonContracting := [0]
  rhsNonContracting := [1]
  lhsBatch := []
  rhsBatch := []
  wf := dot_S416x176_S176x2048_S416x2048_1_0_0_1_n_n_wf

abbrev win0_0 : Pipeline.Window sig grid0 :=
  Pipeline.Window.ofSpec (Memref.whole main_v2) S384x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1024x200.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S992x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S416x240.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S128x2080.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v42) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v43) S2048x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x1x128x3 : Shape := ⟨4, ![16384, 1, 128, 3]⟩
abbrev S16x1x3x3 : Shape := ⟨4, ![16, 1, 3, 3]⟩
abbrev S32x16x3x1 : Shape := ⟨4, ![32, 16, 3, 1]⟩
abbrev S128x1952 : Shape := ⟨2, ![128, 1952]⟩
abbrev S128 : Shape := ⟨1, ![128]⟩
abbrev S16384x128x3 : Shape := ⟨3, ![16384, 128, 3]⟩
abbrev S16384x384 : Shape := ⟨2, ![16384, 384]⟩
abbrev S384x16384 : Shape := ⟨2, ![384, 16384]⟩
abbrev S16x3x3 : Shape := ⟨3, ![16, 3, 3]⟩
abbrev S16x9 : Shape := ⟨2, ![16, 9]⟩
abbrev S_ : Shape := ⟨0, ![]⟩
abbrev S2016x384 : Shape := ⟨2, ![2016, 384]⟩
abbrev S1 : Shape := ⟨1, ![1]⟩
abbrev S2 : Shape := ⟨1, ![2]⟩
abbrev S32x16x3 : Shape := ⟨3, ![32, 16, 3]⟩
abbrev S32x3x16 : Shape := ⟨3, ![32, 3, 16]⟩
abbrev S32x48 : Shape := ⟨2, ![32, 48]⟩
abbrev S1952x1008 : Shape := ⟨2, ![1952, 1008]⟩
abbrev S128x32x61 : Shape := ⟨3, ![128, 32, 61]⟩
abbrev S128x61x32 : Shape := ⟨3, ![128, 61, 32]⟩
abbrev S128x1 : Shape := ⟨2, ![128, 1]⟩
abbrev S128x16384 : Shape := ⟨2, ![128, 16384]⟩
abbrev S384x128 : Shape := ⟨2, ![384, 128]⟩
abbrev S128x128 : Shape := ⟨2, ![128, 128]⟩
abbrev S2016x128 : Shape := ⟨2, ![2016, 128]⟩
abbrev S63x2x16x128 : Shape := ⟨4, ![63, 2, 16, 128]⟩
abbrev S63x1x16x128 : Shape := ⟨4, ![63, 1, 16, 128]⟩
abbrev S63x16x128 : Shape := ⟨3, ![63, 16, 128]⟩
abbrev S1008x128 : Shape := ⟨2, ![1008, 128]⟩
abbrev S1952x128 : Shape := ⟨2, ![1952, 128]⟩
abbrev S16384x128 : Shape := ⟨2, ![16384, 128]⟩

abbrev nBuf : Space → Nat
  | .hbm => 1145
  | .vmem => 8
  | .smem => 0
  | _ => 0

abbrev hbmTy0_0 (i : Nat) : BufTy := match i % 128 with
  | 0 => ⟨S16384x1x128x3, .f32⟩
  | 1 => ⟨S16x1x3x3, .f32⟩
  | 2 => ⟨S32x16x3x1, .f32⟩
  | 3 => ⟨S128x1952, .f32⟩
  | 4 => ⟨S128, .f32⟩
  | 5 => ⟨S16384x128x3, .f32⟩
  | 6 => ⟨S16384x384, .f32⟩
  | 7 => ⟨S384x16384, .f32⟩
  | 8 => ⟨S16x3x3, .f32⟩
  | 9 => ⟨S16x9, .f32⟩
  | 10 => ⟨S_, .f32⟩
  | 11 => ⟨S2016x384, .f32⟩
  | 12 => ⟨S_, .i32⟩
  | 13 => ⟨S1, .i32⟩
  | 14 => ⟨S_, .i32⟩
  | 15 => ⟨S1, .i32⟩
  | 16 => ⟨S2, .i32⟩
  | 17 => ⟨S2016x384, .f32⟩
  | 18 => ⟨S_, .i32⟩
  | 19 => ⟨S1, .i32⟩
  | 20 => ⟨S_, .i32⟩
  | 21 => ⟨S1, .i32⟩
  | 22 => ⟨S2, .i32⟩
  | 23 => ⟨S2016x384, .f32⟩
  | 24 => ⟨S_, .i32⟩
  | 25 => ⟨S1, .i32⟩
  | 26 => ⟨S_, .i32⟩
  | 27 => ⟨S1, .i32⟩
  | 28 => ⟨S2, .i32⟩
  | 29 => ⟨S2016x384, .f32⟩
  | 30 => ⟨S_, .i32⟩
  | 31 => ⟨S1, .i32⟩
  | 32 => ⟨S_, .i32⟩
  | 33 => ⟨S1, .i32⟩
  | 34 => ⟨S2, .i32⟩
  | 35 => ⟨S2016x384, .f32⟩
  | 36 => ⟨S_, .i32⟩
  | 37 => ⟨S1, .i32⟩
  | 38 => ⟨S_, .i32⟩
  | 39 => ⟨S1, .i32⟩
  | 40 => ⟨S2, .i32⟩
  | 41 => ⟨S2016x384, .f32⟩
  | 42 => ⟨S_, .i32⟩
  | 43 => ⟨S1, .i32⟩
  | 44 => ⟨S_, .i32⟩
  | 45 => ⟨S1, .i32⟩
  | 46 => ⟨S2, .i32⟩
  | 47 => ⟨S2016x384, .f32⟩
  | 48 => ⟨S_, .i32⟩
  | 49 => ⟨S1, .i32⟩
  | 50 => ⟨S_, .i32⟩
  | 51 => ⟨S1, .i32⟩
  | 52 => ⟨S2, .i32⟩
  | 53 => ⟨S2016x384, .f32⟩
  | 54 => ⟨S_, .i32⟩
  | 55 => ⟨S1, .i32⟩
  | 56 => ⟨S_, .i32⟩
  | 57 => ⟨S1, .i32⟩
  | 58 => ⟨S2, .i32⟩
  | 59 => ⟨S2016x384, .f32⟩
  | 60 => ⟨S_, .i32⟩
  | 61 => ⟨S1, .i32⟩
  | 62 => ⟨S_, .i32⟩
  | 63 => ⟨S1, .i32⟩
  | 64 => ⟨S2, .i32⟩
  | 65 => ⟨S2016x384, .f32⟩
  | 66 => ⟨S_, .i32⟩
  | 67 => ⟨S1, .i32⟩
  | 68 => ⟨S_, .i32⟩
  | 69 => ⟨S1, .i32⟩
  | 70 => ⟨S2, .i32⟩
  | 71 => ⟨S2016x384, .f32⟩
  | 72 => ⟨S_, .i32⟩
  | 73 => ⟨S1, .i32⟩
  | 74 => ⟨S_, .i32⟩
  | 75 => ⟨S1, .i32⟩
  | 76 => ⟨S2, .i32⟩
  | 77 => ⟨S2016x384, .f32⟩
  | 78 => ⟨S_, .i32⟩
  | 79 => ⟨S1, .i32⟩
  | 80 => ⟨S_, .i32⟩
  | 81 => ⟨S1, .i32⟩
  | 82 => ⟨S2, .i32⟩
  | 83 => ⟨S2016x384, .f32⟩
  | 84 => ⟨S_, .i32⟩
  | 85 => ⟨S1, .i32⟩
  | 86 => ⟨S_, .i32⟩
  | 87 => ⟨S1, .i32⟩
  | 88 => ⟨S2, .i32⟩
  | 89 => ⟨S2016x384, .f32⟩
  | 90 => ⟨S_, .i32⟩
  | 91 => ⟨S1, .i32⟩
  | 92 => ⟨S_, .i32⟩
  | 93 => ⟨S1, .i32⟩
  | 94 => ⟨S2, .i32⟩
  | 95 => ⟨S2016x384, .f32⟩
  | 96 => ⟨S_, .i32⟩
  | 97 => ⟨S1, .i32⟩
  | 98 => ⟨S_, .i32⟩
  | 99 => ⟨S1, .i32⟩
  | 100 => ⟨S2, .i32⟩
  | 101 => ⟨S2016x384, .f32⟩
  | 102 => ⟨S_, .i32⟩
  | 103 => ⟨S1, .i32⟩
  | 104 => ⟨S_, .i32⟩
  | 105 => ⟨S1, .i32⟩
  | 106 => ⟨S2, .i32⟩
  | 107 => ⟨S2016x384, .f32⟩
  | 108 => ⟨S_, .i32⟩
  | 109 => ⟨S1, .i32⟩
  | 110 => ⟨S_, .i32⟩
  | 111 => ⟨S1, .i32⟩
  | 112 => ⟨S2, .i32⟩
  | 113 => ⟨S2016x384, .f32⟩
  | 114 => ⟨S_, .i32⟩
  | 115 => ⟨S1, .i32⟩
  | 116 => ⟨S_, .i32⟩
  | 117 => ⟨S1, .i32⟩
  | 118 => ⟨S2, .i32⟩
  | 119 => ⟨S2016x384, .f32⟩
  | 120 => ⟨S_, .i32⟩
  | 121 => ⟨S1, .i32⟩
  | 122 => ⟨S_, .i32⟩
  | 123 => ⟨S1, .i32⟩
  | 124 => ⟨S2, .i32⟩
  | 125 => ⟨S2016x384, .f32⟩
  | 126 => ⟨S_, .i32⟩
  | 127 => ⟨S1, .i32⟩
  | _ => ⟨S16384x1x128x3, .f32⟩

abbrev hbmTy0_1 (i : Nat) : BufTy := match i % 128 with
  | 0 => ⟨S_, .i32⟩
  | 1 => ⟨S1, .i32⟩
  | 2 => ⟨S2, .i32⟩
  | 3 => ⟨S2016x384, .f32⟩
  | 4 => ⟨S_, .i32⟩
  | 5 => ⟨S1, .i32⟩
  | 6 => ⟨S_, .i32⟩
  | 7 => ⟨S1, .i32⟩
  | 8 => ⟨S2, .i32⟩
  | 9 => ⟨S2016x384, .f32⟩
  | 10 => ⟨S_, .i32⟩
  | 11 => ⟨S1, .i32⟩
  | 12 => ⟨S_, .i32⟩
  | 13 => ⟨S1, .i32⟩
  | 14 => ⟨S2, .i32⟩
  | 15 => ⟨S2016x384, .f32⟩
  | 16 => ⟨S_, .i32⟩
  | 17 => ⟨S1, .i32⟩
  | 18 => ⟨S_, .i32⟩
  | 19 => ⟨S1, .i32⟩
  | 20 => ⟨S2, .i32⟩
  | 21 => ⟨S2016x384, .f32⟩
  | 22 => ⟨S_, .i32⟩
  | 23 => ⟨S1, .i32⟩
  | 24 => ⟨S_, .i32⟩
  | 25 => ⟨S1, .i32⟩
  | 26 => ⟨S2, .i32⟩
  | 27 => ⟨S2016x384, .f32⟩
  | 28 => ⟨S_, .i32⟩
  | 29 => ⟨S1, .i32⟩
  | 30 => ⟨S_, .i32⟩
  | 31 => ⟨S1, .i32⟩
  | 32 => ⟨S2, .i32⟩
  | 33 => ⟨S2016x384, .f32⟩
  | 34 => ⟨S_, .i32⟩
  | 35 => ⟨S1, .i32⟩
  | 36 => ⟨S_, .i32⟩
  | 37 => ⟨S1, .i32⟩
  | 38 => ⟨S2, .i32⟩
  | 39 => ⟨S2016x384, .f32⟩
  | 40 => ⟨S_, .i32⟩
  | 41 => ⟨S1, .i32⟩
  | 42 => ⟨S_, .i32⟩
  | 43 => ⟨S1, .i32⟩
  | 44 => ⟨S2, .i32⟩
  | 45 => ⟨S2016x384, .f32⟩
  | 46 => ⟨S_, .i32⟩
  | 47 => ⟨S1, .i32⟩
  | 48 => ⟨S_, .i32⟩
  | 49 => ⟨S1, .i32⟩
  | 50 => ⟨S2, .i32⟩
  | 51 => ⟨S2016x384, .f32⟩
  | 52 => ⟨S_, .i32⟩
  | 53 => ⟨S1, .i32⟩
  | 54 => ⟨S_, .i32⟩
  | 55 => ⟨S1, .i32⟩
  | 56 => ⟨S2, .i32⟩
  | 57 => ⟨S2016x384, .f32⟩
  | 58 => ⟨S_, .i32⟩
  | 59 => ⟨S1, .i32⟩
  | 60 => ⟨S_, .i32⟩
  | 61 => ⟨S1, .i32⟩
  | 62 => ⟨S2, .i32⟩
  | 63 => ⟨S2016x384, .f32⟩
  | 64 => ⟨S_, .i32⟩
  | 65 => ⟨S1, .i32⟩
  | 66 => ⟨S_, .i32⟩
  | 67 => ⟨S1, .i32⟩
  | 68 => ⟨S2, .i32⟩
  | 69 => ⟨S2016x384, .f32⟩
  | 70 => ⟨S_, .i32⟩
  | 71 => ⟨S1, .i32⟩
  | 72 => ⟨S_, .i32⟩
  | 73 => ⟨S1, .i32⟩
  | 74 => ⟨S2, .i32⟩
  | 75 => ⟨S2016x384, .f32⟩
  | 76 => ⟨S_, .i32⟩
  | 77 => ⟨S1, .i32⟩
  | 78 => ⟨S_, .i32⟩
  | 79 => ⟨S1, .i32⟩
  | 80 => ⟨S2, .i32⟩
  | 81 => ⟨S2016x384, .f32⟩
  | 82 => ⟨S_, .i32⟩
  | 83 => ⟨S1, .i32⟩
  | 84 => ⟨S_, .i32⟩
  | 85 => ⟨S1, .i32⟩
  | 86 => ⟨S2, .i32⟩
  | 87 => ⟨S2016x384, .f32⟩
  | 88 => ⟨S_, .i32⟩
  | 89 => ⟨S1, .i32⟩
  | 90 => ⟨S_, .i32⟩
  | 91 => ⟨S1, .i32⟩
  | 92 => ⟨S2, .i32⟩
  | 93 => ⟨S2016x384, .f32⟩
  | 94 => ⟨S_, .i32⟩
  | 95 => ⟨S1, .i32⟩
  | 96 => ⟨S_, .i32⟩
  | 97 => ⟨S1, .i32⟩
  | 98 => ⟨S2, .i32⟩
  | 99 => ⟨S2016x384, .f32⟩
  | 100 => ⟨S_, .i32⟩
  | 101 => ⟨S1, .i32⟩
  | 102 => ⟨S_, .i32⟩
  | 103 => ⟨S1, .i32⟩
  | 104 => ⟨S2, .i32⟩
  | 105 => ⟨S2016x384, .f32⟩
  | 106 => ⟨S_, .i32⟩
  | 107 => ⟨S1, .i32⟩
  | 108 => ⟨S_, .i32⟩
  | 109 => ⟨S1, .i32⟩
  | 110 => ⟨S2, .i32⟩
  | 111 => ⟨S2016x384, .f32⟩
  | 112 => ⟨S_, .i32⟩
  | 113 => ⟨S1, .i32⟩
  | 114 => ⟨S_, .i32⟩
  | 115 => ⟨S1, .i32⟩
  | 116 => ⟨S2, .i32⟩
  | 117 => ⟨S2016x384, .f32⟩
  | 118 => ⟨S_, .i32⟩
  | 119 => ⟨S1, .i32⟩
  | 120 => ⟨S_, .i32⟩
  | 121 => ⟨S1, .i32⟩
  | 122 => ⟨S2, .i32⟩
  | 123 => ⟨S2016x384, .f32⟩
  | 124 => ⟨S_, .i32⟩
  | 125 => ⟨S1, .i32⟩
  | 126 => ⟨S_, .i32⟩
  | 127 => ⟨S1, .i32⟩
  | _ => ⟨S16384x1x128x3, .f32⟩

abbrev hbmTy0_2 (i : Nat) : BufTy := match i % 128 with
  | 0 => ⟨S2, .i32⟩
  | 1 => ⟨S2016x384, .f32⟩
  | 2 => ⟨S_, .i32⟩
  | 3 => ⟨S1, .i32⟩
  | 4 => ⟨S_, .i32⟩
  | 5 => ⟨S1, .i32⟩
  | 6 => ⟨S2, .i32⟩
  | 7 => ⟨S2016x384, .f32⟩
  | 8 => ⟨S_, .i32⟩
  | 9 => ⟨S1, .i32⟩
  | 10 => ⟨S_, .i32⟩
  | 11 => ⟨S1, .i32⟩
  | 12 => ⟨S2, .i32⟩
  | 13 => ⟨S2016x384, .f32⟩
  | 14 => ⟨S_, .i32⟩
  | 15 => ⟨S1, .i32⟩
  | 16 => ⟨S_, .i32⟩
  | 17 => ⟨S1, .i32⟩
  | 18 => ⟨S2, .i32⟩
  | 19 => ⟨S2016x384, .f32⟩
  | 20 => ⟨S_, .i32⟩
  | 21 => ⟨S1, .i32⟩
  | 22 => ⟨S_, .i32⟩
  | 23 => ⟨S1, .i32⟩
  | 24 => ⟨S2, .i32⟩
  | 25 => ⟨S2016x384, .f32⟩
  | 26 => ⟨S_, .i32⟩
  | 27 => ⟨S1, .i32⟩
  | 28 => ⟨S_, .i32⟩
  | 29 => ⟨S1, .i32⟩
  | 30 => ⟨S2, .i32⟩
  | 31 => ⟨S2016x384, .f32⟩
  | 32 => ⟨S_, .i32⟩
  | 33 => ⟨S1, .i32⟩
  | 34 => ⟨S_, .i32⟩
  | 35 => ⟨S1, .i32⟩
  | 36 => ⟨S2, .i32⟩
  | 37 => ⟨S2016x384, .f32⟩
  | 38 => ⟨S_, .i32⟩
  | 39 => ⟨S1, .i32⟩
  | 40 => ⟨S_, .i32⟩
  | 41 => ⟨S1, .i32⟩
  | 42 => ⟨S2, .i32⟩
  | 43 => ⟨S2016x384, .f32⟩
  | 44 => ⟨S_, .i32⟩
  | 45 => ⟨S1, .i32⟩
  | 46 => ⟨S_, .i32⟩
  | 47 => ⟨S1, .i32⟩
  | 48 => ⟨S2, .i32⟩
  | 49 => ⟨S2016x384, .f32⟩
  | 50 => ⟨S_, .i32⟩
  | 51 => ⟨S1, .i32⟩
  | 52 => ⟨S_, .i32⟩
  | 53 => ⟨S1, .i32⟩
  | 54 => ⟨S2, .i32⟩
  | 55 => ⟨S2016x384, .f32⟩
  | 56 => ⟨S_, .i32⟩
  | 57 => ⟨S1, .i32⟩
  | 58 => ⟨S_, .i32⟩
  | 59 => ⟨S1, .i32⟩
  | 60 => ⟨S2, .i32⟩
  | 61 => ⟨S2016x384, .f32⟩
  | 62 => ⟨S_, .i32⟩
  | 63 => ⟨S1, .i32⟩
  | 64 => ⟨S_, .i32⟩
  | 65 => ⟨S1, .i32⟩
  | 66 => ⟨S2, .i32⟩
  | 67 => ⟨S2016x384, .f32⟩
  | 68 => ⟨S_, .i32⟩
  | 69 => ⟨S1, .i32⟩
  | 70 => ⟨S_, .i32⟩
  | 71 => ⟨S1, .i32⟩
  | 72 => ⟨S2, .i32⟩
  | 73 => ⟨S2016x384, .f32⟩
  | 74 => ⟨S_, .i32⟩
  | 75 => ⟨S1, .i32⟩
  | 76 => ⟨S_, .i32⟩
  | 77 => ⟨S1, .i32⟩
  | 78 => ⟨S2, .i32⟩
  | 79 => ⟨S2016x384, .f32⟩
  | 80 => ⟨S_, .i32⟩
  | 81 => ⟨S1, .i32⟩
  | 82 => ⟨S_, .i32⟩
  | 83 => ⟨S1, .i32⟩
  | 84 => ⟨S2, .i32⟩
  | 85 => ⟨S2016x384, .f32⟩
  | 86 => ⟨S_, .i32⟩
  | 87 => ⟨S1, .i32⟩
  | 88 => ⟨S_, .i32⟩
  | 89 => ⟨S1, .i32⟩
  | 90 => ⟨S2, .i32⟩
  | 91 => ⟨S2016x384, .f32⟩
  | 92 => ⟨S_, .i32⟩
  | 93 => ⟨S1, .i32⟩
  | 94 => ⟨S_, .i32⟩
  | 95 => ⟨S1, .i32⟩
  | 96 => ⟨S2, .i32⟩
  | 97 => ⟨S2016x384, .f32⟩
  | 98 => ⟨S_, .i32⟩
  | 99 => ⟨S1, .i32⟩
  | 100 => ⟨S_, .i32⟩
  | 101 => ⟨S1, .i32⟩
  | 102 => ⟨S2, .i32⟩
  | 103 => ⟨S2016x384, .f32⟩
  | 104 => ⟨S_, .i32⟩
  | 105 => ⟨S1, .i32⟩
  | 106 => ⟨S_, .i32⟩
  | 107 => ⟨S1, .i32⟩
  | 108 => ⟨S2, .i32⟩
  | 109 => ⟨S2016x384, .f32⟩
  | 110 => ⟨S_, .i32⟩
  | 111 => ⟨S1, .i32⟩
  | 112 => ⟨S_, .i32⟩
  | 113 => ⟨S1, .i32⟩
  | 114 => ⟨S2, .i32⟩
  | 115 => ⟨S2016x384, .f32⟩
  | 116 => ⟨S_, .i32⟩
  | 117 => ⟨S1, .i32⟩
  | 118 => ⟨S_, .i32⟩
  | 119 => ⟨S1, .i32⟩
  | 120 => ⟨S2, .i32⟩
  | 121 => ⟨S2016x384, .f32⟩
  | 122 => ⟨S_, .i32⟩
  | 123 => ⟨S1, .i32⟩
  | 124 => ⟨S_, .i32⟩
  | 125 => ⟨S1, .i32⟩
  | 126 => ⟨S2, .i32⟩
  | 127 => ⟨S2016x384, .f32⟩
  | _ => ⟨S16384x1x128x3, .f32⟩

abbrev hbmTy0_3 (i : Nat) : BufTy := match i % 128 with
  | 0 => ⟨S_, .i32⟩
  | 1 => ⟨S1, .i32⟩
  | 2 => ⟨S_, .i32⟩
  | 3 => ⟨S1, .i32⟩
  | 4 => ⟨S2, .i32⟩
  | 5 => ⟨S2016x384, .f32⟩
  | 6 => ⟨S_, .i32⟩
  | 7 => ⟨S1, .i32⟩
  | 8 => ⟨S_, .i32⟩
  | 9 => ⟨S1, .i32⟩
  | 10 => ⟨S2, .i32⟩
  | 11 => ⟨S2016x384, .f32⟩
  | 12 => ⟨S_, .i32⟩
  | 13 => ⟨S1, .i32⟩
  | 14 => ⟨S_, .i32⟩
  | 15 => ⟨S1, .i32⟩
  | 16 => ⟨S2, .i32⟩
  | 17 => ⟨S2016x384, .f32⟩
  | 18 => ⟨S_, .i32⟩
  | 19 => ⟨S1, .i32⟩
  | 20 => ⟨S_, .i32⟩
  | 21 => ⟨S1, .i32⟩
  | 22 => ⟨S2, .i32⟩
  | 23 => ⟨S2016x384, .f32⟩
  | 24 => ⟨S_, .i32⟩
  | 25 => ⟨S1, .i32⟩
  | 26 => ⟨S_, .i32⟩
  | 27 => ⟨S1, .i32⟩
  | 28 => ⟨S2, .i32⟩
  | 29 => ⟨S2016x384, .f32⟩
  | 30 => ⟨S_, .i32⟩
  | 31 => ⟨S1, .i32⟩
  | 32 => ⟨S_, .i32⟩
  | 33 => ⟨S1, .i32⟩
  | 34 => ⟨S2, .i32⟩
  | 35 => ⟨S2016x384, .f32⟩
  | 36 => ⟨S_, .i32⟩
  | 37 => ⟨S1, .i32⟩
  | 38 => ⟨S_, .i32⟩
  | 39 => ⟨S1, .i32⟩
  | 40 => ⟨S2, .i32⟩
  | 41 => ⟨S2016x384, .f32⟩
  | 42 => ⟨S_, .i32⟩
  | 43 => ⟨S1, .i32⟩
  | 44 => ⟨S_, .i32⟩
  | 45 => ⟨S1, .i32⟩
  | 46 => ⟨S2, .i32⟩
  | 47 => ⟨S2016x384, .f32⟩
  | 48 => ⟨S_, .i32⟩
  | 49 => ⟨S1, .i32⟩
  | 50 => ⟨S_, .i32⟩
  | 51 => ⟨S1, .i32⟩
  | 52 => ⟨S2, .i32⟩
  | 53 => ⟨S2016x384, .f32⟩
  | 54 => ⟨S_, .i32⟩
  | 55 => ⟨S1, .i32⟩
  | 56 => ⟨S_, .i32⟩
  | 57 => ⟨S1, .i32⟩
  | 58 => ⟨S2, .i32⟩
  | 59 => ⟨S2016x384, .f32⟩
  | 60 => ⟨S_, .i32⟩
  | 61 => ⟨S1, .i32⟩
  | 62 => ⟨S_, .i32⟩
  | 63 => ⟨S1, .i32⟩
  | 64 => ⟨S2, .i32⟩
  | 65 => ⟨S2016x384, .f32⟩
  | 66 => ⟨S_, .i32⟩
  | 67 => ⟨S1, .i32⟩
  | 68 => ⟨S_, .i32⟩
  | 69 => ⟨S1, .i32⟩
  | 70 => ⟨S2, .i32⟩
  | 71 => ⟨S2016x384, .f32⟩
  | 72 => ⟨S_, .i32⟩
  | 73 => ⟨S1, .i32⟩
  | 74 => ⟨S_, .i32⟩
  | 75 => ⟨S1, .i32⟩
  | 76 => ⟨S2, .i32⟩
  | 77 => ⟨S2016x384, .f32⟩
  | 78 => ⟨S_, .i32⟩
  | 79 => ⟨S1, .i32⟩
  | 80 => ⟨S_, .i32⟩
  | 81 => ⟨S1, .i32⟩
  | 82 => ⟨S2, .i32⟩
  | 83 => ⟨S2016x384, .f32⟩
  | 84 => ⟨S_, .i32⟩
  | 85 => ⟨S1, .i32⟩
  | 86 => ⟨S_, .i32⟩
  | 87 => ⟨S1, .i32⟩
  | 88 => ⟨S2, .i32⟩
  | 89 => ⟨S2016x384, .f32⟩
  | 90 => ⟨S_, .i32⟩
  | 91 => ⟨S1, .i32⟩
  | 92 => ⟨S_, .i32⟩
  | 93 => ⟨S1, .i32⟩
  | 94 => ⟨S2, .i32⟩
  | 95 => ⟨S2016x384, .f32⟩
  | 96 => ⟨S_, .i32⟩
  | 97 => ⟨S1, .i32⟩
  | 98 => ⟨S_, .i32⟩
  | 99 => ⟨S1, .i32⟩
  | 100 => ⟨S2, .i32⟩
  | 101 => ⟨S2016x384, .f32⟩
  | 102 => ⟨S_, .i32⟩
  | 103 => ⟨S1, .i32⟩
  | 104 => ⟨S_, .i32⟩
  | 105 => ⟨S1, .i32⟩
  | 106 => ⟨S2, .i32⟩
  | 107 => ⟨S2016x384, .f32⟩
  | 108 => ⟨S_, .i32⟩
  | 109 => ⟨S1, .i32⟩
  | 110 => ⟨S_, .i32⟩
  | 111 => ⟨S1, .i32⟩
  | 112 => ⟨S2, .i32⟩
  | 113 => ⟨S2016x384, .f32⟩
  | 114 => ⟨S_, .i32⟩
  | 115 => ⟨S1, .i32⟩
  | 116 => ⟨S_, .i32⟩
  | 117 => ⟨S1, .i32⟩
  | 118 => ⟨S2, .i32⟩
  | 119 => ⟨S2016x384, .f32⟩
  | 120 => ⟨S_, .i32⟩
  | 121 => ⟨S1, .i32⟩
  | 122 => ⟨S_, .i32⟩
  | 123 => ⟨S1, .i32⟩
  | 124 => ⟨S2, .i32⟩
  | 125 => ⟨S2016x384, .f32⟩
  | 126 => ⟨S_, .i32⟩
  | 127 => ⟨S1, .i32⟩
  | _ => ⟨S16384x1x128x3, .f32⟩

abbrev hbmTy0_4 (i : Nat) : BufTy := match i % 128 with
  | 0 => ⟨S_, .i32⟩
  | 1 => ⟨S1, .i32⟩
  | 2 => ⟨S2, .i32⟩
  | 3 => ⟨S2016x384, .f32⟩
  | 4 => ⟨S_, .i32⟩
  | 5 => ⟨S1, .i32⟩
  | 6 => ⟨S_, .i32⟩
  | 7 => ⟨S1, .i32⟩
  | 8 => ⟨S2, .i32⟩
  | 9 => ⟨S2016x384, .f32⟩
  | 10 => ⟨S_, .i32⟩
  | 11 => ⟨S1, .i32⟩
  | 12 => ⟨S_, .i32⟩
  | 13 => ⟨S1, .i32⟩
  | 14 => ⟨S2, .i32⟩
  | 15 => ⟨S2016x384, .f32⟩
  | 16 => ⟨S_, .i32⟩
  | 17 => ⟨S1, .i32⟩
  | 18 => ⟨S_, .i32⟩
  | 19 => ⟨S1, .i32⟩
  | 20 => ⟨S2, .i32⟩
  | 21 => ⟨S2016x384, .f32⟩
  | 22 => ⟨S_, .i32⟩
  | 23 => ⟨S1, .i32⟩
  | 24 => ⟨S_, .i32⟩
  | 25 => ⟨S1, .i32⟩
  | 26 => ⟨S2, .i32⟩
  | 27 => ⟨S2016x384, .f32⟩
  | 28 => ⟨S_, .i32⟩
  | 29 => ⟨S1, .i32⟩
  | 30 => ⟨S_, .i32⟩
  | 31 => ⟨S1, .i32⟩
  | 32 => ⟨S2, .i32⟩
  | 33 => ⟨S2016x384, .f32⟩
  | 34 => ⟨S_, .i32⟩
  | 35 => ⟨S1, .i32⟩
  | 36 => ⟨S_, .i32⟩
  | 37 => ⟨S1, .i32⟩
  | 38 => ⟨S2, .i32⟩
  | 39 => ⟨S2016x384, .f32⟩
  | 40 => ⟨S_, .i32⟩
  | 41 => ⟨S1, .i32⟩
  | 42 => ⟨S_, .i32⟩
  | 43 => ⟨S1, .i32⟩
  | 44 => ⟨S2, .i32⟩
  | 45 => ⟨S2016x384, .f32⟩
  | 46 => ⟨S_, .i32⟩
  | 47 => ⟨S1, .i32⟩
  | 48 => ⟨S_, .i32⟩
  | 49 => ⟨S1, .i32⟩
  | 50 => ⟨S2, .i32⟩
  | 51 => ⟨S2016x384, .f32⟩
  | 52 => ⟨S_, .i32⟩
  | 53 => ⟨S1, .i32⟩
  | 54 => ⟨S_, .i32⟩
  | 55 => ⟨S1, .i32⟩
  | 56 => ⟨S2, .i32⟩
  | 57 => ⟨S2016x384, .f32⟩
  | 58 => ⟨S_, .i32⟩
  | 59 => ⟨S1, .i32⟩
  | 60 => ⟨S_, .i32⟩
  | 61 => ⟨S1, .i32⟩
  | 62 => ⟨S2, .i32⟩
  | 63 => ⟨S2016x384, .f32⟩
  | 64 => ⟨S_, .i32⟩
  | 65 => ⟨S1, .i32⟩
  | 66 => ⟨S_, .i32⟩
  | 67 => ⟨S1, .i32⟩
  | 68 => ⟨S2, .i32⟩
  | 69 => ⟨S2016x384, .f32⟩
  | 70 => ⟨S_, .i32⟩
  | 71 => ⟨S1, .i32⟩
  | 72 => ⟨S_, .i32⟩
  | 73 => ⟨S1, .i32⟩
  | 74 => ⟨S2, .i32⟩
  | 75 => ⟨S2016x384, .f32⟩
  | 76 => ⟨S_, .i32⟩
  | 77 => ⟨S1, .i32⟩
  | 78 => ⟨S_, .i32⟩
  | 79 => ⟨S1, .i32⟩
  | 80 => ⟨S2, .i32⟩
  | 81 => ⟨S2016x384, .f32⟩
  | 82 => ⟨S_, .i32⟩
  | 83 => ⟨S1, .i32⟩
  | 84 => ⟨S_, .i32⟩
  | 85 => ⟨S1, .i32⟩
  | 86 => ⟨S2, .i32⟩
  | 87 => ⟨S2016x384, .f32⟩
  | 88 => ⟨S_, .i32⟩
  | 89 => ⟨S1, .i32⟩
  | 90 => ⟨S_, .i32⟩
  | 91 => ⟨S1, .i32⟩
  | 92 => ⟨S2, .i32⟩
  | 93 => ⟨S2016x384, .f32⟩
  | 94 => ⟨S_, .i32⟩
  | 95 => ⟨S1, .i32⟩
  | 96 => ⟨S_, .i32⟩
  | 97 => ⟨S1, .i32⟩
  | 98 => ⟨S2, .i32⟩
  | 99 => ⟨S2016x384, .f32⟩
  | 100 => ⟨S_, .i32⟩
  | 101 => ⟨S1, .i32⟩
  | 102 => ⟨S_, .i32⟩
  | 103 => ⟨S1, .i32⟩
  | 104 => ⟨S2, .i32⟩
  | 105 => ⟨S2016x384, .f32⟩
  | 106 => ⟨S_, .i32⟩
  | 107 => ⟨S1, .i32⟩
  | 108 => ⟨S_, .i32⟩
  | 109 => ⟨S1, .i32⟩
  | 110 => ⟨S2, .i32⟩
  | 111 => ⟨S2016x384, .f32⟩
  | 112 => ⟨S_, .i32⟩
  | 113 => ⟨S1, .i32⟩
  | 114 => ⟨S_, .i32⟩
  | 115 => ⟨S1, .i32⟩
  | 116 => ⟨S2, .i32⟩
  | 117 => ⟨S2016x384, .f32⟩
  | 118 => ⟨S_, .i32⟩
  | 119 => ⟨S1, .i32⟩
  | 120 => ⟨S_, .i32⟩
  | 121 => ⟨S1, .i32⟩
  | 122 => ⟨S2, .i32⟩
  | 123 => ⟨S2016x384, .f32⟩
  | 124 => ⟨S_, .i32⟩
  | 125 => ⟨S1, .i32⟩
  | 126 => ⟨S_, .i32⟩
  | 127 => ⟨S1, .i32⟩
  | _ => ⟨S16384x1x128x3, .f32⟩

abbrev hbmTy0_5 (i : Nat) : BufTy := match i % 128 with
  | 0 => ⟨S2, .i32⟩
  | 1 => ⟨S2016x384, .f32⟩
  | 2 => ⟨S_, .i32⟩
  | 3 => ⟨S1, .i32⟩
  | 4 => ⟨S_, .i32⟩
  | 5 => ⟨S1, .i32⟩
  | 6 => ⟨S2, .i32⟩
  | 7 => ⟨S2016x384, .f32⟩
  | 8 => ⟨S_, .i32⟩
  | 9 => ⟨S1, .i32⟩
  | 10 => ⟨S_, .i32⟩
  | 11 => ⟨S1, .i32⟩
  | 12 => ⟨S2, .i32⟩
  | 13 => ⟨S2016x384, .f32⟩
  | 14 => ⟨S_, .i32⟩
  | 15 => ⟨S1, .i32⟩
  | 16 => ⟨S_, .i32⟩
  | 17 => ⟨S1, .i32⟩
  | 18 => ⟨S2, .i32⟩
  | 19 => ⟨S2016x384, .f32⟩
  | 20 => ⟨S_, .i32⟩
  | 21 => ⟨S1, .i32⟩
  | 22 => ⟨S_, .i32⟩
  | 23 => ⟨S1, .i32⟩
  | 24 => ⟨S2, .i32⟩
  | 25 => ⟨S2016x384, .f32⟩
  | 26 => ⟨S_, .i32⟩
  | 27 => ⟨S1, .i32⟩
  | 28 => ⟨S_, .i32⟩
  | 29 => ⟨S1, .i32⟩
  | 30 => ⟨S2, .i32⟩
  | 31 => ⟨S2016x384, .f32⟩
  | 32 => ⟨S_, .i32⟩
  | 33 => ⟨S1, .i32⟩
  | 34 => ⟨S_, .i32⟩
  | 35 => ⟨S1, .i32⟩
  | 36 => ⟨S2, .i32⟩
  | 37 => ⟨S2016x384, .f32⟩
  | 38 => ⟨S_, .i32⟩
  | 39 => ⟨S1, .i32⟩
  | 40 => ⟨S_, .i32⟩
  | 41 => ⟨S1, .i32⟩
  | 42 => ⟨S2, .i32⟩
  | 43 => ⟨S2016x384, .f32⟩
  | 44 => ⟨S_, .i32⟩
  | 45 => ⟨S1, .i32⟩
  | 46 => ⟨S_, .i32⟩
  | 47 => ⟨S1, .i32⟩
  | 48 => ⟨S2, .i32⟩
  | 49 => ⟨S2016x384, .f32⟩
  | 50 => ⟨S_, .i32⟩
  | 51 => ⟨S1, .i32⟩
  | 52 => ⟨S_, .i32⟩
  | 53 => ⟨S1, .i32⟩
  | 54 => ⟨S2, .i32⟩
  | 55 => ⟨S2016x384, .f32⟩
  | 56 => ⟨S_, .i32⟩
  | 57 => ⟨S1, .i32⟩
  | 58 => ⟨S_, .i32⟩
  | 59 => ⟨S1, .i32⟩
  | 60 => ⟨S2, .i32⟩
  | 61 => ⟨S2016x384, .f32⟩
  | 62 => ⟨S_, .i32⟩
  | 63 => ⟨S1, .i32⟩
  | 64 => ⟨S_, .i32⟩
  | 65 => ⟨S1, .i32⟩
  | 66 => ⟨S2, .i32⟩
  | 67 => ⟨S2016x384, .f32⟩
  | 68 => ⟨S_, .i32⟩
  | 69 => ⟨S1, .i32⟩
  | 70 => ⟨S_, .i32⟩
  | 71 => ⟨S1, .i32⟩
  | 72 => ⟨S2, .i32⟩
  | 73 => ⟨S2016x384, .f32⟩
  | 74 => ⟨S_, .i32⟩
  | 75 => ⟨S1, .i32⟩
  | 76 => ⟨S_, .i32⟩
  | 77 => ⟨S1, .i32⟩
  | 78 => ⟨S2, .i32⟩
  | 79 => ⟨S2016x384, .f32⟩
  | 80 => ⟨S_, .i32⟩
  | 81 => ⟨S1, .i32⟩
  | 82 => ⟨S_, .i32⟩
  | 83 => ⟨S1, .i32⟩
  | 84 => ⟨S2, .i32⟩
  | 85 => ⟨S2016x384, .f32⟩
  | 86 => ⟨S_, .i32⟩
  | 87 => ⟨S1, .i32⟩
  | 88 => ⟨S_, .i32⟩
  | 89 => ⟨S1, .i32⟩
  | 90 => ⟨S2, .i32⟩
  | 91 => ⟨S2016x384, .f32⟩
  | 92 => ⟨S_, .i32⟩
  | 93 => ⟨S1, .i32⟩
  | 94 => ⟨S_, .i32⟩
  | 95 => ⟨S1, .i32⟩
  | 96 => ⟨S2, .i32⟩
  | 97 => ⟨S2016x384, .f32⟩
  | 98 => ⟨S_, .i32⟩
  | 99 => ⟨S1, .i32⟩
  | 100 => ⟨S_, .i32⟩
  | 101 => ⟨S1, .i32⟩
  | 102 => ⟨S2, .i32⟩
  | 103 => ⟨S2016x384, .f32⟩
  | 104 => ⟨S_, .i32⟩
  | 105 => ⟨S1, .i32⟩
  | 106 => ⟨S_, .i32⟩
  | 107 => ⟨S1, .i32⟩
  | 108 => ⟨S2, .i32⟩
  | 109 => ⟨S2016x384, .f32⟩
  | 110 => ⟨S_, .i32⟩
  | 111 => ⟨S1, .i32⟩
  | 112 => ⟨S_, .i32⟩
  | 113 => ⟨S1, .i32⟩
  | 114 => ⟨S2, .i32⟩
  | 115 => ⟨S2016x384, .f32⟩
  | 116 => ⟨S_, .i32⟩
  | 117 => ⟨S1, .i32⟩
  | 118 => ⟨S_, .i32⟩
  | 119 => ⟨S1, .i32⟩
  | 120 => ⟨S2, .i32⟩
  | 121 => ⟨S2016x384, .f32⟩
  | 122 => ⟨S_, .i32⟩
  | 123 => ⟨S1, .i32⟩
  | 124 => ⟨S_, .i32⟩
  | 125 => ⟨S1, .i32⟩
  | 126 => ⟨S2, .i32⟩
  | 127 => ⟨S2016x384, .f32⟩
  | _ => ⟨S16384x1x128x3, .f32⟩

abbrev hbmTy0_6 (i : Nat) : BufTy := match i % 128 with
  | 0 => ⟨S32x16x3, .f32⟩
  | 1 => ⟨S32x3x16, .f32⟩
  | 2 => ⟨S32x48, .f32⟩
  | 3 => ⟨S_, .f32⟩
  | 4 => ⟨S1952x1008, .f32⟩
  | 5 => ⟨S_, .i32⟩
  | 6 => ⟨S1, .i32⟩
  | 7 => ⟨S_, .i32⟩
  | 8 => ⟨S1, .i32⟩
  | 9 => ⟨S2, .i32⟩
  | 10 => ⟨S1952x1008, .f32⟩
  | 11 => ⟨S_, .i32⟩
  | 12 => ⟨S1, .i32⟩
  | 13 => ⟨S_, .i32⟩
  | 14 => ⟨S1, .i32⟩
  | 15 => ⟨S2, .i32⟩
  | 16 => ⟨S1952x1008, .f32⟩
  | 17 => ⟨S_, .i32⟩
  | 18 => ⟨S1, .i32⟩
  | 19 => ⟨S_, .i32⟩
  | 20 => ⟨S1, .i32⟩
  | 21 => ⟨S2, .i32⟩
  | 22 => ⟨S1952x1008, .f32⟩
  | 23 => ⟨S_, .i32⟩
  | 24 => ⟨S1, .i32⟩
  | 25 => ⟨S_, .i32⟩
  | 26 => ⟨S1, .i32⟩
  | 27 => ⟨S2, .i32⟩
  | 28 => ⟨S1952x1008, .f32⟩
  | 29 => ⟨S_, .i32⟩
  | 30 => ⟨S1, .i32⟩
  | 31 => ⟨S_, .i32⟩
  | 32 => ⟨S1, .i32⟩
  | 33 => ⟨S2, .i32⟩
  | 34 => ⟨S1952x1008, .f32⟩
  | 35 => ⟨S_, .i32⟩
  | 36 => ⟨S1, .i32⟩
  | 37 => ⟨S_, .i32⟩
  | 38 => ⟨S1, .i32⟩
  | 39 => ⟨S2, .i32⟩
  | 40 => ⟨S1952x1008, .f32⟩
  | 41 => ⟨S_, .i32⟩
  | 42 => ⟨S1, .i32⟩
  | 43 => ⟨S_, .i32⟩
  | 44 => ⟨S1, .i32⟩
  | 45 => ⟨S2, .i32⟩
  | 46 => ⟨S1952x1008, .f32⟩
  | 47 => ⟨S_, .i32⟩
  | 48 => ⟨S1, .i32⟩
  | 49 => ⟨S_, .i32⟩
  | 50 => ⟨S1, .i32⟩
  | 51 => ⟨S2, .i32⟩
  | 52 => ⟨S1952x1008, .f32⟩
  | 53 => ⟨S_, .i32⟩
  | 54 => ⟨S1, .i32⟩
  | 55 => ⟨S_, .i32⟩
  | 56 => ⟨S1, .i32⟩
  | 57 => ⟨S2, .i32⟩
  | 58 => ⟨S1952x1008, .f32⟩
  | 59 => ⟨S_, .i32⟩
  | 60 => ⟨S1, .i32⟩
  | 61 => ⟨S_, .i32⟩
  | 62 => ⟨S1, .i32⟩
  | 63 => ⟨S2, .i32⟩
  | 64 => ⟨S1952x1008, .f32⟩
  | 65 => ⟨S_, .i32⟩
  | 66 => ⟨S1, .i32⟩
  | 67 => ⟨S_, .i32⟩
  | 68 => ⟨S1, .i32⟩
  | 69 => ⟨S2, .i32⟩
  | 70 => ⟨S1952x1008, .f32⟩
  | 71 => ⟨S_, .i32⟩
  | 72 => ⟨S1, .i32⟩
  | 73 => ⟨S_, .i32⟩
  | 74 => ⟨S1, .i32⟩
  | 75 => ⟨S2, .i32⟩
  | 76 => ⟨S1952x1008, .f32⟩
  | 77 => ⟨S_, .i32⟩
  | 78 => ⟨S1, .i32⟩
  | 79 => ⟨S_, .i32⟩
  | 80 => ⟨S1, .i32⟩
  | 81 => ⟨S2, .i32⟩
  | 82 => ⟨S1952x1008, .f32⟩
  | 83 => ⟨S_, .i32⟩
  | 84 => ⟨S1, .i32⟩
  | 85 => ⟨S_, .i32⟩
  | 86 => ⟨S1, .i32⟩
  | 87 => ⟨S2, .i32⟩
  | 88 => ⟨S1952x1008, .f32⟩
  | 89 => ⟨S_, .i32⟩
  | 90 => ⟨S1, .i32⟩
  | 91 => ⟨S_, .i32⟩
  | 92 => ⟨S1, .i32⟩
  | 93 => ⟨S2, .i32⟩
  | 94 => ⟨S1952x1008, .f32⟩
  | 95 => ⟨S_, .i32⟩
  | 96 => ⟨S1, .i32⟩
  | 97 => ⟨S_, .i32⟩
  | 98 => ⟨S1, .i32⟩
  | 99 => ⟨S2, .i32⟩
  | 100 => ⟨S1952x1008, .f32⟩
  | 101 => ⟨S_, .i32⟩
  | 102 => ⟨S1, .i32⟩
  | 103 => ⟨S_, .i32⟩
  | 104 => ⟨S1, .i32⟩
  | 105 => ⟨S2, .i32⟩
  | 106 => ⟨S1952x1008, .f32⟩
  | 107 => ⟨S_, .i32⟩
  | 108 => ⟨S1, .i32⟩
  | 109 => ⟨S_, .i32⟩
  | 110 => ⟨S1, .i32⟩
  | 111 => ⟨S2, .i32⟩
  | 112 => ⟨S1952x1008, .f32⟩
  | 113 => ⟨S_, .i32⟩
  | 114 => ⟨S1, .i32⟩
  | 115 => ⟨S_, .i32⟩
  | 116 => ⟨S1, .i32⟩
  | 117 => ⟨S2, .i32⟩
  | 118 => ⟨S1952x1008, .f32⟩
  | 119 => ⟨S_, .i32⟩
  | 120 => ⟨S1, .i32⟩
  | 121 => ⟨S_, .i32⟩
  | 122 => ⟨S1, .i32⟩
  | 123 => ⟨S2, .i32⟩
  | 124 => ⟨S1952x1008, .f32⟩
  | 125 => ⟨S_, .i32⟩
  | 126 => ⟨S1, .i32⟩
  | 127 => ⟨S_, .i32⟩
  | _ => ⟨S16384x1x128x3, .f32⟩

abbrev hbmTy0_7 (i : Nat) : BufTy := match i % 128 with
  | 0 => ⟨S1, .i32⟩
  | 1 => ⟨S2, .i32⟩
  | 2 => ⟨S1952x1008, .f32⟩
  | 3 => ⟨S_, .i32⟩
  | 4 => ⟨S1, .i32⟩
  | 5 => ⟨S_, .i32⟩
  | 6 => ⟨S1, .i32⟩
  | 7 => ⟨S2, .i32⟩
  | 8 => ⟨S1952x1008, .f32⟩
  | 9 => ⟨S_, .i32⟩
  | 10 => ⟨S1, .i32⟩
  | 11 => ⟨S_, .i32⟩
  | 12 => ⟨S1, .i32⟩
  | 13 => ⟨S2, .i32⟩
  | 14 => ⟨S1952x1008, .f32⟩
  | 15 => ⟨S_, .i32⟩
  | 16 => ⟨S1, .i32⟩
  | 17 => ⟨S_, .i32⟩
  | 18 => ⟨S1, .i32⟩
  | 19 => ⟨S2, .i32⟩
  | 20 => ⟨S1952x1008, .f32⟩
  | 21 => ⟨S_, .i32⟩
  | 22 => ⟨S1, .i32⟩
  | 23 => ⟨S_, .i32⟩
  | 24 => ⟨S1, .i32⟩
  | 25 => ⟨S2, .i32⟩
  | 26 => ⟨S1952x1008, .f32⟩
  | 27 => ⟨S_, .i32⟩
  | 28 => ⟨S1, .i32⟩
  | 29 => ⟨S_, .i32⟩
  | 30 => ⟨S1, .i32⟩
  | 31 => ⟨S2, .i32⟩
  | 32 => ⟨S1952x1008, .f32⟩
  | 33 => ⟨S_, .i32⟩
  | 34 => ⟨S1, .i32⟩
  | 35 => ⟨S_, .i32⟩
  | 36 => ⟨S1, .i32⟩
  | 37 => ⟨S2, .i32⟩
  | 38 => ⟨S1952x1008, .f32⟩
  | 39 => ⟨S_, .i32⟩
  | 40 => ⟨S1, .i32⟩
  | 41 => ⟨S_, .i32⟩
  | 42 => ⟨S1, .i32⟩
  | 43 => ⟨S2, .i32⟩
  | 44 => ⟨S1952x1008, .f32⟩
  | 45 => ⟨S_, .i32⟩
  | 46 => ⟨S1, .i32⟩
  | 47 => ⟨S_, .i32⟩
  | 48 => ⟨S1, .i32⟩
  | 49 => ⟨S2, .i32⟩
  | 50 => ⟨S1952x1008, .f32⟩
  | 51 => ⟨S_, .i32⟩
  | 52 => ⟨S1, .i32⟩
  | 53 => ⟨S_, .i32⟩
  | 54 => ⟨S1, .i32⟩
  | 55 => ⟨S2, .i32⟩
  | 56 => ⟨S1952x1008, .f32⟩
  | 57 => ⟨S_, .i32⟩
  | 58 => ⟨S1, .i32⟩
  | 59 => ⟨S_, .i32⟩
  | 60 => ⟨S1, .i32⟩
  | 61 => ⟨S2, .i32⟩
  | 62 => ⟨S1952x1008, .f32⟩
  | 63 => ⟨S_, .i32⟩
  | 64 => ⟨S1, .i32⟩
  | 65 => ⟨S_, .i32⟩
  | 66 => ⟨S1, .i32⟩
  | 67 => ⟨S2, .i32⟩
  | 68 => ⟨S1952x1008, .f32⟩
  | 69 => ⟨S_, .i32⟩
  | 70 => ⟨S1, .i32⟩
  | 71 => ⟨S_, .i32⟩
  | 72 => ⟨S1, .i32⟩
  | 73 => ⟨S2, .i32⟩
  | 74 => ⟨S1952x1008, .f32⟩
  | 75 => ⟨S_, .i32⟩
  | 76 => ⟨S1, .i32⟩
  | 77 => ⟨S_, .i32⟩
  | 78 => ⟨S1, .i32⟩
  | 79 => ⟨S2, .i32⟩
  | 80 => ⟨S1952x1008, .f32⟩
  | 81 => ⟨S_, .i32⟩
  | 82 => ⟨S1, .i32⟩
  | 83 => ⟨S_, .i32⟩
  | 84 => ⟨S1, .i32⟩
  | 85 => ⟨S2, .i32⟩
  | 86 => ⟨S1952x1008, .f32⟩
  | 87 => ⟨S_, .i32⟩
  | 88 => ⟨S1, .i32⟩
  | 89 => ⟨S_, .i32⟩
  | 90 => ⟨S1, .i32⟩
  | 91 => ⟨S2, .i32⟩
  | 92 => ⟨S1952x1008, .f32⟩
  | 93 => ⟨S_, .i32⟩
  | 94 => ⟨S1, .i32⟩
  | 95 => ⟨S_, .i32⟩
  | 96 => ⟨S1, .i32⟩
  | 97 => ⟨S2, .i32⟩
  | 98 => ⟨S1952x1008, .f32⟩
  | 99 => ⟨S_, .i32⟩
  | 100 => ⟨S1, .i32⟩
  | 101 => ⟨S_, .i32⟩
  | 102 => ⟨S1, .i32⟩
  | 103 => ⟨S2, .i32⟩
  | 104 => ⟨S1952x1008, .f32⟩
  | 105 => ⟨S_, .i32⟩
  | 106 => ⟨S1, .i32⟩
  | 107 => ⟨S_, .i32⟩
  | 108 => ⟨S1, .i32⟩
  | 109 => ⟨S2, .i32⟩
  | 110 => ⟨S1952x1008, .f32⟩
  | 111 => ⟨S_, .i32⟩
  | 112 => ⟨S1, .i32⟩
  | 113 => ⟨S_, .i32⟩
  | 114 => ⟨S1, .i32⟩
  | 115 => ⟨S2, .i32⟩
  | 116 => ⟨S1952x1008, .f32⟩
  | 117 => ⟨S_, .i32⟩
  | 118 => ⟨S1, .i32⟩
  | 119 => ⟨S_, .i32⟩
  | 120 => ⟨S1, .i32⟩
  | 121 => ⟨S2, .i32⟩
  | 122 => ⟨S1952x1008, .f32⟩
  | 123 => ⟨S_, .i32⟩
  | 124 => ⟨S1, .i32⟩
  | 125 => ⟨S_, .i32⟩
  | 126 => ⟨S1, .i32⟩
  | 127 => ⟨S2, .i32⟩
  | _ => ⟨S16384x1x128x3, .f32⟩

abbrev hbmTy0_8 (i : Nat) : BufTy := match i % 128 with
  | 0 => ⟨S1952x1008, .f32⟩
  | 1 => ⟨S_, .i32⟩
  | 2 => ⟨S1, .i32⟩
  | 3 => ⟨S_, .i32⟩
  | 4 => ⟨S1, .i32⟩
  | 5 => ⟨S2, .i32⟩
  | 6 => ⟨S1952x1008, .f32⟩
  | 7 => ⟨S_, .i32⟩
  | 8 => ⟨S1, .i32⟩
  | 9 => ⟨S_, .i32⟩
  | 10 => ⟨S1, .i32⟩
  | 11 => ⟨S2, .i32⟩
  | 12 => ⟨S1952x1008, .f32⟩
  | 13 => ⟨S_, .i32⟩
  | 14 => ⟨S1, .i32⟩
  | 15 => ⟨S_, .i32⟩
  | 16 => ⟨S1, .i32⟩
  | 17 => ⟨S2, .i32⟩
  | 18 => ⟨S1952x1008, .f32⟩
  | 19 => ⟨S_, .i32⟩
  | 20 => ⟨S1, .i32⟩
  | 21 => ⟨S_, .i32⟩
  | 22 => ⟨S1, .i32⟩
  | 23 => ⟨S2, .i32⟩
  | 24 => ⟨S1952x1008, .f32⟩
  | 25 => ⟨S_, .i32⟩
  | 26 => ⟨S1, .i32⟩
  | 27 => ⟨S_, .i32⟩
  | 28 => ⟨S1, .i32⟩
  | 29 => ⟨S2, .i32⟩
  | 30 => ⟨S1952x1008, .f32⟩
  | 31 => ⟨S_, .i32⟩
  | 32 => ⟨S1, .i32⟩
  | 33 => ⟨S_, .i32⟩
  | 34 => ⟨S1, .i32⟩
  | 35 => ⟨S2, .i32⟩
  | 36 => ⟨S1952x1008, .f32⟩
  | 37 => ⟨S_, .i32⟩
  | 38 => ⟨S1, .i32⟩
  | 39 => ⟨S_, .i32⟩
  | 40 => ⟨S1, .i32⟩
  | 41 => ⟨S2, .i32⟩
  | 42 => ⟨S1952x1008, .f32⟩
  | 43 => ⟨S_, .i32⟩
  | 44 => ⟨S1, .i32⟩
  | 45 => ⟨S_, .i32⟩
  | 46 => ⟨S1, .i32⟩
  | 47 => ⟨S2, .i32⟩
  | 48 => ⟨S1952x1008, .f32⟩
  | 49 => ⟨S_, .i32⟩
  | 50 => ⟨S1, .i32⟩
  | 51 => ⟨S_, .i32⟩
  | 52 => ⟨S1, .i32⟩
  | 53 => ⟨S2, .i32⟩
  | 54 => ⟨S1952x1008, .f32⟩
  | 55 => ⟨S_, .i32⟩
  | 56 => ⟨S1, .i32⟩
  | 57 => ⟨S_, .i32⟩
  | 58 => ⟨S1, .i32⟩
  | 59 => ⟨S2, .i32⟩
  | 60 => ⟨S1952x1008, .f32⟩
  | 61 => ⟨S_, .i32⟩
  | 62 => ⟨S1, .i32⟩
  | 63 => ⟨S_, .i32⟩
  | 64 => ⟨S1, .i32⟩
  | 65 => ⟨S2, .i32⟩
  | 66 => ⟨S1952x1008, .f32⟩
  | 67 => ⟨S_, .i32⟩
  | 68 => ⟨S1, .i32⟩
  | 69 => ⟨S_, .i32⟩
  | 70 => ⟨S1, .i32⟩
  | 71 => ⟨S2, .i32⟩
  | 72 => ⟨S1952x1008, .f32⟩
  | 73 => ⟨S_, .i32⟩
  | 74 => ⟨S1, .i32⟩
  | 75 => ⟨S_, .i32⟩
  | 76 => ⟨S1, .i32⟩
  | 77 => ⟨S2, .i32⟩
  | 78 => ⟨S1952x1008, .f32⟩
  | 79 => ⟨S_, .i32⟩
  | 80 => ⟨S1, .i32⟩
  | 81 => ⟨S_, .i32⟩
  | 82 => ⟨S1, .i32⟩
  | 83 => ⟨S2, .i32⟩
  | 84 => ⟨S1952x1008, .f32⟩
  | 85 => ⟨S_, .i32⟩
  | 86 => ⟨S1, .i32⟩
  | 87 => ⟨S_, .i32⟩
  | 88 => ⟨S1, .i32⟩
  | 89 => ⟨S2, .i32⟩
  | 90 => ⟨S1952x1008, .f32⟩
  | 91 => ⟨S_, .i32⟩
  | 92 => ⟨S1, .i32⟩
  | 93 => ⟨S_, .i32⟩
  | 94 => ⟨S1, .i32⟩
  | 95 => ⟨S2, .i32⟩
  | 96 => ⟨S1952x1008, .f32⟩
  | 97 => ⟨S_, .i32⟩
  | 98 => ⟨S1, .i32⟩
  | 99 => ⟨S_, .i32⟩
  | 100 => ⟨S1, .i32⟩
  | 101 => ⟨S2, .i32⟩
  | 102 => ⟨S1952x1008, .f32⟩
  | 103 => ⟨S_, .i32⟩
  | 104 => ⟨S1, .i32⟩
  | 105 => ⟨S_, .i32⟩
  | 106 => ⟨S1, .i32⟩
  | 107 => ⟨S2, .i32⟩
  | 108 => ⟨S1952x1008, .f32⟩
  | 109 => ⟨S_, .i32⟩
  | 110 => ⟨S1, .i32⟩
  | 111 => ⟨S_, .i32⟩
  | 112 => ⟨S1, .i32⟩
  | 113 => ⟨S2, .i32⟩
  | 114 => ⟨S1952x1008, .f32⟩
  | 115 => ⟨S128x32x61, .f32⟩
  | 116 => ⟨S128x61x32, .f32⟩
  | 117 => ⟨S128x1952, .f32⟩
  | 118 => ⟨S128x1, .f32⟩
  | 119 => ⟨S128x16384, .f32⟩
  | 120 => ⟨S16384x128, .f32⟩
  | _ => ⟨S16384x1x128x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S16384x1x128x3, .f32⟩

abbrev bufTy : (tb : Table) → Fin (tcTables nBuf tb) → BufTy
  | .hbm, ⟨i, _⟩ => hbmTy i
  | .local _ .vmem, ⟨0, _⟩ => ⟨S384x128, .f32⟩
  | .local _ .vmem, ⟨1, _⟩ => ⟨S384x128, .f32⟩
  | .local _ .vmem, ⟨2, _⟩ => ⟨S2016x384, .f32⟩
  | .local _ .vmem, ⟨3, _⟩ => ⟨S1952x1008, .f32⟩
  | .local _ .vmem, ⟨4, _⟩ => ⟨S128x1952, .f32⟩
  | .local _ .vmem, ⟨5, _⟩ => ⟨S128x1, .f32⟩
  | .local _ .vmem, ⟨6, _⟩ => ⟨S128x128, .f32⟩
  | .local _ .vmem, ⟨7, _⟩ => ⟨S128x128, .f32⟩
  | _, _ => ⟨S16384x1x128x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_5 : Ref sig .tc := ⟨.hbm, 30, rfl⟩
abbrev main_v18 : Ref sig .tc := ⟨.hbm, 31, rfl⟩
abbrev main_c_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_7 : Ref sig .tc := ⟨.hbm, 36, rfl⟩
abbrev main_v22 : Ref sig .tc := ⟨.hbm, 37, rfl⟩
abbrev main_c_8 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_9 : Ref sig .tc := ⟨.hbm, 42, rfl⟩
abbrev main_v26 : Ref sig .tc := ⟨.hbm, 43, rfl⟩
abbrev main_c_10 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_11 : Ref sig .tc := ⟨.hbm, 48, rfl⟩
abbrev main_v30 : Ref sig .tc := ⟨.hbm, 49, rfl⟩
abbrev main_c_12 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_13 : Ref sig .tc := ⟨.hbm, 54, rfl⟩
abbrev main_v34 : Ref sig .tc := ⟨.hbm, 55, rfl⟩
abbrev main_c_14 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_15 : Ref sig .tc := ⟨.hbm, 60, rfl⟩
abbrev main_v38 : Ref sig .tc := ⟨.hbm, 61, rfl⟩
abbrev main_c_16 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_17 : Ref sig .tc := ⟨.hbm, 66, rfl⟩
abbrev main_v42 : Ref sig .tc := ⟨.hbm, 67, rfl⟩
abbrev main_c_18 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_19 : Ref sig .tc := ⟨.hbm, 72, rfl⟩
abbrev main_v46 : Ref sig .tc := ⟨.hbm, 73, rfl⟩
abbrev main_c_20 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_21 : Ref sig .tc := ⟨.hbm, 78, rfl⟩
abbrev main_v50 : Ref sig .tc := ⟨.hbm, 79, rfl⟩
abbrev main_c_22 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_23 : Ref sig .tc := ⟨.hbm, 84, rfl⟩
abbrev main_v54 : Ref sig .tc := ⟨.hbm, 85, rfl⟩
abbrev main_c_24 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_25 : Ref sig .tc := ⟨.hbm, 90, rfl⟩
abbrev main_v58 : Ref sig .tc := ⟨.hbm, 91, rfl⟩
abbrev main_c_26 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_c_27 : Ref sig .tc := ⟨.hbm, 96, rfl⟩
abbrev main_v62 : Ref sig .tc := ⟨.hbm, 97, rfl⟩
abbrev main_c_28 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_c_29 : Ref sig .tc := ⟨.hbm, 102, rfl⟩
abbrev main_v66 : Ref sig .tc := ⟨.hbm, 103, rfl⟩
abbrev main_c_30 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_c_31 : Ref sig .tc := ⟨.hbm, 108, rfl⟩
abbrev main_v70 : Ref sig .tc := ⟨.hbm, 109, rfl⟩
abbrev main_c_32 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_c_33 : Ref sig .tc := ⟨.hbm, 114, rfl⟩
abbrev main_v74 : Ref sig .tc := ⟨.hbm, 115, rfl⟩
abbrev main_c_34 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_c_35 : Ref sig .tc := ⟨.hbm, 120, rfl⟩
abbrev main_v78 : Ref sig .tc := ⟨.hbm, 121, rfl⟩
abbrev main_c_36 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_c_37 : Ref sig .tc := ⟨.hbm, 126, rfl⟩
abbrev main_v82 : Ref sig .tc := ⟨.hbm, 127, rfl⟩
abbrev main_c_38 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_c_39 : Ref sig .tc := ⟨.hbm, 132, rfl⟩
abbrev main_v86 : Ref sig .tc := ⟨.hbm, 133, rfl⟩
abbrev main_c_40 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_c_41 : Ref sig .tc := ⟨.hbm, 138, rfl⟩
abbrev main_v90 : Ref sig .tc := ⟨.hbm, 139, rfl⟩
abbrev main_c_42 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_c_43 : Ref sig .tc := ⟨.hbm, 144, rfl⟩
abbrev main_v94 : Ref sig .tc := ⟨.hbm, 145, rfl⟩
abbrev main_c_44 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_c_45 : Ref sig .tc := ⟨.hbm, 150, rfl⟩
abbrev main_v98 : Ref sig .tc := ⟨.hbm, 151, rfl⟩
abbrev main_c_46 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_c_47 : Ref sig .tc := ⟨.hbm, 156, rfl⟩
abbrev main_v102 : Ref sig .tc := ⟨.hbm, 157, rfl⟩
abbrev main_c_48 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_c_49 : Ref sig .tc := ⟨.hbm, 162, rfl⟩
abbrev main_v106 : Ref sig .tc := ⟨.hbm, 163, rfl⟩
abbrev main_c_50 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_c_51 : Ref sig .tc := ⟨.hbm, 168, rfl⟩
abbrev main_v110 : Ref sig .tc := ⟨.hbm, 169, rfl⟩
abbrev main_c_52 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_c_53 : Ref sig .tc := ⟨.hbm, 174, rfl⟩
abbrev main_v114 : Ref sig .tc := ⟨.hbm, 175, rfl⟩
abbrev main_c_54 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_c_55 : Ref sig .tc := ⟨.hbm, 180, rfl⟩
abbrev main_v118 : Ref sig .tc := ⟨.hbm, 181, rfl⟩
abbrev main_c_56 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_c_57 : Ref sig .tc := ⟨.hbm, 186, rfl⟩
abbrev main_v122 : Ref sig .tc := ⟨.hbm, 187, rfl⟩
abbrev main_c_58 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_c_59 : Ref sig .tc := ⟨.hbm, 192, rfl⟩
abbrev main_v126 : Ref sig .tc := ⟨.hbm, 193, rfl⟩
abbrev main_c_60 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_c_61 : Ref sig .tc := ⟨.hbm, 198, rfl⟩
abbrev main_v130 : Ref sig .tc := ⟨.hbm, 199, rfl⟩
abbrev main_c_62 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_c_63 : Ref sig .tc := ⟨.hbm, 204, rfl⟩
abbrev main_v134 : Ref sig .tc := ⟨.hbm, 205, rfl⟩
abbrev main_c_64 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_c_65 : Ref sig .tc := ⟨.hbm, 210, rfl⟩
abbrev main_v138 : Ref sig .tc := ⟨.hbm, 211, rfl⟩
abbrev main_c_66 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_c_67 : Ref sig .tc := ⟨.hbm, 216, rfl⟩
abbrev main_v142 : Ref sig .tc := ⟨.hbm, 217, rfl⟩
abbrev main_c_68 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_c_69 : Ref sig .tc := ⟨.hbm, 222, rfl⟩
abbrev main_v146 : Ref sig .tc := ⟨.hbm, 223, rfl⟩
abbrev main_c_70 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_c_71 : Ref sig .tc := ⟨.hbm, 228, rfl⟩
abbrev main_v150 : Ref sig .tc := ⟨.hbm, 229, rfl⟩
abbrev main_c_72 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_c_73 : Ref sig .tc := ⟨.hbm, 234, rfl⟩
abbrev main_v154 : Ref sig .tc := ⟨.hbm, 235, rfl⟩
abbrev main_c_74 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_c_75 : Ref sig .tc := ⟨.hbm, 240, rfl⟩
abbrev main_v158 : Ref sig .tc := ⟨.hbm, 241, rfl⟩
abbrev main_c_76 : Ref sig .tc := ⟨.hbm, 242, rfl⟩
abbrev main_v159 : Ref sig .tc := ⟨.hbm, 243, rfl⟩
abbrev main_v160 : Ref sig .tc := ⟨.hbm, 244, rfl⟩
abbrev main_v161 : Ref sig .tc := ⟨.hbm, 245, rfl⟩
abbrev main_c_77 : Ref sig .tc := ⟨.hbm, 246, rfl⟩
abbrev main_v162 : Ref sig .tc := ⟨.hbm, 247, rfl⟩
abbrev main_c_78 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_c_79 : Ref sig .tc := ⟨.hbm, 252, rfl⟩
abbrev main_v166 : Ref sig .tc := ⟨.hbm, 253, rfl⟩
abbrev main_c_80 : Ref sig .tc := ⟨.hbm, 254, rfl⟩
abbrev main_v167 : Ref sig .tc := ⟨.hbm, 255, rfl⟩
abbrev main_v168 : Ref sig .tc := ⟨.hbm, 256, rfl⟩
abbrev main_v169 : Ref sig .tc := ⟨.hbm, 257, rfl⟩
abbrev main_c_81 : Ref sig .tc := ⟨.hbm, 258, rfl⟩
abbrev main_v170 : Ref sig .tc := ⟨.hbm, 259, rfl⟩
abbrev main_c_82 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_c_83 : Ref sig .tc := ⟨.hbm, 264, rfl⟩
abbrev main_v174 : Ref sig .tc := ⟨.hbm, 265, rfl⟩
abbrev main_c_84 : Ref sig .tc := ⟨.hbm, 266, rfl⟩
abbrev main_v175 : Ref sig .tc := ⟨.hbm, 267, rfl⟩
abbrev main_v176 : Ref sig .tc := ⟨.hbm, 268, rfl⟩
abbrev main_v177 : Ref sig .tc := ⟨.hbm, 269, rfl⟩
abbrev main_c_85 : Ref sig .tc := ⟨.hbm, 270, rfl⟩
abbrev main_v178 : Ref sig .tc := ⟨.hbm, 271, rfl⟩
abbrev main_c_86 : Ref sig .tc := ⟨.hbm, 272, rfl⟩
abbrev main_v179 : Ref sig .tc := ⟨.hbm, 273, rfl⟩
abbrev main_v180 : Ref sig .tc := ⟨.hbm, 274, rfl⟩
abbrev main_v181 : Ref sig .tc := ⟨.hbm, 275, rfl⟩
abbrev main_c_87 : Ref sig .tc := ⟨.hbm, 276, rfl⟩
abbrev main_v182 : Ref sig .tc := ⟨.hbm, 277, rfl⟩
abbrev main_c_88 : Ref sig .tc := ⟨.hbm, 278, rfl⟩
abbrev main_v183 : Ref sig .tc := ⟨.hbm, 279, rfl⟩
abbrev main_v184 : Ref sig .tc := ⟨.hbm, 280, rfl⟩
abbrev main_v185 : Ref sig .tc := ⟨.hbm, 281, rfl⟩
abbrev main_c_89 : Ref sig .tc := ⟨.hbm, 282, rfl⟩
abbrev main_v186 : Ref sig .tc := ⟨.hbm, 283, rfl⟩
abbrev main_c_90 : Ref sig .tc := ⟨.hbm, 284, rfl⟩
abbrev main_v187 : Ref sig .tc := ⟨.hbm, 285, rfl⟩
abbrev main_v188 : Ref sig .tc := ⟨.hbm, 286, rfl⟩
abbrev main_v189 : Ref sig .tc := ⟨.hbm, 287, rfl⟩
abbrev main_c_91 : Ref sig .tc := ⟨.hbm, 288, rfl⟩
abbrev main_v190 : Ref sig .tc := ⟨.hbm, 289, rfl⟩
abbrev main_c_92 : Ref sig .tc := ⟨.hbm, 290, rfl⟩
abbrev main_v191 : Ref sig .tc := ⟨.hbm, 291, rfl⟩
abbrev main_v192 : Ref sig .tc := ⟨.hbm, 292, rfl⟩
abbrev main_v193 : Ref sig .tc := ⟨.hbm, 293, rfl⟩
abbrev main_c_93 : Ref sig .tc := ⟨.hbm, 294, rfl⟩
abbrev main_v194 : Ref sig .tc := ⟨.hbm, 295, rfl⟩
abbrev main_c_94 : Ref sig .tc := ⟨.hbm, 296, rfl⟩
abbrev main_v195 : Ref sig .tc := ⟨.hbm, 297, rfl⟩
abbrev main_v196 : Ref sig .tc := ⟨.hbm, 298, rfl⟩
abbrev main_v197 : Ref sig .tc := ⟨.hbm, 299, rfl⟩
abbrev main_c_95 : Ref sig .tc := ⟨.hbm, 300, rfl⟩
abbrev main_v198 : Ref sig .tc := ⟨.hbm, 301, rfl⟩
abbrev main_c_96 : Ref sig .tc := ⟨.hbm, 302, rfl⟩
abbrev main_v199 : Ref sig .tc := ⟨.hbm, 303, rfl⟩
abbrev main_v200 : Ref sig .tc := ⟨.hbm, 304, rfl⟩
abbrev main_v201 : Ref sig .tc := ⟨.hbm, 305, rfl⟩
abbrev main_c_97 : Ref sig .tc := ⟨.hbm, 306, rfl⟩
abbrev main_v202 : Ref sig .tc := ⟨.hbm, 307, rfl⟩
abbrev main_c_98 : Ref sig .tc := ⟨.hbm, 308, rfl⟩
abbrev main_v203 : Ref sig .tc := ⟨.hbm, 309, rfl⟩
abbrev main_v204 : Ref sig .tc := ⟨.hbm, 310, rfl⟩
abbrev main_v205 : Ref sig .tc := ⟨.hbm, 311, rfl⟩
abbrev main_c_99 : Ref sig .tc := ⟨.hbm, 312, rfl⟩
abbrev main_v206 : Ref sig .tc := ⟨.hbm, 313, rfl⟩
abbrev main_c_100 : Ref sig .tc := ⟨.hbm, 314, rfl⟩
abbrev main_v207 : Ref sig .tc := ⟨.hbm, 315, rfl⟩
abbrev main_v208 : Ref sig .tc := ⟨.hbm, 316, rfl⟩
abbrev main_v209 : Ref sig .tc := ⟨.hbm, 317, rfl⟩
abbrev main_c_101 : Ref sig .tc := ⟨.hbm, 318, rfl⟩
abbrev main_v210 : Ref sig .tc := ⟨.hbm, 319, rfl⟩
abbrev main_c_102 : Ref sig .tc := ⟨.hbm, 320, rfl⟩
abbrev main_v211 : Ref sig .tc := ⟨.hbm, 321, rfl⟩
abbrev main_v212 : Ref sig .tc := ⟨.hbm, 322, rfl⟩
abbrev main_v213 : Ref sig .tc := ⟨.hbm, 323, rfl⟩
abbrev main_c_103 : Ref sig .tc := ⟨.hbm, 324, rfl⟩
abbrev main_v214 : Ref sig .tc := ⟨.hbm, 325, rfl⟩
abbrev main_c_104 : Ref sig .tc := ⟨.hbm, 326, rfl⟩
abbrev main_v215 : Ref sig .tc := ⟨.hbm, 327, rfl⟩
abbrev main_v216 : Ref sig .tc := ⟨.hbm, 328, rfl⟩
abbrev main_v217 : Ref sig .tc := ⟨.hbm, 329, rfl⟩
abbrev main_c_105 : Ref sig .tc := ⟨.hbm, 330, rfl⟩
abbrev main_v218 : Ref sig .tc := ⟨.hbm, 331, rfl⟩
abbrev main_c_106 : Ref sig .tc := ⟨.hbm, 332, rfl⟩
abbrev main_v219 : Ref sig .tc := ⟨.hbm, 333, rfl⟩
abbrev main_v220 : Ref sig .tc := ⟨.hbm, 334, rfl⟩
abbrev main_v221 : Ref sig .tc := ⟨.hbm, 335, rfl⟩
abbrev main_c_107 : Ref sig .tc := ⟨.hbm, 336, rfl⟩
abbrev main_v222 : Ref sig .tc := ⟨.hbm, 337, rfl⟩
abbrev main_c_108 : Ref sig .tc := ⟨.hbm, 338, rfl⟩
abbrev main_v223 : Ref sig .tc := ⟨.hbm, 339, rfl⟩
abbrev main_v224 : Ref sig .tc := ⟨.hbm, 340, rfl⟩
abbrev main_v225 : Ref sig .tc := ⟨.hbm, 341, rfl⟩
abbrev main_c_109 : Ref sig .tc := ⟨.hbm, 342, rfl⟩
abbrev main_v226 : Ref sig .tc := ⟨.hbm, 343, rfl⟩
abbrev main_c_110 : Ref sig .tc := ⟨.hbm, 344, rfl⟩
abbrev main_v227 : Ref sig .tc := ⟨.hbm, 345, rfl⟩
abbrev main_v228 : Ref sig .tc := ⟨.hbm, 346, rfl⟩
abbrev main_v229 : Ref sig .tc := ⟨.hbm, 347, rfl⟩
abbrev main_c_111 : Ref sig .tc := ⟨.hbm, 348, rfl⟩
abbrev main_v230 : Ref sig .tc := ⟨.hbm, 349, rfl⟩
abbrev main_c_112 : Ref sig .tc := ⟨.hbm, 350, rfl⟩
abbrev main_v231 : Ref sig .tc := ⟨.hbm, 351, rfl⟩
abbrev main_v232 : Ref sig .tc := ⟨.hbm, 352, rfl⟩
abbrev main_v233 : Ref sig .tc := ⟨.hbm, 353, rfl⟩
abbrev main_c_113 : Ref sig .tc := ⟨.hbm, 354, rfl⟩
abbrev main_v234 : Ref sig .tc := ⟨.hbm, 355, rfl⟩
abbrev main_c_114 : Ref sig .tc := ⟨.hbm, 356, rfl⟩
abbrev main_v235 : Ref sig .tc := ⟨.hbm, 357, rfl⟩
abbrev main_v236 : Ref sig .tc := ⟨.hbm, 358, rfl⟩
abbrev main_v237 : Ref sig .tc := ⟨.hbm, 359, rfl⟩
abbrev main_c_115 : Ref sig .tc := ⟨.hbm, 360, rfl⟩
abbrev main_v238 : Ref sig .tc := ⟨.hbm, 361, rfl⟩
abbrev main_c_116 : Ref sig .tc := ⟨.hbm, 362, rfl⟩
abbrev main_v239 : Ref sig .tc := ⟨.hbm, 363, rfl⟩
abbrev main_v240 : Ref sig .tc := ⟨.hbm, 364, rfl⟩
abbrev main_v241 : Ref sig .tc := ⟨.hbm, 365, rfl⟩
abbrev main_c_117 : Ref sig .tc := ⟨.hbm, 366, rfl⟩
abbrev main_v242 : Ref sig .tc := ⟨.hbm, 367, rfl⟩
abbrev main_c_118 : Ref sig .tc := ⟨.hbm, 368, rfl⟩
abbrev main_v243 : Ref sig .tc := ⟨.hbm, 369, rfl⟩
abbrev main_v244 : Ref sig .tc := ⟨.hbm, 370, rfl⟩
abbrev main_v245 : Ref sig .tc := ⟨.hbm, 371, rfl⟩
abbrev main_c_119 : Ref sig .tc := ⟨.hbm, 372, rfl⟩
abbrev main_v246 : Ref sig .tc := ⟨.hbm, 373, rfl⟩
abbrev main_c_120 : Ref sig .tc := ⟨.hbm, 374, rfl⟩
abbrev main_v247 : Ref sig .tc := ⟨.hbm, 375, rfl⟩
abbrev main_v248 : Ref sig .tc := ⟨.hbm, 376, rfl⟩
abbrev main_v249 : Ref sig .tc := ⟨.hbm, 377, rfl⟩
abbrev main_c_121 : Ref sig .tc := ⟨.hbm, 378, rfl⟩
abbrev main_v250 : Ref sig .tc := ⟨.hbm, 379, rfl⟩
abbrev main_c_122 : Ref sig .tc := ⟨.hbm, 380, rfl⟩
abbrev main_v251 : Ref sig .tc := ⟨.hbm, 381, rfl⟩
abbrev main_v252 : Ref sig .tc := ⟨.hbm, 382, rfl⟩
abbrev main_v253 : Ref sig .tc := ⟨.hbm, 383, rfl⟩
abbrev main_c_123 : Ref sig .tc := ⟨.hbm, 384, rfl⟩
abbrev main_v254 : Ref sig .tc := ⟨.hbm, 385, rfl⟩
abbrev main_c_124 : Ref sig .tc := ⟨.hbm, 386, rfl⟩
abbrev main_v255 : Ref sig .tc := ⟨.hbm, 387, rfl⟩
abbrev main_v256 : Ref sig .tc := ⟨.hbm, 388, rfl⟩
abbrev main_v257 : Ref sig .tc := ⟨.hbm, 389, rfl⟩
abbrev main_c_125 : Ref sig .tc := ⟨.hbm, 390, rfl⟩
abbrev main_v258 : Ref sig .tc := ⟨.hbm, 391, rfl⟩
abbrev main_c_126 : Ref sig .tc := ⟨.hbm, 392, rfl⟩
abbrev main_v259 : Ref sig .tc := ⟨.hbm, 393, rfl⟩
abbrev main_v260 : Ref sig .tc := ⟨.hbm, 394, rfl⟩
abbrev main_v261 : Ref sig .tc := ⟨.hbm, 395, rfl⟩
abbrev main_c_127 : Ref sig .tc := ⟨.hbm, 396, rfl⟩
abbrev main_v262 : Ref sig .tc := ⟨.hbm, 397, rfl⟩
abbrev main_c_128 : Ref sig .tc := ⟨.hbm, 398, rfl⟩
abbrev main_v263 : Ref sig .tc := ⟨.hbm, 399, rfl⟩
abbrev main_v264 : Ref sig .tc := ⟨.hbm, 400, rfl⟩
abbrev main_v265 : Ref sig .tc := ⟨.hbm, 401, rfl⟩
abbrev main_c_129 : Ref sig .tc := ⟨.hbm, 402, rfl⟩
abbrev main_v266 : Ref sig .tc := ⟨.hbm, 403, rfl⟩
abbrev main_c_130 : Ref sig .tc := ⟨.hbm, 404, rfl⟩
abbrev main_v267 : Ref sig .tc := ⟨.hbm, 405, rfl⟩
abbrev main_v268 : Ref sig .tc := ⟨.hbm, 406, rfl⟩
abbrev main_v269 : Ref sig .tc := ⟨.hbm, 407, rfl⟩
abbrev main_c_131 : Ref sig .tc := ⟨.hbm, 408, rfl⟩
abbrev main_v270 : Ref sig .tc := ⟨.hbm, 409, rfl⟩
abbrev main_c_132 : Ref sig .tc := ⟨.hbm, 410, rfl⟩
abbrev main_v271 : Ref sig .tc := ⟨.hbm, 411, rfl⟩
abbrev main_v272 : Ref sig .tc := ⟨.hbm, 412, rfl⟩
abbrev main_v273 : Ref sig .tc := ⟨.hbm, 413, rfl⟩
abbrev main_c_133 : Ref sig .tc := ⟨.hbm, 414, rfl⟩
abbrev main_v274 : Ref sig .tc := ⟨.hbm, 415, rfl⟩
abbrev main_c_134 : Ref sig .tc := ⟨.hbm, 416, rfl⟩
abbrev main_v275 : Ref sig .tc := ⟨.hbm, 417, rfl⟩
abbrev main_v276 : Ref sig .tc := ⟨.hbm, 418, rfl⟩
abbrev main_v277 : Ref sig .tc := ⟨.hbm, 419, rfl⟩
abbrev main_c_135 : Ref sig .tc := ⟨.hbm, 420, rfl⟩
abbrev main_v278 : Ref sig .tc := ⟨.hbm, 421, rfl⟩
abbrev main_c_136 : Ref sig .tc := ⟨.hbm, 422, rfl⟩
abbrev main_v279 : Ref sig .tc := ⟨.hbm, 423, rfl⟩
abbrev main_v280 : Ref sig .tc := ⟨.hbm, 424, rfl⟩
abbrev main_v281 : Ref sig .tc := ⟨.hbm, 425, rfl⟩
abbrev main_c_137 : Ref sig .tc := ⟨.hbm, 426, rfl⟩
abbrev main_v282 : Ref sig .tc := ⟨.hbm, 427, rfl⟩
abbrev main_c_138 : Ref sig .tc := ⟨.hbm, 428, rfl⟩
abbrev main_v283 : Ref sig .tc := ⟨.hbm, 429, rfl⟩
abbrev main_v284 : Ref sig .tc := ⟨.hbm, 430, rfl⟩
abbrev main_v285 : Ref sig .tc := ⟨.hbm, 431, rfl⟩
abbrev main_c_139 : Ref sig .tc := ⟨.hbm, 432, rfl⟩
abbrev main_v286 : Ref sig .tc := ⟨.hbm, 433, rfl⟩
abbrev main_c_140 : Ref sig .tc := ⟨.hbm, 434, rfl⟩
abbrev main_v287 : Ref sig .tc := ⟨.hbm, 435, rfl⟩
abbrev main_v288 : Ref sig .tc := ⟨.hbm, 436, rfl⟩
abbrev main_v289 : Ref sig .tc := ⟨.hbm, 437, rfl⟩
abbrev main_c_141 : Ref sig .tc := ⟨.hbm, 438, rfl⟩
abbrev main_v290 : Ref sig .tc := ⟨.hbm, 439, rfl⟩
abbrev main_c_142 : Ref sig .tc := ⟨.hbm, 440, rfl⟩
abbrev main_v291 : Ref sig .tc := ⟨.hbm, 441, rfl⟩
abbrev main_v292 : Ref sig .tc := ⟨.hbm, 442, rfl⟩
abbrev main_v293 : Ref sig .tc := ⟨.hbm, 443, rfl⟩
abbrev main_c_143 : Ref sig .tc := ⟨.hbm, 444, rfl⟩
abbrev main_v294 : Ref sig .tc := ⟨.hbm, 445, rfl⟩
abbrev main_c_144 : Ref sig .tc := ⟨.hbm, 446, rfl⟩
abbrev main_v295 : Ref sig .tc := ⟨.hbm, 447, rfl⟩
abbrev main_v296 : Ref sig .tc := ⟨.hbm, 448, rfl⟩
abbrev main_v297 : Ref sig .tc := ⟨.hbm, 449, rfl⟩
abbrev main_c_145 : Ref sig .tc := ⟨.hbm, 450, rfl⟩
abbrev main_v298 : Ref sig .tc := ⟨.hbm, 451, rfl⟩
abbrev main_c_146 : Ref sig .tc := ⟨.hbm, 452, rfl⟩
abbrev main_v299 : Ref sig .tc := ⟨.hbm, 453, rfl⟩
abbrev main_v300 : Ref sig .tc := ⟨.hbm, 454, rfl⟩
abbrev main_v301 : Ref sig .tc := ⟨.hbm, 455, rfl⟩
abbrev main_c_147 : Ref sig .tc := ⟨.hbm, 456, rfl⟩
abbrev main_v302 : Ref sig .tc := ⟨.hbm, 457, rfl⟩
abbrev main_c_148 : Ref sig .tc := ⟨.hbm, 458, rfl⟩
abbrev main_v303 : Ref sig .tc := ⟨.hbm, 459, rfl⟩
abbrev main_v304 : Ref sig .tc := ⟨.hbm, 460, rfl⟩
abbrev main_v305 : Ref sig .tc := ⟨.hbm, 461, rfl⟩
abbrev main_c_149 : Ref sig .tc := ⟨.hbm, 462, rfl⟩
abbrev main_v306 : Ref sig .tc := ⟨.hbm, 463, rfl⟩
abbrev main_c_150 : Ref sig .tc := ⟨.hbm, 464, rfl⟩
abbrev main_v307 : Ref sig .tc := ⟨.hbm, 465, rfl⟩
abbrev main_v308 : Ref sig .tc := ⟨.hbm, 466, rfl⟩
abbrev main_v309 : Ref sig .tc := ⟨.hbm, 467, rfl⟩
abbrev main_c_151 : Ref sig .tc := ⟨.hbm, 468, rfl⟩
abbrev main_v310 : Ref sig .tc := ⟨.hbm, 469, rfl⟩
abbrev main_c_152 : Ref sig .tc := ⟨.hbm, 470, rfl⟩
abbrev main_v311 : Ref sig .tc := ⟨.hbm, 471, rfl⟩
abbrev main_v312 : Ref sig .tc := ⟨.hbm, 472, rfl⟩
abbrev main_v313 : Ref sig .tc := ⟨.hbm, 473, rfl⟩
abbrev main_c_153 : Ref sig .tc := ⟨.hbm, 474, rfl⟩
abbrev main_v314 : Ref sig .tc := ⟨.hbm, 475, rfl⟩
abbrev main_c_154 : Ref sig .tc := ⟨.hbm, 476, rfl⟩
abbrev main_v315 : Ref sig .tc := ⟨.hbm, 477, rfl⟩
abbrev main_v316 : Ref sig .tc := ⟨.hbm, 478, rfl⟩
abbrev main_v317 : Ref sig .tc := ⟨.hbm, 479, rfl⟩
abbrev main_c_155 : Ref sig .tc := ⟨.hbm, 480, rfl⟩
abbrev main_v318 : Ref sig .tc := ⟨.hbm, 481, rfl⟩
abbrev main_c_156 : Ref sig .tc := ⟨.hbm, 482, rfl⟩
abbrev main_v319 : Ref sig .tc := ⟨.hbm, 483, rfl⟩
abbrev main_v320 : Ref sig .tc := ⟨.hbm, 484, rfl⟩
abbrev main_v321 : Ref sig .tc := ⟨.hbm, 485, rfl⟩
abbrev main_c_157 : Ref sig .tc := ⟨.hbm, 486, rfl⟩
abbrev main_v322 : Ref sig .tc := ⟨.hbm, 487, rfl⟩
abbrev main_c_158 : Ref sig .tc := ⟨.hbm, 488, rfl⟩
abbrev main_v323 : Ref sig .tc := ⟨.hbm, 489, rfl⟩
abbrev main_v324 : Ref sig .tc := ⟨.hbm, 490, rfl⟩
abbrev main_v325 : Ref sig .tc := ⟨.hbm, 491, rfl⟩
abbrev main_c_159 : Ref sig .tc := ⟨.hbm, 492, rfl⟩
abbrev main_v326 : Ref sig .tc := ⟨.hbm, 493, rfl⟩
abbrev main_c_160 : Ref sig .tc := ⟨.hbm, 494, rfl⟩
abbrev main_v327 : Ref sig .tc := ⟨.hbm, 495, rfl⟩
abbrev main_v328 : Ref sig .tc := ⟨.hbm, 496, rfl⟩
abbrev main_v329 : Ref sig .tc := ⟨.hbm, 497, rfl⟩
abbrev main_c_161 : Ref sig .tc := ⟨.hbm, 498, rfl⟩
abbrev main_v330 : Ref sig .tc := ⟨.hbm, 499, rfl⟩
abbrev main_c_162 : Ref sig .tc := ⟨.hbm, 500, rfl⟩
abbrev main_v331 : Ref sig .tc := ⟨.hbm, 501, rfl⟩
abbrev main_v332 : Ref sig .tc := ⟨.hbm, 502, rfl⟩
abbrev main_v333 : Ref sig .tc := ⟨.hbm, 503, rfl⟩
abbrev main_c_163 : Ref sig .tc := ⟨.hbm, 504, rfl⟩
abbrev main_v334 : Ref sig .tc := ⟨.hbm, 505, rfl⟩
abbrev main_c_164 : Ref sig .tc := ⟨.hbm, 506, rfl⟩
abbrev main_v335 : Ref sig .tc := ⟨.hbm, 507, rfl⟩
abbrev main_v336 : Ref sig .tc := ⟨.hbm, 508, rfl⟩
abbrev main_v337 : Ref sig .tc := ⟨.hbm, 509, rfl⟩
abbrev main_c_165 : Ref sig .tc := ⟨.hbm, 510, rfl⟩
abbrev main_v338 : Ref sig .tc := ⟨.hbm, 511, rfl⟩
abbrev main_c_166 : Ref sig .tc := ⟨.hbm, 512, rfl⟩
abbrev main_v339 : Ref sig .tc := ⟨.hbm, 513, rfl⟩
abbrev main_v340 : Ref sig .tc := ⟨.hbm, 514, rfl⟩
abbrev main_v341 : Ref sig .tc := ⟨.hbm, 515, rfl⟩
abbrev main_c_167 : Ref sig .tc := ⟨.hbm, 516, rfl⟩
abbrev main_v342 : Ref sig .tc := ⟨.hbm, 517, rfl⟩
abbrev main_c_168 : Ref sig .tc := ⟨.hbm, 518, rfl⟩
abbrev main_v343 : Ref sig .tc := ⟨.hbm, 519, rfl⟩
abbrev main_v344 : Ref sig .tc := ⟨.hbm, 520, rfl⟩
abbrev main_v345 : Ref sig .tc := ⟨.hbm, 521, rfl⟩
abbrev main_c_169 : Ref sig .tc := ⟨.hbm, 522, rfl⟩
abbrev main_v346 : Ref sig .tc := ⟨.hbm, 523, rfl⟩
abbrev main_c_170 : Ref sig .tc := ⟨.hbm, 524, rfl⟩
abbrev main_v347 : Ref sig .tc := ⟨.hbm, 525, rfl⟩
abbrev main_v348 : Ref sig .tc := ⟨.hbm, 526, rfl⟩
abbrev main_v349 : Ref sig .tc := ⟨.hbm, 527, rfl⟩
abbrev main_c_171 : Ref sig .tc := ⟨.hbm, 528, rfl⟩
abbrev main_v350 : Ref sig .tc := ⟨.hbm, 529, rfl⟩
abbrev main_c_172 : Ref sig .tc := ⟨.hbm, 530, rfl⟩
abbrev main_v351 : Ref sig .tc := ⟨.hbm, 531, rfl⟩
abbrev main_v352 : Ref sig .tc := ⟨.hbm, 532, rfl⟩
abbrev main_v353 : Ref sig .tc := ⟨.hbm, 533, rfl⟩
abbrev main_c_173 : Ref sig .tc := ⟨.hbm, 534, rfl⟩
abbrev main_v354 : Ref sig .tc := ⟨.hbm, 535, rfl⟩
abbrev main_c_174 : Ref sig .tc := ⟨.hbm, 536, rfl⟩
abbrev main_v355 : Ref sig .tc := ⟨.hbm, 537, rfl⟩
abbrev main_v356 : Ref sig .tc := ⟨.hbm, 538, rfl⟩
abbrev main_v357 : Ref sig .tc := ⟨.hbm, 539, rfl⟩
abbrev main_c_175 : Ref sig .tc := ⟨.hbm, 540, rfl⟩
abbrev main_v358 : Ref sig .tc := ⟨.hbm, 541, rfl⟩
abbrev main_c_176 : Ref sig .tc := ⟨.hbm, 542, rfl⟩
abbrev main_v359 : Ref sig .tc := ⟨.hbm, 543, rfl⟩
abbrev main_v360 : Ref sig .tc := ⟨.hbm, 544, rfl⟩
abbrev main_v361 : Ref sig .tc := ⟨.hbm, 545, rfl⟩
abbrev main_c_177 : Ref sig .tc := ⟨.hbm, 546, rfl⟩
abbrev main_v362 : Ref sig .tc := ⟨.hbm, 547, rfl⟩
abbrev main_c_178 : Ref sig .tc := ⟨.hbm, 548, rfl⟩
abbrev main_v363 : Ref sig .tc := ⟨.hbm, 549, rfl⟩
abbrev main_v364 : Ref sig .tc := ⟨.hbm, 550, rfl⟩
abbrev main_v365 : Ref sig .tc := ⟨.hbm, 551, rfl⟩
abbrev main_c_179 : Ref sig .tc := ⟨.hbm, 552, rfl⟩
abbrev main_v366 : Ref sig .tc := ⟨.hbm, 553, rfl⟩
abbrev main_c_180 : Ref sig .tc := ⟨.hbm, 554, rfl⟩
abbrev main_v367 : Ref sig .tc := ⟨.hbm, 555, rfl⟩
abbrev main_v368 : Ref sig .tc := ⟨.hbm, 556, rfl⟩
abbrev main_v369 : Ref sig .tc := ⟨.hbm, 557, rfl⟩
abbrev main_c_181 : Ref sig .tc := ⟨.hbm, 558, rfl⟩
abbrev main_v370 : Ref sig .tc := ⟨.hbm, 559, rfl⟩
abbrev main_c_182 : Ref sig .tc := ⟨.hbm, 560, rfl⟩
abbrev main_v371 : Ref sig .tc := ⟨.hbm, 561, rfl⟩
abbrev main_v372 : Ref sig .tc := ⟨.hbm, 562, rfl⟩
abbrev main_v373 : Ref sig .tc := ⟨.hbm, 563, rfl⟩
abbrev main_c_183 : Ref sig .tc := ⟨.hbm, 564, rfl⟩
abbrev main_v374 : Ref sig .tc := ⟨.hbm, 565, rfl⟩
abbrev main_c_184 : Ref sig .tc := ⟨.hbm, 566, rfl⟩
abbrev main_v375 : Ref sig .tc := ⟨.hbm, 567, rfl⟩
abbrev main_v376 : Ref sig .tc := ⟨.hbm, 568, rfl⟩
abbrev main_v377 : Ref sig .tc := ⟨.hbm, 569, rfl⟩
abbrev main_c_185 : Ref sig .tc := ⟨.hbm, 570, rfl⟩
abbrev main_v378 : Ref sig .tc := ⟨.hbm, 571, rfl⟩
abbrev main_c_186 : Ref sig .tc := ⟨.hbm, 572, rfl⟩
abbrev main_v379 : Ref sig .tc := ⟨.hbm, 573, rfl⟩
abbrev main_v380 : Ref sig .tc := ⟨.hbm, 574, rfl⟩
abbrev main_v381 : Ref sig .tc := ⟨.hbm, 575, rfl⟩
abbrev main_c_187 : Ref sig .tc := ⟨.hbm, 576, rfl⟩
abbrev main_v382 : Ref sig .tc := ⟨.hbm, 577, rfl⟩
abbrev main_c_188 : Ref sig .tc := ⟨.hbm, 578, rfl⟩
abbrev main_v383 : Ref sig .tc := ⟨.hbm, 579, rfl⟩
abbrev main_v384 : Ref sig .tc := ⟨.hbm, 580, rfl⟩
abbrev main_v385 : Ref sig .tc := ⟨.hbm, 581, rfl⟩
abbrev main_c_189 : Ref sig .tc := ⟨.hbm, 582, rfl⟩
abbrev main_v386 : Ref sig .tc := ⟨.hbm, 583, rfl⟩
abbrev main_c_190 : Ref sig .tc := ⟨.hbm, 584, rfl⟩
abbrev main_v387 : Ref sig .tc := ⟨.hbm, 585, rfl⟩
abbrev main_v388 : Ref sig .tc := ⟨.hbm, 586, rfl⟩
abbrev main_v389 : Ref sig .tc := ⟨.hbm, 587, rfl⟩
abbrev main_c_191 : Ref sig .tc := ⟨.hbm, 588, rfl⟩
abbrev main_v390 : Ref sig .tc := ⟨.hbm, 589, rfl⟩
abbrev main_c_192 : Ref sig .tc := ⟨.hbm, 590, rfl⟩
abbrev main_v391 : Ref sig .tc := ⟨.hbm, 591, rfl⟩
abbrev main_v392 : Ref sig .tc := ⟨.hbm, 592, rfl⟩
abbrev main_v393 : Ref sig .tc := ⟨.hbm, 593, rfl⟩
abbrev main_c_193 : Ref sig .tc := ⟨.hbm, 594, rfl⟩
abbrev main_v394 : Ref sig .tc := ⟨.hbm, 595, rfl⟩
abbrev main_c_194 : Ref sig .tc := ⟨.hbm, 596, rfl⟩
abbrev main_v395 : Ref sig .tc := ⟨.hbm, 597, rfl⟩
abbrev main_v396 : Ref sig .tc := ⟨.hbm, 598, rfl⟩
abbrev main_v397 : Ref sig .tc := ⟨.hbm, 599, rfl⟩
abbrev main_c_195 : Ref sig .tc := ⟨.hbm, 600, rfl⟩
abbrev main_v398 : Ref sig .tc := ⟨.hbm, 601, rfl⟩
abbrev main_c_196 : Ref sig .tc := ⟨.hbm, 602, rfl⟩
abbrev main_v399 : Ref sig .tc := ⟨.hbm, 603, rfl⟩
abbrev main_v400 : Ref sig .tc := ⟨.hbm, 604, rfl⟩
abbrev main_v401 : Ref sig .tc := ⟨.hbm, 605, rfl⟩
abbrev main_c_197 : Ref sig .tc := ⟨.hbm, 606, rfl⟩
abbrev main_v402 : Ref sig .tc := ⟨.hbm, 607, rfl⟩
abbrev main_c_198 : Ref sig .tc := ⟨.hbm, 608, rfl⟩
abbrev main_v403 : Ref sig .tc := ⟨.hbm, 609, rfl⟩
abbrev main_v404 : Ref sig .tc := ⟨.hbm, 610, rfl⟩
abbrev main_v405 : Ref sig .tc := ⟨.hbm, 611, rfl⟩
abbrev main_c_199 : Ref sig .tc := ⟨.hbm, 612, rfl⟩
abbrev main_v406 : Ref sig .tc := ⟨.hbm, 613, rfl⟩
abbrev main_c_200 : Ref sig .tc := ⟨.hbm, 614, rfl⟩
abbrev main_v407 : Ref sig .tc := ⟨.hbm, 615, rfl⟩
abbrev main_v408 : Ref sig .tc := ⟨.hbm, 616, rfl⟩
abbrev main_v409 : Ref sig .tc := ⟨.hbm, 617, rfl⟩
abbrev main_c_201 : Ref sig .tc := ⟨.hbm, 618, rfl⟩
abbrev main_v410 : Ref sig .tc := ⟨.hbm, 619, rfl⟩
abbrev main_c_202 : Ref sig .tc := ⟨.hbm, 620, rfl⟩
abbrev main_v411 : Ref sig .tc := ⟨.hbm, 621, rfl⟩
abbrev main_v412 : Ref sig .tc := ⟨.hbm, 622, rfl⟩
abbrev main_v413 : Ref sig .tc := ⟨.hbm, 623, rfl⟩
abbrev main_c_203 : Ref sig .tc := ⟨.hbm, 624, rfl⟩
abbrev main_v414 : Ref sig .tc := ⟨.hbm, 625, rfl⟩
abbrev main_c_204 : Ref sig .tc := ⟨.hbm, 626, rfl⟩
abbrev main_v415 : Ref sig .tc := ⟨.hbm, 627, rfl⟩
abbrev main_v416 : Ref sig .tc := ⟨.hbm, 628, rfl⟩
abbrev main_v417 : Ref sig .tc := ⟨.hbm, 629, rfl⟩
abbrev main_c_205 : Ref sig .tc := ⟨.hbm, 630, rfl⟩
abbrev main_v418 : Ref sig .tc := ⟨.hbm, 631, rfl⟩
abbrev main_c_206 : Ref sig .tc := ⟨.hbm, 632, rfl⟩
abbrev main_v419 : Ref sig .tc := ⟨.hbm, 633, rfl⟩
abbrev main_v420 : Ref sig .tc := ⟨.hbm, 634, rfl⟩
abbrev main_v421 : Ref sig .tc := ⟨.hbm, 635, rfl⟩
abbrev main_c_207 : Ref sig .tc := ⟨.hbm, 636, rfl⟩
abbrev main_v422 : Ref sig .tc := ⟨.hbm, 637, rfl⟩
abbrev main_c_208 : Ref sig .tc := ⟨.hbm, 638, rfl⟩
abbrev main_v423 : Ref sig .tc := ⟨.hbm, 639, rfl⟩
abbrev main_v424 : Ref sig .tc := ⟨.hbm, 640, rfl⟩
abbrev main_v425 : Ref sig .tc := ⟨.hbm, 641, rfl⟩
abbrev main_c_209 : Ref sig .tc := ⟨.hbm, 642, rfl⟩
abbrev main_v426 : Ref sig .tc := ⟨.hbm, 643, rfl⟩
abbrev main_c_210 : Ref sig .tc := ⟨.hbm, 644, rfl⟩
abbrev main_v427 : Ref sig .tc := ⟨.hbm, 645, rfl⟩
abbrev main_v428 : Ref sig .tc := ⟨.hbm, 646, rfl⟩
abbrev main_v429 : Ref sig .tc := ⟨.hbm, 647, rfl⟩
abbrev main_c_211 : Ref sig .tc := ⟨.hbm, 648, rfl⟩
abbrev main_v430 : Ref sig .tc := ⟨.hbm, 649, rfl⟩
abbrev main_c_212 : Ref sig .tc := ⟨.hbm, 650, rfl⟩
abbrev main_v431 : Ref sig .tc := ⟨.hbm, 651, rfl⟩
abbrev main_v432 : Ref sig .tc := ⟨.hbm, 652, rfl⟩
abbrev main_v433 : Ref sig .tc := ⟨.hbm, 653, rfl⟩
abbrev main_c_213 : Ref sig .tc := ⟨.hbm, 654, rfl⟩
abbrev main_v434 : Ref sig .tc := ⟨.hbm, 655, rfl⟩
abbrev main_c_214 : Ref sig .tc := ⟨.hbm, 656, rfl⟩
abbrev main_v435 : Ref sig .tc := ⟨.hbm, 657, rfl⟩
abbrev main_v436 : Ref sig .tc := ⟨.hbm, 658, rfl⟩
abbrev main_v437 : Ref sig .tc := ⟨.hbm, 659, rfl⟩
abbrev main_c_215 : Ref sig .tc := ⟨.hbm, 660, rfl⟩
abbrev main_v438 : Ref sig .tc := ⟨.hbm, 661, rfl⟩
abbrev main_c_216 : Ref sig .tc := ⟨.hbm, 662, rfl⟩
abbrev main_v439 : Ref sig .tc := ⟨.hbm, 663, rfl⟩
abbrev main_v440 : Ref sig .tc := ⟨.hbm, 664, rfl⟩
abbrev main_v441 : Ref sig .tc := ⟨.hbm, 665, rfl⟩
abbrev main_c_217 : Ref sig .tc := ⟨.hbm, 666, rfl⟩
abbrev main_v442 : Ref sig .tc := ⟨.hbm, 667, rfl⟩
abbrev main_c_218 : Ref sig .tc := ⟨.hbm, 668, rfl⟩
abbrev main_v443 : Ref sig .tc := ⟨.hbm, 669, rfl⟩
abbrev main_v444 : Ref sig .tc := ⟨.hbm, 670, rfl⟩
abbrev main_v445 : Ref sig .tc := ⟨.hbm, 671, rfl⟩
abbrev main_c_219 : Ref sig .tc := ⟨.hbm, 672, rfl⟩
abbrev main_v446 : Ref sig .tc := ⟨.hbm, 673, rfl⟩
abbrev main_c_220 : Ref sig .tc := ⟨.hbm, 674, rfl⟩
abbrev main_v447 : Ref sig .tc := ⟨.hbm, 675, rfl⟩
abbrev main_v448 : Ref sig .tc := ⟨.hbm, 676, rfl⟩
abbrev main_v449 : Ref sig .tc := ⟨.hbm, 677, rfl⟩
abbrev main_c_221 : Ref sig .tc := ⟨.hbm, 678, rfl⟩
abbrev main_v450 : Ref sig .tc := ⟨.hbm, 679, rfl⟩
abbrev main_c_222 : Ref sig .tc := ⟨.hbm, 680, rfl⟩
abbrev main_v451 : Ref sig .tc := ⟨.hbm, 681, rfl⟩
abbrev main_v452 : Ref sig .tc := ⟨.hbm, 682, rfl⟩
abbrev main_v453 : Ref sig .tc := ⟨.hbm, 683, rfl⟩
abbrev main_c_223 : Ref sig .tc := ⟨.hbm, 684, rfl⟩
abbrev main_v454 : Ref sig .tc := ⟨.hbm, 685, rfl⟩
abbrev main_c_224 : Ref sig .tc := ⟨.hbm, 686, rfl⟩
abbrev main_v455 : Ref sig .tc := ⟨.hbm, 687, rfl⟩
abbrev main_v456 : Ref sig .tc := ⟨.hbm, 688, rfl⟩
abbrev main_v457 : Ref sig .tc := ⟨.hbm, 689, rfl⟩
abbrev main_c_225 : Ref sig .tc := ⟨.hbm, 690, rfl⟩
abbrev main_v458 : Ref sig .tc := ⟨.hbm, 691, rfl⟩
abbrev main_c_226 : Ref sig .tc := ⟨.hbm, 692, rfl⟩
abbrev main_v459 : Ref sig .tc := ⟨.hbm, 693, rfl⟩
abbrev main_v460 : Ref sig .tc := ⟨.hbm, 694, rfl⟩
abbrev main_v461 : Ref sig .tc := ⟨.hbm, 695, rfl⟩
abbrev main_c_227 : Ref sig .tc := ⟨.hbm, 696, rfl⟩
abbrev main_v462 : Ref sig .tc := ⟨.hbm, 697, rfl⟩
abbrev main_c_228 : Ref sig .tc := ⟨.hbm, 698, rfl⟩
abbrev main_v463 : Ref sig .tc := ⟨.hbm, 699, rfl⟩
abbrev main_v464 : Ref sig .tc := ⟨.hbm, 700, rfl⟩
abbrev main_v465 : Ref sig .tc := ⟨.hbm, 701, rfl⟩
abbrev main_c_229 : Ref sig .tc := ⟨.hbm, 702, rfl⟩
abbrev main_v466 : Ref sig .tc := ⟨.hbm, 703, rfl⟩
abbrev main_c_230 : Ref sig .tc := ⟨.hbm, 704, rfl⟩
abbrev main_v467 : Ref sig .tc := ⟨.hbm, 705, rfl⟩
abbrev main_v468 : Ref sig .tc := ⟨.hbm, 706, rfl⟩
abbrev main_v469 : Ref sig .tc := ⟨.hbm, 707, rfl⟩
abbrev main_c_231 : Ref sig .tc := ⟨.hbm, 708, rfl⟩
abbrev main_v470 : Ref sig .tc := ⟨.hbm, 709, rfl⟩
abbrev main_c_232 : Ref sig .tc := ⟨.hbm, 710, rfl⟩
abbrev main_v471 : Ref sig .tc := ⟨.hbm, 711, rfl⟩
abbrev main_v472 : Ref sig .tc := ⟨.hbm, 712, rfl⟩
abbrev main_v473 : Ref sig .tc := ⟨.hbm, 713, rfl⟩
abbrev main_c_233 : Ref sig .tc := ⟨.hbm, 714, rfl⟩
abbrev main_v474 : Ref sig .tc := ⟨.hbm, 715, rfl⟩
abbrev main_c_234 : Ref sig .tc := ⟨.hbm, 716, rfl⟩
abbrev main_v475 : Ref sig .tc := ⟨.hbm, 717, rfl⟩
abbrev main_v476 : Ref sig .tc := ⟨.hbm, 718, rfl⟩
abbrev main_v477 : Ref sig .tc := ⟨.hbm, 719, rfl⟩
abbrev main_c_235 : Ref sig .tc := ⟨.hbm, 720, rfl⟩
abbrev main_v478 : Ref sig .tc := ⟨.hbm, 721, rfl⟩
abbrev main_c_236 : Ref sig .tc := ⟨.hbm, 722, rfl⟩
abbrev main_v479 : Ref sig .tc := ⟨.hbm, 723, rfl⟩
abbrev main_v480 : Ref sig .tc := ⟨.hbm, 724, rfl⟩
abbrev main_v481 : Ref sig .tc := ⟨.hbm, 725, rfl⟩
abbrev main_c_237 : Ref sig .tc := ⟨.hbm, 726, rfl⟩
abbrev main_v482 : Ref sig .tc := ⟨.hbm, 727, rfl⟩
abbrev main_c_238 : Ref sig .tc := ⟨.hbm, 728, rfl⟩
abbrev main_v483 : Ref sig .tc := ⟨.hbm, 729, rfl⟩
abbrev main_v484 : Ref sig .tc := ⟨.hbm, 730, rfl⟩
abbrev main_v485 : Ref sig .tc := ⟨.hbm, 731, rfl⟩
abbrev main_c_239 : Ref sig .tc := ⟨.hbm, 732, rfl⟩
abbrev main_v486 : Ref sig .tc := ⟨.hbm, 733, rfl⟩
abbrev main_c_240 : Ref sig .tc := ⟨.hbm, 734, rfl⟩
abbrev main_v487 : Ref sig .tc := ⟨.hbm, 735, rfl⟩
abbrev main_v488 : Ref sig .tc := ⟨.hbm, 736, rfl⟩
abbrev main_v489 : Ref sig .tc := ⟨.hbm, 737, rfl⟩
abbrev main_c_241 : Ref sig .tc := ⟨.hbm, 738, rfl⟩
abbrev main_v490 : Ref sig .tc := ⟨.hbm, 739, rfl⟩
abbrev main_c_242 : Ref sig .tc := ⟨.hbm, 740, rfl⟩
abbrev main_v491 : Ref sig .tc := ⟨.hbm, 741, rfl⟩
abbrev main_v492 : Ref sig .tc := ⟨.hbm, 742, rfl⟩
abbrev main_v493 : Ref sig .tc := ⟨.hbm, 743, rfl⟩
abbrev main_c_243 : Ref sig .tc := ⟨.hbm, 744, rfl⟩
abbrev main_v494 : Ref sig .tc := ⟨.hbm, 745, rfl⟩
abbrev main_c_244 : Ref sig .tc := ⟨.hbm, 746, rfl⟩
abbrev main_v495 : Ref sig .tc := ⟨.hbm, 747, rfl⟩
abbrev main_v496 : Ref sig .tc := ⟨.hbm, 748, rfl⟩
abbrev main_v497 : Ref sig .tc := ⟨.hbm, 749, rfl⟩
abbrev main_c_245 : Ref sig .tc := ⟨.hbm, 750, rfl⟩
abbrev main_v498 : Ref sig .tc := ⟨.hbm, 751, rfl⟩
abbrev main_c_246 : Ref sig .tc := ⟨.hbm, 752, rfl⟩
abbrev main_v499 : Ref sig .tc := ⟨.hbm, 753, rfl⟩
abbrev main_v500 : Ref sig .tc := ⟨.hbm, 754, rfl⟩
abbrev main_v501 : Ref sig .tc := ⟨.hbm, 755, rfl⟩
abbrev main_c_247 : Ref sig .tc := ⟨.hbm, 756, rfl⟩
abbrev main_v502 : Ref sig .tc := ⟨.hbm, 757, rfl⟩
abbrev main_c_248 : Ref sig .tc := ⟨.hbm, 758, rfl⟩
abbrev main_v503 : Ref sig .tc := ⟨.hbm, 759, rfl⟩
abbrev main_v504 : Ref sig .tc := ⟨.hbm, 760, rfl⟩
abbrev main_v505 : Ref sig .tc := ⟨.hbm, 761, rfl⟩
abbrev main_c_249 : Ref sig .tc := ⟨.hbm, 762, rfl⟩
abbrev main_v506 : Ref sig .tc := ⟨.hbm, 763, rfl⟩
abbrev main_c_250 : Ref sig .tc := ⟨.hbm, 764, rfl⟩
abbrev main_v507 : Ref sig .tc := ⟨.hbm, 765, rfl⟩
abbrev main_v508 : Ref sig .tc := ⟨.hbm, 766, rfl⟩
abbrev main_v509 : Ref sig .tc := ⟨.hbm, 767, rfl⟩
abbrev main_v510 : Ref sig .tc := ⟨.hbm, 768, rfl⟩
abbrev main_v511 : Ref sig .tc := ⟨.hbm, 769, rfl⟩
abbrev main_v512 : Ref sig .tc := ⟨.hbm, 770, rfl⟩
abbrev main_cst_251 : Ref sig .tc := ⟨.hbm, 771, rfl⟩
abbrev main_v513 : Ref sig .tc := ⟨.hbm, 772, rfl⟩
abbrev main_c_252 : Ref sig .tc := ⟨.hbm, 773, rfl⟩
abbrev main_v514 : Ref sig .tc := ⟨.hbm, 774, rfl⟩
abbrev main_c_253 : Ref sig .tc := ⟨.hbm, 775, rfl⟩
abbrev main_v515 : Ref sig .tc := ⟨.hbm, 776, rfl⟩
abbrev main_v516 : Ref sig .tc := ⟨.hbm, 777, rfl⟩
abbrev main_v517 : Ref sig .tc := ⟨.hbm, 778, rfl⟩
abbrev main_c_254 : Ref sig .tc := ⟨.hbm, 779, rfl⟩
abbrev main_v518 : Ref sig .tc := ⟨.hbm, 780, rfl⟩
abbrev main_c_255 : Ref sig .tc := ⟨.hbm, 781, rfl⟩
abbrev main_v519 : Ref sig .tc := ⟨.hbm, 782, rfl⟩
abbrev main_v520 : Ref sig .tc := ⟨.hbm, 783, rfl⟩
abbrev main_v521 : Ref sig .tc := ⟨.hbm, 784, rfl⟩
abbrev main_c_256 : Ref sig .tc := ⟨.hbm, 785, rfl⟩
abbrev main_v522 : Ref sig .tc := ⟨.hbm, 786, rfl⟩
abbrev main_c_257 : Ref sig .tc := ⟨.hbm, 787, rfl⟩
abbrev main_v523 : Ref sig .tc := ⟨.hbm, 788, rfl⟩
abbrev main_v524 : Ref sig .tc := ⟨.hbm, 789, rfl⟩
abbrev main_v525 : Ref sig .tc := ⟨.hbm, 790, rfl⟩
abbrev main_c_258 : Ref sig .tc := ⟨.hbm, 791, rfl⟩
abbrev main_v526 : Ref sig .tc := ⟨.hbm, 792, rfl⟩
abbrev main_c_259 : Ref sig .tc := ⟨.hbm, 793, rfl⟩
abbrev main_v527 : Ref sig .tc := ⟨.hbm, 794, rfl⟩
abbrev main_v528 : Ref sig .tc := ⟨.hbm, 795, rfl⟩
abbrev main_v529 : Ref sig .tc := ⟨.hbm, 796, rfl⟩
abbrev main_c_260 : Ref sig .tc := ⟨.hbm, 797, rfl⟩
abbrev main_v530 : Ref sig .tc := ⟨.hbm, 798, rfl⟩
abbrev main_c_261 : Ref sig .tc := ⟨.hbm, 799, rfl⟩
abbrev main_v531 : Ref sig .tc := ⟨.hbm, 800, rfl⟩
abbrev main_v532 : Ref sig .tc := ⟨.hbm, 801, rfl⟩
abbrev main_v533 : Ref sig .tc := ⟨.hbm, 802, rfl⟩
abbrev main_c_262 : Ref sig .tc := ⟨.hbm, 803, rfl⟩
abbrev main_v534 : Ref sig .tc := ⟨.hbm, 804, rfl⟩
abbrev main_c_263 : Ref sig .tc := ⟨.hbm, 805, rfl⟩
abbrev main_v535 : Ref sig .tc := ⟨.hbm, 806, rfl⟩
abbrev main_v536 : Ref sig .tc := ⟨.hbm, 807, rfl⟩
abbrev main_v537 : Ref sig .tc := ⟨.hbm, 808, rfl⟩
abbrev main_c_264 : Ref sig .tc := ⟨.hbm, 809, rfl⟩
abbrev main_v538 : Ref sig .tc := ⟨.hbm, 810, rfl⟩
abbrev main_c_265 : Ref sig .tc := ⟨.hbm, 811, rfl⟩
abbrev main_v539 : Ref sig .tc := ⟨.hbm, 812, rfl⟩
abbrev main_v540 : Ref sig .tc := ⟨.hbm, 813, rfl⟩
abbrev main_v541 : Ref sig .tc := ⟨.hbm, 814, rfl⟩
abbrev main_c_266 : Ref sig .tc := ⟨.hbm, 815, rfl⟩
abbrev main_v542 : Ref sig .tc := ⟨.hbm, 816, rfl⟩
abbrev main_c_267 : Ref sig .tc := ⟨.hbm, 817, rfl⟩
abbrev main_v543 : Ref sig .tc := ⟨.hbm, 818, rfl⟩
abbrev main_v544 : Ref sig .tc := ⟨.hbm, 819, rfl⟩
abbrev main_v545 : Ref sig .tc := ⟨.hbm, 820, rfl⟩
abbrev main_c_268 : Ref sig .tc := ⟨.hbm, 821, rfl⟩
abbrev main_v546 : Ref sig .tc := ⟨.hbm, 822, rfl⟩
abbrev main_c_269 : Ref sig .tc := ⟨.hbm, 823, rfl⟩
abbrev main_v547 : Ref sig .tc := ⟨.hbm, 824, rfl⟩
abbrev main_v548 : Ref sig .tc := ⟨.hbm, 825, rfl⟩
abbrev main_v549 : Ref sig .tc := ⟨.hbm, 826, rfl⟩
abbrev main_c_270 : Ref sig .tc := ⟨.hbm, 827, rfl⟩
abbrev main_v550 : Ref sig .tc := ⟨.hbm, 828, rfl⟩
abbrev main_c_271 : Ref sig .tc := ⟨.hbm, 829, rfl⟩
abbrev main_v551 : Ref sig .tc := ⟨.hbm, 830, rfl⟩
abbrev main_v552 : Ref sig .tc := ⟨.hbm, 831, rfl⟩
abbrev main_v553 : Ref sig .tc := ⟨.hbm, 832, rfl⟩
abbrev main_c_272 : Ref sig .tc := ⟨.hbm, 833, rfl⟩
abbrev main_v554 : Ref sig .tc := ⟨.hbm, 834, rfl⟩
abbrev main_c_273 : Ref sig .tc := ⟨.hbm, 835, rfl⟩
abbrev main_v555 : Ref sig .tc := ⟨.hbm, 836, rfl⟩
abbrev main_v556 : Ref sig .tc := ⟨.hbm, 837, rfl⟩
abbrev main_v557 : Ref sig .tc := ⟨.hbm, 838, rfl⟩
abbrev main_c_274 : Ref sig .tc := ⟨.hbm, 839, rfl⟩
abbrev main_v558 : Ref sig .tc := ⟨.hbm, 840, rfl⟩
abbrev main_c_275 : Ref sig .tc := ⟨.hbm, 841, rfl⟩
abbrev main_v559 : Ref sig .tc := ⟨.hbm, 842, rfl⟩
abbrev main_v560 : Ref sig .tc := ⟨.hbm, 843, rfl⟩
abbrev main_v561 : Ref sig .tc := ⟨.hbm, 844, rfl⟩
abbrev main_c_276 : Ref sig .tc := ⟨.hbm, 845, rfl⟩
abbrev main_v562 : Ref sig .tc := ⟨.hbm, 846, rfl⟩
abbrev main_c_277 : Ref sig .tc := ⟨.hbm, 847, rfl⟩
abbrev main_v563 : Ref sig .tc := ⟨.hbm, 848, rfl⟩
abbrev main_v564 : Ref sig .tc := ⟨.hbm, 849, rfl⟩
abbrev main_v565 : Ref sig .tc := ⟨.hbm, 850, rfl⟩
abbrev main_c_278 : Ref sig .tc := ⟨.hbm, 851, rfl⟩
abbrev main_v566 : Ref sig .tc := ⟨.hbm, 852, rfl⟩
abbrev main_c_279 : Ref sig .tc := ⟨.hbm, 853, rfl⟩
abbrev main_v567 : Ref sig .tc := ⟨.hbm, 854, rfl⟩
abbrev main_v568 : Ref sig .tc := ⟨.hbm, 855, rfl⟩
abbrev main_v569 : Ref sig .tc := ⟨.hbm, 856, rfl⟩
abbrev main_c_280 : Ref sig .tc := ⟨.hbm, 857, rfl⟩
abbrev main_v570 : Ref sig .tc := ⟨.hbm, 858, rfl⟩
abbrev main_c_281 : Ref sig .tc := ⟨.hbm, 859, rfl⟩
abbrev main_v571 : Ref sig .tc := ⟨.hbm, 860, rfl⟩
abbrev main_v572 : Ref sig .tc := ⟨.hbm, 861, rfl⟩
abbrev main_v573 : Ref sig .tc := ⟨.hbm, 862, rfl⟩
abbrev main_c_282 : Ref sig .tc := ⟨.hbm, 863, rfl⟩
abbrev main_v574 : Ref sig .tc := ⟨.hbm, 864, rfl⟩
abbrev main_c_283 : Ref sig .tc := ⟨.hbm, 865, rfl⟩
abbrev main_v575 : Ref sig .tc := ⟨.hbm, 866, rfl⟩
abbrev main_v576 : Ref sig .tc := ⟨.hbm, 867, rfl⟩
abbrev main_v577 : Ref sig .tc := ⟨.hbm, 868, rfl⟩
abbrev main_c_284 : Ref sig .tc := ⟨.hbm, 869, rfl⟩
abbrev main_v578 : Ref sig .tc := ⟨.hbm, 870, rfl⟩
abbrev main_c_285 : Ref sig .tc := ⟨.hbm, 871, rfl⟩
abbrev main_v579 : Ref sig .tc := ⟨.hbm, 872, rfl⟩
abbrev main_v580 : Ref sig .tc := ⟨.hbm, 873, rfl⟩
abbrev main_v581 : Ref sig .tc := ⟨.hbm, 874, rfl⟩
abbrev main_c_286 : Ref sig .tc := ⟨.hbm, 875, rfl⟩
abbrev main_v582 : Ref sig .tc := ⟨.hbm, 876, rfl⟩
abbrev main_c_287 : Ref sig .tc := ⟨.hbm, 877, rfl⟩
abbrev main_v583 : Ref sig .tc := ⟨.hbm, 878, rfl⟩
abbrev main_v584 : Ref sig .tc := ⟨.hbm, 879, rfl⟩
abbrev main_v585 : Ref sig .tc := ⟨.hbm, 880, rfl⟩
abbrev main_c_288 : Ref sig .tc := ⟨.hbm, 881, rfl⟩
abbrev main_v586 : Ref sig .tc := ⟨.hbm, 882, rfl⟩
abbrev main_c_289 : Ref sig .tc := ⟨.hbm, 883, rfl⟩
abbrev main_v587 : Ref sig .tc := ⟨.hbm, 884, rfl⟩
abbrev main_v588 : Ref sig .tc := ⟨.hbm, 885, rfl⟩
abbrev main_v589 : Ref sig .tc := ⟨.hbm, 886, rfl⟩
abbrev main_c_290 : Ref sig .tc := ⟨.hbm, 887, rfl⟩
abbrev main_v590 : Ref sig .tc := ⟨.hbm, 888, rfl⟩
abbrev main_c_291 : Ref sig .tc := ⟨.hbm, 889, rfl⟩
abbrev main_v591 : Ref sig .tc := ⟨.hbm, 890, rfl⟩
abbrev main_v592 : Ref sig .tc := ⟨.hbm, 891, rfl⟩
abbrev main_v593 : Ref sig .tc := ⟨.hbm, 892, rfl⟩
abbrev main_c_292 : Ref sig .tc := ⟨.hbm, 893, rfl⟩
abbrev main_v594 : Ref sig .tc := ⟨.hbm, 894, rfl⟩
abbrev main_c_293 : Ref sig .tc := ⟨.hbm, 895, rfl⟩
abbrev main_v595 : Ref sig .tc := ⟨.hbm, 896, rfl⟩
abbrev main_v596 : Ref sig .tc := ⟨.hbm, 897, rfl⟩
abbrev main_v597 : Ref sig .tc := ⟨.hbm, 898, rfl⟩
abbrev main_c_294 : Ref sig .tc := ⟨.hbm, 899, rfl⟩
abbrev main_v598 : Ref sig .tc := ⟨.hbm, 900, rfl⟩
abbrev main_c_295 : Ref sig .tc := ⟨.hbm, 901, rfl⟩
abbrev main_v599 : Ref sig .tc := ⟨.hbm, 902, rfl⟩
abbrev main_v600 : Ref sig .tc := ⟨.hbm, 903, rfl⟩
abbrev main_v601 : Ref sig .tc := ⟨.hbm, 904, rfl⟩
abbrev main_c_296 : Ref sig .tc := ⟨.hbm, 905, rfl⟩
abbrev main_v602 : Ref sig .tc := ⟨.hbm, 906, rfl⟩
abbrev main_c_297 : Ref sig .tc := ⟨.hbm, 907, rfl⟩
abbrev main_v603 : Ref sig .tc := ⟨.hbm, 908, rfl⟩
abbrev main_v604 : Ref sig .tc := ⟨.hbm, 909, rfl⟩
abbrev main_v605 : Ref sig .tc := ⟨.hbm, 910, rfl⟩
abbrev main_c_298 : Ref sig .tc := ⟨.hbm, 911, rfl⟩
abbrev main_v606 : Ref sig .tc := ⟨.hbm, 912, rfl⟩
abbrev main_c_299 : Ref sig .tc := ⟨.hbm, 913, rfl⟩
abbrev main_v607 : Ref sig .tc := ⟨.hbm, 914, rfl⟩
abbrev main_v608 : Ref sig .tc := ⟨.hbm, 915, rfl⟩
abbrev main_v609 : Ref sig .tc := ⟨.hbm, 916, rfl⟩
abbrev main_c_300 : Ref sig .tc := ⟨.hbm, 917, rfl⟩
abbrev main_v610 : Ref sig .tc := ⟨.hbm, 918, rfl⟩
abbrev main_c_301 : Ref sig .tc := ⟨.hbm, 919, rfl⟩
abbrev main_v611 : Ref sig .tc := ⟨.hbm, 920, rfl⟩
abbrev main_v612 : Ref sig .tc := ⟨.hbm, 921, rfl⟩
abbrev main_v613 : Ref sig .tc := ⟨.hbm, 922, rfl⟩
abbrev main_c_302 : Ref sig .tc := ⟨.hbm, 923, rfl⟩
abbrev main_v614 : Ref sig .tc := ⟨.hbm, 924, rfl⟩
abbrev main_c_303 : Ref sig .tc := ⟨.hbm, 925, rfl⟩
abbrev main_v615 : Ref sig .tc := ⟨.hbm, 926, rfl⟩
abbrev main_v616 : Ref sig .tc := ⟨.hbm, 927, rfl⟩
abbrev main_v617 : Ref sig .tc := ⟨.hbm, 928, rfl⟩
abbrev main_c_304 : Ref sig .tc := ⟨.hbm, 929, rfl⟩
abbrev main_v618 : Ref sig .tc := ⟨.hbm, 930, rfl⟩
abbrev main_c_305 : Ref sig .tc := ⟨.hbm, 931, rfl⟩
abbrev main_v619 : Ref sig .tc := ⟨.hbm, 932, rfl⟩
abbrev main_v620 : Ref sig .tc := ⟨.hbm, 933, rfl⟩
abbrev main_v621 : Ref sig .tc := ⟨.hbm, 934, rfl⟩
abbrev main_c_306 : Ref sig .tc := ⟨.hbm, 935, rfl⟩
abbrev main_v622 : Ref sig .tc := ⟨.hbm, 936, rfl⟩
abbrev main_c_307 : Ref sig .tc := ⟨.hbm, 937, rfl⟩
abbrev main_v623 : Ref sig .tc := ⟨.hbm, 938, rfl⟩
abbrev main_v624 : Ref sig .tc := ⟨.hbm, 939, rfl⟩
abbrev main_v625 : Ref sig .tc := ⟨.hbm, 940, rfl⟩
abbrev main_c_308 : Ref sig .tc := ⟨.hbm, 941, rfl⟩
abbrev main_v626 : Ref sig .tc := ⟨.hbm, 942, rfl⟩
abbrev main_c_309 : Ref sig .tc := ⟨.hbm, 943, rfl⟩
abbrev main_v627 : Ref sig .tc := ⟨.hbm, 944, rfl⟩
abbrev main_v628 : Ref sig .tc := ⟨.hbm, 945, rfl⟩
abbrev main_v629 : Ref sig .tc := ⟨.hbm, 946, rfl⟩
abbrev main_c_310 : Ref sig .tc := ⟨.hbm, 947, rfl⟩
abbrev main_v630 : Ref sig .tc := ⟨.hbm, 948, rfl⟩
abbrev main_c_311 : Ref sig .tc := ⟨.hbm, 949, rfl⟩
abbrev main_v631 : Ref sig .tc := ⟨.hbm, 950, rfl⟩
abbrev main_v632 : Ref sig .tc := ⟨.hbm, 951, rfl⟩
abbrev main_v633 : Ref sig .tc := ⟨.hbm, 952, rfl⟩
abbrev main_c_312 : Ref sig .tc := ⟨.hbm, 953, rfl⟩
abbrev main_v634 : Ref sig .tc := ⟨.hbm, 954, rfl⟩
abbrev main_c_313 : Ref sig .tc := ⟨.hbm, 955, rfl⟩
abbrev main_v635 : Ref sig .tc := ⟨.hbm, 956, rfl⟩
abbrev main_v636 : Ref sig .tc := ⟨.hbm, 957, rfl⟩
abbrev main_v637 : Ref sig .tc := ⟨.hbm, 958, rfl⟩
abbrev main_c_314 : Ref sig .tc := ⟨.hbm, 959, rfl⟩
abbrev main_v638 : Ref sig .tc := ⟨.hbm, 960, rfl⟩
abbrev main_c_315 : Ref sig .tc := ⟨.hbm, 961, rfl⟩
abbrev main_v639 : Ref sig .tc := ⟨.hbm, 962, rfl⟩
abbrev main_v640 : Ref sig .tc := ⟨.hbm, 963, rfl⟩
abbrev main_v641 : Ref sig .tc := ⟨.hbm, 964, rfl⟩
abbrev main_c_316 : Ref sig .tc := ⟨.hbm, 965, rfl⟩
abbrev main_v642 : Ref sig .tc := ⟨.hbm, 966, rfl⟩
abbrev main_c_317 : Ref sig .tc := ⟨.hbm, 967, rfl⟩
abbrev main_v643 : Ref sig .tc := ⟨.hbm, 968, rfl⟩
abbrev main_v644 : Ref sig .tc := ⟨.hbm, 969, rfl⟩
abbrev main_v645 : Ref sig .tc := ⟨.hbm, 970, rfl⟩
abbrev main_c_318 : Ref sig .tc := ⟨.hbm, 971, rfl⟩
abbrev main_v646 : Ref sig .tc := ⟨.hbm, 972, rfl⟩
abbrev main_c_319 : Ref sig .tc := ⟨.hbm, 973, rfl⟩
abbrev main_v647 : Ref sig .tc := ⟨.hbm, 974, rfl⟩
abbrev main_v648 : Ref sig .tc := ⟨.hbm, 975, rfl⟩
abbrev main_v649 : Ref sig .tc := ⟨.hbm, 976, rfl⟩
abbrev main_c_320 : Ref sig .tc := ⟨.hbm, 977, rfl⟩
abbrev main_v650 : Ref sig .tc := ⟨.hbm, 978, rfl⟩
abbrev main_c_321 : Ref sig .tc := ⟨.hbm, 979, rfl⟩
abbrev main_v651 : Ref sig .tc := ⟨.hbm, 980, rfl⟩
abbrev main_v652 : Ref sig .tc := ⟨.hbm, 981, rfl⟩
abbrev main_v653 : Ref sig .tc := ⟨.hbm, 982, rfl⟩
abbrev main_c_322 : Ref sig .tc := ⟨.hbm, 983, rfl⟩
abbrev main_v654 : Ref sig .tc := ⟨.hbm, 984, rfl⟩
abbrev main_c_323 : Ref sig .tc := ⟨.hbm, 985, rfl⟩
abbrev main_v655 : Ref sig .tc := ⟨.hbm, 986, rfl⟩
abbrev main_v656 : Ref sig .tc := ⟨.hbm, 987, rfl⟩
abbrev main_v657 : Ref sig .tc := ⟨.hbm, 988, rfl⟩
abbrev main_c_324 : Ref sig .tc := ⟨.hbm, 989, rfl⟩
abbrev main_v658 : Ref sig .tc := ⟨.hbm, 990, rfl⟩
abbrev main_c_325 : Ref sig .tc := ⟨.hbm, 991, rfl⟩
abbrev main_v659 : Ref sig .tc := ⟨.hbm, 992, rfl⟩
abbrev main_v660 : Ref sig .tc := ⟨.hbm, 993, rfl⟩
abbrev main_v661 : Ref sig .tc := ⟨.hbm, 994, rfl⟩
abbrev main_c_326 : Ref sig .tc := ⟨.hbm, 995, rfl⟩
abbrev main_v662 : Ref sig .tc := ⟨.hbm, 996, rfl⟩
abbrev main_c_327 : Ref sig .tc := ⟨.hbm, 997, rfl⟩
abbrev main_v663 : Ref sig .tc := ⟨.hbm, 998, rfl⟩
abbrev main_v664 : Ref sig .tc := ⟨.hbm, 999, rfl⟩
abbrev main_v665 : Ref sig .tc := ⟨.hbm, 1000, rfl⟩
abbrev main_c_328 : Ref sig .tc := ⟨.hbm, 1001, rfl⟩
abbrev main_v666 : Ref sig .tc := ⟨.hbm, 1002, rfl⟩
abbrev main_c_329 : Ref sig .tc := ⟨.hbm, 1003, rfl⟩
abbrev main_v667 : Ref sig .tc := ⟨.hbm, 1004, rfl⟩
abbrev main_v668 : Ref sig .tc := ⟨.hbm, 1005, rfl⟩
abbrev main_v669 : Ref sig .tc := ⟨.hbm, 1006, rfl⟩
abbrev main_c_330 : Ref sig .tc := ⟨.hbm, 1007, rfl⟩
abbrev main_v670 : Ref sig .tc := ⟨.hbm, 1008, rfl⟩
abbrev main_c_331 : Ref sig .tc := ⟨.hbm, 1009, rfl⟩
abbrev main_v671 : Ref sig .tc := ⟨.hbm, 1010, rfl⟩
abbrev main_v672 : Ref sig .tc := ⟨.hbm, 1011, rfl⟩
abbrev main_v673 : Ref sig .tc := ⟨.hbm, 1012, rfl⟩
abbrev main_c_332 : Ref sig .tc := ⟨.hbm, 1013, rfl⟩
abbrev main_v674 : Ref sig .tc := ⟨.hbm, 1014, rfl⟩
abbrev main_c_333 : Ref sig .tc := ⟨.hbm, 1015, rfl⟩
abbrev main_v675 : Ref sig .tc := ⟨.hbm, 1016, rfl⟩
abbrev main_v676 : Ref sig .tc := ⟨.hbm, 1017, rfl⟩
abbrev main_v677 : Ref sig .tc := ⟨.hbm, 1018, rfl⟩
abbrev main_c_334 : Ref sig .tc := ⟨.hbm, 1019, rfl⟩
abbrev main_v678 : Ref sig .tc := ⟨.hbm, 1020, rfl⟩
abbrev main_c_335 : Ref sig .tc := ⟨.hbm, 1021, rfl⟩
abbrev main_v679 : Ref sig .tc := ⟨.hbm, 1022, rfl⟩
abbrev main_v680 : Ref sig .tc := ⟨.hbm, 1023, rfl⟩
abbrev main_v681 : Ref sig .tc := ⟨.hbm, 1024, rfl⟩
abbrev main_c_336 : Ref sig .tc := ⟨.hbm, 1025, rfl⟩
abbrev main_v682 : Ref sig .tc := ⟨.hbm, 1026, rfl⟩
abbrev main_c_337 : Ref sig .tc := ⟨.hbm, 1027, rfl⟩
abbrev main_v683 : Ref sig .tc := ⟨.hbm, 1028, rfl⟩
abbrev main_v684 : Ref sig .tc := ⟨.hbm, 1029, rfl⟩
abbrev main_v685 : Ref sig .tc := ⟨.hbm, 1030, rfl⟩
abbrev main_c_338 : Ref sig .tc := ⟨.hbm, 1031, rfl⟩
abbrev main_v686 : Ref sig .tc := ⟨.hbm, 1032, rfl⟩
abbrev main_c_339 : Ref sig .tc := ⟨.hbm, 1033, rfl⟩
abbrev main_v687 : Ref sig .tc := ⟨.hbm, 1034, rfl⟩
abbrev main_v688 : Ref sig .tc := ⟨.hbm, 1035, rfl⟩
abbrev main_v689 : Ref sig .tc := ⟨.hbm, 1036, rfl⟩
abbrev main_c_340 : Ref sig .tc := ⟨.hbm, 1037, rfl⟩
abbrev main_v690 : Ref sig .tc := ⟨.hbm, 1038, rfl⟩
abbrev main_c_341 : Ref sig .tc := ⟨.hbm, 1039, rfl⟩
abbrev main_v691 : Ref sig .tc := ⟨.hbm, 1040, rfl⟩
abbrev main_v692 : Ref sig .tc := ⟨.hbm, 1041, rfl⟩
abbrev main_v693 : Ref sig .tc := ⟨.hbm, 1042, rfl⟩
abbrev main_c_342 : Ref sig .tc := ⟨.hbm, 1043, rfl⟩
abbrev main_v694 : Ref sig .tc := ⟨.hbm, 1044, rfl⟩
abbrev main_c_343 : Ref sig .tc := ⟨.hbm, 1045, rfl⟩
abbrev main_v695 : Ref sig .tc := ⟨.hbm, 1046, rfl⟩
abbrev main_v696 : Ref sig .tc := ⟨.hbm, 1047, rfl⟩
abbrev main_v697 : Ref sig .tc := ⟨.hbm, 1048, rfl⟩
abbrev main_c_344 : Ref sig .tc := ⟨.hbm, 1049, rfl⟩
abbrev main_v698 : Ref sig .tc := ⟨.hbm, 1050, rfl⟩
abbrev main_c_345 : Ref sig .tc := ⟨.hbm, 1051, rfl⟩
abbrev main_v699 : Ref sig .tc := ⟨.hbm, 1052, rfl⟩
abbrev main_v700 : Ref sig .tc := ⟨.hbm, 1053, rfl⟩
abbrev main_v701 : Ref sig .tc := ⟨.hbm, 1054, rfl⟩
abbrev main_c_346 : Ref sig .tc := ⟨.hbm, 1055, rfl⟩
abbrev main_v702 : Ref sig .tc := ⟨.hbm, 1056, rfl⟩
abbrev main_c_347 : Ref sig .tc := ⟨.hbm, 1057, rfl⟩
abbrev main_v703 : Ref sig .tc := ⟨.hbm, 1058, rfl⟩
abbrev main_v704 : Ref sig .tc := ⟨.hbm, 1059, rfl⟩
abbrev main_v705 : Ref sig .tc := ⟨.hbm, 1060, rfl⟩
abbrev main_c_348 : Ref sig .tc := ⟨.hbm, 1061, rfl⟩
abbrev main_v706 : Ref sig .tc := ⟨.hbm, 1062, rfl⟩
abbrev main_c_349 : Ref sig .tc := ⟨.hbm, 1063, rfl⟩
abbrev main_v707 : Ref sig .tc := ⟨.hbm, 1064, rfl⟩
abbrev main_v708 : Ref sig .tc := ⟨.hbm, 1065, rfl⟩
abbrev main_v709 : Ref sig .tc := ⟨.hbm, 1066, rfl⟩
abbrev main_c_350 : Ref sig .tc := ⟨.hbm, 1067, rfl⟩
abbrev main_v710 : Ref sig .tc := ⟨.hbm, 1068, rfl⟩
abbrev main_c_351 : Ref sig .tc := ⟨.hbm, 1069, rfl⟩
abbrev main_v711 : Ref sig .tc := ⟨.hbm, 1070, rfl⟩
abbrev main_v712 : Ref sig .tc := ⟨.hbm, 1071, rfl⟩
abbrev main_v713 : Ref sig .tc := ⟨.hbm, 1072, rfl⟩
abbrev main_c_352 : Ref sig .tc := ⟨.hbm, 1073, rfl⟩
abbrev main_v714 : Ref sig .tc := ⟨.hbm, 1074, rfl⟩
abbrev main_c_353 : Ref sig .tc := ⟨.hbm, 1075, rfl⟩
abbrev main_v715 : Ref sig .tc := ⟨.hbm, 1076, rfl⟩
abbrev main_v716 : Ref sig .tc := ⟨.hbm, 1077, rfl⟩
abbrev main_v717 : Ref sig .tc := ⟨.hbm, 1078, rfl⟩
abbrev main_c_354 : Ref sig .tc := ⟨.hbm, 1079, rfl⟩
abbrev main_v718 : Ref sig .tc := ⟨.hbm, 1080, rfl⟩
abbrev main_c_355 : Ref sig .tc := ⟨.hbm, 1081, rfl⟩
abbrev main_v719 : Ref sig .tc := ⟨.hbm, 1082, rfl⟩
abbrev main_v720 : Ref sig .tc := ⟨.hbm, 1083, rfl⟩
abbrev main_v721 : Ref sig .tc := ⟨.hbm, 1084, rfl⟩
abbrev main_c_356 : Ref sig .tc := ⟨.hbm, 1085, rfl⟩
abbrev main_v722 : Ref sig .tc := ⟨.hbm, 1086, rfl⟩
abbrev main_c_357 : Ref sig .tc := ⟨.hbm, 1087, rfl⟩
abbrev main_v723 : Ref sig .tc := ⟨.hbm, 1088, rfl⟩
abbrev main_v724 : Ref sig .tc := ⟨.hbm, 1089, rfl⟩
abbrev main_v725 : Ref sig .tc := ⟨.hbm, 1090, rfl⟩
abbrev main_c_358 : Ref sig .tc := ⟨.hbm, 1091, rfl⟩
abbrev main_v726 : Ref sig .tc := ⟨.hbm, 1092, rfl⟩
abbrev main_c_359 : Ref sig .tc := ⟨.hbm, 1093, rfl⟩
abbrev main_v727 : Ref sig .tc := ⟨.hbm, 1094, rfl⟩
abbrev main_v728 : Ref sig .tc := ⟨.hbm, 1095, rfl⟩
abbrev main_v729 : Ref sig .tc := ⟨.hbm, 1096, rfl⟩
abbrev main_c_360 : Ref sig .tc := ⟨.hbm, 1097, rfl⟩
abbrev main_v730 : Ref sig .tc := ⟨.hbm, 1098, rfl⟩
abbrev main_c_361 : Ref sig .tc := ⟨.hbm, 1099, rfl⟩
abbrev main_v731 : Ref sig .tc := ⟨.hbm, 1100, rfl⟩
abbrev main_v732 : Ref sig .tc := ⟨.hbm, 1101, rfl⟩
abbrev main_v733 : Ref sig .tc := ⟨.hbm, 1102, rfl⟩
abbrev main_c_362 : Ref sig .tc := ⟨.hbm, 1103, rfl⟩
abbrev main_v734 : Ref sig .tc := ⟨.hbm, 1104, rfl⟩
abbrev main_c_363 : Ref sig .tc := ⟨.hbm, 1105, rfl⟩
abbrev main_v735 : Ref sig .tc := ⟨.hbm, 1106, rfl⟩
abbrev main_v736 : Ref sig .tc := ⟨.hbm, 1107, rfl⟩
abbrev main_v737 : Ref sig .tc := ⟨.hbm, 1108, rfl⟩
abbrev main_c_364 : Ref sig .tc := ⟨.hbm, 1109, rfl⟩
abbrev main_v738 : Ref sig .tc := ⟨.hbm, 1110, rfl⟩
abbrev main_c_365 : Ref sig .tc := ⟨.hbm, 1111, rfl⟩
abbrev main_v739 : Ref sig .tc := ⟨.hbm, 1112, rfl⟩
abbrev main_v740 : Ref sig .tc := ⟨.hbm, 1113, rfl⟩
abbrev main_v741 : Ref sig .tc := ⟨.hbm, 1114, rfl⟩
abbrev main_c_366 : Ref sig .tc := ⟨.hbm, 1115, rfl⟩
abbrev main_v742 : Ref sig .tc := ⟨.hbm, 1116, rfl⟩
abbrev main_c_367 : Ref sig .tc := ⟨.hbm, 1117, rfl⟩
abbrev main_v743 : Ref sig .tc := ⟨.hbm, 1118, rfl⟩
abbrev main_v744 : Ref sig .tc := ⟨.hbm, 1119, rfl⟩
abbrev main_v745 : Ref sig .tc := ⟨.hbm, 1120, rfl⟩
abbrev main_c_368 : Ref sig .tc := ⟨.hbm, 1121, rfl⟩
abbrev main_v746 : Ref sig .tc := ⟨.hbm, 1122, rfl⟩
abbrev main_c_369 : Ref sig .tc := ⟨.hbm, 1123, rfl⟩
abbrev main_v747 : Ref sig .tc := ⟨.hbm, 1124, rfl⟩
abbrev main_v748 : Ref sig .tc := ⟨.hbm, 1125, rfl⟩
abbrev main_v749 : Ref sig .tc := ⟨.hbm, 1126, rfl⟩
abbrev main_c_370 : Ref sig .tc := ⟨.hbm, 1127, rfl⟩
abbrev main_v750 : Ref sig .tc := ⟨.hbm, 1128, rfl⟩
abbrev main_c_371 : Ref sig .tc := ⟨.hbm, 1129, rfl⟩
abbrev main_v751 : Ref sig .tc := ⟨.hbm, 1130, rfl⟩
abbrev main_v752 : Ref sig .tc := ⟨.hbm, 1131, rfl⟩
abbrev main_v753 : Ref sig .tc := ⟨.hbm, 1132, rfl⟩
abbrev main_c_372 : Ref sig .tc := ⟨.hbm, 1133, rfl⟩
abbrev main_v754 : Ref sig .tc := ⟨.hbm, 1134, rfl⟩
abbrev main_c_373 : Ref sig .tc := ⟨.hbm, 1135, rfl⟩
abbrev main_v755 : Ref sig .tc := ⟨.hbm, 1136, rfl⟩
abbrev main_v756 : Ref sig .tc := ⟨.hbm, 1137, rfl⟩
abbrev main_v757 : Ref sig .tc := ⟨.hbm, 1138, rfl⟩
abbrev main_v758 : Ref sig .tc := ⟨.hbm, 1139, rfl⟩
abbrev main_v759 : Ref sig .tc := ⟨.hbm, 1140, rfl⟩
abbrev main_v760 : Ref sig .tc := ⟨.hbm, 1141, rfl⟩
abbrev main_v761 : Ref sig .tc := ⟨.hbm, 1142, rfl⟩
abbrev main_v762 : Ref sig .tc := ⟨.hbm, 1143, rfl⟩
abbrev main_v763 : Ref sig .tc := ⟨.hbm, 1144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2016x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1952x1008 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1952 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16384x1x128x3_S16384x128x3 : S16384x1x128x3.ShapeCasts S16384x128x3
  shapeCasts_S16384x128x3_S16384x384 : S16384x128x3.ShapeCasts S16384x384
  transposes_S16384x384_S384x16384_1_0 : S16384x384.Transposes [1, 0] S384x16384
  shapeCasts_S16x1x3x3_S16x3x3 : S16x1x3x3.ShapeCasts S16x3x3
  shapeCasts_S16x3x3_S16x9 : S16x3x3.ShapeCasts S16x9
  bcast_S_S2016x384 : S_.BroadcastsInDim S2016x384 (![] : Fin 0 → Fin S2016x384.rank)
  bcast_S_S1 : S_.BroadcastsInDim S1 (![] : Fin 0 → Fin S1.rank)
  concatenates_S1_S1_S2_d0 : Shape.Concatenates [S1, S1] S2 0
  shapeCasts_S32x16x3x1_S32x16x3 : S32x16x3x1.ShapeCasts S32x16x3
  transposes_S32x16x3_S32x3x16_0_2_1 : S32x16x3.Transposes [0, 2, 1] S32x3x16
  shapeCasts_S32x3x16_S32x48 : S32x3x16.ShapeCasts S32x48
  bcast_S_S1952x1008 : S_.BroadcastsInDim S1952x1008 (![] : Fin 0 → Fin S1952x1008.rank)
  shapeCasts_S128x1952_S128x32x61 : S128x1952.ShapeCasts S128x32x61
  transposes_S128x32x61_S128x61x32_0_2_1 : S128x32x61.Transposes [0, 2, 1] S128x61x32
  shapeCasts_S128x61x32_S128x1952 : S128x61x32.ShapeCasts S128x1952
  shapeCasts_S128_S128x1 : S128.ShapeCasts S128x1
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S2016x384_S2016x384_0_0 : ∀ a, (![0, 0] : Fin 2 → Nat) a + S2016x384.size a ≤ S2016x384.size a
  h_S2016x384 : 0 < S2016x384.numel
  shapeCasts_S2016x384_S2016x384 : S2016x384.ShapeCasts S2016x384
  shapeCasts_S2016x128_S63x2x16x128 : S2016x128.ShapeCasts S63x2x16x128
  slices_S63x2x16x128_o0_0_0_0_S63x1x16x128 : S63x2x16x128.Slices ![0, 0, 0, 0] S63x1x16x128
  shapeCasts_S63x1x16x128_S63x16x128 : S63x1x16x128.ShapeCasts S63x16x128
  slices_S63x2x16x128_o0_1_0_0_S63x1x16x128 : S63x2x16x128.Slices ![0, 1, 0, 0] S63x1x16x128
  shapeCasts_S63x16x128_S1008x128 : S63x16x128.ShapeCasts S1008x128
  inb_S1952x1008_S1952x1008_0_0 : ∀ a, (![0, 0] : Fin 2 → Nat) a + S1952x1008.size a ≤ S1952x1008.size a
  h_S1952x1008 : 0 < S1952x1008.numel
  shapeCasts_S1952x1008_S1952x1008 : S1952x1008.ShapeCasts S1952x1008
  inb_S128x1952_S128x1952_0_0 : ∀ a, (![0, 0] : Fin 2 → Nat) a + S128x1952.size a ≤ S128x1952.size a
  h_S128x1952 : 0 < S128x1952.numel
  shapeCasts_S128x1952_S128x1952 : S128x1952.ShapeCasts S128x1952
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x128 : S128x1.Broadcasts S128x128
  inb_S128x128_S128x128_0_0 : ∀ a, (![0, 0] : Fin 2 → Nat) a + S128x128.size a ≤ S128x128.size a
  h_S128x128 : 0 < S128x128.numel
  transposes_S128x16384_S16384x128_1_0 : S128x16384.Transposes [1, 0] S16384x128
  scatter_S2016x384_S2_S16x9_01_n_01_0_wf : ScatterDims.WF S2016x384 S2 S16x9 [0, 1] [] [0, 1] 0
  scatter_S1952x1008_S2_S32x48_01_n_01_0_wf : ScatterDims.WF S1952x1008 S2 S32x48 [0, 1] [] [0, 1] 0
  dot_S2016x384_S384x128_S2016x128_1_0_0_1_n_n_wf : DotDims.WF S2016x384 S384x128 S2016x128 [1] [0] [0] [1] [] []
  dot_S1952x1008_S1008x128_S1952x128_1_0_0_1_n_n_wf : DotDims.WF S1952x1008 S1008x128 S1952x128 [1] [0] [0] [1] [] []
  dot_S128x1952_S1952x128_S128x128_1_0_0_1_n_n_wf : DotDims.WF S128x1952 S1952x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S384x128.size a ≤ S384x16384.size a
  hwx0_0 : ∀ i : grid0.Coords, EltTy.bits .f32 = 32 ∨ (Rect.block (s := S384x16384) S384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2016x384.size a ≤ S2016x384.size a
  hwx0_1 : ∀ i : grid0.Coords, EltTy.bits .f32 = 32 ∨ (Rect.block (s := S2016x384) S2016x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1952x1008.size a ≤ S1952x1008.size a
  hwx0_2 : ∀ i : grid0.Coords, EltTy.bits .f32 = 32 ∨ (Rect.block (s := S1952x1008) S1952x1008.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1952.size a ≤ S128x1952.size a
  hwx0_3 : ∀ i : grid0.Coords, EltTy.bits .f32 = 32 ∨ (Rect.block (s := S128x1952) S128x1952.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x16384.size a
  hwx0_5 : ∀ i : grid0.Coords, EltTy.bits .f32 = 32 ∨ (Rect.block (s := S128x16384) S128x128.size (cc0_transform_5 i) (hinb0_5 i)).WholeWords (EltTy.packing .f32)

variable [Facts₀]

def scatter_S2016x384_S2_S16x9_01_n_01_0 : ScatterDims S2016x384 S2 S16x9 where
  updateWindowDims := [0, 1]
  insertedWindowDims := []
  scatterDimsToOperandDims := [0, 1]
  indexVectorDim := 0
  wf := scatter_S2016x384_S2_S16x9_01_n_01_0_wf
def scatter_S1952x1008_S2_S32x48_01_n_01_0 : ScatterDims S1952x1008 S2 S32x48 where
  updateWindowDims := [0, 1]
  insertedWindowDims := []
  scatterDimsToOperandDims := [0, 1]
  indexVectorDim := 0
  wf := scatter_S1952x1008_S2_S32x48_01_n_01_0_wf
def dot_S2016x384_S384x128_S2016x128_1_0_0_1_n_n : DotDims S2016x384 S384x128 S2016x128 where
  lhsContracting := [1]
  rhsContracting := [0]
  lhsNonContracting := [0]
  rhsNonContracting := [1]
  lhsBatch := []
  rhsBatch := []
  wf := dot_S2016x384_S384x128_S2016x128_1_0_0_1_n_n_wf
def dot_S1952x1008_S1008x128_S1952x128_1_0_0_1_n_n : DotDims S1952x1008 S1008x128 S1952x128 where
  lhsContracting := [1]
  rhsContracting := [0]
  lhsNonContracting := [0]
  rhsNonContracting := [1]
  lhsBatch := []
  rhsBatch := []
  wf := dot_S1952x1008_S1008x128_S1952x128_1_0_0_1_n_n_wf
def dot_S128x1952_S1952x128_S128x128_1_0_0_1_n_n : DotDims S128x1952 S1952x128 S128x128 where
  lhsContracting := [1]
  rhsContracting := [0]
  lhsNonContracting := [0]
  rhsNonContracting := [1]
  lhsBatch := []
  rhsBatch := []
  wf := dot_S128x1952_S1952x128_S128x128_1_0_0_1_n_n_wf

abbrev win0_0 : Pipeline.Window sig grid0 :=
  Pipeline.Window.ofSpec (Memref.whole main_v2) S384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v509) S2016x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v757) S1952x1008.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v760) S128x1952.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v761) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v762) S128x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.KerBlocks.lean ====
import proofs.«169050_g2000504127106898_pallasbulk_898_40_alg».proof.Proof.Gen.KernelIdeal.Value
import Idealize.ShloMosaic.Lib.ValueIdx

/-! # From the blocks to the arrays

The fused call runs over a grid of eight points. Point `t` reads columns `2048 t … 2048 t + 2047` of the images'
array and the five weight arrays whole, and writes rows `2048 t … 2048 t + 2047` of the result. So an entry `(N, o)`
of the result after the run is entry `(N mod 2048, o)` of what point `N / 2048` wrote, and each block a point reads
is the array it is cut from, read at the block's place. -/

noncomputable section

namespace Cert.KernelIdeal.Glue

open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-- The grid has eight points. -/
theorem pt_lt (t : Fin cfg0.N) : t.val < 8 := lt_of_lt_of_eq t.isLt Gen.N_0

/-- The point whose block holds row `N` of the result. -/
abbrev pt (N : Fin 16384) : Fin cfg0.N := ⟨N.val / 2048, by rw [show cfg0.N = 8 from Gen.N_0]; omega⟩

/-! ## The index maps, decided over the grid -/

theorem idx0 : ∀ t : Fin cfg0.N, win0_0.index t (0 : Fin 2) = 0 ∧ win0_0.index t (1 : Fin 2) = t.val :=
  (by decide +kernel : ∀ t : Fin grid0.N, _)

theorem idx6 : ∀ t : Fin cfg0.N, win0_6.index t (0 : Fin 2) = t.val ∧ win0_6.index t (1 : Fin 2) = 0 :=
  (by decide +kernel : ∀ t : Fin grid0.N, _)

/-! ## The result's entries -/

/-- Entry `(N, o)` of the result after the run is entry `(N mod 2048, o)` of what point `N / 2048` stores. -/
theorem result_entry (N : Fin 16384) (o : Fin 128) :
    ((Gen.dats (F := Ideal) m 0 c).arrAt 6 cfg0.N : S16384x128.Idx → EReal) (ix2 N o)
      = (Gen.out0_6 (Gen.iblk m c 0 (pt N)) (Gen.iblk m c 1 (pt N)) (Gen.iblk m c 2 (pt N)) (Gen.iblk m c 3 (pt N))
          (Gen.iblk m c 4 (pt N)) (Gen.iblk m c 5 (pt N)) : S2048x128.Idx → EReal)
          (ix2 (⟨N.val % 2048, Nat.mod_lt _ (by decide)⟩ : Fin 2048) o) := by
  obtain ⟨e0, e1⟩ := idx6 (pt N)
  have hemb : ((cfg0.win 6).blk (pt N)).view.emb (ix2 (⟨N.val % 2048, Nat.mod_lt _ (by decide)⟩ : Fin 2048) o : S2048x128.Idx)
      = (ix2 N o : S16384x128.Idx) := by
    funext a
    apply Fin.ext
    match a with
    | ⟨0, _⟩ =>
      show win0_6.index (pt N) (0 : Fin 2) * 2048 + 1 * (N.val % 2048) = N.val
      rw [e0]
      show N.val / 2048 * 2048 + 1 * (N.val % 2048) = N.val
      omega
    | ⟨1, _⟩ =>
      show win0_6.index (pt N) (1 : Fin 2) * 128 + 1 * o.val = o.val
      rw [e1]
      omega
  refine (congrArg _ hemb.symm).trans ?_
  refine ((Gen.dats m 0 c).arrAt_emb_eq_flushed 6 Value.disjoint6 (pt N) (Gen.flush0_6 (pt N)) _).trans ?_
  rw [Value.flushed6]
  generalize Gen.out0_6 (F := Ideal) _ _ _ _ _ _ = X
  rfl

/-! ## The blocks a point reads -/

/-- Window 0's block at point `t` is columns `2048 t …` of the images' array. -/
theorem iblk0_entry (t : Fin cfg0.N) (r : Fin 384) (nl : Fin 2048) :
    (Gen.iblk (F := Ideal) m c 0 t : S384x2048.Idx → EReal) (ix2 r nl)
      = (Gen.V (F := Ideal) m c main_v2 : S384x16384.Idx → EReal)
          (ix2 r (⟨2048 * t.val + nl.val, by have := pt_lt t; omega⟩ : Fin 16384)) := by
  obtain ⟨e0, e1⟩ := idx0 t
  unfold Gen.iblk
  rw [View.read_apply]
  show Gen.V m c main_v2 (((cfg0.win 0).blk t).view.emb (ix2 r nl)) = Gen.V m c main_v2 _
  refine congrArg _ (funext fun a => Fin.ext ?_)
  match a with
  | ⟨0, _⟩ => show win0_0.index t (0 : Fin 2) * 384 + 1 * r.val = r.val; omega
  | ⟨1, _⟩ => show win0_0.index t (1 : Fin 2) * 2048 + 1 * nl.val = 2048 * t.val + nl.val; omega

theorem idx1 : ∀ t : Fin cfg0.N, win0_1.index t (0 : Fin 2) = 0 ∧ win0_1.index t (1 : Fin 2) = 0 :=
  (by decide +kernel : ∀ t : Fin grid0.N, _)

/-- Window 1's block is the whole array at every point. -/
theorem iblk1_eq (t : Fin cfg0.N) : (Gen.iblk (F := Ideal) m c 1 t : S1024x200.Idx → EReal) = Gen.V (F := Ideal) m c main_v14 := by
  obtain ⟨e0, e1⟩ := idx1 t
  funext y
  unfold Gen.iblk
  rw [View.read_apply]
  show Gen.V m c main_v14 (((cfg0.win 1).blk t).view.emb y) = Gen.V m c main_v14 y
  refine congrArg _ (funext fun a => Fin.ext ?_)
  match a with
  | ⟨0, _⟩ => show win0_1.index t (0 : Fin 2) * 1024 + 1 * (y 0).val = (y 0).val; omega
  | ⟨1, _⟩ => show win0_1.index t (1 : Fin 2) * 200 + 1 * (y 1).val = (y 1).val; omega

theorem idx2 : ∀ t : Fin cfg0.N, win0_2.index t (0 : Fin 2) = 0 ∧ win0_2.index t (1 : Fin 2) = 0 :=
  (by decide +kernel : ∀ t : Fin grid0.N, _)

/-- Window 2's block is the whole array at every point. -/
theorem iblk2_eq (t : Fin cfg0.N) : (Gen.iblk (F := Ideal) m c 2 t : S992x192.Idx → EReal) = Gen.V (F := Ideal) m c main_v24 := by
  obtain ⟨e0, e1⟩ := idx2 t
  funext y
  unfold Gen.iblk
  rw [View.read_apply]
  show Gen.V m c main_v24 (((cfg0.win 2).blk t).view.emb y) = Gen.V m c main_v24 y
  refine congrArg _ (funext fun a => Fin.ext ?_)
  match a with
  | ⟨0, _⟩ => show win0_2.index t (0 : Fin 2) * 992 + 1 * (y 0).val = (y 0).val; omega
  | ⟨1, _⟩ => show win0_2.index t (1 : Fin 2) * 192 + 1 * (y 1).val = (y 1).val; omega

theorem idx3 : ∀ t : Fin cfg0.N, win0_3.index t (0 : Fin 2) = 0 ∧ win0_3.index t (1 : Fin 2) = 0 :=
  (by decide +kernel : ∀ t : Fin grid0.N, _)

/-- Window 3's block is the whole array at every point. -/
theorem iblk3_eq (t : Fin cfg0.N) : (Gen.iblk (F := Ideal) m c 3 t : S416x240.Idx → EReal) = Gen.V (F := Ideal) m c main_v37 := by
  obtain ⟨e0, e1⟩ := idx3 t
  funext y
  unfold Gen.iblk
  rw [View.read_apply]
  show Gen.V m c main_v37 (((cfg0.win 3).blk t).view.emb y) = Gen.V m c main_v37 y
  refine congrArg _ (funext fun a => Fin.ext ?_)
  match a with
  | ⟨0, _⟩ => show win0_3.index t (0 : Fin 2) * 416 + 1 * (y 0).val = (y 0).val; omega
  | ⟨1, _⟩ => show win0_3.index t (1 : Fin 2) * 240 + 1 * (y 1).val = (y 1).val; omega

theorem idx4 : ∀ t : Fin cfg0.N, win0_4.index t (0 : Fin 2) = 0 ∧ win0_4.index t (1 : Fin 2) = 0 :=
  (by decide +kernel : ∀ t : Fin grid0.N, _)

/-- Window 4's block is the whole array at every point. -/
theorem iblk4_eq (t : Fin cfg0.N) : (Gen.iblk (F := Ideal) m c 4 t : S128x2080.Idx → EReal) = Gen.V (F := Ideal) m c main_v41 := by
  obtain ⟨e0, e1⟩ := idx4 t
  funext y
  unfold Gen.iblk
  rw [View.read_apply]
  show Gen.V m c main_v41 (((cfg0.win 4).blk t).view.emb y) = Gen.V m c main_v41 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 2080 + 1 * (y 1).val = (y 1).val; omega

theorem idx5 : ∀ t : Fin cfg0.N, win0_5.index t (0 : Fin 2) = 0 ∧ win0_5.index t (1 : Fin 2) = 0 :=
  (by decide +kernel : ∀ t : Fin grid0.N, _)

/-- Window 5's block is the whole array at every point. -/
theorem iblk5_eq (t : Fin cfg0.N) : (Gen.iblk (F := Ideal) m c 5 t : S128x1.Idx → EReal) = Gen.V (F := Ideal) m c main_v42 := by
  obtain ⟨e0, e1⟩ := idx5 t
  funext y
  unfold Gen.iblk
  rw [View.read_apply]
  show Gen.V m c main_v42 (((cfg0.win 5).blk t).view.emb y) = Gen.V m c main_v42 y
  refine congrArg _ (funext fun a => Fin.ext ?_)
  match a with
  | ⟨0, _⟩ => show win0_5.index t (0 : Fin 2) * 128 + 1 * (y 0).val = (y 0).val; omega
  | ⟨1, _⟩ => show win0_5.index t (1 : Fin 2) * 1 + 1 * (y 1).val = (y 1).val; omega

end Cert.KernelIdeal.Glue

end
-- ==== Proof.KerArgsLayout.lean ====
import Idealize.ShloMosaic.Lib.ValueIdx
import Idealize.ShloMosaic.Lib.ValueLayout
import Idealize.ShloMosaic.Lib.KernelVsHost
import Idealize.ShloMosaic.Lib.Pipeline.Value

/-! # The arguments' repacking, read entry by entry

Both programs repack their five arguments with pure layout operations before the fused call: reshapes
(row-major position kept), transposes (coordinates permuted), and, on one side, a zero padding of the last axis.
Each lemma here reads one such chain at an index written by its coordinates and names the entry of the raw
argument found there. The shapes are the literal ones of the two programs; the element type is arbitrary. -/

namespace Cert.ArgsLayout

open Idealize.ShloMosaic Idealize.ShloMosaic.ValueIdx

variable {α : Type}

/-- The images `[N, 1, 128, 3] → [N, 128, 3] → [N, 384] → transposed [384, N]`: row `r = 3 h + w`, column `n`
    holds pixel `(h, w)` of image `n`. -/
theorem xs_read (x : (⟨4, ![16384, 1, 128, 3]⟩ : Shape).Idx → α)
    (h1 : (⟨4, ![16384, 1, 128, 3]⟩ : Shape).ShapeCasts ⟨3, ![16384, 128, 3]⟩)
    (h2 : (⟨3, ![16384, 128, 3]⟩ : Shape).ShapeCasts ⟨2, ![16384, 384]⟩)
    (h3 : (⟨2, ![16384, 384]⟩ : Shape).Transposes [1, 0] ⟨2, ![384, 16384]⟩)
    (r : Fin 384) (n : Fin 16384) :
    transpose ⟨2, ![384, 16384]⟩ [1, 0]
        (shapeCast ⟨2, ![16384, 384]⟩ (shapeCast ⟨3, ![16384, 128, 3]⟩ x h1) h2) h3 (ix2 r n)
      = x (ix4 n (0 : Fin 1) (⟨r.val / 3, by omega⟩ : Fin 128) (⟨r.val % 3, by omega⟩ : Fin 3)) := by
  refine (transpose_ix2_apply _ h3 r n).trans ?_
  refine (shapeCast_apply _ h2 _ (ix3 n (⟨r.val / 3, by omega⟩ : Fin 128) (⟨r.val % 3, by omega⟩ : Fin 3)) ?_).trans ?_
  · rw [Shape.rowMajor_val_three, Shape.rowMajor_val_two]
    show (n.val * 128 + r.val / 3) * 3 + r.val % 3 = n.val * 384 + r.val
    omega
  · refine shapeCast_apply _ h1 _ _ ?_
    rw [Shape.rowMajor_val_four, Shape.rowMajor_val_three]
    show ((n.val * 1 + 0) * 128 + r.val / 3) * 3 + r.val % 3 = (n.val * 128 + r.val / 3) * 3 + r.val % 3
    omega

/-- The first convolution's weights `[16, 1, 3, 3] → [16, 3, 3] → [16, 9]`: column `k = 3 kh + kw`. -/
theorem blk1_read (x : (⟨4, ![16, 1, 3, 3]⟩ : Shape).Idx → α)
    (h1 : (⟨4, ![16, 1, 3, 3]⟩ : Shape).ShapeCasts ⟨3, ![16, 3, 3]⟩)
    (h2 : (⟨3, ![16, 3, 3]⟩ : Shape).ShapeCasts ⟨2, ![16, 9]⟩)
    (ch : Fin 16) (k : Fin 9) :
    shapeCast ⟨2, ![16, 9]⟩ (shapeCast ⟨3, ![16, 3, 3]⟩ x h1) h2 (ix2 ch k)
      = x (ix4 ch (0 : Fin 1) (⟨k.val / 3, by omega⟩ : Fin 3) (⟨k.val % 3, by omega⟩ : Fin 3)) := by
  refine (shapeCast_apply _ h2 _ (ix3 ch (⟨k.val / 3, by omega⟩ : Fin 3) (⟨k.val % 3, by omega⟩ : Fin 3)) ?_).trans ?_
  · rw [Shape.rowMajor_val_three, Shape.rowMajor_val_two]
    show (ch.val * 3 + k.val / 3) * 3 + k.val % 3 = ch.val * 9 + k.val
    omega
  · refine shapeCast_apply _ h1 _ _ ?_
    rw [Shape.rowMajor_val_four, Shape.rowMajor_val_three]
    show ((ch.val * 1 + 0) * 3 + k.val / 3) * 3 + k.val % 3 = (ch.val * 3 + k.val / 3) * 3 + k.val % 3
    omega

/-- The second convolution's weights `[32, 16, 3, 1] → [32, 16, 3] → transposed [32, 3, 16] → [32, 48]`:
    column `k = 16 kh + c`. -/
theorem blk2_read (x : (⟨4, ![32, 16, 3, 1]⟩ : Shape).Idx → α)
    (h1 : (⟨4, ![32, 16, 3, 1]⟩ : Shape).ShapeCasts ⟨3, ![32, 16, 3]⟩)
    (h2 : (⟨3, ![32, 16, 3]⟩ : Shape).Transposes [0, 2, 1] ⟨3, ![32, 3, 16]⟩)
    (h3 : (⟨3, ![32, 3, 16]⟩ : Shape).ShapeCasts ⟨2, ![32, 48]⟩)
    (o : Fin 32) (k : Fin 48) :
    shapeCast ⟨2, ![32, 48]⟩ (transpose ⟨3, ![32, 3, 16]⟩ [0, 2, 1] (shapeCast ⟨3, ![32, 16, 3]⟩ x h1) h2) h3 (ix2 o k)
      = x (ix4 o (⟨k.val % 16, by omega⟩ : Fin 16) (⟨k.val / 16, by omega⟩ : Fin 3) (0 : Fin 1)) := by
  refine (shapeCast_apply _ h3 _ (ix3 o (⟨k.val / 16, by omega⟩ : Fin 3) (⟨k.val % 16, by omega⟩ : Fin 16)) ?_).trans ?_
  · rw [Shape.rowMajor_val_three, Shape.rowMajor_val_two]
    show (o.val * 3 + k.val / 16) * 16 + k.val % 16 = o.val * 48 + k.val
    omega
  · refine (transpose_ix3_021_apply _ h2 o _ _).trans ?_
    refine shapeCast_apply _ h1 _ _ ?_
    rw [Shape.rowMajor_val_four, Shape.rowMajor_val_three]
    show ((o.val * 16 + k.val % 16) * 3 + k.val / 16) * 1 + 0 = (o.val * 16 + k.val % 16) * 3 + k.val / 16
    omega

/-- The bias `[128] → [128, 1]`. -/
theorem bias_read (x : (⟨1, ![128]⟩ : Shape).Idx → α)
    (h : (⟨1, ![128]⟩ : Shape).ShapeCasts ⟨2, ![128, 1]⟩) (o : Fin 128) :
    shapeCast ⟨2, ![128, 1]⟩ x h (ix2 o (0 : Fin 1)) = x (ix1 o) := by
  refine shapeCast_apply _ h _ _ ?_
  rw [Shape.rowMajor_val_two, Shape.rowMajor_val_one]
  show o.val = o.val * 1 + 0
  omega

/-- The dense layer's weights `[128, 1952] → [128, 32, 61] → transposed [128, 61, 32] → [128, 1952]`: column
    `32 j + c` holds the raw column `61 c + j`. -/
theorem wfc_read (x : (⟨2, ![128, 1952]⟩ : Shape).Idx → α)
    (h1 : (⟨2, ![128, 1952]⟩ : Shape).ShapeCasts ⟨3, ![128, 32, 61]⟩)
    (h2 : (⟨3, ![128, 32, 61]⟩ : Shape).Transposes [0, 2, 1] ⟨3, ![128, 61, 32]⟩)
    (h3 : (⟨3, ![128, 61, 32]⟩ : Shape).ShapeCasts ⟨2, ![128, 1952]⟩)
    (o : Fin 128) (j : Fin 61) (oc : Fin 32) :
    shapeCast ⟨2, ![128, 1952]⟩ (transpose ⟨3, ![128, 61, 32]⟩ [0, 2, 1] (shapeCast ⟨3, ![128, 32, 61]⟩ x h1) h2) h3
        (ix2 o (⟨32 * j.val + oc.val, by omega⟩ : Fin 1952))
      = x (ix2 o (⟨61 * oc.val + j.val, by omega⟩ : Fin 1952)) := by
  refine (shapeCast_apply _ h3 _ (ix3 o j oc) ?_).trans ?_
  · rw [Shape.rowMajor_val_three, Shape.rowMajor_val_two]
    show (o.val * 61 + j.val) * 32 + oc.val = o.val * 1952 + (32 * j.val + oc.val)
    omega
  · refine (transpose_ix3_021_apply _ h2 o j oc).trans ?_
    refine shapeCast_apply _ h1 _ _ ?_
    rw [Shape.rowMajor_val_two, Shape.rowMajor_val_three]
    show o.val * 1952 + (61 * oc.val + j.val) = (o.val * 32 + oc.val) * 61 + j.val
    omega

/-- The same weights with the `61` positions padded to `65` by `z` before the transpose,
    `[128, 1952] → [128, 32, 61] → padded [128, 32, 65] → transposed [128, 65, 32] → [128, 2080]`: column `32 j + c`
    holds the raw column `61 c + j` for `j < 61`, and the padding value past it. -/
theorem wfc_pad_read (x : (⟨2, ![128, 1952]⟩ : Shape).Idx → α) (z : (⟨0, ![]⟩ : Shape).Idx → α)
    (h1 : (⟨2, ![128, 1952]⟩ : Shape).ShapeCasts ⟨3, ![128, 32, 61]⟩)
    (hp : (⟨3, ![128, 32, 61]⟩ : Shape).Pads (![0, 0, 0] : Fin 3 → Nat) ![0, 0, 4] ![0, 0, 0] ⟨3, ![128, 32, 65]⟩)
    (hu : 0 < (⟨0, ![]⟩ : Shape).numel)
    (h2 : (⟨3, ![128, 32, 65]⟩ : Shape).Transposes [0, 2, 1] ⟨3, ![128, 65, 32]⟩)
    (h3 : (⟨3, ![128, 65, 32]⟩ : Shape).ShapeCasts ⟨2, ![128, 2080]⟩)
    (o : Fin 128) (j : Fin 65) (oc : Fin 32) :
    shapeCast ⟨2, ![128, 2080]⟩ (transpose ⟨3, ![128, 65, 32]⟩ [0, 2, 1]
        (pad ⟨3, ![128, 32, 65]⟩ ![0, 0, 0] ![0, 0, 4] ![0, 0, 0] (shapeCast ⟨3, ![128, 32, 61]⟩ x h1) z hp hu) h2) h3
        (ix2 o (⟨32 * j.val + oc.val, by omega⟩ : Fin 2080))
      = if h : j.val < 61 then x (ix2 o (⟨61 * oc.val + j.val, by omega⟩ : Fin 1952)) else z ix0 := by
  refine (shapeCast_apply _ h3 _ (ix3 o j oc) ?_).trans ?_
  · rw [Shape.rowMajor_val_three, Shape.rowMajor_val_two]
    show (o.val * 65 + j.val) * 32 + oc.val = o.val * 2080 + (32 * j.val + oc.val)
    omega
  refine (transpose_ix3_021_apply _ h2 o j oc).trans ?_
  by_cases h : j.val < 61
  · rw [dif_pos h]
    refine (pad_apply_of_inside _ _ _ _ z hp hu _ (ix3 o oc (⟨j.val, h⟩ : Fin 61)) ?_).trans ?_
    · intro a
      match a with
      | ⟨0, _⟩ => show o.val = 0 + o.val * (0 + 1); omega
      | ⟨1, _⟩ => show oc.val = 0 + oc.val * (0 + 1); omega
      | ⟨2, _⟩ => show j.val = 0 + j.val * (0 + 1); omega
    · refine shapeCast_apply _ h1 _ _ ?_
      rw [Shape.rowMajor_val_two, Shape.rowMajor_val_three]
      show o.val * 1952 + (61 * oc.val + j.val) = (o.val * 32 + oc.val) * 61 + j.val
      omega
  · rw [dif_neg h]
    refine (pad_apply_of_not_inside _ _ _ _ z hp hu _ (2 : Fin 3) ?_).trans ?_
    · show ¬(0 ≤ j.val ∧ (j.val - 0) % (0 + 1) = 0 ∧ (j.val - 0) / (0 + 1) < 61)
      omega
    · exact congrArg z (eq_ix0 _)

end Cert.ArgsLayout
-- ==== Proof.KerArgs.lean ====
import proofs.«169050_g2000504127106898_pallasbulk_898_40_alg».proof.Proof.Gen.KernelIdeal.Frame
import proofs.«169050_g2000504127106898_pallasbulk_898_40_alg».proof.Proof.KerArgsLayout

/-! # The fused call's operands, entry by entry

Each operand of the fused call that is a pure repacking of an argument — the images, the two convolutions' weight
blocks, the dense layer's weights (here with the 61 positions padded to 65 by zeros) and the bias — read at an index:
first as the composition of the layout operations that build it from the argument as launched, then, by the layout
lemmas, as one entry of that argument. -/

noncomputable section

namespace Cert.KernelIdeal.Glue

open Idealize.ShloMosaic Idealize.ShloMosaic.TcCoe Idealize.SL.Sem Idealize.ShloMosaic.ValueIdx

variable (m : (ℓ : Loc nD τ sig) → Buf (Elt Ideal) ℓ) (c : Dev nD)

/-! ## Each operand as layout operations over the argument -/

theorem v2_eq : (Gen.V (F := Ideal) m c main_v2 : S384x16384.Idx → EReal)
    = transpose S384x16384 [1, 0] (shapeCast S16384x384 (shapeCast S16384x128x3
        (m ((c : Thread nD τ).loc main_arg0) : S16384x1x128x3.Idx → EReal) Gen.shapeCasts_S16384x1x128x3_S16384x128x3)
        Gen.shapeCasts_S16384x128x3_S16384x384) Gen.transposes_S16384x384_S384x16384_1_0 := by
  dsimp only [Gen.V]
  simp only [Gen.hostOps0, Gen.hostOps0_1, Gen.hostOps0_2, List.flatten_cons, List.flatten_nil, List.append_nil, List.cons_append, List.nil_append]
  after_results
  rfl

theorem v4_eq : (Gen.V (F := Ideal) m c main_v4 : S16x9.Idx → EReal)
    = shapeCast S16x9 (shapeCast S16x3x3 (m ((c : Thread nD τ).loc main_arg1) : S16x1x3x3.Idx → EReal)
        Gen.shapeCasts_S16x1x3x3_S16x3x3) Gen.shapeCasts_S16x3x3_S16x9 := by
  dsimp only [Gen.V]
  simp only [Gen.hostOps0, Gen.hostOps0_1, Gen.hostOps0_2, List.flatten_cons, List.flatten_nil, List.append_nil, List.cons_append, List.nil_append]
  after_results
  rfl

theorem v27_eq : (Gen.V (F := Ideal) m c main_v27 : S32x48.Idx → EReal)
    = shapeCast S32x48 (transpose S32x3x16 [0, 2, 1] (shapeCast S32x16x3
        (m ((c : Thread nD τ).loc main_arg2) : S32x16x3x1.Idx → EReal) Gen.shapeCasts_S32x16x3x1_S32x16x3)
        Gen.transposes_S32x16x3_S32x3x16_0_2_1) Gen.shapeCasts_S32x3x16_S32x48 := by
  dsimp only [Gen.V]
  simp only [Gen.hostOps0, Gen.hostOps0_1, Gen.hostOps0_2, List.flatten_cons, List.flatten_nil, List.append_nil, List.cons_append, List.nil_append]
  after_results
  rfl

theorem v41_eq : (Gen.V (F := Ideal) m c main_v41 : S128x2080.Idx → EReal)
    = shapeCast S128x2080 (transpose S128x65x32 [0, 2, 1]
        (pad S128x32x65 ![0, 0, 0] ![0, 0, 4] ![0, 0, 0]
          (shapeCast S128x32x61 (m ((c : Thread nD τ).loc main_arg3) : S128x1952.Idx → EReal) Gen.shapeCasts_S128x1952_S128x32x61)
          (sitofp (F := Ideal) .f32 (constantI S_ 32 0#32)) Gen.pads_S128x32x61_S128x32x65_000_000_040 Gen.h_S_)
        Gen.transposes_S128x32x65_S128x65x32_0_2_1) Gen.shapeCasts_S128x65x32_S128x2080 := by
  dsimp only [Gen.V]
  simp only [Gen.hostOps0, Gen.hostOps0_1, Gen.hostOps0_2, List.flatten_cons, List.flatten_nil, List.append_nil, List.cons_append, List.nil_append]
  after_results
  rfl

theorem v42_eq : (Gen.V (F := Ideal) m c main_v42 : S128x1.Idx → EReal)
    = shapeCast S128x1 (m ((c : Thread nD τ).loc main_arg4) : S128.Idx → EReal) Gen.shapeCasts_S128_S128x1 := by
  dsimp only [Gen.V]
  simp only [Gen.hostOps0, Gen.hostOps0_1, Gen.hostOps0_2, List.flatten_cons, List.flatten_nil, List.append_nil, List.cons_append, List.nil_append]
  after_results
  rfl

/-! ## Each operand at an index -/

/-- The padding value: the integer zero converted, the real zero. -/
theorem pad_value : (sitofp (F := Ideal) .f32 (constantI S_ 32 0#32) : S_.Idx → EReal) ix0 = 0 := by
  show (((0#32 : BitVec 32).toInt : ℝ) : EReal) = 0
  simp

/-- The dense layer's weights, padded: column `32 j + c` is the raw column `61 c + j` for `j < 61`, zero past it. -/
theorem wfcK_apply (o : Fin 128) (j : Fin 65) (oc : Fin 32) :
    (Gen.V (F := Ideal) m c main_v41 : S128x2080.Idx → EReal) (ix2 o ⟨32 * j.val + oc.val, by omega⟩)
      = if h : j.val < 61 then (m ((c : Thread nD τ).loc main_arg3) : S128x1952.Idx → EReal) (ix2 o ⟨61 * oc.val + j.val, by omega⟩)
        else (0 : EReal) := by
  rw [v41_eq]
  refine (ArgsLayout.wfc_pad_read _ _ _ _ _ _ _ o j oc).trans ?_
  by_cases h : j.val < 61
  · rw [dif_pos h, dif_pos h]
  · rw [dif_neg h, dif_neg h]; exact pad_value

/-- The images: row `3 h + w`, column `n` is pixel `(h, w)` of image `n`. -/
theorem xsK_apply (r : Fin 384) (n : Fin 16384) :
    (Gen.V (F := Ideal) m c main_v2 : S384x16384.Idx → EReal) (ix2 r n)
      = (m ((c : Thread nD τ).loc main_arg0) : S16384x1x128x3.Idx → EReal) (ix4 n 0 ⟨r.val / 3, by omega⟩ ⟨r.val % 3, by omega⟩) := by
  rw [v2_eq]
  exact ArgsLayout.xs_read _ _ _ _ r n

/-- The first convolution's block: column `3 kh + kw`. -/
theorem blk1K_apply (ch : Fin 16) (k : Fin 9) :
    (Gen.V (F := Ideal) m c main_v4 : S16x9.Idx → EReal) (ix2 ch k)
      = (m ((c : Thread nD τ).loc main_arg1) : S16x1x3x3.Idx → EReal) (ix4 ch 0 ⟨k.val / 3, by omega⟩ ⟨k.val % 3, by omega⟩) := by
  rw [v4_eq]
  exact ArgsLayout.blk1_read _ _ _ ch k

/-- The second convolution's block: column `16 kh + c`. -/
theorem blk2K_apply (o : Fin 32) (k : Fin 48) :
    (Gen.V (F := Ideal) m c main_v27 : S32x48.Idx → EReal) (ix2 o k)
      = (m ((c : Thread nD τ).loc main_arg2) : S32x16x3x1.Idx → EReal) (ix4 o ⟨k.val % 16, by omega⟩ ⟨k.val / 16, by omega⟩ 0) := by
  rw [v27_eq]
  exact ArgsLayout.blk2_read _ _ _ _ o k

/-- The bias as a column. -/
theorem biasK_apply (o : Fin 128) :
    (Gen.V (F := Ideal) m c main_v42 : S128x1.Idx → EReal) (ix2 o 0)
      = (m ((c : Thread nD τ).loc main_arg4) : S128.Idx → EReal) (ix1 o) := by
  rw [v42_eq]
  exact ArgsLayout.bias_read _ _ o

end Cert.KernelIdeal.Glue

end
-- ==== Proof.KerBandsScatter.lean ====
import Idealize.ShloMosaic.Lib.ValueIdx
import Idealize.ShloMosaic.Lib.Pipeline.Value
import Idealize.ShloMosaic.Lib.StableHlo.Run

noncomputable section

namespace Cert.KernelIdeal.Glue

open Idealize.ShloMosaic Idealize.ShloMosaic.ValueIdx

section Fold
variable {s si u : Shape} {w : Nat} {α : Type}

/-- No update index lands on `p`: the operand's element stays. -/
theorem scatter_set_miss (d : ScatterDims s si u) (x : s.Idx → α) (idx : IVec si w) (upd : u.Idx → α) (p : s.Idx)
    (hmiss : ∀ j, d.resultIdx? j idx ≠ some p) : Host.scatter d (fun _ b => b) x idx upd p = x p := by
  unfold Host.scatter
  generalize List.finRange u.numel = L
  induction L generalizing x with
  | nil => rfl
  | cons n L ih =>
    rw [List.foldl_cons, ih]
    have hn := hmiss (u.rowMajor.symm n)
    cases hg : d.resultIdx? (u.rowMajor.symm n) idx with
    | none => rfl
    | some i =>
      have hpi : ¬ p = i := fun h => hn (by rw [hg, h])
      show (if p = i then _ else x p) = x p
      rw [if_neg hpi]

/-- Exactly one update index, `j₀`, lands on `p`: the result holds that update. -/
theorem scatter_set_hit (d : ScatterDims s si u) (x : s.Idx → α) (idx : IVec si w) (upd : u.Idx → α) (p : s.Idx) (j₀ : u.Idx)
    (h0 : d.resultIdx? j₀ idx = some p) (huniq : ∀ j, d.resultIdx? j idx = some p → j = j₀) :
    Host.scatter d (fun _ b => b) x idx upd p = upd j₀ := by
  unfold Host.scatter
  have hmem : u.rowMajor j₀ ∈ List.finRange u.numel := List.mem_finRange _
  revert hmem
  generalize List.finRange u.numel = L
  intro hmem
  have H : ∀ (L : List (Fin u.numel)) (x : s.Idx → α), (u.rowMajor j₀ ∈ L ∨ x p = upd j₀) →
      (L.foldl (fun r n =>
        match d.resultIdx? (u.rowMajor.symm n) idx with
        | some i => fun i' => if i' = i then (fun _ b => b) (r i) (upd (u.rowMajor.symm n)) else r i'
        | none => r) x) p = upd j₀ := by
    intro L
    induction L with
    | nil =>
      intro x h
      rcases h with h | h
      · exact absurd h (List.not_mem_nil)
      · exact h
    | cons n L ih =>
      intro x h
      rw [List.foldl_cons]
      apply ih
      by_cases hn : n = u.rowMajor j₀
      · right
        subst hn
        rw [Equiv.symm_apply_apply, h0]
        exact if_pos rfl
      · rcases h with h | h
        · left; exact (List.mem_cons.1 h).resolve_left (Ne.symm hn)
        · right
          cases hg : d.resultIdx? (u.rowMajor.symm n) idx with
          | none => exact h
          | some i =>
            have hpi : ¬ p = i := fun hpi => hn (by
              have := huniq _ (hg.trans (congrArg some hpi.symm))
              rw [← this, Equiv.apply_symm_apply])
            show (if p = i then _ else x p) = upd j₀
            rw [if_neg hpi]; exact h
  exact H L x (Or.inl hmem)

end Fold

section Window
variable {A B P K : Nat} {w : Nat} {α : Type}

abbrev emb3 (hK : K ≤ P) (j : (⟨3, ![A, B, K]⟩ : Shape).Idx) : (⟨3, ![A, B, P]⟩ : Shape).Idx :=
  ix3 (j 0) (j 1) ⟨(j 2).val, Nat.lt_of_lt_of_le (j 2).isLt hK⟩

abbrev winDims (wf : ScatterDims.WF (⟨3, ![A, B, P]⟩ : Shape) ⟨1, ![1]⟩ ⟨3, ![A, B, K]⟩ [0, 1, 2] [] [2] 0) :
    ScatterDims (⟨3, ![A, B, P]⟩ : Shape) ⟨1, ![1]⟩ ⟨3, ![A, B, K]⟩ :=
  ⟨[0, 1, 2], [], [2], 0, wf⟩

theorem winDims_sw (hK : K ≤ P)
    (wf : ScatterDims.WF (⟨3, ![A, B, P]⟩ : Shape) ⟨1, ![1]⟩ ⟨3, ![A, B, K]⟩ [0, 1, 2] [] [2] 0)
    (idx : IVec ⟨1, ![1]⟩ w) (hidx : ∀ k, idx k = 0#w) (j : (⟨3, ![A, B, K]⟩ : Shape).Idx) (a : Fin 3) :
    (winDims wf).start j idx a + ((winDims wf).window j a : Int) = ((emb3 hK j a).val : Int) := by
  match a with
  | ⟨0, _⟩ =>
    show (0 : Int) + (((j 0).val : Nat) : Int) = _
    simp
  | ⟨1, _⟩ =>
    show (0 : Int) + (((j 1).val : Nat) : Int) = _
    simp
  | ⟨2, _⟩ =>
    show (idx _).toInt + (((j 2).val : Nat) : Int) = _
    rw [hidx]
    simp

theorem winDims_resultIdx (hK : K ≤ P)
    (wf : ScatterDims.WF (⟨3, ![A, B, P]⟩ : Shape) ⟨1, ![1]⟩ ⟨3, ![A, B, K]⟩ [0, 1, 2] [] [2] 0)
    (idx : IVec ⟨1, ![1]⟩ w) (hidx : ∀ k, idx k = 0#w) (j : (⟨3, ![A, B, K]⟩ : Shape).Idx) :
    (winDims wf).resultIdx? j idx = some (emb3 hK j) := by
  have hs := winDims_sw hK wf idx hidx j
  unfold ScatterDims.resultIdx?
  have hb : ∀ a : Fin 3, 0 ≤ (winDims wf).start j idx a + ((winDims wf).window j a : Int) ∧
      (winDims wf).start j idx a + ((winDims wf).window j a : Int) < ((⟨3, ![A, B, P]⟩ : Shape).size a : Nat) := by
    intro a
    rw [hs a]
    exact ⟨Int.natCast_nonneg _, Int.ofNat_lt.2 (emb3 hK j a).isLt⟩
  rw [dif_pos hb]
  refine congrArg some (funext fun a => Fin.ext ?_)
  show ((winDims wf).start j idx a + ((winDims wf).window j a : Int)).toNat = (emb3 hK j a).val
  rw [hs a]
  exact Int.toNat_natCast _

/-- The scatter that writes a whole `[A, B, K]` update at start `0` on the last axis of an `[A, B, P]` operand,
    read at `(a, b, r)`: the update at `(a, b, r)` for `r` below `K`, the operand beyond. -/
theorem scatter_window_apply (hK : K ≤ P)
    (wf : ScatterDims.WF (⟨3, ![A, B, P]⟩ : Shape) ⟨1, ![1]⟩ ⟨3, ![A, B, K]⟩ [0, 1, 2] [] [2] 0)
    (x : (⟨3, ![A, B, P]⟩ : Shape).Idx → α) (idx : IVec ⟨1, ![1]⟩ w) (hidx : ∀ k, idx k = 0#w)
    (upd : (⟨3, ![A, B, K]⟩ : Shape).Idx → α) (a : Fin A) (b : Fin B) (r : Fin P) :
    Host.scatter (winDims wf) (fun _ b => b) x idx upd (ix3 a b r)
      = if h : r.val < K then upd (ix3 a b ⟨r.val, h⟩) else x (ix3 a b r) := by
  by_cases h : r.val < K
  · rw [dif_pos h]
    refine scatter_set_hit (winDims wf) x idx upd (ix3 a b r) (ix3 a b ⟨r.val, h⟩) ?_ ?_
    · rw [winDims_resultIdx hK wf idx hidx]
      refine congrArg some (funext fun c => ?_)
      match c with
      | ⟨0, _⟩ => rfl
      | ⟨1, _⟩ => rfl
      | ⟨2, _⟩ => rfl
    · intro j hj
      rw [winDims_resultIdx hK wf idx hidx] at hj
      have hj' := Option.some.inj hj
      funext c
      match c with
      | ⟨0, _⟩ => exact congrFun hj' 0
      | ⟨1, _⟩ => exact congrFun hj' 1
      | ⟨2, _⟩ => exact Fin.ext (show (j 2).val = r.val from congrArg Fin.val (congrFun hj' 2))
  · rw [dif_neg h]
    refine scatter_set_miss (winDims wf) x idx upd (ix3 a b r) fun j hj => h ?_
    rw [winDims_resultIdx hK wf idx hidx] at hj
    have hj' := congrArg Fin.val (congrFun (Option.some.inj hj) 2)
    have : (j 2).val < K := (j 2).isLt
    have e : (j 2).val = r.val := hj'
    omega

end Window

end Cert.KernelIdeal.Glue
-- ==== Proof.KerBandsA.lean ====
import proofs.«169050_g2000504127106898_pallasbulk_898_40_alg».proof.Proof.Gen.KernelIdeal.Frame
import proofs.«169050_g2000504127106898_pallasbulk_898_40_alg».proof.Proof.KerBandsScatter
import Idealize.ShloMosaic.Lib.ValueIdx
import Idealize.ShloMosaic.Lib.IdealHost
import Idealize.ShloMosaic.Lib.Pipeline.Value
import Idealize.ShloMosaic.Lib.StableHlo.Run

noncomputable section

namespace Cert.KernelIdeal.Glue

open Idealize.ShloMosaic Idealize.ShloMosaic.TcCoe Idealize.SL.Sem Idealize.ShloMosaic.ValueIdx
open Idealize.ShloMosaic.StableHlo

variable (m : (ℓ : Loc nD τ sig) → Buf (Elt Ideal) ℓ) (c : Dev nD)

/-! ## The band matrix of 64 blocks of a 16×9 block, shifted 3 columns per block, 200 columns wide -/

/-- The host operations from the 16×9 block `W` to the 1024×200 band matrix: the block written into the first
    9 of 203 zero columns of each of 64 rows of every channel, the 16×12992 rows cut to 12800 columns and folded
    to 64 rows of 200, the channel axis moved inside. -/
def bandA (W : S16x9.Idx → EReal) : S1024x200.Idx → EReal :=
  shapeCast S1024x200
    (transpose S64x16x200 [1, 0, 2]
      (shapeCast S16x64x200
        (extractStridedSlice S16x12800 ![0, 0]
          (shapeCast S16x12992
            (Host.scatter scatter_S16x64x203_S1_S16x64x9_012_n_2_0 (fun _ b => b)
              (broadcastInDim S16x64x203 ![] Gen.bcast_S_S16x64x203 (constant (F := Ideal) S_ .f32 0x00000000#32))
              (broadcastInDim S1 ![] Gen.bcast_S_S1 (constantI S_ 32 0#32))
              (broadcastInDim S16x64x9 ![0, 1, 2] Gen.bcast_S16x1x9_S16x64x9_0_1_2
                (broadcastInDim S16x1x9 ![0, 2] Gen.bcast_S16x9_S16x1x9_0_2 W)))
            Gen.shapeCasts_S16x64x203_S16x12992)
          Gen.slices_S16x12992_S16x12800_0_0)
        Gen.shapeCasts_S16x12800_S16x64x200)
      Gen.transposes_S16x64x200_S64x16x200_1_0_2)
    Gen.shapeCasts_S64x16x200_S1024x200

/-- The layout operations after the scatter, read at row `16 i + ch`, column `q`: the scattered array at channel
    `ch` and flat position `200 i + q` of its 64 rows of 203. -/
theorem layA (D : S16x64x203.Idx → EReal)
    (h1 : S16x64x203.ShapeCasts S16x12992) (h2 : S16x12992.Slices ![0, 0] S16x12800)
    (h3 : S16x12800.ShapeCasts S16x64x200) (h4 : S16x64x200.Transposes [1, 0, 2] S64x16x200)
    (h5 : S64x16x200.ShapeCasts S1024x200) (i : Fin 64) (ch : Fin 16) (q : Fin 200) :
    shapeCast S1024x200 (transpose S64x16x200 [1, 0, 2] (shapeCast S16x64x200 (extractStridedSlice S16x12800 ![0, 0]
        (shapeCast S16x12992 D h1) h2) h3) h4) h5 (ix2 ⟨16 * i.val + ch.val, by omega⟩ q)
      = D (ix3 ch ⟨(i.val * 200 + q.val) / 203, by omega⟩ ⟨(i.val * 200 + q.val) % 203, by omega⟩) := by
  have hi := i.isLt
  have hc := ch.isLt
  have hq := q.isLt
  refine (shapeCast_apply _ h5 _ (ix3 i ch q) ?_).trans ?_
  · rw [Shape.rowMajor_val_three, Shape.rowMajor_val_two]
    show (i.val * 16 + ch.val) * 200 + q.val = (16 * i.val + ch.val) * 200 + q.val
    omega
  refine (transpose_apply _ _ h4 _ (ix3 ch i q) ?_).trans ?_
  · intro b
    match b with
    | ⟨0, _⟩ => rfl
    | ⟨1, _⟩ => rfl
    | ⟨2, _⟩ => rfl
  refine (shapeCast_apply _ h3 _ (ix2 ch ⟨(i.val * 200 + q.val), by omega⟩) ?_).trans ?_
  · rw [Shape.rowMajor_val_two, Shape.rowMajor_val_three]
    show ch.val * 12800 + (i.val * 200 + q.val) = (ch.val * 64 + i.val) * 200 + q.val
    omega
  refine (extractStridedSlice_apply _ _ h2 _ (ix2 ch ⟨(i.val * 200 + q.val), by omega⟩) ?_).trans ?_
  · intro a
    match a with
    | ⟨0, _⟩ => show ch.val = 0 + ch.val; omega
    | ⟨1, _⟩ => show (i.val * 200 + q.val) = 0 + (i.val * 200 + q.val); omega
  refine shapeCast_apply _ h1 _ _ ?_
  rw [Shape.rowMajor_val_three, Shape.rowMajor_val_two]
  show (ch.val * 64 + (i.val * 200 + q.val) / 203) * 203 + (i.val * 200 + q.val) % 203 = ch.val * 12992 + (i.val * 200 + q.val)
  omega

/-- The update: the block repeated along the row axis. -/
theorem updA (W : S16x9.Idx → EReal) (b1 : S16x9.BroadcastsInDim S16x1x9 ![0, 2])
    (b2 : S16x1x9.BroadcastsInDim S16x64x9 ![0, 1, 2]) (ch : Fin 16) (n : Fin 64) (r : Fin 9) :
    broadcastInDim S16x64x9 ![0, 1, 2] b2 (broadcastInDim S16x1x9 ![0, 2] b1 W) (ix3 ch n r) = W (ix2 ch r) := by
  refine (broadcastInDim_apply _ b2 _ _ (ix3 ch ⟨0, by omega⟩ r) ?_).trans ?_
  · intro a
    match a with
    | ⟨0, _⟩ => rfl
    | ⟨1, _⟩ => rfl
    | ⟨2, _⟩ => rfl
  refine broadcastInDim_apply _ b1 _ _ (ix2 ch r) ?_
  intro a
  match a with
  | ⟨0, _⟩ => rfl
  | ⟨1, _⟩ => rfl

/-- The band matrix entry by entry: row `16 i + ch` holds the block's row `ch` in columns `3 i … 3 i + 8` and
    zero elsewhere. (Flat position `200 i + q` of rows of 203 = 200 + 3 is column `q − 3 i` of row `i` when
    `q ≥ 3 i`, and a column past the block of row `i − 1` otherwise, since `3 · 63 + 9 ≤ 203`.) -/
theorem bandA_apply (W : S16x9.Idx → EReal) (i : Fin 64) (ch : Fin 16) (q : Fin 200) :
    bandA W (ix2 ⟨16 * i.val + ch.val, by omega⟩ q)
      = if h : 3 * i.val ≤ q.val ∧ q.val < 3 * i.val + 9 then W (ix2 ch ⟨q.val - 3 * i.val, by omega⟩) else 0 := by
  have hi := i.isLt
  have hc := ch.isLt
  have hq := q.isLt
  unfold bandA
  refine (layA _ _ _ _ _ _ i ch q).trans ?_
  refine (scatter_window_apply (A := 16) (B := 64) (P := 203) (K := 9) (by omega)
    Gen.scatter_S16x64x203_S1_S16x64x9_012_n_2_0_wf _ _ (fun k => ?_) _ ch ⟨(i.val * 200 + q.val) / 203, by omega⟩ ⟨(i.val * 200 + q.val) % 203, by omega⟩).trans ?_
  · exact broadcastInDim_scalar_apply _ _ k
  by_cases h : 3 * i.val ≤ q.val ∧ q.val < 3 * i.val + 9
  · have hr : (i.val * 200 + q.val) % 203 < 9 := by omega
    rw [dif_pos h, dif_pos hr]
    refine (updA W _ _ ch _ _).trans ?_
    refine congrArg W (funext fun a => ?_)
    match a with
    | ⟨0, _⟩ => rfl
    | ⟨1, _⟩ => exact Fin.ext (show (i.val * 200 + q.val) % 203 = q.val - 3 * i.val by omega)
  · have hr : ¬ (i.val * 200 + q.val) % 203 < 9 := by omega
    rw [dif_neg h, dif_neg hr]
    refine (broadcastInDim_scalar_apply _ _ _).trans ?_
    show Ideal.ofBits .f32 0x00000000#32 = 0
    exact Ideal.ofBits_zero_f32

set_option maxHeartbeats 1000000 in
/-- What the operations before the region leave in the band matrix's buffer: `bandA` of the block's buffer. -/
theorem V_main_v14_eq :
    (Gen.V (F := Ideal) m c main_v14 : S1024x200.Idx → EReal) = bandA (Gen.V (F := Ideal) m c main_v4 : S16x9.Idx → EReal) := by
  dsimp only [Gen.V]
  simp only [Gen.hostOps0, Gen.hostOps0_1, Gen.hostOps0_2, List.flatten_cons, List.flatten_nil, List.append_nil,
    List.cons_append, List.nil_append]
  after_results
  rfl

theorem w1a_apply (i : Fin 64) (ch : Fin 16) (q : Fin 200) :
    (Gen.V (F := Ideal) m c main_v14 : S1024x200.Idx → EReal) (ix2 ⟨16 * i.val + ch.val, by omega⟩ q)
      = (if h : 3 * i.val ≤ q.val ∧ q.val < 3 * i.val + 9 then
          (Gen.V (F := Ideal) m c main_v4 : S16x9.Idx → EReal) (ix2 ch ⟨q.val - 3 * i.val, by omega⟩)
        else 0 : EReal) :=
  (congrFun (V_main_v14_eq m c) _).trans (bandA_apply _ i ch q)

end Cert.KernelIdeal.Glue
-- ==== Proof.KerBandsB.lean ====
import proofs.«169050_g2000504127106898_pallasbulk_898_40_alg».proof.Proof.Gen.KernelIdeal.Frame
import proofs.«169050_g2000504127106898_pallasbulk_898_40_alg».proof.Proof.KerBandsScatter
import Idealize.ShloMosaic.Lib.ValueIdx
import Idealize.ShloMosaic.Lib.IdealHost
import Idealize.ShloMosaic.Lib.Pipeline.Value
import Idealize.ShloMosaic.Lib.StableHlo.Run

noncomputable section

namespace Cert.KernelIdeal.Glue

open Idealize.ShloMosaic Idealize.ShloMosaic.TcCoe Idealize.SL.Sem Idealize.ShloMosaic.ValueIdx
open Idealize.ShloMosaic.StableHlo

variable (m : (ℓ : Loc nD τ sig) → Buf (Elt Ideal) ℓ) (c : Dev nD)

/-! ## The band matrix of 62 blocks of a 16×9 block, shifted 3 columns per block, 192 columns wide -/

/-- The host operations from the 16×9 block `W` to the 992×192 band matrix: the block written into the first
    9 of 195 zero columns of each of 62 rows of every channel, the 16×12090 rows cut to 11904 columns and folded
    to 62 rows of 192, the channel axis moved inside. -/
def bandB (W : S16x9.Idx → EReal) : S992x192.Idx → EReal :=
  shapeCast S992x192
    (transpose S62x16x192 [1, 0, 2]
      (shapeCast S16x62x192
        (extractStridedSlice S16x11904 ![0, 0]
          (shapeCast S16x12090
            (Host.scatter scatter_S16x62x195_S1_S16x62x9_012_n_2_0 (fun _ b => b)
              (broadcastInDim S16x62x195 ![] Gen.bcast_S_S16x62x195 (constant (F := Ideal) S_ .f32 0x00000000#32))
              (broadcastInDim S1 ![] Gen.bcast_S_S1 (constantI S_ 32 0#32))
              (broadcastInDim S16x62x9 ![0, 1, 2] Gen.bcast_S16x1x9_S16x62x9_0_1_2
                (broadcastInDim S16x1x9 ![0, 2] Gen.bcast_S16x9_S16x1x9_0_2 W)))
            Gen.shapeCasts_S16x62x195_S16x12090)
          Gen.slices_S16x12090_S16x11904_0_0)
        Gen.shapeCasts_S16x11904_S16x62x192)
      Gen.transposes_S16x62x192_S62x16x192_1_0_2)
    Gen.shapeCasts_S62x16x192_S992x192

/-- The layout operations after the scatter, read at row `16 i + ch`, column `q`: the scattered array at channel
    `ch` and flat position `192 i + q` of its 62 rows of 195. -/
theorem layB (D : S16x62x195.Idx → EReal)
    (h1 : S16x62x195.ShapeCasts S16x12090) (h2 : S16x12090.Slices ![0, 0] S16x11904)
    (h3 : S16x11904.ShapeCasts S16x62x192) (h4 : S16x62x192.Transposes [1, 0, 2] S62x16x192)
    (h5 : S62x16x192.ShapeCasts S992x192) (i : Fin 62) (ch : Fin 16) (q : Fin 192) :
    shapeCast S992x192 (transpose S62x16x192 [1, 0, 2] (shapeCast S16x62x192 (extractStridedSlice S16x11904 ![0, 0]
        (shapeCast S16x12090 D h1) h2) h3) h4) h5 (ix2 ⟨16 * i.val + ch.val, by omega⟩ q)
      = D (ix3 ch ⟨(i.val * 192 + q.val) / 195, by omega⟩ ⟨(i.val * 192 + q.val) % 195, by omega⟩) := by
  have hi := i.isLt
  have hc := ch.isLt
  have hq := q.isLt
  refine (shapeCast_apply _ h5 _ (ix3 i ch q) ?_).trans ?_
  · rw [Shape.rowMajor_val_three, Shape.rowMajor_val_two]
    show (i.val * 16 + ch.val) * 192 + q.val = (16 * i.val + ch.val) * 192 + q.val
    omega
  refine (transpose_apply _ _ h4 _ (ix3 ch i q) ?_).trans ?_
  · intro b
    match b with
    | ⟨0, _⟩ => rfl
    | ⟨1, _⟩ => rfl
    | ⟨2, _⟩ => rfl
  refine (shapeCast_apply _ h3 _ (ix2 ch ⟨(i.val * 192 + q.val), by omega⟩) ?_).trans ?_
  · rw [Shape.rowMajor_val_two, Shape.rowMajor_val_three]
    show ch.val * 11904 + (i.val * 192 + q.val) = (ch.val * 62 + i.val) * 192 + q.val
    omega
  refine (extractStridedSlice_apply _ _ h2 _ (ix2 ch ⟨(i.val * 192 + q.val), by omega⟩) ?_).trans ?_
  · intro a
    match a with
    | ⟨0, _⟩ => show ch.val = 0 + ch.val; omega
    | ⟨1, _⟩ => show (i.val * 192 + q.val) = 0 + (i.val * 192 + q.val); omega
  refine shapeCast_apply _ h1 _ _ ?_
  rw [Shape.rowMajor_val_three, Shape.rowMajor_val_two]
  show (ch.val * 62 + (i.val * 192 + q.val) / 195) * 195 + (i.val * 192 + q.val) % 195 = ch.val * 12090 + (i.val * 192 + q.val)
  omega

/-- The update: the block repeated along the row axis. -/
theorem updB (W : S16x9.Idx → EReal) (b1 : S16x9.BroadcastsInDim S16x1x9 ![0, 2])
    (b2 : S16x1x9.BroadcastsInDim S16x62x9 ![0, 1, 2]) (ch : Fin 16) (n : Fin 62) (r : Fin 9) :
    broadcastInDim S16x62x9 ![0, 1, 2] b2 (broadcastInDim S16x1x9 ![0, 2] b1 W) (ix3 ch n r) = W (ix2 ch r) := by
  refine (broadcastInDim_apply _ b2 _ _ (ix3 ch ⟨0, by omega⟩ r) ?_).trans ?_
  · intro a
    match a with
    | ⟨0, _⟩ => rfl
    | ⟨1, _⟩ => rfl
    | ⟨2, _⟩ => rfl
  refine broadcastInDim_apply _ b1 _ _ (ix2 ch r) ?_
  intro a
  match a with
  | ⟨0, _⟩ => rfl
  | ⟨1, _⟩ => rfl

/-- The band matrix entry by entry: row `16 i + ch` holds the block's row `ch` in columns `3 i … 3 i + 8` and
    zero elsewhere. (Flat position `192 i + q` of rows of 195 = 192 + 3 is column `q − 3 i` of row `i` when
    `q ≥ 3 i`, and a column past the block of row `i − 1` otherwise, since `3 · 61 + 9 ≤ 195`.) -/
theorem bandB_apply (W : S16x9.Idx → EReal) (i : Fin 62) (ch : Fin 16) (q : Fin 192) :
    bandB W (ix2 ⟨16 * i.val + ch.val, by omega⟩ q)
      = if h : 3 * i.val ≤ q.val ∧ q.val < 3 * i.val + 9 then W (ix2 ch ⟨q.val - 3 * i.val, by omega⟩) else 0 := by
  have hi := i.isLt
  have hc := ch.isLt
  have hq := q.isLt
  unfold bandB
  refine (layB _ _ _ _ _ _ i ch q).trans ?_
  refine (scatter_window_apply (A := 16) (B := 62) (P := 195) (K := 9) (by omega)
    Gen.scatter_S16x62x195_S1_S16x62x9_012_n_2_0_wf _ _ (fun k => ?_) _ ch ⟨(i.val * 192 + q.val) / 195, by omega⟩ ⟨(i.val * 192 + q.val) % 195, by omega⟩).trans ?_
  · exact broadcastInDim_scalar_apply _ _ k
  by_cases h : 3 * i.val ≤ q.val ∧ q.val < 3 * i.val + 9
  · have hr : (i.val * 192 + q.val) % 195 < 9 := by omega
    rw [dif_pos h, dif_pos hr]
    refine (updB W _ _ ch _ _).trans ?_
    refine congrArg W (funext fun a => ?_)
    match a with
    | ⟨0, _⟩ => rfl
    | ⟨1, _⟩ => exact Fin.ext (show (i.val * 192 + q.val) % 195 = q.val - 3 * i.val by omega)
  · have hr : ¬ (i.val * 192 + q.val) % 195 < 9 := by omega
    rw [dif_neg h, dif_neg hr]
    refine (broadcastInDim_scalar_apply _ _ _).trans ?_
    show Ideal.ofBits .f32 0x00000000#32 = 0
    exact Ideal.ofBits_zero_f32

set_option maxHeartbeats 1000000 in
/-- What the operations before the region leave in the band matrix's buffer: `bandB` of the block's buffer. -/
theorem V_main_v24_eq :
    (Gen.V (F := Ideal) m c main_v24 : S992x192.Idx → EReal) = bandB (Gen.V (F := Ideal) m c main_v4 : S16x9.Idx → EReal) := by
  dsimp only [Gen.V]
  simp only [Gen.hostOps0, Gen.hostOps0_1, Gen.hostOps0_2, List.flatten_cons, List.flatten_nil, List.append_nil,
    List.cons_append, List.nil_append]
  after_results
  rfl

theorem w1b_apply (i : Fin 62) (ch : Fin 16) (q : Fin 192) :
    (Gen.V (F := Ideal) m c main_v24 : S992x192.Idx → EReal) (ix2 ⟨16 * i.val + ch.val, by omega⟩ q)
      = (if h : 3 * i.val ≤ q.val ∧ q.val < 3 * i.val + 9 then
          (Gen.V (F := Ideal) m c main_v4 : S16x9.Idx → EReal) (ix2 ch ⟨q.val - 3 * i.val, by omega⟩)
        else 0 : EReal) :=
  (congrFun (V_main_v24_eq m c) _).trans (bandB_apply _ i ch q)

end Cert.KernelIdeal.Glue
-- ==== Proof.KerBandsG.lean ====
import proofs.«169050_g2000504127106898_pallasbulk_898_40_alg».proof.Proof.Gen.KernelIdeal.Frame
import proofs.«169050_g2000504127106898_pallasbulk_898_40_alg».proof.Proof.KerBandsScatter
import Idealize.ShloMosaic.Lib.ValueIdx
import Idealize.ShloMosaic.Lib.IdealHost
import Idealize.ShloMosaic.Lib.Pipeline.Value
import Idealize.ShloMosaic.Lib.StableHlo.Run

noncomputable section

namespace Cert.KernelIdeal.Glue

open Idealize.ShloMosaic Idealize.ShloMosaic.TcCoe Idealize.SL.Sem Idealize.ShloMosaic.ValueIdx
open Idealize.ShloMosaic.StableHlo

variable (m : (ℓ : Loc nD τ sig) → Buf (Elt Ideal) ℓ) (c : Dev nD)

/-! ## The band matrix of 13 blocks of a 32×48 block, shifted 16 columns per block, 240 columns wide -/

/-- The host operations from the 32×48 block `W` to the 416×240 band matrix: the block written into the first
    48 of 256 zero columns of each of 13 rows of every channel, the 32×3328 rows cut to 3120 columns and folded
    to 13 rows of 240, the channel axis moved inside. -/
def bandG (W : S32x48.Idx → EReal) : S416x240.Idx → EReal :=
  shapeCast S416x240
    (transpose S13x32x240 [1, 0, 2]
      (shapeCast S32x13x240
        (extractStridedSlice S32x3120 ![0, 0]
          (shapeCast S32x3328
            (Host.scatter scatter_S32x13x256_S1_S32x13x48_012_n_2_0 (fun _ b => b)
              (broadcastInDim S32x13x256 ![] Gen.bcast_S_S32x13x256 (constant (F := Ideal) S_ .f32 0x00000000#32))
              (broadcastInDim S1 ![] Gen.bcast_S_S1 (constantI S_ 32 0#32))
              (broadcastInDim S32x13x48 ![0, 1, 2] Gen.bcast_S32x1x48_S32x13x48_0_1_2
                (broadcastInDim S32x1x48 ![0, 2] Gen.bcast_S32x48_S32x1x48_0_2 W)))
            Gen.shapeCasts_S32x13x256_S32x3328)
          Gen.slices_S32x3328_S32x3120_0_0)
        Gen.shapeCasts_S32x3120_S32x13x240)
      Gen.transposes_S32x13x240_S13x32x240_1_0_2)
    Gen.shapeCasts_S13x32x240_S416x240

/-- The layout operations after the scatter, read at row `32 i + ch`, column `q`: the scattered array at channel
    `ch` and flat position `240 i + q` of its 13 rows of 256. -/
theorem layG (D : S32x13x256.Idx → EReal)
    (h1 : S32x13x256.ShapeCasts S32x3328) (h2 : S32x3328.Slices ![0, 0] S32x3120)
    (h3 : S32x3120.ShapeCasts S32x13x240) (h4 : S32x13x240.Transposes [1, 0, 2] S13x32x240)
    (h5 : S13x32x240.ShapeCasts S416x240) (jl : Fin 13) (o : Fin 32) (q : Fin 240) :
    shapeCast S416x240 (transpose S13x32x240 [1, 0, 2] (shapeCast S32x13x240 (extractStridedSlice S32x3120 ![0, 0]
        (shapeCast S32x3328 D h1) h2) h3) h4) h5 (ix2 ⟨32 * jl.val + o.val, by omega⟩ q)
      = D (ix3 o ⟨(jl.val * 240 + q.val) / 256, by omega⟩ ⟨(jl.val * 240 + q.val) % 256, by omega⟩) := by
  have hi := jl.isLt
  have hc := o.isLt
  have hq := q.isLt
  refine (shapeCast_apply _ h5 _ (ix3 jl o q) ?_).trans ?_
  · rw [Shape.rowMajor_val_three, Shape.rowMajor_val_two]
    show (jl.val * 32 + o.val) * 240 + q.val = (32 * jl.val + o.val) * 240 + q.val
    omega
  refine (transpose_apply _ _ h4 _ (ix3 o jl q) ?_).trans ?_
  · intro b
    match b with
    | ⟨0, _⟩ => rfl
    | ⟨1, _⟩ => rfl
    | ⟨2, _⟩ => rfl
  refine (shapeCast_apply _ h3 _ (ix2 o ⟨(jl.val * 240 + q.val), by omega⟩) ?_).trans ?_
  · rw [Shape.rowMajor_val_two, Shape.rowMajor_val_three]
    show o.val * 3120 + (jl.val * 240 + q.val) = (o.val * 13 + jl.val) * 240 + q.val
    omega
  refine (extractStridedSlice_apply _ _ h2 _ (ix2 o ⟨(jl.val * 240 + q.val), by omega⟩) ?_).trans ?_
  · intro a
    match a with
    | ⟨0, _⟩ => show o.val = 0 + o.val; omega
    | ⟨1, _⟩ => show (jl.val * 240 + q.val) = 0 + (jl.val * 240 + q.val); omega
  refine shapeCast_apply _ h1 _ _ ?_
  rw [Shape.rowMajor_val_three, Shape.rowMajor_val_two]
  show (o.val * 13 + (jl.val * 240 + q.val) / 256) * 256 + (jl.val * 240 + q.val) % 256 = o.val * 3328 + (jl.val * 240 + q.val)
  omega

/-- The update: the block repeated along the row axis. -/
theorem updG (W : S32x48.Idx → EReal) (b1 : S32x48.BroadcastsInDim S32x1x48 ![0, 2])
    (b2 : S32x1x48.BroadcastsInDim S32x13x48 ![0, 1, 2]) (o : Fin 32) (n : Fin 13) (r : Fin 48) :
    broadcastInDim S32x13x48 ![0, 1, 2] b2 (broadcastInDim S32x1x48 ![0, 2] b1 W) (ix3 o n r) = W (ix2 o r) := by
  refine (broadcastInDim_apply _ b2 _ _ (ix3 o ⟨0, by omega⟩ r) ?_).trans ?_
  · intro a
    match a with
    | ⟨0, _⟩ => rfl
    | ⟨1, _⟩ => rfl
    | ⟨2, _⟩ => rfl
  refine broadcastInDim_apply _ b1 _ _ (ix2 o r) ?_
  intro a
  match a with
  | ⟨0, _⟩ => rfl
  | ⟨1, _⟩ => rfl

/-- The band matrix entry by entry: row `32 i + ch` holds the block's row `ch` in columns `16 i … 16 i + 47` and
    zero elsewhere. (Flat position `240 i + q` of rows of 256 = 240 + 16 is column `q − 16 i` of row `i` when
    `q ≥ 16 i`, and a column past the block of row `i − 1` otherwise, since `16 · 12 + 48 ≤ 256`.) -/
theorem bandG_apply (W : S32x48.Idx → EReal) (jl : Fin 13) (o : Fin 32) (q : Fin 240) :
    bandG W (ix2 ⟨32 * jl.val + o.val, by omega⟩ q)
      = if h : 16 * jl.val ≤ q.val ∧ q.val < 16 * jl.val + 48 then W (ix2 o ⟨q.val - 16 * jl.val, by omega⟩) else 0 := by
  have hi := jl.isLt
  have hc := o.isLt
  have hq := q.isLt
  unfold bandG
  refine (layG _ _ _ _ _ _ jl o q).trans ?_
  refine (scatter_window_apply (A := 32) (B := 13) (P := 256) (K := 48) (by omega)
    Gen.scatter_S32x13x256_S1_S32x13x48_012_n_2_0_wf _ _ (fun k => ?_) _ o ⟨(jl.val * 240 + q.val) / 256, by omega⟩ ⟨(jl.val * 240 + q.val) % 256, by omega⟩).trans ?_
  · exact broadcastInDim_scalar_apply _ _ k
  by_cases h : 16 * jl.val ≤ q.val ∧ q.val < 16 * jl.val + 48
  · have hr : (jl.val * 240 + q.val) % 256 < 48 := by omega
    rw [dif_pos h, dif_pos hr]
    refine (updG W _ _ o _ _).trans ?_
    refine congrArg W (funext fun a => ?_)
    match a with
    | ⟨0, _⟩ => rfl
    | ⟨1, _⟩ => exact Fin.ext (show (jl.val * 240 + q.val) % 256 = q.val - 16 * jl.val by omega)
  · have hr : ¬ (jl.val * 240 + q.val) % 256 < 48 := by omega
    rw [dif_neg h, dif_neg hr]
    refine (broadcastInDim_scalar_apply _ _ _).trans ?_
    show Ideal.ofBits .f32 0x00000000#32 = 0
    exact Ideal.ofBits_zero_f32

set_option maxHeartbeats 1000000 in
/-- What the operations before the region leave in the band matrix's buffer: `bandG` of the block's buffer. -/
theorem V_main_v37_eq :
    (Gen.V (F := Ideal) m c main_v37 : S416x240.Idx → EReal) = bandG (Gen.V (F := Ideal) m c main_v27 : S32x48.Idx → EReal) := by
  dsimp only [Gen.V]
  simp only [Gen.hostOps0, Gen.hostOps0_1, Gen.hostOps0_2, List.flatten_cons, List.flatten_nil, List.append_nil,
    List.cons_append, List.nil_append]
  after_results
  rfl

theorem w2g_apply (jl : Fin 13) (o : Fin 32) (q : Fin 240) :
    (Gen.V (F := Ideal) m c main_v37 : S416x240.Idx → EReal) (ix2 ⟨32 * jl.val + o.val, by omega⟩ q)
      = (if h : 16 * jl.val ≤ q.val ∧ q.val < 16 * jl.val + 48 then
          (Gen.V (F := Ideal) m c main_v27 : S32x48.Idx → EReal) (ix2 o ⟨q.val - 16 * jl.val, by omega⟩)
        else 0 : EReal) :=
  (congrFun (V_main_v37_eq m c) _).trans (bandG_apply _ jl o q)

end Cert.KernelIdeal.Glue
-- ==== Proof.KerBands.lean ====
import proofs.«169050_g2000504127106898_pallasbulk_898_40_alg».proof.Proof.KerBandsA
import proofs.«169050_g2000504127106898_pallasbulk_898_40_alg».proof.Proof.KerBandsB
import proofs.«169050_g2000504127106898_pallasbulk_898_40_alg».proof.Proof.KerBandsG

/-! The three band weight matrices the operations before the region build, read entry by entry:
    `Cert.KernelIdeal.Glue.w1a_apply`, `w1b_apply` and `w2g_apply` (one module each). -/
-- ==== Proof.LibGroupedSum.lean ====
/-
  A sum over consecutive positions, grouped.

  The sum of f over the first K·n natural numbers is the sum, over the n consecutive groups of K positions, of each group's
  sum: position K·g + k is the k-th of group g. In any additive commutative monoid, so with no finiteness or
  cancellation asked: it holds for the extended reals as it stands. This is what equates one contraction over K·n
  features with the same contraction accumulated group by group.
-/
import Idealize.ShloMosaic.Lib.ValueIdx

namespace Cert.LibGroupedSum

/-- The sum over the first K·n positions is the sum over the n groups of the sums over each group's K positions. -/
theorem sum_range_mul_groups {M : Type*} [AddCommMonoid M] (K : ℕ) (f : ℕ → M) :
    ∀ n : ℕ, ∑ i ∈ Finset.range (K * n), f i = ∑ g ∈ Finset.range n, ∑ k : Fin K, f (K * g + k.val)
  | 0 => by simp
  | n + 1 => by
    have h1 : ∑ i ∈ Finset.range (K * (n + 1)), f i
        = ∑ i ∈ Finset.range (K * n), f i + ∑ k ∈ Finset.range K, f (K * n + k) := by
      rw [show K * (n + 1) = K * n + K from by ring, Finset.sum_range_add]
    rw [h1, sum_range_mul_groups K f n, Finset.sum_range_succ (fun g => ∑ k : Fin K, f (K * g + k.val)) n]
    exact congrArg (_ + ·) (Finset.sum_range (fun k => f (K * n + k)))

end Cert.LibGroupedSum
-- ==== Proof.CnnMath.lean ====
/-
  The mathematics of the two convolutional networks, on the extended reals, with every array read through
  a total function of natural-number coordinates.

  A column of the input is `X : ℕ → EReal` (row `3·h + w` of the flattened image).  The first convolution at output
  row `i` and channel `ch` is `c1 i ch = Σ_{k<9} B1 ch k · X (3i + k)`; rows `2·ip` and `2·ip+1` are pooled and
  rectified to `pool ip ch`; `P r` is the pooled map flattened with `r = 16·ip + ch`; the second convolution at
  output row `j` and channel `o` is `c2 j o = max (Σ_{kk<48} B2 o kk · P (16j + kk)) 0`, flattened to
  `A2 q` with `q = 32·j + o`; the dense layer is `Σ_{q<1952} fcw o q · A2 q + b`.

  Three facts join the two programs: a product with a banded row is the sum over the band (`band_sum`: a zero weight
  annihilates its term, `0 · x = 0` on the extended reals, so no finiteness is asked); rectifying before or after the
  pooling maximum is the same (`pool_comm`); and a dense layer accumulated over five chunks of 416 positions whose
  positions past 1952 carry zero weight is the dense layer over the 1952 positions (`chunks_eq`).
-/
import Idealize.ShloMosaic.Lib.ValueIdx
import proofs.«169050_g2000504127106898_pallasbulk_898_40_alg».proof.Proof.LibGroupedSum

noncomputable section

open scoped BigOperators

namespace Cert.CnnMath

open Finset

/-- A product with a banded row: if `W` is `blk` laid from position `s` on (`B` entries) and zero elsewhere on `[0, K)`,
    then `Σ_{q<K} W q · X q = Σ_{k<B} blk k · X (s + k)`. -/
theorem band_sum (K B s : ℕ) (hs : s + B ≤ K) (W X blk : ℕ → EReal)
    (hW : ∀ q, q < K → W q = if s ≤ q ∧ q < s + B then blk (q - s) else 0) :
    ∑ q ∈ range K, W q * X q = ∑ k ∈ range B, blk k * X (s + k) := by
  have h1 : ∑ q ∈ Ico s (s + B), W q * X q = ∑ q ∈ range K, W q * X q := by
    apply sum_subset
    · intro q hq
      rw [mem_Ico] at hq
      rw [mem_range]
      omega
    · intro q hq hnq
      rw [mem_range] at hq
      rw [mem_Ico] at hnq
      rw [hW q hq, if_neg (by omega)]
      exact zero_mul _
  rw [← h1, sum_Ico_eq_sum_range]
  simp only [Nat.add_sub_cancel_left]
  refine sum_congr rfl fun k hk => ?_
  rw [mem_range] at hk
  rw [hW _ (by omega), if_pos (by omega), Nat.add_sub_cancel_left]

/-- The same over factors indexed by `Fin K`: the left factor banded, the right factor a total function read at the
    position. -/
theorem band_sum_fin (K B s : ℕ) (hs : s + B ≤ K) (a b : Fin K → EReal) (blk X : ℕ → EReal)
    (ha : ∀ k : Fin K, a k = if s ≤ k.val ∧ k.val < s + B then blk (k.val - s) else 0)
    (hb : ∀ k : Fin K, b k = X k.val) :
    ∑ k : Fin K, a k * b k = ∑ j ∈ range B, blk j * X (s + j) := by
  have h1 : ∑ k : Fin K, a k * b k
      = ∑ q ∈ range K, (fun q => (if s ≤ q ∧ q < s + B then blk (q - s) else 0) * X q) q := by
    rw [← Fin.sum_univ_eq_sum_range]
    exact sum_congr rfl fun k _ => by rw [ha, hb]
  rw [h1]
  exact band_sum K B s hs (fun q => if s ≤ q ∧ q < s + B then blk (q - s) else 0) X blk (fun q _ => rfl)

/-- Rectifying each of two values and taking their maximum is rectifying their maximum. -/
theorem pool_comm (a b : EReal) : max (max a 0) (max b 0) = max (max a b) 0 := by
  rw [max_max_max_comm, max_self]

variable (X : ℕ → EReal) (B1 B2 Wf : ℕ → ℕ → EReal) (b : EReal)

/-- The first convolution at output row `i`, channel `ch`. -/
def c1 (i ch : ℕ) : EReal := ∑ k ∈ range 9, B1 ch k * X (3 * i + k)

/-- Pooled and rectified: rows `2·ip` and `2·ip + 1` of the first convolution. -/
def pool (ip ch : ℕ) : EReal := max (max (c1 X B1 (2 * ip) ch) (c1 X B1 (2 * ip + 1) ch)) 0

/-- The pooled map at flattened position `r = 16·ip + ch`. -/
def P (r : ℕ) : EReal := pool X B1 (r / 16) (r % 16)

/-- The second convolution, rectified, at output row `j`, channel `o`. -/
def c2 (j o : ℕ) : EReal := max (∑ kk ∈ range 48, B2 o kk * P X B1 (16 * j + kk)) 0

/-- The second convolution at flattened position `q = 32·j + o`. -/
def A2 (q : ℕ) : EReal := c2 X B1 B2 (q / 32) (q % 32)

/-- The dense layer's weight at flattened position `q = 32·j + oc`: the weight matrix's column `61·oc + j`. -/
def fcw (o q : ℕ) : EReal := Wf o (61 * (q % 32) + q / 32)

/-- The network's output for one image and one class. -/
def out (o : ℕ) : EReal := (∑ q ∈ range 1952, fcw Wf o q * A2 X B1 B2 q) + b

/-- A dense layer accumulated chunk by chunk, from the bias, over five chunks of 416 positions, equals the dense layer
    over the first 1952 positions plus the bias, when the terms at positions 1952 … 2079 vanish. -/
theorem chunks_eq (T : ℕ → EReal) (hz : ∀ q, 1952 ≤ q → q < 2080 → T q = 0) :
    ((((b + ∑ k : Fin 416, T (416 * 0 + k.val)) + ∑ k : Fin 416, T (416 * 1 + k.val)) + ∑ k : Fin 416, T (416 * 2 + k.val))
        + ∑ k : Fin 416, T (416 * 3 + k.val)) + ∑ k : Fin 416, T (416 * 4 + k.val)
      = (∑ q ∈ range 1952, T q) + b := by
  have h5 : ∀ F : ℕ → EReal, ∑ g ∈ range 5, F g = F 0 + F 1 + F 2 + F 3 + F 4 := by
    intro F
    simp only [sum_range_succ, sum_range_zero, zero_add]
  have hg : ∑ q ∈ range (416 * 5), T q
      = (∑ k : Fin 416, T (416 * 0 + k.val)) + (∑ k : Fin 416, T (416 * 1 + k.val)) + (∑ k : Fin 416, T (416 * 2 + k.val))
        + (∑ k : Fin 416, T (416 * 3 + k.val)) + (∑ k : Fin 416, T (416 * 4 + k.val)) := by
    rw [Cert.LibGroupedSum.sum_range_mul_groups 416 T 5, h5]
  have hsplit : ∑ q ∈ range (416 * 5), T q = ∑ q ∈ range 1952, T q := by
    symm
    apply sum_subset
    · intro q hq
      rw [mem_range] at hq ⊢
      omega
    · intro q hq hnq
      rw [mem_range] at hq hnq
      exact hz q (by omega) (by omega)
  rw [← hsplit, hg]
  ac_rfl

/-- The chunked dense layer with each chunk's terms given separately: chunks 0 … 3 carry the terms `F (416·g + k)`,
    the last chunk carries `F (1664 + k)` for `k < 288` and nothing (zero terms) after. -/
theorem chunks_eq' (T0 T1 T2 T3 T4 : Fin 416 → EReal) (F : ℕ → EReal)
    (h0 : ∀ k : Fin 416, T0 k = F (416 * 0 + k.val)) (h1 : ∀ k : Fin 416, T1 k = F (416 * 1 + k.val))
    (h2 : ∀ k : Fin 416, T2 k = F (416 * 2 + k.val)) (h3 : ∀ k : Fin 416, T3 k = F (416 * 3 + k.val))
    (h4 : ∀ k : Fin 416, k.val < 288 → T4 k = F (416 * 4 + k.val)) (h4z : ∀ k : Fin 416, 288 ≤ k.val → T4 k = 0) :
    ((((b + ∑ k : Fin 416, T0 k) + ∑ k : Fin 416, T1 k) + ∑ k : Fin 416, T2 k) + ∑ k : Fin 416, T3 k) + ∑ k : Fin 416, T4 k
      = (∑ q ∈ range 1952, F q) + b := by
  have key := chunks_eq b (fun q => if q < 1952 then F q else 0) (fun q hq _ => if_neg (by omega))
  have e0 : ∑ k : Fin 416, T0 k = ∑ k : Fin 416, (fun q => if q < 1952 then F q else 0) (416 * 0 + k.val) :=
    sum_congr rfl fun k _ => by rw [h0]; exact (if_pos (by have := k.isLt; omega)).symm
  have e1 : ∑ k : Fin 416, T1 k = ∑ k : Fin 416, (fun q => if q < 1952 then F q else 0) (416 * 1 + k.val) :=
    sum_congr rfl fun k _ => by rw [h1]; exact (if_pos (by have := k.isLt; omega)).symm
  have e2 : ∑ k : Fin 416, T2 k = ∑ k : Fin 416, (fun q => if q < 1952 then F q else 0) (416 * 2 + k.val) :=
    sum_congr rfl fun k _ => by rw [h2]; exact (if_pos (by have := k.isLt; omega)).symm
  have e3 : ∑ k : Fin 416, T3 k = ∑ k : Fin 416, (fun q => if q < 1952 then F q else 0) (416 * 3 + k.val) :=
    sum_congr rfl fun k _ => by rw [h3]; exact (if_pos (by have := k.isLt; omega)).symm
  have e4 : ∑ k : Fin 416, T4 k = ∑ k : Fin 416, (fun q => if q < 1952 then F q else 0) (416 * 4 + k.val) :=
    sum_congr rfl fun k _ => by
      by_cases hk : k.val < 288
      · rw [h4 k hk]; exact (if_pos (by omega)).symm
      · rw [h4z k (by omega)]; exact (if_neg (by omega)).symm
  rw [e0, e1, e2, e3, e4, key]
  exact congrArg (· + b) (sum_congr rfl fun q hq => if_pos (mem_range.mp hq))

end Cert.CnnMath

end
-- ==== Proof.CnnSpec.lean ====
/-
  The network's output as one function of the five argument arrays.

  Image `N` enters as the column `Xof x N` (row `3·h + w` is pixel (h, w)); the first convolution's 16×9 block is
  `B1of w1` (column `3·kh + kw`), the second's 32×48 block is `B2of w2` (column `16·kh + c`), the dense layer's weights
  are `Wfof wfc`; every array is read through a total function of natural-number coordinates, zero outside its range.
  `G` is the result array: entry (N, o) is `CnnMath.out` of image `N` and class `o`.
-/
import proofs.«169050_g2000504127106898_pallasbulk_898_40_alg».proof.Proof.CnnMath

noncomputable section

namespace Cert.CnnSpec

open Idealize.ShloMosaic Idealize.ShloMosaic.ValueIdx

/-- Column `N` of the flattened images. -/
def Xof (x : (⟨4, ![16384, 1, 128, 3]⟩ : Shape).Idx → EReal) (N : Fin 16384) : ℕ → EReal :=
  fun r => if h : r < 384 then x (ix4 N 0 ⟨r / 3, by omega⟩ ⟨r % 3, Nat.mod_lt _ (by omega)⟩) else 0

/-- The first convolution's block. -/
def B1of (w1 : (⟨4, ![16, 1, 3, 3]⟩ : Shape).Idx → EReal) : ℕ → ℕ → EReal :=
  fun ch k => if h : ch < 16 ∧ k < 9 then w1 (ix4 ⟨ch, h.1⟩ 0 ⟨k / 3, by omega⟩ ⟨k % 3, Nat.mod_lt _ (by omega)⟩) else 0

/-- The second convolution's block. -/
def B2of (w2 : (⟨4, ![32, 16, 3, 1]⟩ : Shape).Idx → EReal) : ℕ → ℕ → EReal :=
  fun o k => if h : o < 32 ∧ k < 48 then w2 (ix4 ⟨o, h.1⟩ ⟨k % 16, Nat.mod_lt _ (by omega)⟩ ⟨k / 16, by omega⟩ 0) else 0

/-- The dense layer's weights. -/
def Wfof (wfc : (⟨2, ![128, 1952]⟩ : Shape).Idx → EReal) : ℕ → ℕ → EReal :=
  fun o q => if h : o < 128 ∧ q < 1952 then wfc (ix2 ⟨o, h.1⟩ ⟨q, h.2⟩) else 0

/-- The result array. -/
def G (x : (⟨4, ![16384, 1, 128, 3]⟩ : Shape).Idx → EReal) (w1 : (⟨4, ![16, 1, 3, 3]⟩ : Shape).Idx → EReal)
    (w2 : (⟨4, ![32, 16, 3, 1]⟩ : Shape).Idx → EReal) (wfc : (⟨2, ![128, 1952]⟩ : Shape).Idx → EReal)
    (bfc : (⟨1, ![128]⟩ : Shape).Idx → EReal) : (⟨2, ![16384, 128]⟩ : Shape).Idx → EReal :=
  fun i => CnnMath.out (Xof x (i 0)) (B1of w1) (B2of w2) (Wfof wfc) (bfc (ix1 (i 1))) (i 1).val

end Cert.CnnSpec

end
-- ==== Proof.KerFacts.lean ====
/-
  The kernel's region-entry arrays, read at an entry, in the words of the specification:
  each banded matrix is the specification's block laid along its band, the chunk-ordered dense weights are the
  specification's weight of the flattened position (zero from position 1952 on), and the images are the
  specification's columns.
-/
import proofs.«169050_g2000504127106898_pallasbulk_898_40_alg».proof.Proof.KerArgs
import proofs.«169050_g2000504127106898_pallasbulk_898_40_alg».proof.Proof.KerBands
import proofs.«169050_g2000504127106898_pallasbulk_898_40_alg».proof.Proof.CnnSpec

noncomputable section

namespace Cert.KernelIdeal.Glue

open Idealize.ShloMosaic Idealize.ShloMosaic.TcCoe Idealize.SL.Sem Idealize.ShloMosaic.ValueIdx Cert.CnnSpec

variable (m : (ℓ : Loc nD τ sig) → Buf (Elt Ideal) ℓ) (c : Dev nD)

theorem band1a (r : Fin 1024) (i ch : ℕ) (hr : r.val = 16 * i + ch) (hch : ch < 16) (q : Fin 200) :
    (Gen.V (F := Ideal) m c main_v14 : S1024x200.Idx → EReal) (ix2 r q)
      = if 3 * i ≤ q.val ∧ q.val < 3 * i + 9 then B1of (m ((c : Thread nD τ).loc main_arg1) : S16x1x3x3.Idx → EReal) ch (q.val - 3 * i) else 0 := by
  have hi : i < 64 := by have := r.isLt; omega
  have hq := q.isLt
  have key := w1a_apply m c ⟨i, hi⟩ ⟨ch, hch⟩ q
  rw [show (⟨16 * (⟨i, hi⟩ : Fin 64).val + (⟨ch, hch⟩ : Fin 16).val, by omega⟩ : Fin 1024) = r from Fin.ext hr.symm] at key
  rw [key]
  by_cases h : 3 * i ≤ q.val ∧ q.val < 3 * i + 9
  · rw [dif_pos h, if_pos h, blk1K_apply]
    unfold B1of
    rw [dif_pos ⟨hch, by omega⟩]
  · rw [dif_neg h, if_neg h]

theorem band1b (r : Fin 992) (i ch : ℕ) (hr : r.val = 16 * i + ch) (hch : ch < 16) (q : Fin 192) :
    (Gen.V (F := Ideal) m c main_v24 : S992x192.Idx → EReal) (ix2 r q)
      = if 3 * i ≤ q.val ∧ q.val < 3 * i + 9 then B1of (m ((c : Thread nD τ).loc main_arg1) : S16x1x3x3.Idx → EReal) ch (q.val - 3 * i) else 0 := by
  have hi : i < 62 := by have := r.isLt; omega
  have hq := q.isLt
  have key := w1b_apply m c ⟨i, hi⟩ ⟨ch, hch⟩ q
  rw [show (⟨16 * (⟨i, hi⟩ : Fin 62).val + (⟨ch, hch⟩ : Fin 16).val, by omega⟩ : Fin 992) = r from Fin.ext hr.symm] at key
  rw [key]
  by_cases h : 3 * i ≤ q.val ∧ q.val < 3 * i + 9
  · rw [dif_pos h, if_pos h, blk1K_apply]
    unfold B1of
    rw [dif_pos ⟨hch, by omega⟩]
  · rw [dif_neg h, if_neg h]

theorem band2 (r : Fin 416) (jl oo : ℕ) (hr : r.val = 32 * jl + oo) (hoo : oo < 32) (q : Fin 240) :
    (Gen.V (F := Ideal) m c main_v37 : S416x240.Idx → EReal) (ix2 r q)
      = if 16 * jl ≤ q.val ∧ q.val < 16 * jl + 48 then B2of (m ((c : Thread nD τ).loc main_arg2) : S32x16x3x1.Idx → EReal) oo (q.val - 16 * jl) else 0 := by
  have hj : jl < 13 := by have := r.isLt; omega
  have hq := q.isLt
  have key := w2g_apply m c ⟨jl, hj⟩ ⟨oo, hoo⟩ q
  rw [show (⟨32 * (⟨jl, hj⟩ : Fin 13).val + (⟨oo, hoo⟩ : Fin 32).val, by omega⟩ : Fin 416) = r from Fin.ext hr.symm] at key
  rw [key]
  by_cases h : 16 * jl ≤ q.val ∧ q.val < 16 * jl + 48
  · rw [dif_pos h, if_pos h, blk2K_apply]
    unfold B2of
    rw [dif_pos ⟨hoo, by omega⟩]
  · rw [dif_neg h, if_neg h]

theorem fcK (o : Fin 128) (q : Fin 2080) :
    (Gen.V (F := Ideal) m c main_v41 : S128x2080.Idx → EReal) (ix2 o q)
      = if q.val < 1952 then CnnMath.fcw (Wfof (m ((c : Thread nD τ).loc main_arg3) : S128x1952.Idx → EReal)) o.val q.val else 0 := by
  have hq := q.isLt
  have key := wfcK_apply m c o ⟨q.val / 32, by omega⟩ ⟨q.val % 32, Nat.mod_lt _ (by omega)⟩
  rw [show (⟨32 * (⟨q.val / 32, by omega⟩ : Fin 65).val + (⟨q.val % 32, Nat.mod_lt _ (by omega)⟩ : Fin 32).val, by omega⟩ : Fin 2080) = q
    from Fin.ext (by show 32 * (q.val / 32) + q.val % 32 = q.val; omega)] at key
  rw [key]
  by_cases h : q.val / 32 < 61
  · rw [dif_pos h, if_pos (by omega)]
    unfold CnnMath.fcw Wfof
    rw [dif_pos ⟨o.isLt, by omega⟩]
  · rw [dif_neg h, if_neg (by omega)]

theorem xK (r : Fin 384) (N : Fin 16384) :
    (Gen.V (F := Ideal) m c main_v2 : S384x16384.Idx → EReal) (ix2 r N) = Xof (m ((c : Thread nD τ).loc main_arg0) : S16384x1x128x3.Idx → EReal) N r.val := by
  rw [xsK_apply]
  unfold Xof
  rw [dif_pos r.isLt]

end Cert.KernelIdeal.Glue

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibLayout3.lean ====
/-
  Layout operations on rank-3 arrays read at an index written by coordinates.

  Merging the two leading axes of an [a, b, c] array into one of extent a·b (and splitting it back) keeps entry
  (p, q, e) at row p·b + q; inserting a unit middle axis keeps (p, e) at (p, 0, e); broadcasting along that unit
  axis reads (p, 0, e) at every (p, q, e); a unit-stride slice along the last axis from offset o reads the source
  at last coordinate o + j.
-/
import Idealize.ShloMosaic.Lib.Pipeline.Value
import Idealize.ShloMosaic.Lib.ValueIdx

namespace Cert.LibLayout3

open Idealize.ShloMosaic Idealize.ShloMosaic.ValueIdx

variable {α : Type}

/-- An [a, b, c] array cast to an [m, c] matrix (m = a·b) reads, at row r = p·b + q, the array at (p, q, ·). -/
theorem shapeCast_abc_mc_apply {a b c m : ℕ} (x : (⟨3, ![a, b, c]⟩ : Shape).Idx → α)
    (h : (⟨3, ![a, b, c]⟩ : Shape).ShapeCasts ⟨2, ![m, c]⟩) (p : Fin a) (q : Fin b) (e : Fin c) (r : Fin m)
    (hr : r.val = p.val * b + q.val) :
    shapeCast ⟨2, ![m, c]⟩ x h (ix2 r e) = x (ix3 p q e) :=
  shapeCast_apply x h _ _ (by
    rw [Shape.rowMajor_val_three, Shape.rowMajor_val_two]
    show (p.val * b + q.val) * c + e.val = r.val * c + e.val
    rw [hr])

/-- An [m, c] matrix (m = a·b) cast to an [a, b, c] array reads, at (p, q, ·), the matrix at row r = p·b + q. -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (e : Fin c) (r : Fin m)
    (hr : r.val = p.val * b + q.val) :
    shapeCast ⟨3, ![a, b, c]⟩ x h (ix3 p q e) = x (ix2 r e) :=
  shapeCast_apply x h _ _ (by
    rw [Shape.rowMajor_val_two, Shape.rowMajor_val_three]
    show r.val * c + e.val = (p.val * b + q.val) * c + e.val
    rw [hr])

/-- An [a, c] matrix cast to [a, 1, c] reads, at (p, u, e), the matrix at (p, e). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (e : Fin c) :
    shapeCast ⟨3, ![a, 1, c]⟩ x h (ix3 p u e) = x (ix2 p e) :=
  shapeCast_apply x h _ _ (by
    have hu : u.val = 0 := by omega
    rw [Shape.rowMajor_val_two, Shape.rowMajor_val_three]
    show p.val * c + e.val = (p.val * 1 + u.val) * c + e.val
    rw [hu, Nat.mul_one, Nat.add_zero])

/-- An [a, 1, c] array broadcast along its unit axis to [a, b, c] reads, at (p, q, e), the operand at (p, 0, e). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (e : Fin c) :
    broadcastTo ⟨3, ![a, b, c]⟩ v h (ix3 p q e) = v (ix3 p (0 : Fin 1) e) := by
  refine broadcastTo_apply v h (ix3 p q e) (ix3 p (0 : Fin 1) e) fun ax => ?_
  match ax with
  | ⟨0, _⟩ =>
    show p.val = if a = 1 then 0 else p.val
    split
    · have := p.isLt; omega
    · rfl
  | ⟨1, _⟩ => rfl
  | ⟨2, _⟩ =>
    show e.val = if c = 1 then 0 else e.val
    split
    · have := e.isLt; omega
    · rfl

/-- A rank-3 array cut along its last axis from o reads, at (a, b, j), the source at (a, b, k) with k = o + j. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

end Cert.LibLayout3
-- ==== Proof.LibKeepdims.lean ====
/-
  Layout operations of a row reduction kept as a column, read at an index given by coordinates.

  A reduction over the columns of an [a, b] array gives an [a] vector. Keeping the reduced axis makes it an [a, 1]
  column (a shape cast on the kernel's side, a broadcast along the axes [0] on the host's), and the column is then
  spread over the b columns (a broadcast [a, 1] → [a, b]). Read at (p, c) the spread column is the vector at p.
-/
import Idealize.ShloMosaic.Lib.ValueLayout

namespace Cert.Lib.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's form of the first: an `[a]` array broadcast along the axes `[0]` to `[a, 1]`. -/
theorem broadcastInDim_a_a1_apply {a : ℕ} (v : (⟨1, ![a]⟩ : Shape).Idx → α)
    (h : (⟨1, ![a]⟩ : Shape).BroadcastsInDim ⟨2, ![a, 1]⟩ (![0] : Fin 1 → Fin (⟨2, ![a, 1]⟩ : Shape).rank))
    (p : Fin a) (u : Fin 1) : broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's form of the second: an `[a, 1]` column broadcast along the axes `[0, 1]` to `[a, b]`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.LibLayoutExtra.lean ====
/-
  Layout reads at an index written by coordinates, for shapes of any extents:
  a unit-stride slice of a rank-3 array along its FIRST axis; a load of a rank-2 block through a unit-stride
  rectangle at an offset; the casts [m, c] → [a, b, d, c] (m = a·b·d) and [a, 1, d, c] → [a, d, c].
-/
import Idealize.ShloMosaic.Lib.Pipeline.Value
import Idealize.ShloMosaic.Lib.ValueIdx

namespace Cert.LibLayoutExtra

open Idealize.ShloMosaic Idealize.ShloMosaic.ValueIdx

variable {α : Type}

/-- A rank-3 array cut along its first axis from `o` reads, at (j, b, c), the source at (k, b, c) with k = o + j. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (c : Fin n2) (k : Fin n0) (hk : k.val = o + j.val) :
    extractStridedSlice ⟨3, ![m, n1, n2]⟩ ![o, 0, 0] X h (ix3 j b c) = X (ix3 k b c) :=
  extractStridedSlice_apply _ _ _ _ _ (fun ax => by
    match ax with
    | ⟨0, _⟩ => exact hk
    | ⟨1, _⟩ => exact (Nat.zero_add _).symm
    | ⟨2, _⟩ => exact (Nat.zero_add _).symm)

/-- A load of an [r, c] block of an [R, C] array through the unit-stride rectangle at offsets (o0, o1) reads, at (p, q),
    the array at (o0 + p, o1 + q). -/
theorem ld_unit2_apply {Val : EltTy → Type} {e : EltTy} {R C r c : Nat} (X : (⟨2, ![R, C]⟩ : Shape).Idx → Val e) (o0 o1 : Nat)
    (inb : ∀ a, (![o0, o1] : Fin 2 → Nat) a + (⟨2, ![r, c]⟩ : Shape).size a ≤ (⟨2, ![R, C]⟩ : Shape).size a)
    (p : Fin r) (q : Fin c) (P : Fin R) (Q : Fin C) (hP : P.val = o0 + p.val) (hQ : Q.val = o1 + q.val) :
    View.ld (Val := Val) X (Rect.unit (s := ⟨2, ![R, C]⟩) ![o0, o1] (⟨2, ![r, c]⟩ : Shape).size inb) (ix2 p q) = X (ix2 P Q) := by
  show X _ = X _
  refine congrArg X (funext fun a => Fin.ext ?_)
  match a with
  | ⟨0, _⟩ => show o0 + 1 * p.val = P.val; omega
  | ⟨1, _⟩ => show o1 + 1 * q.val = Q.val; omega

/-- An [m, c] matrix (m = a·b·d) cast to [a, b, d, c] reads, at (p, q, e, ·), the matrix at row (p·b + q)·d + e. -/
theorem shapeCast_mc_abdc_apply {a b d c m : ℕ} (x : (⟨2, ![m, c]⟩ : Shape).Idx → α)
    (h : (⟨2, ![m, c]⟩ : Shape).ShapeCasts ⟨4, ![a, b, d, c]⟩) (p : Fin a) (q : Fin b) (e : Fin d) (f : Fin c) (r : Fin m)
    (hr : r.val = (p.val * b + q.val) * d + e.val) :
    shapeCast ⟨4, ![a, b, d, c]⟩ x h (ix4 p q e f) = x (ix2 r f) :=
  shapeCast_apply x h _ _ (by
    rw [Shape.rowMajor_val_two, Shape.rowMajor_val_four]
    show r.val * c + f.val = ((p.val * b + q.val) * d + e.val) * c + f.val
    rw [hr])

/-- An [a, 1, d, c] array cast to [a, d, c] reads, at (p, e, f), the array at (p, 0, e, f). -/
theorem shapeCast_a1dc_adc_apply {a d c : ℕ} (x : (⟨4, ![a, 1, d, c]⟩ : Shape).Idx → α)
    (h : (⟨4, ![a, 1, d, c]⟩ : Shape).ShapeCasts ⟨3, ![a, d, c]⟩) (p : Fin a) (e : Fin d) (f : Fin c) :
    shapeCast ⟨3, ![a, d, c]⟩ x h (ix3 p e f) = x (ix4 p (0 : Fin 1) e f) :=
  shapeCast_apply x h _ _ (by
    rw [Shape.rowMajor_val_four, Shape.rowMajor_val_three]
    show ((p.val * 1 + 0) * d + e.val) * c + f.val = (p.val * d + e.val) * c + f.val
    rw [Nat.mul_one, Nat.add_zero])

end Cert.LibLayoutExtra
-- ==== Proof.KerBody.lean ====
/-
  The kernel's body, stage by stage, at the extended reals.

  One grid point takes a block `x0` of 2048 images (one image per column, 384 rows), the two banded matrices `x1`, `x2`
  of the first convolution, the banded block `x3` of the second convolution, the dense layer's weights `x4` in the chunked
  order, and the bias column `x5`.  The stages below are the body's operations grouped by what they compute; each stage
  is then read at one entry.
-/
import proofs.«169050_g2000504127106898_pallasbulk_898_40_alg».proof.Proof.Gen.KernelIdeal.Frame
import proofs.«169050_g2000504127106898_pallasbulk_898_40_alg».proof.Proof.LibPlainContract
import proofs.«169050_g2000504127106898_pallasbulk_898_40_alg».proof.Proof.LibLayout3
import proofs.«169050_g2000504127106898_pallasbulk_898_40_alg».proof.Proof.LibKeepdims
import proofs.«169050_g2000504127106898_pallasbulk_898_40_alg».proof.Proof.LibLayoutExtra
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx

/-- The first convolution's two halves: products of the banded matrices with rows 0…199 and 192…383 of the images. -/
def convA (v0 : Vec Ideal S1024x200 .f32) (v2 : Vec Ideal S200x2048 .f32) : FVec Ideal S1024x2048 .f32 :=
  matmul dot_S1024x200_S200x2048_S1024x2048_1_0_0_1_n_n none (shapeCast S1024x200 v0 shapeCasts_S1024x200_S1024x200 : FVec Ideal S1024x200 .f32)
    (shapeCast S200x2048 v2 shapeCasts_S200x2048_S200x2048 : FVec Ideal S200x2048 .f32) (constant S1024x2048 .f32 0x00000000#32)

def convB (v5 : Vec Ideal S992x192 .f32) (v7 : Vec Ideal S192x2048 .f32) : FVec Ideal S992x2048 .f32 :=
  matmul dot_S992x192_S192x2048_S992x2048_1_0_0_1_n_n none (shapeCast S992x192 v5 shapeCasts_S992x192_S992x192 : FVec Ideal S992x192 .f32)
    (shapeCast S192x2048 v7 shapeCasts_S192x2048_S192x2048 : FVec Ideal S192x2048 .f32) (constant S992x2048 .f32 0x00000000#32)

/-- Pooling: rows `2·ip` and `2·ip+1` (16 channels each, 32 rows per pair) compared, then rectified. -/
def poolA (A : FVec Ideal S1024x2048 .f32) : FVec Ideal S32x16x2048 .f32 :=
  maximumf (maximumf
      (extractStridedSlice S32x16x2048 ![0, 0, 0] (shapeCast S32x32x2048 A shapeCasts_S1024x2048_S32x32x2048) slices_S32x32x2048_o0_0_0_S32x16x2048)
      (extractStridedSlice S32x16x2048 ![0, 16, 0] (shapeCast S32x32x2048 A shapeCasts_S1024x2048_S32x32x2048) slices_S32x32x2048_o0_16_0_S32x16x2048))
    (broadcast S32x16x2048 (Scalar.ofBits .f32 0x00000000#32))

def poolB (B : FVec Ideal S992x2048 .f32) : FVec Ideal S31x16x2048 .f32 :=
  maximumf (maximumf
      (extractStridedSlice S31x16x2048 ![0, 0, 0] (shapeCast S31x32x2048 B shapeCasts_S992x2048_S31x32x2048) slices_S31x32x2048_o0_0_0_S31x16x2048)
      (extractStridedSlice S31x16x2048 ![0, 16, 0] (shapeCast S31x32x2048 B shapeCasts_S992x2048_S31x32x2048) slices_S31x32x2048_o0_16_0_S31x16x2048))
    (broadcast S31x16x2048 (Scalar.ofBits .f32 0x00000000#32))

/-- The pooled map of all 63 rows. -/
def pooled (A : FVec Ideal S1024x2048 .f32) (B : FVec Ideal S992x2048 .f32) : FVec Ideal S63x16x2048 .f32 :=
  concatenate S63x16x2048 0 [⟨S32x16x2048, poolA A⟩, ⟨S31x16x2048, poolB B⟩] concatenates_S32x16x2048_S31x16x2048_S63x16x2048_d0

set_option maxRecDepth 65536 in
theorem pay1_eq (v0 : Vec Ideal S1024x200 .f32) (v2 : Vec Ideal S200x2048 .f32) (v5 : Vec Ideal S992x192 .f32) (v7 : Vec Ideal S192x2048 .f32) :
    k0_pay1 v0 v2 v5 v7 = pooled (convA v0 v2) (convB v5 v7) := rfl

/-- The second convolution on one chunk: the banded block times fifteen (or eleven) pooled rows, rectified. -/
def conv2 (w : FVec Ideal S416x240 .f32) (p : FVec Ideal S240x2048 .f32) : FVec Ideal S416x2048 .f32 :=
  maximumf (matmul dot_S416x240_S240x2048_S416x2048_1_0_0_1_n_n none w p (constant S416x2048 .f32 0x00000000#32))
    (broadcast S416x2048 (Scalar.ofBits .f32 0x00000000#32))

def conv2last (w : FVec Ideal S416x240 .f32) (p : FVec Ideal S176x2048 .f32) : FVec Ideal S416x2048 .f32 :=
  maximumf (matmul dot_S416x176_S176x2048_S416x2048_1_0_0_1_n_n none
      (extractStridedSlice S416x176 ![0, 0] w slices_S416x240_o0_0_S416x176) p (constant S416x2048 .f32 0x00000000#32))
    (broadcast S416x2048 (Scalar.ofBits .f32 0x00000000#32))

/-- Fifteen pooled rows from row `off`, flattened to 240 rows. -/
def rows15 (off : ℕ) (h : S63x16x2048.Slices ![off, 0, 0] S15x16x2048) (P : FVec Ideal S63x16x2048 .f32) : FVec Ideal S240x2048 .f32 :=
  shapeCast S240x2048 (extractStridedSlice S15x16x2048 ![off, 0, 0] P h) shapeCasts_S15x16x2048_S240x2048

/-- One chunk of the dense layer: 416 weight columns times the chunk's second-convolution rows. -/
def fc (wc : Vec Ideal S128x416 .f32) (a : FVec Ideal S416x2048 .f32) : FVec Ideal S128x2048 .f32 :=
  matmul dot_S128x416_S416x2048_S128x2048_1_0_0_1_n_n none (shapeCast S128x416 wc shapeCasts_S128x416_S128x416 : FVec Ideal S128x416 .f32) a
    (constant S128x2048 .f32 0x00000000#32)

set_option maxRecDepth 65536 in
theorem pay3_eq (v0 : Vec Ideal S1024x200 .f32) (v2 : Vec Ideal S200x2048 .f32) (v5 : Vec Ideal S992x192 .f32) (v7 : Vec Ideal S192x2048 .f32)
    (v23 : Vec Ideal S416x240 .f32) (v25 : Vec Ideal S128x1 .f32) (v32 : Vec Ideal S128x416 .f32) :
    k0_pay3 v0 v2 v5 v7 v23 v25 v32
      = addf (broadcastTo S128x2048 (shapeCast S128x1 v25 shapeCasts_S128x1_S128x1 : FVec Ideal S128x1 .f32) broadcasts_S128x1_S128x2048)
          (fc v32 (conv2 (k0_pay2 v23) (rows15 0 slices_S63x16x2048_o0_0_0_S15x16x2048 (k0_pay1 v0 v2 v5 v7)))) := rfl

set_option maxRecDepth 65536 in
theorem pay5_eq (v22 : FVec Ideal S63x16x2048 .f32) (v24 : FVec Ideal S416x240 .f32) (v36 : FVec Ideal S128x2048 .f32) (v37 : FVec Ideal S15x16x2048 .f32)
    (v42 v51 v60 v70 : Vec Ideal S128x416 .f32) :
    k0_pay5 v22 v24 v36 v37 v42 v51 v60 v70
      = transpose S2048x128 [1, 0]
          (addf (addf (addf (addf v36
              (fc v42 (conv2 v24 (shapeCast S240x2048 v37 shapeCasts_S15x16x2048_S240x2048))))
              (fc v51 (conv2 v24 (rows15 26 slices_S63x16x2048_o26_0_0_S15x16x2048 v22))))
              (fc v60 (conv2 v24 (rows15 39 slices_S63x16x2048_o39_0_0_S15x16x2048 v22))))
              (fc v70 (conv2last v24 (shapeCast S176x2048 (extractStridedSlice S11x16x2048 ![52, 0, 0] v22 slices_S63x16x2048_o52_0_0_S11x16x2048) shapeCasts_S11x16x2048_S176x2048))))
          transposes_S128x2048_p1_0_S2048x128 := rfl

/-! ## The stages read at one entry -/

open Cert.LibPlainContract Cert.LibLayout3 Cert.Lib.Keepdims Cert.LibLayoutExtra

/-- Entry (r, n) of a first-convolution half is row r of the banded matrix against column n of the images. -/
theorem convA_apply (v0 : Vec Ideal S1024x200 .f32) (v2 : Vec Ideal S200x2048 .f32) (r : Fin 1024) (n : Fin 2048) :
    convA v0 v2 (ix2 r n) = ∑ k : Fin 200, v0 (ix2 r k) * v2 (ix2 k n) := by
  unfold convA
  rw [shapeCast_self, shapeCast_self]
  exact matmul_plain_apply 1024 200 2048 none v0 v2 r n

theorem convB_apply (v5 : Vec Ideal S992x192 .f32) (v7 : Vec Ideal S192x2048 .f32) (r : Fin 992) (n : Fin 2048) :
    convB v5 v7 (ix2 r n) = ∑ k : Fin 192, v5 (ix2 r k) * v7 (ix2 k n) := by
  unfold convB
  rw [shapeCast_self, shapeCast_self]
  exact matmul_plain_apply 992 192 2048 none v5 v7 r n

/-- Pooled row ip, channel ch: rows 32·ip + ch and 32·ip + 16 + ch of the convolution, compared and rectified. -/
theorem poolA_apply (A : FVec Ideal S1024x2048 .f32) (ip : Fin 32) (ch : Fin 16) (n : Fin 2048) :
    poolA A (ix3 ip ch n)
      = max (max (A (ix2 ⟨32 * ip.val + ch.val, by omega⟩ n)) (A (ix2 ⟨32 * ip.val + 16 + ch.val, by omega⟩ n))) 0 := by
  unfold poolA
  rw [maximumf_apply, maximumf_apply, broadcast_apply]
  rw [slice3_axis1_apply 0 _ slices_S32x32x2048_o0_0_0_S32x16x2048 ip ch n ⟨ch.val, by omega⟩ (Nat.zero_add _).symm,
    slice3_axis1_apply 16 _ slices_S32x32x2048_o0_16_0_S32x16x2048 ip ch n ⟨16 + ch.val, by omega⟩ rfl,
    shapeCast_mc_abc_apply A shapeCasts_S1024x2048_S32x32x2048 ip ⟨ch.val, by omega⟩ n ⟨32 * ip.val + ch.val, by omega⟩ (by show 32 * ip.val + ch.val = ip.val * 32 + ch.val; omega),
    shapeCast_mc_abc_apply A shapeCasts_S1024x2048_S32x32x2048 ip ⟨16 + ch.val, by omega⟩ n ⟨32 * ip.val + 16 + ch.val, by omega⟩ (by show 32 * ip.val + 16 + ch.val = ip.val * 32 + (16 + ch.val); omega)]
  exact congrArg (max _) Ideal.ofBits_zero_f32

theorem poolB_apply (B : FVec Ideal S992x2048 .f32) (ip : Fin 31) (ch : Fin 16) (n : Fin 2048) :
    poolB B (ix3 ip ch n)
      = max (max (B (ix2 ⟨32 * ip.val + ch.val, by omega⟩ n)) (B (ix2 ⟨32 * ip.val + 16 + ch.val, by omega⟩ n))) 0 := by
  unfold poolB
  rw [maximumf_apply, maximumf_apply, broadcast_apply]
  rw [slice3_axis1_apply 0 _ slices_S31x32x2048_o0_0_0_S31x16x2048 ip ch n ⟨ch.val, by omega⟩ (Nat.zero_add _).symm,
    slice3_axis1_apply 16 _ slices_S31x32x2048_o0_16_0_S31x16x2048 ip ch n ⟨16 + ch.val, by omega⟩ rfl,
    shapeCast_mc_abc_apply B shapeCasts_S992x2048_S31x32x2048 ip ⟨ch.val, by omega⟩ n ⟨32 * ip.val + ch.val, by omega⟩ (by show 32 * ip.val + ch.val = ip.val * 32 + ch.val; omega),
    shapeCast_mc_abc_apply B shapeCasts_S992x2048_S31x32x2048 ip ⟨16 + ch.val, by omega⟩ n ⟨32 * ip.val + 16 + ch.val, by omega⟩ (by show 32 * ip.val + 16 + ch.val = ip.val * 32 + (16 + ch.val); omega)]
  exact congrArg (max _) Ideal.ofBits_zero_f32

/-- The pooled map's first 32 rows come from the first half, … -/
theorem pooled_apply_lo (A : FVec Ideal S1024x2048 .f32) (B : FVec Ideal S992x2048 .f32) (ip : Fin 63) (ch : Fin 16) (n : Fin 2048)
    (h : ip.val < 32) : pooled A B (ix3 ip ch n) = poolA A (ix3 ⟨ip.val, h⟩ ch n) := by
  unfold pooled
  exact concatenate_pair_apply_left 0 _ _ concatenates_S32x16x2048_S31x16x2048_S63x16x2048_d0 _ rfl _
    (fun b => match b with | ⟨0, _⟩ => rfl | ⟨1, _⟩ => rfl | ⟨2, _⟩ => rfl)

/-- … its last 31 rows from the second. -/
theorem pooled_apply_hi (A : FVec Ideal S1024x2048 .f32) (B : FVec Ideal S992x2048 .f32) (ip : Fin 63) (ch : Fin 16) (n : Fin 2048)
    (h : 32 ≤ ip.val) : pooled A B (ix3 ip ch n) = poolB B (ix3 ⟨ip.val - 32, by omega⟩ ch n) := by
  unfold pooled
  refine concatenate_pair_apply_right 0 _ _ concatenates_S32x16x2048_S31x16x2048_S63x16x2048_d0 _ rfl rfl _
    (fun b hb => match b, hb with | ⟨0, _⟩, hb => absurd rfl hb | ⟨1, _⟩, _ => rfl | ⟨2, _⟩, _ => rfl) ?_
  show ip.val - 32 + 32 = ip.val
  omega

/-- Row 16·a + ch of the fifteen flattened pooled rows from `off` is pooled row off + a, channel ch. -/
theorem rows15_apply (off : ℕ) (h : S63x16x2048.Slices ![off, 0, 0] S15x16x2048) (P : FVec Ideal S63x16x2048 .f32)
    (a : Fin 15) (ch : Fin 16) (n : Fin 2048) (r : Fin 240) (hr : r.val = 16 * a.val + ch.val) (k : Fin 63) (hk : k.val = off + a.val) :
    rows15 off h P (ix2 r n) = P (ix3 k ch n) := by
  unfold rows15
  rw [shapeCast_abc_mc_apply _ shapeCasts_S15x16x2048_S240x2048 a ch n r (by rw [hr]; omega),
    slice3_axis0_apply off P h a ch n k hk]

/-- Entry (r, n) of the rectified second convolution on a chunk. -/
theorem conv2_apply (w : FVec Ideal S416x240 .f32) (p : FVec Ideal S240x2048 .f32) (r : Fin 416) (n : Fin 2048) :
    conv2 w p (ix2 r n) = max (∑ k : Fin 240, w (ix2 r k) * p (ix2 k n)) 0 := by
  unfold conv2
  rw [maximumf_apply, broadcast_apply]
  show max (FloatOps.matmul (DotDims.plain 416 240 2048) none w p (constant ⟨2, ![416, 2048]⟩ .f32 0x00000000#32) (ix2 r n))
      (Ideal.ofBits .f32 0x00000000#32) = _
  rw [matmul_plain_apply 416 240 2048 none w p r n, Ideal.ofBits_zero_f32]

theorem conv2last_apply (w : FVec Ideal S416x240 .f32) (p : FVec Ideal S176x2048 .f32) (r : Fin 416) (n : Fin 2048) :
    conv2last w p (ix2 r n) = max (∑ k : Fin 176, w (ix2 r ⟨k.val, by omega⟩) * p (ix2 k n)) 0 := by
  unfold conv2last
  rw [maximumf_apply, broadcast_apply]
  show max (FloatOps.matmul (DotDims.plain 416 176 2048) none (extractStridedSlice S416x176 ![0, 0] w slices_S416x240_o0_0_S416x176) p
      (constant ⟨2, ![416, 2048]⟩ .f32 0x00000000#32) (ix2 r n)) (Ideal.ofBits .f32 0x00000000#32) = _
  rw [matmul_plain_apply 416 176 2048 none _ p r n, Ideal.ofBits_zero_f32]
  refine congrArg (fun s => max s 0) (Finset.sum_congr rfl fun k _ => ?_)
  rw [slice2_axis1_apply 0 w slices_S416x240_o0_0_S416x176 r k ⟨k.val, by omega⟩ (Nat.zero_add _).symm]

/-- Entry (o, n) of one chunk of the dense layer. -/
theorem fc_apply (wc : Vec Ideal S128x416 .f32) (a : FVec Ideal S416x2048 .f32) (o : Fin 128) (n : Fin 2048) :
    fc wc a (ix2 o n) = ∑ k : Fin 416, wc (ix2 o k) * a (ix2 k n) := by
  unfold fc
  rw [shapeCast_self]
  exact matmul_plain_apply 128 416 2048 none wc a o n

end Cert.KernelIdeal.Body

end
-- ==== Proof.KerEntry.lean ====
/-
  The kernel's stored block, at one entry, as the network's output for that image and class.

  The facts used about what the body loads are stated over the loaded vectors as variables: row `16·i + ch` of each
  first-convolution matrix is the 16×9 block `B1` laid from column `3·i`; row `32·jl + oo` of the second-convolution block
  is the 32×48 block `B2` laid from column `16·jl`; the dense layer's chunk `g` holds the weights of positions
  `416·g + k`, zero from position 1952 on; column `n` of the images is `X`.
-/
import proofs.«169050_g2000504127106898_pallasbulk_898_40_alg».proof.Proof.KerBody
import proofs.«169050_g2000504127106898_pallasbulk_898_40_alg».proof.Proof.CnnMath

noncomputable section

open scoped BigOperators

namespace Cert.KernelIdeal.Body

open Cert.KernelIdeal Cert.KernelIdeal.Gen Idealize.ShloMosaic Idealize.ShloMosaic.ValueIdx Cert.CnnMath

section Core

variable (v0 : Vec Ideal S1024x200 .f32) (v2 : Vec Ideal S200x2048 .f32) (v5 : Vec Ideal S992x192 .f32) (v7 : Vec Ideal S192x2048 .f32)
  (v23 : Vec Ideal S416x240 .f32) (v25 : Vec Ideal S128x1 .f32) (v32 v42 v51 v60 v70 : Vec Ideal S128x416 .f32)
  (X : ℕ → EReal) (B1 B2 Wf : ℕ → ℕ → EReal) (n : Fin 2048) (o : Fin 128)

/-- The first half of the first convolution: row `16·i + ch` is `c1 i ch`. -/
theorem convA_entry
    (h0 : ∀ (r : Fin 1024) (i ch : ℕ), r.val = 16 * i + ch → ch < 16 → ∀ q : Fin 200,
      v0 (ix2 r q) = if 3 * i ≤ q.val ∧ q.val < 3 * i + 9 then B1 ch (q.val - 3 * i) else 0)
    (h2 : ∀ k : Fin 200, v2 (ix2 k n) = X k.val)
    (r : Fin 1024) (i ch : ℕ) (hr : r.val = 16 * i + ch) (hch : ch < 16) :
    convA v0 v2 (ix2 r n) = CnnMath.c1 X B1 i ch := by
  rw [convA_apply]
  exact band_sum_fin 200 9 (3 * i) (by have := r.isLt; omega) _ _ (B1 ch) X (h0 r i ch hr hch) h2

/-- The second half: row `16·i + ch` is `c1 (64 + i) ch` (it reads the images from row 192 on). -/
theorem convB_entry
    (h5 : ∀ (r : Fin 992) (i ch : ℕ), r.val = 16 * i + ch → ch < 16 → ∀ q : Fin 192,
      v5 (ix2 r q) = if 3 * i ≤ q.val ∧ q.val < 3 * i + 9 then B1 ch (q.val - 3 * i) else 0)
    (h7 : ∀ k : Fin 192, v7 (ix2 k n) = X (192 + k.val))
    (r : Fin 992) (i ch : ℕ) (hr : r.val = 16 * i + ch) (hch : ch < 16) :
    convB v5 v7 (ix2 r n) = CnnMath.c1 X B1 (64 + i) ch := by
  rw [convB_apply, band_sum_fin 192 9 (3 * i) (by have := r.isLt; omega) _ _ (B1 ch) (fun q => X (192 + q)) (h5 r i ch hr hch) h7]
  unfold CnnMath.c1
  refine Finset.sum_congr rfl fun j _ => ?_
  show B1 ch j * X (192 + (3 * i + j)) = B1 ch j * X (3 * (64 + i) + j)
  rw [show 192 + (3 * i + j) = 3 * (64 + i) + j by omega]

variable
    (h0 : ∀ (r : Fin 1024) (i ch : ℕ), r.val = 16 * i + ch → ch < 16 → ∀ q : Fin 200,
      v0 (ix2 r q) = if 3 * i ≤ q.val ∧ q.val < 3 * i + 9 then B1 ch (q.val - 3 * i) else 0)
    (h2 : ∀ k : Fin 200, v2 (ix2 k n) = X k.val)
    (h5 : ∀ (r : Fin 992) (i ch : ℕ), r.val = 16 * i + ch → ch < 16 → ∀ q : Fin 192,
      v5 (ix2 r q) = if 3 * i ≤ q.val ∧ q.val < 3 * i + 9 then B1 ch (q.val - 3 * i) else 0)
    (h7 : ∀ k : Fin 192, v7 (ix2 k n) = X (192 + k.val))

include h0 h2 h5 h7 in
/-- The pooled map: row `ip`, channel `ch`. -/
theorem pooled_entry (ip : Fin 63) (ch : Fin 16) :
    k0_pay1 v0 v2 v5 v7 (ix3 ip ch n) = CnnMath.pool X B1 ip.val ch.val := by
  rw [pay1_eq]
  unfold CnnMath.pool
  by_cases h : ip.val < 32
  · rw [pooled_apply_lo _ _ ip ch n h, poolA_apply,
      convA_entry v0 v2 X B1 n h0 h2 _ (2 * ip.val) ch.val (by show 32 * ip.val + ch.val = _; omega) ch.isLt,
      convA_entry v0 v2 X B1 n h0 h2 _ (2 * ip.val + 1) ch.val (by show 32 * ip.val + 16 + ch.val = _; omega) ch.isLt]
  · rw [pooled_apply_hi _ _ ip ch n (by omega), poolB_apply,
      convB_entry v5 v7 X B1 n h5 h7 _ (2 * (ip.val - 32)) ch.val (by show 32 * (ip.val - 32) + ch.val = _; omega) ch.isLt,
      convB_entry v5 v7 X B1 n h5 h7 _ (2 * (ip.val - 32) + 1) ch.val (by show 32 * (ip.val - 32) + 16 + ch.val = _; omega) ch.isLt,
      show 64 + 2 * (ip.val - 32) = 2 * ip.val by omega, show 64 + (2 * (ip.val - 32) + 1) = 2 * ip.val + 1 by omega]

end Core

section Chunks

variable (w : FVec Ideal S416x240 .f32) (Q : FVec Ideal S63x16x2048 .f32)
  (X : ℕ → EReal) (B1 B2 : ℕ → ℕ → EReal) (n : Fin 2048)
  (hw : ∀ (r : Fin 416) (jl oo : ℕ), r.val = 32 * jl + oo → oo < 32 → ∀ q : Fin 240,
      w (ix2 r q) = if 16 * jl ≤ q.val ∧ q.val < 16 * jl + 48 then B2 oo (q.val - 16 * jl) else 0)
  (hQ : ∀ (ip : Fin 63) (ch : Fin 16), Q (ix3 ip ch n) = CnnMath.pool X B1 ip.val ch.val)

include hQ in
/-- Row `k` of fifteen flattened pooled rows from `off` is the pooled map at flattened position `16·off + k`. -/
theorem rows15_entry (off : ℕ) (hoff : off + 15 ≤ 63) (h : S63x16x2048.Slices ![off, 0, 0] S15x16x2048) (k : Fin 240) :
    rows15 off h Q (ix2 k n) = CnnMath.P X B1 (16 * off + k.val) := by
  have hk := k.isLt
  rw [rows15_apply off h Q ⟨k.val / 16, by omega⟩ ⟨k.val % 16, Nat.mod_lt _ (by omega)⟩ n k (by show k.val = 16 * (k.val / 16) + k.val % 16; omega)
    ⟨off + k.val / 16, by omega⟩ rfl, hQ]
  unfold CnnMath.P
  show CnnMath.pool X B1 (off + k.val / 16) (k.val % 16) = CnnMath.pool X B1 ((16 * off + k.val) / 16) ((16 * off + k.val) % 16)
  rw [show (16 * off + k.val) / 16 = off + k.val / 16 by omega, show (16 * off + k.val) % 16 = k.val % 16 by omega]

include hw hQ in
/-- The second convolution on a chunk of fifteen pooled rows from `off`: row `32·jl + oo` is `c2 (off + jl) oo`. -/
theorem conv2_entry (off : ℕ) (hoff : off + 15 ≤ 63) (h : S63x16x2048.Slices ![off, 0, 0] S15x16x2048)
    (r : Fin 416) (jl oo : ℕ) (hr : r.val = 32 * jl + oo) (hoo : oo < 32) :
    conv2 w (rows15 off h Q) (ix2 r n) = CnnMath.c2 X B1 B2 (off + jl) oo := by
  have hrl := r.isLt
  rw [conv2_apply, band_sum_fin 240 48 (16 * jl) (by omega) _ _ (B2 oo) (fun q => CnnMath.P X B1 (16 * off + q)) (hw r jl oo hr hoo)
    (fun k => rows15_entry Q X B1 n hQ off hoff h k)]
  unfold CnnMath.c2
  refine congrArg (fun s => max s 0) (Finset.sum_congr rfl fun j _ => ?_)
  show B2 oo j * CnnMath.P X B1 (16 * off + (16 * jl + j)) = B2 oo j * CnnMath.P X B1 (16 * (off + jl) + j)
  rw [show 16 * off + (16 * jl + j) = 16 * (off + jl) + j by omega]

include hQ in
/-- Row `k` of the last eleven flattened pooled rows (from row 52). -/
theorem rows11_entry (k : Fin 176) :
    shapeCast S176x2048 (extractStridedSlice S11x16x2048 ![52, 0, 0] Q slices_S63x16x2048_o52_0_0_S11x16x2048) shapeCasts_S11x16x2048_S176x2048 (ix2 k n)
      = CnnMath.P X B1 (16 * 52 + k.val) := by
  have hk := k.isLt
  rw [Cert.LibLayout3.shapeCast_abc_mc_apply _ shapeCasts_S11x16x2048_S176x2048 ⟨k.val / 16, by omega⟩ ⟨k.val % 16, Nat.mod_lt _ (by omega)⟩ n k
      (by show k.val = k.val / 16 * 16 + k.val % 16; omega),
    Cert.LibLayoutExtra.slice3_axis0_apply 52 Q slices_S63x16x2048_o52_0_0_S11x16x2048 ⟨k.val / 16, by omega⟩ ⟨k.val % 16, Nat.mod_lt _ (by omega)⟩ n
      ⟨52 + k.val / 16, by omega⟩ rfl, hQ]
  unfold CnnMath.P
  show CnnMath.pool X B1 (52 + k.val / 16) (k.val % 16) = CnnMath.pool X B1 ((16 * 52 + k.val) / 16) ((16 * 52 + k.val) % 16)
  rw [show (16 * 52 + k.val) / 16 = 52 + k.val / 16 by omega, show (16 * 52 + k.val) % 16 = k.val % 16 by omega]

include hw hQ in
/-- The last chunk: rows `32·jl + oo` with `jl ≤ 8` are `c2 (52 + jl) oo` (the later rows see a cut band). -/
theorem conv2last_entry (r : Fin 416) (jl oo : ℕ) (hr : r.val = 32 * jl + oo) (hoo : oo < 32) (hjl : jl ≤ 8) :
    conv2last w (shapeCast S176x2048 (extractStridedSlice S11x16x2048 ![52, 0, 0] Q slices_S63x16x2048_o52_0_0_S11x16x2048) shapeCasts_S11x16x2048_S176x2048) (ix2 r n)
      = CnnMath.c2 X B1 B2 (52 + jl) oo := by
  rw [conv2last_apply, band_sum_fin 176 48 (16 * jl) (by omega) _ _ (B2 oo) (fun q => CnnMath.P X B1 (16 * 52 + q))
    (fun k => hw r jl oo hr hoo ⟨k.val, by have := k.isLt; omega⟩) (fun k => rows11_entry Q X B1 n hQ k)]
  unfold CnnMath.c2
  refine congrArg (fun s => max s 0) (Finset.sum_congr rfl fun j _ => ?_)
  show B2 oo j * CnnMath.P X B1 (16 * 52 + (16 * jl + j)) = B2 oo j * CnnMath.P X B1 (16 * (52 + jl) + j)
  rw [show 16 * 52 + (16 * jl + j) = 16 * (52 + jl) + j by omega]

end Chunks

section Stored

variable (v0 : Vec Ideal S1024x200 .f32) (v2 : Vec Ideal S200x2048 .f32) (v5 : Vec Ideal S992x192 .f32) (v7 : Vec Ideal S192x2048 .f32)
  (v23 : Vec Ideal S416x240 .f32) (v25 : Vec Ideal S128x1 .f32) (v32 v42 v51 v60 v70 : Vec Ideal S128x416 .f32)
  (X : ℕ → EReal) (B1 B2 Wf : ℕ → ℕ → EReal) (n : Fin 2048) (o : Fin 128)

theorem pay2_self : k0_pay2 v23 = v23 := by
  unfold k0_pay2
  exact shapeCast_self _ _

set_option maxRecDepth 65536 in
theorem pay4_rows : shapeCast S240x2048 (k0_pay4 v0 v2 v5 v7) shapeCasts_S15x16x2048_S240x2048
    = rows15 13 slices_S63x16x2048_o13_0_0_S15x16x2048 (k0_pay1 v0 v2 v5 v7) := rfl

variable
    (h0 : ∀ (r : Fin 1024) (i ch : ℕ), r.val = 16 * i + ch → ch < 16 → ∀ q : Fin 200,
      v0 (ix2 r q) = if 3 * i ≤ q.val ∧ q.val < 3 * i + 9 then B1 ch (q.val - 3 * i) else 0)
    (h2 : ∀ k : Fin 200, v2 (ix2 k n) = X k.val)
    (h5 : ∀ (r : Fin 992) (i ch : ℕ), r.val = 16 * i + ch → ch < 16 → ∀ q : Fin 192,
      v5 (ix2 r q) = if 3 * i ≤ q.val ∧ q.val < 3 * i + 9 then B1 ch (q.val - 3 * i) else 0)
    (h7 : ∀ k : Fin 192, v7 (ix2 k n) = X (192 + k.val))
    (h23 : ∀ (r : Fin 416) (jl oo : ℕ), r.val = 32 * jl + oo → oo < 32 → ∀ q : Fin 240,
      v23 (ix2 r q) = if 16 * jl ≤ q.val ∧ q.val < 16 * jl + 48 then B2 oo (q.val - 16 * jl) else 0)

include h0 h2 h5 h7 h23 in
/-- One term of a full chunk of the dense layer: the weight of position `416·g + k` times the second convolution there. -/
theorem chunk_term (vg : Vec Ideal S128x416 .f32) (g off : ℕ) (hg : 416 * g + 415 < 1952) (hoff2 : off = 13 * g) (hoff : off + 15 ≤ 63)
    (h : S63x16x2048.Slices ![off, 0, 0] S15x16x2048)
    (hwg : ∀ k : Fin 416, vg (ix2 o k) = if 416 * g + k.val < 1952 then fcw Wf o.val (416 * g + k.val) else 0) (k : Fin 416) :
    vg (ix2 o k) * conv2 v23 (rows15 off h (k0_pay1 v0 v2 v5 v7)) (ix2 k n)
      = fcw Wf o.val (416 * g + k.val) * A2 X B1 B2 (416 * g + k.val) := by
  have hk := k.isLt
  rw [hwg k, if_pos (by omega),
    conv2_entry v23 (k0_pay1 v0 v2 v5 v7) X B1 B2 n h23 (pooled_entry v0 v2 v5 v7 X B1 n h0 h2 h5 h7) off hoff h k (k.val / 32) (k.val % 32)
      (by omega) (Nat.mod_lt _ (by omega))]
  unfold A2
  rw [show (416 * g + k.val) / 32 = off + k.val / 32 by omega, show (416 * g + k.val) % 32 = k.val % 32 by omega]

variable
    (hw0 : ∀ k : Fin 416, v32 (ix2 o k) = if 416 * 0 + k.val < 1952 then fcw Wf o.val (416 * 0 + k.val) else 0)
    (hw1 : ∀ k : Fin 416, v42 (ix2 o k) = if 416 * 1 + k.val < 1952 then fcw Wf o.val (416 * 1 + k.val) else 0)
    (hw2 : ∀ k : Fin 416, v51 (ix2 o k) = if 416 * 2 + k.val < 1952 then fcw Wf o.val (416 * 2 + k.val) else 0)
    (hw3 : ∀ k : Fin 416, v60 (ix2 o k) = if 416 * 3 + k.val < 1952 then fcw Wf o.val (416 * 3 + k.val) else 0)
    (hw4 : ∀ k : Fin 416, v70 (ix2 o k) = if 416 * 4 + k.val < 1952 then fcw Wf o.val (416 * 4 + k.val) else 0)

include h0 h2 h5 h7 h23 hw0 hw1 hw2 hw3 hw4 in
/-- What the body stores at (n, o): the network's output for image `n` of the block and class `o`. -/
theorem stored_entry :
    k0_pay5 (k0_pay1 v0 v2 v5 v7) (k0_pay2 v23) (k0_pay3 v0 v2 v5 v7 v23 v25 v32) (k0_pay4 v0 v2 v5 v7) v42 v51 v60 v70 (ix2 n o)
      = CnnMath.out X B1 B2 Wf (v25 (ix2 o 0)) o.val := by
  have hQ := pooled_entry v0 v2 v5 v7 X B1 n h0 h2 h5 h7
  rw [pay5_eq, transpose_ix2_apply _ transposes_S128x2048_p1_0_S2048x128 n o, addf_apply, addf_apply, addf_apply, addf_apply,
    pay3_eq, addf_apply, Cert.Lib.Keepdims.broadcastTo_a1_ab_apply _ broadcasts_S128x1_S128x2048 o n, shapeCast_self,
    pay4_rows, pay2_self, fc_apply, fc_apply, fc_apply, fc_apply, fc_apply]
  unfold CnnMath.out
  refine chunks_eq' (v25 (ix2 o 0)) _ _ _ _ _ (fun q => fcw Wf o.val q * A2 X B1 B2 q) ?_ ?_ ?_ ?_ ?_ ?_
  · exact chunk_term v0 v2 v5 v7 v23 X B1 B2 Wf n o h0 h2 h5 h7 h23 v32 0 0 (by omega) rfl (by omega) _ hw0
  · exact chunk_term v0 v2 v5 v7 v23 X B1 B2 Wf n o h0 h2 h5 h7 h23 v42 1 13 (by omega) rfl (by omega) _ hw1
  · exact chunk_term v0 v2 v5 v7 v23 X B1 B2 Wf n o h0 h2 h5 h7 h23 v51 2 26 (by omega) rfl (by omega) _ hw2
  · exact chunk_term v0 v2 v5 v7 v23 X B1 B2 Wf n o h0 h2 h5 h7 h23 v60 3 39 (by omega) rfl (by omega) _ hw3
  · intro k hk
    rw [hw4 k, if_pos (by omega),
      conv2last_entry v23 (k0_pay1 v0 v2 v5 v7) X B1 B2 n h23 hQ k (k.val / 32) (k.val % 32) (by omega) (Nat.mod_lt _ (by omega)) (by omega)]
    show _ = fcw Wf o.val (416 * 4 + k.val) * A2 X B1 B2 (416 * 4 + k.val)
    unfold A2
    rw [show (416 * 4 + k.val) / 32 = 52 + k.val / 32 by omega, show (416 * 4 + k.val) % 32 = k.val % 32 by omega]
  · intro k hk
    rw [hw4 k, if_neg (by omega)]
    exact zero_mul _

end Stored

section Out

variable (x0 : Vec Ideal S384x2048 .f32) (x1 : Vec Ideal S1024x200 .f32) (x2 : Vec Ideal S992x192 .f32)
  (x3 : Vec Ideal S416x240 .f32) (x4 : Vec Ideal S128x2080 .f32) (x5 : Vec Ideal S128x1 .f32)
  (X : ℕ → EReal) (B1 B2 Wf : ℕ → ℕ → EReal) (n : Fin 2048) (o : Fin 128)

theorem zeros2 : (![0, 0] : Fin 2 → ℕ) = fun _ => 0 := funext fun a => by fin_cases a <;> rfl

/-- What a grid point leaves in its output block, at (n, o), from facts about its six input blocks: the network's
    output for the block's image `n` and class `o`. -/
theorem out_entry
    (hx0 : ∀ r : Fin 384, x0 (ix2 r n) = X r.val)
    (hx1 : ∀ (r : Fin 1024) (i ch : ℕ), r.val = 16 * i + ch → ch < 16 → ∀ q : Fin 200,
      x1 (ix2 r q) = if 3 * i ≤ q.val ∧ q.val < 3 * i + 9 then B1 ch (q.val - 3 * i) else 0)
    (hx2 : ∀ (r : Fin 992) (i ch : ℕ), r.val = 16 * i + ch → ch < 16 → ∀ q : Fin 192,
      x2 (ix2 r q) = if 3 * i ≤ q.val ∧ q.val < 3 * i + 9 then B1 ch (q.val - 3 * i) else 0)
    (hx3 : ∀ (r : Fin 416) (jl oo : ℕ), r.val = 32 * jl + oo → oo < 32 → ∀ q : Fin 240,
      x3 (ix2 r q) = if 16 * jl ≤ q.val ∧ q.val < 16 * jl + 48 then B2 oo (q.val - 16 * jl) else 0)
    (hx4 : ∀ q : Fin 2080, x4 (ix2 o q) = if q.val < 1952 then fcw Wf o.val q.val else 0) :
    out0_6 x0 x1 x2 x3 x4 x5 (ix2 n o) = CnnMath.out X B1 B2 Wf (x5 (ix2 o 0)) o.val := by
  unfold out0_6
  rw [View.canon_unit_zero zeros2]
  simp only [View.ld_unit_zero (S := S1024x200) zeros2, View.ld_unit_zero (S := S992x192) zeros2,
    View.ld_unit_zero (S := S416x240) zeros2, View.ld_unit_zero (S := S128x1) zeros2]
  have h2 : ∀ k : Fin 200, View.ld x0 r0_1 (ix2 k n) = X k.val := fun k => by
    rw [Cert.LibLayoutExtra.ld_unit2_apply x0 0 0 _ k n ⟨k.val, by have := k.isLt; omega⟩ n (Nat.zero_add _).symm (Nat.zero_add _).symm]
    exact hx0 _
  have h7 : ∀ k : Fin 192, View.ld x0 r0_3 (ix2 k n) = X (192 + k.val) := fun k => by
    rw [Cert.LibLayoutExtra.ld_unit2_apply x0 192 0 _ k n ⟨192 + k.val, by have := k.isLt; omega⟩ n rfl (Nat.zero_add _).symm]
    exact hx0 _
  have hw0 : ∀ k : Fin 416, View.ld x4 r0_6 (ix2 o k) = if 416 * 0 + k.val < 1952 then fcw Wf o.val (416 * 0 + k.val) else 0 := fun k => by
    rw [Cert.LibLayoutExtra.ld_unit2_apply x4 0 0 _ o k o ⟨416 * 0 + k.val, by have := k.isLt; omega⟩ (Nat.zero_add _).symm (by show 416 * 0 + k.val = 0 + k.val; omega)]
    exact hx4 _
  have hw1 : ∀ k : Fin 416, View.ld x4 r0_7 (ix2 o k) = if 416 * 1 + k.val < 1952 then fcw Wf o.val (416 * 1 + k.val) else 0 := fun k => by
    rw [Cert.LibLayoutExtra.ld_unit2_apply x4 0 416 _ o k o ⟨416 * 1 + k.val, by have := k.isLt; omega⟩ (Nat.zero_add _).symm (by show 416 * 1 + k.val = 416 + k.val; omega)]
    exact hx4 _
  have hw2 : ∀ k : Fin 416, View.ld x4 r0_8 (ix2 o k) = if 416 * 2 + k.val < 1952 then fcw Wf o.val (416 * 2 + k.val) else 0 := fun k => by
    rw [Cert.LibLayoutExtra.ld_unit2_apply x4 0 832 _ o k o ⟨416 * 2 + k.val, by have := k.isLt; omega⟩ (Nat.zero_add _).symm (by show 416 * 2 + k.val = 832 + k.val; omega)]
    exact hx4 _
  have hw3 : ∀ k : Fin 416, View.ld x4 r0_9 (ix2 o k) = if 416 * 3 + k.val < 1952 then fcw Wf o.val (416 * 3 + k.val) else 0 := fun k => by
    rw [Cert.LibLayoutExtra.ld_unit2_apply x4 0 1248 _ o k o ⟨416 * 3 + k.val, by have := k.isLt; omega⟩ (Nat.zero_add _).symm (by show 416 * 3 + k.val = 1248 + k.val; omega)]
    exact hx4 _
  have hw4 : ∀ k : Fin 416, View.ld x4 r0_10 (ix2 o k) = if 416 * 4 + k.val < 1952 then fcw Wf o.val (416 * 4 + k.val) else 0 := fun k => by
    rw [Cert.LibLayoutExtra.ld_unit2_apply x4 0 1664 _ o k o ⟨416 * 4 + k.val, by have := k.isLt; omega⟩ (Nat.zero_add _).symm (by show 416 * 4 + k.val = 1664 + k.val; omega)]
    exact hx4 _
  exact stored_entry x1 (View.ld x0 r0_1) x2 (View.ld x0 r0_3) x3 x5 (View.ld x4 r0_6) (View.ld x4 r0_7) (View.ld x4 r0_8) (View.ld x4 r0_9)
    (View.ld x4 r0_10) X B1 B2 Wf n o hx1 h2 hx2 h7 hx3 hw0 hw1 hw2 hw3 hw4

end Out

end Cert.KernelIdeal.Body

end
-- ==== Proof.KerFinal.lean ====
/-
  The kernel's result array after the run is the specification's function of the five argument arrays.

  Entry (N, o) is written by grid point N / 2048 at (N mod 2048, o) of its block; that point's image block holds
  columns 2048·(N / 2048) … of the images, so its column N mod 2048 is image N; the other blocks are the whole
  weight arrays.
-/
import proofs.«169050_g2000504127106898_pallasbulk_898_40_alg».proof.Proof.KerBlocks
import proofs.«169050_g2000504127106898_pallasbulk_898_40_alg».proof.Proof.KerFacts
import proofs.«169050_g2000504127106898_pallasbulk_898_40_alg».proof.Proof.KerEntry

noncomputable section

namespace Cert.KernelIdeal.Final

open Cert.KernelIdeal Idealize.ShloMosaic Idealize.ShloMosaic.TcCoe Idealize.SL.Sem Idealize.ShloMosaic.ValueIdx Cert.CnnSpec

variable (m : (ℓ : Loc nD τ sig) → Buf (Elt Ideal) ℓ) (c : Dev nD)

theorem result_entry (N : Fin 16384) (o : Fin 128) :
    ((Gen.dats (F := Ideal) m 0 c).arrAt 6 cfg0.N : S16384x128.Idx → EReal) (ix2 N o)
      = G (m ((c : Thread nD τ).loc main_arg0) : S16384x1x128x3.Idx → EReal) (m ((c : Thread nD τ).loc main_arg1) : S16x1x3x3.Idx → EReal)
          (m ((c : Thread nD τ).loc main_arg2) : S32x16x3x1.Idx → EReal) (m ((c : Thread nD τ).loc main_arg3) : S128x1952.Idx → EReal)
          (m ((c : Thread nD τ).loc main_arg4) : S128.Idx → EReal) (ix2 N o) := by
  have hN : 2048 * (Glue.pt N).val + N.val % 2048 = N.val := by
    show 2048 * (N.val / 2048) + N.val % 2048 = N.val
    omega
  have hb : (Gen.iblk (F := Ideal) m c 5 (Glue.pt N) : S128x1.Idx → EReal) (ix2 o 0) = (m ((c : Thread nD τ).loc main_arg4) : S128.Idx → EReal) (ix1 o) :=
    (congrFun (Glue.iblk5_eq m c (Glue.pt N)) _).trans (Glue.biasK_apply m c o)
  refine (Glue.result_entry m c N o).trans ?_
  refine (Body.out_entry (Gen.iblk m c 0 (Glue.pt N)) (Gen.iblk m c 1 (Glue.pt N)) (Gen.iblk m c 2 (Glue.pt N)) (Gen.iblk m c 3 (Glue.pt N))
    (Gen.iblk m c 4 (Glue.pt N)) (Gen.iblk m c 5 (Glue.pt N))
    (Xof (m ((c : Thread nD τ).loc main_arg0) : S16384x1x128x3.Idx → EReal) N) (B1of (m ((c : Thread nD τ).loc main_arg1) : S16x1x3x3.Idx → EReal)) (B2of (m ((c : Thread nD τ).loc main_arg2) : S32x16x3x1.Idx → EReal)) (Wfof (m ((c : Thread nD τ).loc main_arg3) : S128x1952.Idx → EReal))
    (⟨N.val % 2048, Nat.mod_lt _ (by decide)⟩ : Fin 2048) o ?_ ?_ ?_ ?_ ?_).trans ?_
  · intro r
    refine (Glue.iblk0_entry m c (Glue.pt N) r ⟨N.val % 2048, Nat.mod_lt _ (by decide)⟩).trans ?_
    rw [show (⟨2048 * (Glue.pt N).val + N.val % 2048, by have := N.isLt; omega⟩ : Fin 16384) = N from Fin.ext hN]
    exact Glue.xK m c r N
  · intro r i ch hr hch q
    exact (congrFun (Glue.iblk1_eq m c (Glue.pt N)) _).trans (Glue.band1a m c r i ch hr hch q)
  · intro r i ch hr hch q
    exact (congrFun (Glue.iblk2_eq m c (Glue.pt N)) _).trans (Glue.band1b m c r i ch hr hch q)
  · intro r jl oo hr hoo q
    exact (congrFun (Glue.iblk3_eq m c (Glue.pt N)) _).trans (Glue.band2 m c r jl oo hr hoo q)
  · intro q
    exact (congrFun (Glue.iblk4_eq m c (Glue.pt N)) _).trans (Glue.fcK m c o q)
  · exact congrArg (fun b => CnnMath.out _ _ _ _ b o.val) hb

/-- The whole array. -/
theorem result :
    ((Gen.dats (F := Ideal) m 0 c).arrAt 6 cfg0.N : S16384x128.Idx → EReal)
      = G (m ((c : Thread nD τ).loc main_arg0) : S16384x1x128x3.Idx → EReal) (m ((c : Thread nD τ).loc main_arg1) : S16x1x3x3.Idx → EReal)
          (m ((c : Thread nD τ).loc main_arg2) : S32x16x3x1.Idx → EReal) (m ((c : Thread nD τ).loc main_arg3) : S128x1952.Idx → EReal)
          (m ((c : Thread nD τ).loc main_arg4) : S128.Idx → EReal) := by
  funext i
  obtain ⟨N, o, rfl⟩ : ∃ (N : Fin 16384) (o : Fin 128), i = ix2 N o := ⟨i 0, i 1, eq_ix2 i⟩
  exact result_entry m c N o

end Cert.KernelIdeal.Final

end
-- ==== Proof.RefBlocks.lean ====
import proofs.«169050_g2000504127106898_pallasbulk_898_40_alg».proof.Proof.RefFrameP
import Idealize.ShloMosaic.Lib.Pipeline.Value
import Idealize.ShloMosaic.Lib.ValueIdx
import Idealize.ShloMosaic.Lib.ValueLayout

/-! # From the blocks to the arrays, the reference's side

The reference's fused call runs over a grid of 128 points. Point `t` reads columns `128 t … 128 t + 127` of the
images' array and the four weight arrays whole, and writes columns `128 t … 128 t + 127` of a `[128, 16384]` array,
which one host operation after the call transposes into the result. So entry `(N, o)` of the result is entry
`(o, N mod 128)` of what point `N / 128` wrote, and each block a point reads is the array it is cut from, read at
the block's place. -/

noncomputable section

namespace Cert.ReferenceIdeal.Glue

open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-- The grid has 128 points. -/
theorem pt_lt (t : Fin cfg0.N) : t.val < 128 := lt_of_lt_of_eq t.isLt Gen.N_0

/-- The point whose block holds column `N` of the array the call writes. -/
abbrev pt (N : Fin 16384) : Fin cfg0.N := ⟨N.val / 128, by rw [show cfg0.N = 128 from Gen.N_0]; omega⟩

/-! ## The index maps, decided over the grid -/

theorem idx0 : ∀ t : Fin cfg0.N, win0_0.index t (0 : Fin 2) = 0 ∧ win0_0.index t (1 : Fin 2) = t.val :=
  (by decide +kernel : ∀ t : Fin grid0.N, _)

theorem idx5 : ∀ t : Fin cfg0.N, win0_5.index t (0 : Fin 2) = 0 ∧ win0_5.index t (1 : Fin 2) = t.val :=
  (by decide +kernel : ∀ t : Fin grid0.N, _)

/-- Distinct points write distinct blocks of columns. -/
theorem idx_inj5 (t t' : Fin cfg0.N) (h : win0_5.index t = win0_5.index t') : t = t' := by
  have e := congrFun h (1 : Fin 2)
  rw [(idx5 t).2, (idx5 t').2] at e
  exact Fin.ext e

theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- What point `t` writes back: the body's result of the point's input blocks. -/
theorem flushed5 (t : Fin cfg0.N) :
    (GenP.dats (F := Ideal) m 0 c).flushed 5 t = (cfg0.win 5).cut (grid0.coords t)
      (GenP.out0_5 (GenP.iblk m c 0 t) (GenP.iblk m c 1 t) (GenP.iblk m c 2 t) (GenP.iblk m c 3 t) (GenP.iblk m c 4 t)) := by
  show (cfg0.win 5).cut (grid0.coords t) ((GenP.dats m 0 c).after 5 t) = _
  rw [GenP.after0_5]

/-! ## The array the call writes, and the result -/

/-- Entry `(o, N)` of the array the call writes is entry `(o, N mod 128)` of what point `N / 128` stores. -/
theorem call_entry (N : Fin 16384) (o : Fin 128) :
    ((GenP.dats (F := Ideal) m 0 c).arrAt 5 cfg0.N : S128x16384.Idx → EReal) (ix2 o N)
      = (GenP.out0_5 (GenP.iblk m c 0 (pt N)) (GenP.iblk m c 1 (pt N)) (GenP.iblk m c 2 (pt N)) (GenP.iblk m c 3 (pt N))
          (GenP.iblk m c 4 (pt N)) : S128x128.Idx → EReal)
          (ix2 o (⟨N.val % 128, Nat.mod_lt _ (by decide)⟩ : Fin 128)) := by
  obtain ⟨e0, e1⟩ := idx5 (pt N)
  have hemb : ((cfg0.win 5).blk (pt N)).view.emb (ix2 o (⟨N.val % 128, Nat.mod_lt _ (by decide)⟩ : Fin 128) : S128x128.Idx)
      = (ix2 o N : S128x16384.Idx) := by
    funext a
    apply Fin.ext
    match a with
    | ⟨0, _⟩ =>
      show win0_5.index (pt N) (0 : Fin 2) * 128 + 1 * o.val = o.val
      rw [e0]
      omega
    | ⟨1, _⟩ =>
      show win0_5.index (pt N) (1 : Fin 2) * 128 + 1 * (N.val % 128) = N.val
      rw [e1]
      show N.val / 128 * 128 + 1 * (N.val % 128) = N.val
      omega
  refine (congrArg _ hemb.symm).trans ?_
  refine ((GenP.dats m 0 c).arrAt_emb_eq_flushed 5 disjoint5 (pt N) (Gen.flush0_5 (pt N)) _).trans ?_
  rw [flushed5]
  generalize GenP.out0_5 (F := Ideal) _ _ _ _ _ = X
  rfl

/-- The result is the transpose of the array the call writes. -/
theorem tail_eq :
    (Pipeline.afterTail₀ cfgs (GenP.dats (F := Ideal) m) 0 (GenP.V0 m) [Gen.hostOps1] c main_v763 : S16384x128.Idx → EReal)
      = transpose S16384x128 [1, 0] ((GenP.dats (F := Ideal) m 0 c).arrAt 5 cfg0.N : S128x16384.Idx → EReal)
          Gen.transposes_S128x16384_S16384x128_1_0 := by
  unfold Pipeline.afterTail₀
  show StableHlo.after (Gen.hostOps1 (F := Ideal)) _ (Proc.devRef .tc main_v763) = _
  simp only [Gen.hostOps1]
  after_results
  exact congrArg (fun x => transpose S16384x128 [1, 0] x Gen.transposes_S128x16384_S16384x128_1_0)
    (Pipeline.withArrays_arr spec0 Gen.launch0.win.arr_inj c _ _ 5)

/-- Entry `(N, o)` of the result is entry `(o, N mod 128)` of what point `N / 128` stores. -/
theorem result_entry (N : Fin 16384) (o : Fin 128) :
    (Pipeline.afterTail₀ cfgs (GenP.dats (F := Ideal) m) 0 (GenP.V0 m) [Gen.hostOps1] c main_v763 : S16384x128.Idx → EReal) (ix2 N o)
      = (GenP.out0_5 (GenP.iblk m c 0 (pt N)) (GenP.iblk m c 1 (pt N)) (GenP.iblk m c 2 (pt N)) (GenP.iblk m c 3 (pt N))
          (GenP.iblk m c 4 (pt N)) : S128x128.Idx → EReal)
          (ix2 o (⟨N.val % 128, Nat.mod_lt _ (by decide)⟩ : Fin 128)) := by
  rw [tail_eq]
  refine (transpose_ix2_apply _ Gen.transposes_S128x16384_S16384x128_1_0 N o).trans ?_
  exact call_entry m c N o

/-- After the run the result's buffer holds what the lines after the call leave in it. -/
theorem post_result (r : PUnit × MemSt nD τ sig (Elt Ideal))
    (h : Pipeline.FramePost cfgs (GenP.dats (F := Ideal) m) 0 (Pipeline.afterTail₀ cfgs (GenP.dats m) 0 (GenP.V0 m) [Gen.hostOps1]) r)
    (c : Dev nD) :
    r.2.mem ((c : Thread nD τ).loc main_v763) = Pipeline.afterTail₀ cfgs (GenP.dats m) 0 (GenP.V0 m) [Gen.hostOps1] c main_v763 :=
  (h c).2 main_v763 (Pipeline.mem_restRefs_of main_v763 (by decide) (by decide))

/-! ## The blocks a point reads -/

/-- Window 0's block at point `t` is columns `128 t …` of the images' array. -/
theorem iblk0_entry (t : Fin cfg0.N) (r : Fin 384) (nl : Fin 128) :
    (GenP.iblk (F := Ideal) m c 0 t : S384x128.Idx → EReal) (ix2 r nl)
      = (GenP.V (F := Ideal) m c main_v2 : S384x16384.Idx → EReal)
          (ix2 r (⟨128 * t.val + nl.val, by have := pt_lt t; omega⟩ : Fin 16384)) := by
  obtain ⟨e0, e1⟩ := idx0 t
  unfold GenP.iblk
  rw [View.read_apply]
  generalize GenP.V (F := Ideal) m c = VV
  show VV main_v2 (((cfg0.win 0).blk t).view.emb (ix2 r nl))
    = VV main_v2 (ix2 r (⟨128 * t.val + nl.val, by have := pt_lt t; omega⟩ : Fin 16384))
  refine congrArg _ (funext fun a => Fin.ext ?_)
  match a with
  | ⟨0, _⟩ => show win0_0.index t (0 : Fin 2) * 384 + 1 * r.val = r.val; omega
  | ⟨1, _⟩ => show win0_0.index t (1 : Fin 2) * 128 + 1 * nl.val = 128 * t.val + nl.val; omega

theorem idx1 : ∀ t : Fin cfg0.N, win0_1.index t (0 : Fin 2) = 0 ∧ win0_1.index t (1 : Fin 2) = 0 :=
  (by decide +kernel : ∀ t : Fin grid0.N, _)

/-- Window 1's block is the whole array at every point. -/
theorem iblk1_eq (t : Fin cfg0.N) : (GenP.iblk (F := Ideal) m c 1 t : S2016x384.Idx → EReal) = GenP.V (F := Ideal) m c main_v509 := by
  obtain ⟨e0, e1⟩ := idx1 t
  funext y
  unfold GenP.iblk
  rw [View.read_apply]
  show GenP.V m c main_v509 (((cfg0.win 1).blk t).view.emb y) = GenP.V m c main_v509 y
  refine congrArg _ (funext fun a => Fin.ext ?_)
  match a with
  | ⟨0, _⟩ => show win0_1.index t (0 : Fin 2) * 2016 + 1 * (y 0).val = (y 0).val; omega
  | ⟨1, _⟩ => show win0_1.index t (1 : Fin 2) * 384 + 1 * (y 1).val = (y 1).val; omega

theorem idx2 : ∀ t : Fin cfg0.N, win0_2.index t (0 : Fin 2) = 0 ∧ win0_2.index t (1 : Fin 2) = 0 :=
  (by decide +kernel : ∀ t : Fin grid0.N, _)

/-- Window 2's block is the whole array at every point. -/
theorem iblk2_eq (t : Fin cfg0.N) : (GenP.iblk (F := Ideal) m c 2 t : S1952x1008.Idx → EReal) = GenP.V (F := Ideal) m c main_v757 := by
  obtain ⟨e0, e1⟩ := idx2 t
  funext y
  unfold GenP.iblk
  rw [View.read_apply]
  show GenP.V m c main_v757 (((cfg0.win 2).blk t).view.emb y) = GenP.V m c main_v757 y
  refine congrArg _ (funext fun a => Fin.ext ?_)
  match a with
  | ⟨0, _⟩ => show win0_2.index t (0 : Fin 2) * 1952 + 1 * (y 0).val = (y 0).val; omega
  | ⟨1, _⟩ => show win0_2.index t (1 : Fin 2) * 1008 + 1 * (y 1).val = (y 1).val; omega

theorem idx3 : ∀ t : Fin cfg0.N, win0_3.index t (0 : Fin 2) = 0 ∧ win0_3.index t (1 : Fin 2) = 0 :=
  (by decide +kernel : ∀ t : Fin grid0.N, _)

/-- Window 3's block is the whole array at every point. -/
theorem iblk3_eq (t : Fin cfg0.N) : (GenP.iblk (F := Ideal) m c 3 t : S128x1952.Idx → EReal) = GenP.V (F := Ideal) m c main_v760 := by
  obtain ⟨e0, e1⟩ := idx3 t
  funext y
  unfold GenP.iblk
  rw [View.read_apply]
  show GenP.V m c main_v760 (((cfg0.win 3).blk t).view.emb y) = GenP.V m c main_v760 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 1952 + 1 * (y 1).val = (y 1).val; omega

theorem idx4 : ∀ t : Fin cfg0.N, win0_4.index t (0 : Fin 2) = 0 ∧ win0_4.index t (1 : Fin 2) = 0 :=
  (by decide +kernel : ∀ t : Fin grid0.N, _)

/-- Window 4's block is the whole array at every point. -/
theorem iblk4_eq (t : Fin cfg0.N) : (GenP.iblk (F := Ideal) m c 4 t : S128x1.Idx → EReal) = GenP.V (F := Ideal) m c main_v761 := by
  obtain ⟨e0, e1⟩ := idx4 t
  funext y
  unfold GenP.iblk
  rw [View.read_apply]
  show GenP.V m c main_v761 (((cfg0.win 4).blk t).view.emb y) = GenP.V m c main_v761 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 1 + 1 * (y 1).val = (y 1).val; omega

end Cert.ReferenceIdeal.Glue

end
-- ==== Proof.RefArgs.lean ====
import proofs.«169050_g2000504127106898_pallasbulk_898_40_alg».proof.Proof.Gen.ReferenceIdeal.Launch
import proofs.«169050_g2000504127106898_pallasbulk_898_40_alg».proof.Proof.KerArgsLayout

/-! # The reference's fused call's operands, entry by entry

The reference builds its operands with a long line of host operations, most of which fill the two banded weight
matrices and touch none of the five operands read here: the images, the two convolutions' weight blocks, the dense
layer's weights and the bias, each a pure repacking of one argument. The line is cut into the generated windows of
sixty operations; each window writes the value buffers of one range of numbers, so a buffer outside the range passes
through it unchanged. Each operand is then read off the one window that writes it, over whatever contents come in,
and the argument it repacks is carried through the windows before it. -/

noncomputable section

namespace Cert.ReferenceIdeal.Glue

open Idealize.ShloMosaic Idealize.ShloMosaic.TcCoe Idealize.SL.Sem Idealize.ShloMosaic.ValueIdx

/-! ## A line of operations cut in two, and a line that writes a range of buffers -/

/-- The contents after two lines run in order. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => rw [List.cons_append, StableHlo.after_cons, StableHlo.after_cons, ih]

/-- Every operation of the line writes exactly one buffer, whose number is in `[lo, hi)`. -/
def WritesIn (lo hi : Nat) (ops : List (HloOp τ sig (Elt Ideal))) : Prop :=
  ∀ op ∈ ops, ∃ y : Ref sig .tc, op.writes = {Proc.devRef .tc y} ∧ lo ≤ y.idx.val ∧ y.idx.val < hi

theorem writesIn_of_forall {lo hi : Nat} {ops : List (HloOp τ sig (Elt Ideal))}
    (h : ops.Forall fun op => ∃ y : Ref sig .tc, op.writes = {Proc.devRef .tc y} ∧ lo ≤ y.idx.val ∧ y.idx.val < hi) :
    WritesIn lo hi ops :=
  List.forall_iff_forall_mem.mp h

theorem WritesIn.mono {lo hi lo' hi' : Nat} {ops : List (HloOp τ sig (Elt Ideal))} (h : WritesIn lo hi ops)
    (hlo : lo' ≤ lo) (hhi : hi ≤ hi') : WritesIn lo' hi' ops := fun op hop => by
  obtain ⟨y, hy, h1, h2⟩ := h op hop
  exact ⟨y, hy, by omega, by omega⟩

/-- Two lines in order write the union of their ranges. -/
theorem WritesIn.append {lo mid hi : Nat} {l₁ l₂ : List (HloOp τ sig (Elt Ideal))} (h₁ : WritesIn lo mid l₁)
    (h₂ : WritesIn mid hi l₂) (hlm : lo ≤ mid) (hmh : mid ≤ hi) : WritesIn lo hi (l₁ ++ l₂) := fun op hop => by
  rcases List.mem_append.mp hop with hop | hop
  · exact (h₁.mono (Nat.le_refl _) hmh) op hop
  · exact (h₂.mono hlm (Nat.le_refl _)) op hop

/-- A buffer whose number is outside the range a line writes keeps its contents. -/
theorem WritesIn.keep {lo hi : Nat} {ops : List (HloOp τ sig (Elt Ideal))} (h : WritesIn lo hi ops) (b : Ref sig .tc)
    (hb : b.idx.val < lo ∨ hi ≤ b.idx.val) (W : Valuation τ sig (Elt Ideal)) :
    StableHlo.after ops W (Proc.devRef .tc b) = W (Proc.devRef .tc b) :=
  StableHlo.after_of_forall_not_mem ops W fun op hop hmem => by
    obtain ⟨y, hy, h1, h2⟩ := h op hop
    rw [hy, Finset.mem_singleton] at hmem
    have e : b = y := Proc.devRef_injective _ hmem
    subst e
    omega

/-- One operation's written buffer, named by the operation's own form, its number between the bounds. -/
macro "writes_one" : tactic =>
  `(tactic| first
    | exact ⟨_, StableHlo.unary_writes .., by decide, by decide⟩
    | exact ⟨_, StableHlo.nullary_writes .., by decide, by decide⟩
    | exact ⟨_, StableHlo.binary_writes .., by decide, by decide⟩
    | exact ⟨_, StableHlo.ternary_writes .., by decide, by decide⟩
    | exact ⟨_, StableHlo.reshape_writes .., by decide, by decide⟩
    | exact ⟨_, StableHlo.quaternary_writes .., by decide, by decide⟩)

/-! ## The windows' ranges -/

theorem writes_P0 : WritesIn 5 65 (Gen.main_part0_ops0 (F := Ideal)) := by
  refine writesIn_of_forall ?_
  simp only [Gen.main_part0_ops0, List.Forall]
  repeat' apply And.intro
  all_goals writes_one

theorem writes_P1 : WritesIn 65 125 (Gen.main_part1_ops0 (F := Ideal)) := by
  refine writesIn_of_forall ?_
  simp only [Gen.main_part1_ops0, List.Forall]
  repeat' apply And.intro
  all_goals writes_one

theorem writes_P2 : WritesIn 125 185 (Gen.main_part2_ops0 (F := Ideal)) := by
  refine writesIn_of_forall ?_
  simp only [Gen.main_part2_ops0, List.Forall]
  repeat' apply And.intro
  all_goals writes_one

theorem writes_P3 : WritesIn 185 245 (Gen.main_part3_ops0 (F := Ideal)) := by
  refine writesIn_of_forall ?_
  simp only [Gen.main_part3_ops0, List.Forall]
  repeat' apply And.intro
  all_goals writes_one

theorem writes_P4 : WritesIn 245 305 (Gen.main_part4_ops0 (F := Ideal)) := by
  refine writesIn_of_forall ?_
  simp only [Gen.main_part4_ops0, List.Forall]
  repeat' apply And.intro
  all_goals writes_one

theorem writes_P5 : WritesIn 305 365 (Gen.main_part5_ops0 (F := Ideal)) := by
  refine writesIn_of_forall ?_
  simp only [Gen.main_part5_ops0, List.Forall]
  repeat' apply And.intro
  all_goals writes_one

theorem writes_P6 : WritesIn 365 425 (Gen.main_part6_ops0 (F := Ideal)) := by
  refine writesIn_of_forall ?_
  simp only [Gen.main_part6_ops0, List.Forall]
  repeat' apply And.intro
  all_goals writes_one

theorem writes_P7 : WritesIn 425 485 (Gen.main_part7_ops0 (F := Ideal)) := by
  refine writesIn_of_forall ?_
  simp only [Gen.main_part7_ops0, List.Forall]
  repeat' apply And.intro
  all_goals writes_one

theorem writes_P8 : WritesIn 485 545 (Gen.main_part8_ops0 (F := Ideal)) := by
  refine writesIn_of_forall ?_
  simp only [Gen.main_part8_ops0, List.Forall]
  repeat' apply And.intro
  all_goals writes_one

theorem writes_P9 : WritesIn 545 605 (Gen.main_part9_ops0 (F := Ideal)) := by
  refine writesIn_of_forall ?_
  simp only [Gen.main_part9_ops0, List.Forall]
  repeat' apply And.intro
  all_goals writes_one

theorem writes_P10 : WritesIn 605 665 (Gen.main_part10_ops0 (F := Ideal)) := by
  refine writesIn_of_forall ?_
  simp only [Gen.main_part10_ops0, List.Forall]
  repeat' apply And.intro
  all_goals writes_one

theorem writes_P11 : WritesIn 665 725 (Gen.main_part11_ops0 (F := Ideal)) := by
  refine writesIn_of_forall ?_
  simp only [Gen.main_part11_ops0, List.Forall]
  repeat' apply And.intro
  all_goals writes_one

theorem writes_P12 : WritesIn 725 785 (Gen.main_part12_ops0 (F := Ideal)) := by
  refine writesIn_of_forall ?_
  simp only [Gen.main_part12_ops0, List.Forall]
  repeat' apply And.intro
  all_goals writes_one

theorem writes_P13 : WritesIn 785 845 (Gen.main_part13_ops0 (F := Ideal)) := by
  refine writesIn_of_forall ?_
  simp only [Gen.main_part13_ops0, List.Forall]
  repeat' apply And.intro
  all_goals writes_one

theorem writes_P14 : WritesIn 845 905 (Gen.main_part14_ops0 (F := Ideal)) := by
  refine writesIn_of_forall ?_
  simp only [Gen.main_part14_ops0, List.Forall]
  repeat' apply And.intro
  all_goals writes_one

theorem writes_P15 : WritesIn 905 965 (Gen.main_part15_ops0 (F := Ideal)) := by
  refine writesIn_of_forall ?_
  simp only [Gen.main_part15_ops0, List.Forall]
  repeat' apply And.intro
  all_goals writes_one

theorem writes_P16 : WritesIn 965 1025 (Gen.main_part16_ops0 (F := Ideal)) := by
  refine writesIn_of_forall ?_
  simp only [Gen.main_part16_ops0, List.Forall]
  repeat' apply And.intro
  all_goals writes_one

theorem writes_P17 : WritesIn 1025 1085 (Gen.main_part17_ops0 (F := Ideal)) := by
  refine writesIn_of_forall ?_
  simp only [Gen.main_part17_ops0, List.Forall]
  repeat' apply And.intro
  all_goals writes_one

theorem writes_P18 : WritesIn 1085 1143 (Gen.main_part18_ops0 (F := Ideal)) := by
  refine writesIn_of_forall ?_
  simp only [Gen.main_part18_ops0, List.Forall]
  repeat' apply And.intro
  all_goals writes_one

/-! ## The line cut around the windows that write the operands -/

/-- The windows after the first. -/
abbrev T1 : List (HloOp τ sig (Elt Ideal)) := Gen.main_part1_ops0 (F := Ideal) ++ Gen.main_part2_ops0 (F := Ideal) ++ Gen.main_part3_ops0 (F := Ideal) ++ Gen.main_part4_ops0 (F := Ideal) ++ Gen.main_part5_ops0 (F := Ideal) ++ Gen.main_part6_ops0 (F := Ideal) ++ Gen.main_part7_ops0 (F := Ideal) ++ Gen.main_part8_ops0 (F := Ideal) ++ Gen.main_part9_ops0 (F := Ideal) ++ Gen.main_part10_ops0 (F := Ideal) ++ Gen.main_part11_ops0 (F := Ideal) ++ Gen.main_part12_ops0 (F := Ideal) ++ Gen.main_part13_ops0 (F := Ideal) ++ Gen.main_part14_ops0 (F := Ideal) ++ Gen.main_part15_ops0 (F := Ideal) ++ Gen.main_part16_ops0 (F := Ideal) ++ Gen.main_part17_ops0 (F := Ideal) ++ Gen.main_part18_ops0 (F := Ideal)
/-- The windows before the thirteenth. -/
abbrev H12 : List (HloOp τ sig (Elt Ideal)) := Gen.main_part0_ops0 (F := Ideal) ++ Gen.main_part1_ops0 (F := Ideal) ++ Gen.main_part2_ops0 (F := Ideal) ++ Gen.main_part3_ops0 (F := Ideal) ++ Gen.main_part4_ops0 (F := Ideal) ++ Gen.main_part5_ops0 (F := Ideal) ++ Gen.main_part6_ops0 (F := Ideal) ++ Gen.main_part7_ops0 (F := Ideal) ++ Gen.main_part8_ops0 (F := Ideal) ++ Gen.main_part9_ops0 (F := Ideal) ++ Gen.main_part10_ops0 (F := Ideal) ++ Gen.main_part11_ops0 (F := Ideal)
/-- The windows after the thirteenth. -/
abbrev T13 : List (HloOp τ sig (Elt Ideal)) := Gen.main_part13_ops0 (F := Ideal) ++ Gen.main_part14_ops0 (F := Ideal) ++ Gen.main_part15_ops0 (F := Ideal) ++ Gen.main_part16_ops0 (F := Ideal) ++ Gen.main_part17_ops0 (F := Ideal) ++ Gen.main_part18_ops0 (F := Ideal)
/-- The windows before the last. -/
abbrev H18 : List (HloOp τ sig (Elt Ideal)) := Gen.main_part0_ops0 (F := Ideal) ++ Gen.main_part1_ops0 (F := Ideal) ++ Gen.main_part2_ops0 (F := Ideal) ++ Gen.main_part3_ops0 (F := Ideal) ++ Gen.main_part4_ops0 (F := Ideal) ++ Gen.main_part5_ops0 (F := Ideal) ++ Gen.main_part6_ops0 (F := Ideal) ++ Gen.main_part7_ops0 (F := Ideal) ++ Gen.main_part8_ops0 (F := Ideal) ++ Gen.main_part9_ops0 (F := Ideal) ++ Gen.main_part10_ops0 (F := Ideal) ++ Gen.main_part11_ops0 (F := Ideal) ++ Gen.main_part12_ops0 (F := Ideal) ++ Gen.main_part13_ops0 (F := Ideal) ++ Gen.main_part14_ops0 (F := Ideal) ++ Gen.main_part15_ops0 (F := Ideal) ++ Gen.main_part16_ops0 (F := Ideal) ++ Gen.main_part17_ops0 (F := Ideal)

theorem writes_T1 : WritesIn 65 1143 T1 := (((((((((((((((((writes_P1.append writes_P2 (by decide) (by decide)).append writes_P3 (by decide) (by decide)).append writes_P4 (by decide) (by decide)).append writes_P5 (by decide) (by decide)).append writes_P6 (by decide) (by decide)).append writes_P7 (by decide) (by decide)).append writes_P8 (by decide) (by decide)).append writes_P9 (by decide) (by decide)).append writes_P10 (by decide) (by decide)).append writes_P11 (by decide) (by decide)).append writes_P12 (by decide) (by decide)).append writes_P13 (by decide) (by decide)).append writes_P14 (by decide) (by decide)).append writes_P15 (by decide) (by decide)).append writes_P16 (by decide) (by decide)).append writes_P17 (by decide) (by decide)).append writes_P18 (by decide) (by decide))
theorem writes_H12 : WritesIn 5 725 H12 := (((((((((((writes_P0.append writes_P1 (by decide) (by decide)).append writes_P2 (by decide) (by decide)).append writes_P3 (by decide) (by decide)).append writes_P4 (by decide) (by decide)).append writes_P5 (by decide) (by decide)).append writes_P6 (by decide) (by decide)).append writes_P7 (by decide) (by decide)).append writes_P8 (by decide) (by decide)).append writes_P9 (by decide) (by decide)).append writes_P10 (by decide) (by decide)).append writes_P11 (by decide) (by decide))
theorem writes_T13 : WritesIn 785 1143 T13 := (((((writes_P13.append writes_P14 (by decide) (by decide)).append writes_P15 (by decide) (by decide)).append writes_P16 (by decide) (by decide)).append writes_P17 (by decide) (by decide)).append writes_P18 (by decide) (by decide))
theorem writes_H18 : WritesIn 5 1085 H18 := (((((((((((((((((writes_P0.append writes_P1 (by decide) (by decide)).append writes_P2 (by decide) (by decide)).append writes_P3 (by decide) (by decide)).append writes_P4 (by decide) (by decide)).append writes_P5 (by decide) (by decide)).append writes_P6 (by decide) (by decide)).append writes_P7 (by decide) (by decide)).append writes_P8 (by decide) (by decide)).append writes_P9 (by decide) (by decide)).append writes_P10 (by decide) (by decide)).append writes_P11 (by decide) (by decide)).append writes_P12 (by decide) (by decide)).append writes_P13 (by decide) (by decide)).append writes_P14 (by decide) (by decide)).append writes_P15 (by decide) (by decide)).append writes_P16 (by decide) (by decide)).append writes_P17 (by decide) (by decide))

set_option maxRecDepth 100000 in
theorem split0 : Gen.hostOps0 (F := Ideal) = Gen.main_part0_ops0 (F := Ideal) ++ T1 := by rfl
set_option maxRecDepth 100000 in
theorem split12 : Gen.hostOps0 (F := Ideal) = H12 ++ (Gen.main_part12_ops0 (F := Ideal) ++ T13) := by rfl
set_option maxRecDepth 100000 in
theorem split18 : Gen.hostOps0 (F := Ideal) = H18 ++ Gen.main_part18_ops0 (F := Ideal) := by rfl

/-! ## Each operand off the window that writes it, over any incoming contents -/

theorem P0_v2 (W : Valuation τ sig (Elt Ideal)) :
    (StableHlo.after (Gen.main_part0_ops0 (F := Ideal)) W (Proc.devRef .tc main_v2) : S384x16384.Idx → EReal)
      = transpose S384x16384 [1, 0] (shapeCast S16384x384 (shapeCast S16384x128x3
          (W (Proc.devRef .tc main_arg0) : S16384x1x128x3.Idx → EReal) Gen.shapeCasts_S16384x1x128x3_S16384x128x3)
          Gen.shapeCasts_S16384x128x3_S16384x384) Gen.transposes_S16384x384_S384x16384_1_0 := by
  simp only [Gen.main_part0_ops0]
  after_results
  rfl

theorem P0_v4 (W : Valuation τ sig (Elt Ideal)) :
    (StableHlo.after (Gen.main_part0_ops0 (F := Ideal)) W (Proc.devRef .tc main_v4) : S16x9.Idx → EReal)
      = shapeCast S16x9 (shapeCast S16x3x3 (W (Proc.devRef .tc main_arg1) : S16x1x3x3.Idx → EReal)
          Gen.shapeCasts_S16x1x3x3_S16x3x3) Gen.shapeCasts_S16x3x3_S16x9 := by
  simp only [Gen.main_part0_ops0]
  after_results
  rfl

theorem P12_v512 (W : Valuation τ sig (Elt Ideal)) :
    (StableHlo.after (Gen.main_part12_ops0 (F := Ideal)) W (Proc.devRef .tc main_v512) : S32x48.Idx → EReal)
      = shapeCast S32x48 (transpose S32x3x16 [0, 2, 1] (shapeCast S32x16x3
          (W (Proc.devRef .tc main_arg2) : S32x16x3x1.Idx → EReal) Gen.shapeCasts_S32x16x3x1_S32x16x3)
          Gen.transposes_S32x16x3_S32x3x16_0_2_1) Gen.shapeCasts_S32x3x16_S32x48 := by
  simp only [Gen.main_part12_ops0]
  after_results
  rfl

theorem P18_v760 (W : Valuation τ sig (Elt Ideal)) :
    (StableHlo.after (Gen.main_part18_ops0 (F := Ideal)) W (Proc.devRef .tc main_v760) : S128x1952.Idx → EReal)
      = shapeCast S128x1952 (transpose S128x61x32 [0, 2, 1] (shapeCast S128x32x61
          (W (Proc.devRef .tc main_arg3) : S128x1952.Idx → EReal) Gen.shapeCasts_S128x1952_S128x32x61)
          Gen.transposes_S128x32x61_S128x61x32_0_2_1) Gen.shapeCasts_S128x61x32_S128x1952 := by
  simp only [Gen.main_part18_ops0]
  after_results
  rfl

theorem P18_v761 (W : Valuation τ sig (Elt Ideal)) :
    (StableHlo.after (Gen.main_part18_ops0 (F := Ideal)) W (Proc.devRef .tc main_v761) : S128x1.Idx → EReal)
      = shapeCast S128x1 (W (Proc.devRef .tc main_arg4) : S128.Idx → EReal) Gen.shapeCasts_S128_S128x1 := by
  simp only [Gen.main_part18_ops0]
  after_results
  rfl

/-! ## The operands when the fused call is entered -/

variable (m : (ℓ : Loc nD τ sig) → Buf (Elt Ideal) ℓ) (c : Dev nD)

/-- Core `c`'s buffer `b` when the fused call is entered: after the whole line of host operations, from the
    contents as launched. -/
abbrev RV (b : Ref sig .tc) : Buf (Elt Ideal) ((c : Thread nD τ).loc b) :=
  StableHlo.after (List.flatten [Gen.hostOps0 (F := Ideal)]) (fun b => m (c, b)) (Proc.devRef .tc b)

theorem RV_v2 : (RV m c main_v2 : S384x16384.Idx → EReal)
    = transpose S384x16384 [1, 0] (shapeCast S16384x384 (shapeCast S16384x128x3
        (m ((c : Thread nD τ).loc main_arg0) : S16384x1x128x3.Idx → EReal) Gen.shapeCasts_S16384x1x128x3_S16384x128x3)
        Gen.shapeCasts_S16384x128x3_S16384x384) Gen.transposes_S16384x384_S384x16384_1_0 := by
  show StableHlo.after (List.flatten [Gen.hostOps0 (F := Ideal)]) (fun b => m (c, b)) (Proc.devRef .tc main_v2) = _
  rw [List.flatten_cons, List.flatten_nil, List.append_nil, split0, after_append,
    writes_T1.keep main_v2 (Or.inl (by decide)), P0_v2]

theorem RV_v4 : (RV m c main_v4 : S16x9.Idx → EReal)
    = shapeCast S16x9 (shapeCast S16x3x3 (m ((c : Thread nD τ).loc main_arg1) : S16x1x3x3.Idx → EReal)
        Gen.shapeCasts_S16x1x3x3_S16x3x3) Gen.shapeCasts_S16x3x3_S16x9 := by
  show StableHlo.after (List.flatten [Gen.hostOps0 (F := Ideal)]) (fun b => m (c, b)) (Proc.devRef .tc main_v4) = _
  rw [List.flatten_cons, List.flatten_nil, List.append_nil, split0, after_append,
    writes_T1.keep main_v4 (Or.inl (by decide)), P0_v4]

theorem RV_v512 : (RV m c main_v512 : S32x48.Idx → EReal)
    = shapeCast S32x48 (transpose S32x3x16 [0, 2, 1] (shapeCast S32x16x3
        (m ((c : Thread nD τ).loc main_arg2) : S32x16x3x1.Idx → EReal) Gen.shapeCasts_S32x16x3x1_S32x16x3)
        Gen.transposes_S32x16x3_S32x3x16_0_2_1) Gen.shapeCasts_S32x3x16_S32x48 := by
  show StableHlo.after (List.flatten [Gen.hostOps0 (F := Ideal)]) (fun b => m (c, b)) (Proc.devRef .tc main_v512) = _
  rw [List.flatten_cons, List.flatten_nil, List.append_nil, split12, after_append, after_append,
    writes_T13.keep main_v512 (Or.inl (by decide)), P12_v512, writes_H12.keep main_arg2 (Or.inl (by decide))]

theorem RV_v760 : (RV m c main_v760 : S128x1952.Idx → EReal)
    = shapeCast S128x1952 (transpose S128x61x32 [0, 2, 1] (shapeCast S128x32x61
        (m ((c : Thread nD τ).loc main_arg3) : S128x1952.Idx → EReal) Gen.shapeCasts_S128x1952_S128x32x61)
        Gen.transposes_S128x32x61_S128x61x32_0_2_1) Gen.shapeCasts_S128x61x32_S128x1952 := by
  show StableHlo.after (List.flatten [Gen.hostOps0 (F := Ideal)]) (fun b => m (c, b)) (Proc.devRef .tc main_v760) = _
  rw [List.flatten_cons, List.flatten_nil, List.append_nil, split18, after_append, P18_v760,
    writes_H18.keep main_arg3 (Or.inl (by decide))]

theorem RV_v761 : (RV m c main_v761 : S128x1.Idx → EReal)
    = shapeCast S128x1 (m ((c : Thread nD τ).loc main_arg4) : S128.Idx → EReal) Gen.shapeCasts_S128_S128x1 := by
  show StableHlo.after (List.flatten [Gen.hostOps0 (F := Ideal)]) (fun b => m (c, b)) (Proc.devRef .tc main_v761) = _
  rw [List.flatten_cons, List.flatten_nil, List.append_nil, split18, after_append, P18_v761,
    writes_H18.keep main_arg4 (Or.inl (by decide))]

/-! ## Each operand at an index -/

/-- The dense layer's weights: column `32 j + c` is the raw column `61 c + j`. -/
theorem wfcR_apply (o : Fin 128) (j : Fin 61) (oc : Fin 32) :
    (RV m c main_v760 : S128x1952.Idx → EReal) (ix2 o ⟨32 * j.val + oc.val, by omega⟩)
      = (m ((c : Thread nD τ).loc main_arg3) : S128x1952.Idx → EReal) (ix2 o ⟨61 * oc.val + j.val, by omega⟩) := by
  rw [RV_v760]
  exact ArgsLayout.wfc_read _ _ _ _ o j oc

/-- The images: row `3 h + w`, column `n` is pixel `(h, w)` of image `n`. -/
theorem xsR_apply (r : Fin 384) (n : Fin 16384) :
    (RV m c main_v2 : S384x16384.Idx → EReal) (ix2 r n)
      = (m ((c : Thread nD τ).loc main_arg0) : S16384x1x128x3.Idx → EReal) (ix4 n 0 ⟨r.val / 3, by omega⟩ ⟨r.val % 3, by omega⟩) := by
  rw [RV_v2]
  exact ArgsLayout.xs_read _ _ _ _ r n

/-- The first convolution's block: column `3 kh + kw`. -/
theorem blk1R_apply (ch : Fin 16) (k : Fin 9) :
    (RV m c main_v4 : S16x9.Idx → EReal) (ix2 ch k)
      = (m ((c : Thread nD τ).loc main_arg1) : S16x1x3x3.Idx → EReal) (ix4 ch 0 ⟨k.val / 3, by omega⟩ ⟨k.val % 3, by omega⟩) := by
  rw [RV_v4]
  exact ArgsLayout.blk1_read _ _ _ ch k

/-- The second convolution's block: column `16 kh + c`. -/
theorem blk2R_apply (o : Fin 32) (k : Fin 48) :
    (RV m c main_v512 : S32x48.Idx → EReal) (ix2 o k)
      = (m ((c : Thread nD τ).loc main_arg2) : S32x16x3x1.Idx → EReal) (ix4 o ⟨k.val % 16, by omega⟩ ⟨k.val / 16, by omega⟩ 0) := by
  rw [RV_v512]
  exact ArgsLayout.blk2_read _ _ _ _ o k

/-- The bias as a column. -/
theorem biasR_apply (o : Fin 128) :
    (RV m c main_v761 : S128x1.Idx → EReal) (ix2 o 0)
      = (m ((c : Thread nD τ).loc main_arg4) : S128.Idx → EReal) (ix1 o) := by
  rw [RV_v761]
  exact ArgsLayout.bias_read _ _ o

end Cert.ReferenceIdeal.Glue

end
-- ==== Proof.LibWindowSet.lean ====
/-
  One whole window written into a rank-2 array: "stablehlo.scatter" whose body returns the update ('set'), with
  update_window_dims = [0, 1], no inserted window axes, scatter_dims_to_operand_dims = [0, 1] and index_vector_dim = 0,
  at ONE start-index vector of two words. Read at an entry, the result is the update inside the window and the
  operand outside it.
-/
import Idealize.ShloMosaic.PureOps
import Idealize.ShloMosaic.Lib.ValueIdx
import Mathlib

noncomputable section

namespace Idealize.ShloMosaic.WindowSet

open Idealize.ShloMosaic Idealize.ShloMosaic.ValueIdx

open Classical in
/-- A left fold of "overwrite the entry the step's key names, if it names one" read at the entry "p": when every
    step whose key is "p" writes the same value "v", the fold holds "v" at "p" if some step's key is "p", and the
    initial array's entry otherwise. The step is any function that writes "val n" at the entry "g n" names, keeps the
    other entries, and keeps the array when "g n" names none. -/
theorem foldl_set_apply {ι κ α : Type} (g : κ → Option ι) (val : κ → α) (step : (ι → α) → κ → ι → α)
    (hs : ∀ r n i, g n = some i → step r n i = val n)
    (hs' : ∀ r n i i', g n = some i → i' ≠ i → step r n i' = r i')
    (hn : ∀ r n, g n = none → step r n = r) (p : ι) (v : α) :
    ∀ (l : List κ) (x : ι → α), (∀ n ∈ l, g n = some p → val n = v) →
      (l.foldl step x) p = if ∃ n ∈ l, g n = some p then v else x p := by
  intro l
  induction l with
  | nil => intro x _; simp
  | cons n t ih =>
    intro x hv
    rw [List.foldl_cons, ih _ (fun m hm => hv m (List.mem_cons_of_mem _ hm))]
    by_cases ht : ∃ m ∈ t, g m = some p
    · have : ∃ m ∈ n :: t, g m = some p := by
        obtain ⟨m, hm, hg⟩ := ht; exact ⟨m, List.mem_cons_of_mem _ hm, hg⟩
      rw [if_pos ht, if_pos this]
    · rw [if_neg ht]
      cases hg : g n with
      | none =>
        have : ¬ ∃ m ∈ n :: t, g m = some p := by
          rintro ⟨m, hm, hgm⟩
          rcases List.mem_cons.1 hm with rfl | hm
          · rw [hg] at hgm; cases hgm
          · exact ht ⟨m, hm, hgm⟩
        rw [if_neg this, hn _ _ hg]
      | some i =>
        by_cases hpi : p = i
        · subst hpi
          have : ∃ m ∈ n :: t, g m = some p := ⟨n, List.mem_cons_self, hg⟩
          rw [if_pos this, hs _ _ _ hg]
          exact hv n List.mem_cons_self hg
        · have : ¬ ∃ m ∈ n :: t, g m = some p := by
            rintro ⟨m, hm, hgm⟩
            rcases List.mem_cons.1 hm with rfl | hm
            · rw [hg] at hgm; exact hpi (Option.some.inj hgm).symm
            · exact ht ⟨m, hm, hgm⟩
          rw [if_neg this, hs' x n i p hg hpi]

section Window

variable {R C h w bw : Nat}

/-- The dimension numbers of "write one whole [h, w] window into an [R, C] array at a start-index vector [2]". -/
abbrev dims (wf : ScatterDims.WF ⟨2, ![R, C]⟩ ⟨1, ![2]⟩ ⟨2, ![h, w]⟩ [0, 1] [] [0, 1] 0) :
    ScatterDims ⟨2, ![R, C]⟩ ⟨1, ![2]⟩ ⟨2, ![h, w]⟩ :=
  { updateWindowDims := [0, 1], insertedWindowDims := [], scatterDimsToOperandDims := [0, 1], indexVectorDim := 0, wf := wf }

variable (wf : ScatterDims.WF ⟨2, ![R, C]⟩ ⟨1, ![2]⟩ ⟨2, ![h, w]⟩ [0, 1] [] [0, 1] 0)
  (j : (⟨2, ![h, w]⟩ : Shape).Idx) (idx : IVec ⟨1, ![2]⟩ bw)

theorem start_zero : (dims wf).start j idx 0 = (idx (ix1 0)).toInt := by
  unfold ScatterDims.start
  rw [dif_pos (show (0 : Fin 2) ∈ [0, 1] from List.mem_cons_self)]
  congr 2
  funext b
  match b with
  | ⟨0, _⟩ => rfl

theorem start_one : (dims wf).start j idx 1 = (idx (ix1 1)).toInt := by
  unfold ScatterDims.start
  rw [dif_pos (show (1 : Fin 2) ∈ [0, 1] from List.mem_cons_of_mem _ List.mem_cons_self)]
  congr 2
  funext b
  match b with
  | ⟨0, _⟩ => rfl

theorem mem_sKept (a : Fin 2) : a ∈ (dims wf).sKept := by
  simp [Shape.kept]

theorem window_zero : (dims wf).window j 0 = (j 0).val := by
  unfold ScatterDims.window
  rw [dif_pos (mem_sKept wf 0)]
  rfl

theorem window_one : (dims wf).window j 1 = (j 1).val := by
  unfold ScatterDims.window
  rw [dif_pos (mem_sKept wf 1)]
  rfl

theorem ix2_congr {n0 n1 : Nat} {a a' : Fin n0} {b b' : Fin n1} (ha : a = a') (hb : b = b') : ix2 a b = ix2 a' b' := by
  subst ha; subst hb; rfl

variable (r0 c0 : Nat)

/-- Where update index "j" lands: the start read off the index vector plus "j", on both axes, when the window fits. -/
theorem resultIdx_eq (hr : (idx (ix1 0)).toInt = r0) (hc : (idx (ix1 1)).toInt = c0) (hR : r0 + h ≤ R) (hC : c0 + w ≤ C) :
    (dims wf).resultIdx? j idx
      = some (ix2 ⟨r0 + (j 0).val, by have := idx2_lt0 j; omega⟩ ⟨c0 + (j 1).val, by have := idx2_lt1 j; omega⟩) := by
  have h0 : (dims wf).start j idx 0 + ((dims wf).window j 0 : Int) = ((r0 + (j 0).val : Nat) : Int) := by
    rw [start_zero, window_zero, hr]; push_cast; rfl
  have h1 : (dims wf).start j idx 1 + ((dims wf).window j 1 : Int) = ((c0 + (j 1).val : Nat) : Int) := by
    rw [start_one, window_one, hc]; push_cast; rfl
  have hall : ∀ a, 0 ≤ (dims wf).start j idx a + ((dims wf).window j a : Int)
      ∧ (dims wf).start j idx a + ((dims wf).window j a : Int) < (((⟨2, ![R, C]⟩ : Shape).size a : Nat) : Int) := by
    intro a
    match a with
    | ⟨0, _⟩ =>
      have := idx2_lt0 j
      show 0 ≤ (dims wf).start j idx 0 + ((dims wf).window j 0 : Int)
        ∧ (dims wf).start j idx 0 + ((dims wf).window j 0 : Int) < ((R : Nat) : Int)
      rw [h0]; omega
    | ⟨1, _⟩ =>
      have := idx2_lt1 j
      show 0 ≤ (dims wf).start j idx 1 + ((dims wf).window j 1 : Int)
        ∧ (dims wf).start j idx 1 + ((dims wf).window j 1 : Int) < ((C : Nat) : Int)
      rw [h1]; omega
  unfold ScatterDims.resultIdx?
  rw [dif_pos hall]
  congr 1
  funext a
  match a with
  | ⟨0, _⟩ =>
    apply Fin.ext
    show ((dims wf).start j idx 0 + ((dims wf).window j 0 : Int)).toNat = r0 + (j 0).val
    rw [h0]; exact Int.toNat_natCast _
  | ⟨1, _⟩ =>
    apply Fin.ext
    show ((dims wf).start j idx 1 + ((dims wf).window j 1 : Int)).toNat = c0 + (j 1).val
    rw [h1]; exact Int.toNat_natCast _

/-- ONE WHOLE WINDOW SET INTO A RANK-2 ARRAY, READ AT AN ENTRY. "stablehlo.scatter" whose body returns the update,
    with update_window_dims = [0, 1], no inserted window axes, scatter_dims_to_operand_dims = [0, 1] and
    index_vector_dim = 0, of an [h, w] update into an [R, C] operand at the start-index vector "idx" : [2] whose two
    words read signed are "r0" and "c0", the window inside the operand: entry (p, q) of the result is the update's
    entry (p − r0, q − c0) when (p, q) is inside the window [r0, r0 + h) × [c0, c0 + w), and the operand's entry
    otherwise. (Each update index lands at its own entry, start plus index, so the order of the fold does not matter.) -/
theorem scatter_window_apply {α : Type} (x : (⟨2, ![R, C]⟩ : Shape).Idx → α) (upd : (⟨2, ![h, w]⟩ : Shape).Idx → α)
    (hr : (idx (ix1 0)).toInt = r0) (hc : (idx (ix1 1)).toInt = c0) (hR : r0 + h ≤ R) (hC : c0 + w ≤ C)
    (p : Fin R) (q : Fin C) :
    Host.scatter (dims wf) (fun _ b => b) x idx upd (ix2 p q)
      = if hh : r0 ≤ p.val ∧ p.val < r0 + h ∧ c0 ≤ q.val ∧ q.val < c0 + w then
          upd (ix2 ⟨p.val - r0, by omega⟩ ⟨q.val - c0, by omega⟩)
        else x (ix2 p q) := by
  unfold Host.scatter
  by_cases hh : r0 ≤ p.val ∧ p.val < r0 + h ∧ c0 ≤ q.val ∧ q.val < c0 + w
  · rw [dif_pos hh]
    refine (foldl_set_apply (fun n => (dims wf).resultIdx? ((⟨2, ![h, w]⟩ : Shape).rowMajor.symm n) idx)
      (fun n => upd ((⟨2, ![h, w]⟩ : Shape).rowMajor.symm n)) _ ?_ ?_ ?_ (ix2 p q)
      (upd (ix2 ⟨p.val - r0, by omega⟩ ⟨q.val - c0, by omega⟩)) _ x ?_).trans ?_
    · intro r n i hg; simp [hg]
    · intro r n i i' hg hne; simp [hg, hne]
    · intro r n hg; simp [hg]
    · intro n _ hg
      rw [resultIdx_eq wf _ idx r0 c0 hr hc hR hC] at hg
      have hg' := Option.some.inj hg
      have e0 : r0 + (((⟨2, ![h, w]⟩ : Shape).rowMajor.symm n) 0).val = p.val := congrArg Fin.val (congrFun hg' 0)
      have e1 : c0 + (((⟨2, ![h, w]⟩ : Shape).rowMajor.symm n) 1).val = q.val := congrArg Fin.val (congrFun hg' 1)
      show upd _ = upd _
      rw [eq_ix2 ((⟨2, ![h, w]⟩ : Shape).rowMajor.symm n)]
      congr 1
      refine ix2_congr (Fin.ext ?_) (Fin.ext ?_)
      · show (((⟨2, ![h, w]⟩ : Shape).rowMajor.symm n) 0).val = p.val - r0
        omega
      · show (((⟨2, ![h, w]⟩ : Shape).rowMajor.symm n) 1).val = q.val - c0
        omega
    · rw [if_pos]
      refine ⟨(⟨2, ![h, w]⟩ : Shape).rowMajor (ix2 ⟨p.val - r0, by omega⟩ ⟨q.val - c0, by omega⟩), List.mem_finRange _, ?_⟩
      simp only [Equiv.symm_apply_apply]
      rw [resultIdx_eq wf _ idx r0 c0 hr hc hR hC]
      congr 1
      refine ix2_congr (Fin.ext ?_) (Fin.ext ?_)
      · show r0 + (p.val - r0) = p.val
        omega
      · show c0 + (q.val - c0) = q.val
        omega
  · rw [dif_neg hh]
    refine (foldl_set_apply (fun n => (dims wf).resultIdx? ((⟨2, ![h, w]⟩ : Shape).rowMajor.symm n) idx)
      (fun n => upd ((⟨2, ![h, w]⟩ : Shape).rowMajor.symm n)) _ ?_ ?_ ?_ (ix2 p q) (x (ix2 p q)) _ x ?_).trans ?_
    · intro r n i hg; simp [hg]
    · intro r n i i' hg hne; simp [hg, hne]
    · intro r n hg; simp [hg]
    · intro n _ hg
      exfalso; apply hh
      rw [resultIdx_eq wf _ idx r0 c0 hr hc hR hC] at hg
      have hg' := Option.some.inj hg
      have e0 : r0 + (((⟨2, ![h, w]⟩ : Shape).rowMajor.symm n) 0).val = p.val := congrArg Fin.val (congrFun hg' 0)
      have e1 : c0 + (((⟨2, ![h, w]⟩ : Shape).rowMajor.symm n) 1).val = q.val := congrArg Fin.val (congrFun hg' 1)
      have := idx2_lt0 ((⟨2, ![h, w]⟩ : Shape).rowMajor.symm n)
      have := idx2_lt1 ((⟨2, ![h, w]⟩ : Shape).rowMajor.symm n)
      omega
    · exact ite_self _

end Window

end Idealize.ShloMosaic.WindowSet
-- ==== Proof.RefConv1.lean ====
/-
  The reference's first banded matrix read entry by entry. The host code starts from a zero [2016, 384] array and writes
  the [16, 9] block of raw weights 126 times, block i at rows 16 i … 16 i + 15 and columns 3 i … 3 i + 8. Entry
  (16 i + ch, q) of the result is the block's entry (ch, q − 3 i) when 3 i ≤ q < 3 i + 9, and zero otherwise.
-/
import proofs.«169050_g2000504127106898_pallasbulk_898_40_alg».proof.Proof.Gen.ReferenceIdeal.Launch
import proofs.«169050_g2000504127106898_pallasbulk_898_40_alg».proof.Proof.LibWindowSet
import proofs.«169050_g2000504127106898_pallasbulk_898_40_alg».proof.Proof.RefArgs
import Idealize.ShloMosaic.Lib.ValueIdx
import Idealize.ShloMosaic.Lib.IdealHost
import Idealize.ShloMosaic.Lib.StableHlo.Run
import Idealize.ShloMosaic.Lib.Pipeline.Value

set_option maxRecDepth 14228

noncomputable section

namespace Cert.ReferenceIdeal.Glue.Conv1

open Idealize.ShloMosaic Idealize.ShloMosaic.TcCoe Idealize.SL.Sem Idealize.ShloMosaic.ValueIdx

/-- The start-index vector [a, b] as the host code builds it: two one-word arrays laid end to end. -/
def idxVec (a b : (⟨S1, .i32⟩ : BufTy).Contents (Elt Ideal)) : (⟨S2, .i32⟩ : BufTy).Contents (Elt Ideal) :=
  concatenate S2 0 [⟨S1, a⟩, ⟨S1, b⟩] Gen.concatenates_S1_S1_S2_d0

/-- The operation that lays two one-word arrays end to end, as the program spells it, is "idxVec". -/
theorem concat_fun_eq :
    (fun (a b : (⟨S1, .i32⟩ : BufTy).Contents (Elt Ideal)) => concatenate S2 0 [⟨S1, a⟩, ⟨S1, b⟩] Gen.concatenates_S1_S1_S2_d0)
      = idxVec := rfl

/-- Reads a buffer after a literal line of operations: an operation's result at its own buffer is its function's value,
    at any other buffer what was there before; the index vectors come out folded as "idxVec". -/
macro "win_simp" : tactic =>
  `(tactic| (simp (disch := decide) only [StableHlo.after_cons, StableHlo.after_nil,
      StableHlo.nullary_result', StableHlo.unary_result', StableHlo.binary_result', StableHlo.ternary_result',
      StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne',
      StableHlo.quaternary_result_ne', StableHlo.reshape_result_ne', StableHlo.nary_result_ne',
      StableHlo.unaryIndexed_result_ne', StableHlo.binaryIndexed_result_ne', concat_fun_eq]))

/-- The index vector reads (16 k, 3 k). -/
def Reads (v : (⟨S2, .i32⟩ : BufTy).Contents (Elt Ideal)) (k : Nat) : Prop :=
  (v (ix1 0)).toInt = ((16 * k : Nat) : Int) ∧ (v (ix1 1)).toInt = ((3 * k : Nat) : Int)

theorem idxVec_zero (a b : (⟨S1, .i32⟩ : BufTy).Contents (Elt Ideal)) : idxVec a b (ix1 0) = a (ix1 0) :=
  concatenate_pair_apply_left (t := S2) (s₁ := S1) (s₂ := S1) 0 a b Gen.concatenates_S1_S1_S2_d0 (ix1 0) rfl (ix1 0)
    (fun b => by match b with | ⟨0, _⟩ => rfl)

theorem idxVec_one (a b : (⟨S1, .i32⟩ : BufTy).Contents (Elt Ideal)) : idxVec a b (ix1 1) = b (ix1 0) :=
  concatenate_pair_apply_right (t := S2) (s₁ := S1) (s₂ := S1) 0 a b Gen.concatenates_S1_S1_S2_d0 (ix1 1) rfl rfl (ix1 0)
    (fun b hb => by match b with | ⟨0, _⟩ => exact absurd rfl hb) rfl

/-- The index vector built from the two literal words "a" and "b" reads them. -/
theorem reads_const (a b : BitVec 32) (k : Nat) (ha : a.toInt = ((16 * k : Nat) : Int)) (hb : b.toInt = ((3 * k : Nat) : Int)) :
    Reads (idxVec (broadcastInDim S1 ![] Gen.bcast_S_S1 (constantI S_ 32 a))
      (broadcastInDim S1 ![] Gen.bcast_S_S1 (constantI S_ 32 b))) k := by
  refine ⟨?_, ?_⟩
  · rw [idxVec_zero, broadcastInDim_scalar_apply]; exact ha
  · rw [idxVec_one, broadcastInDim_scalar_apply]; exact hb

/-- The array after the first "k" blocks are written. -/
def Mat (k : Nat) (M : (⟨S2016x384, .f32⟩ : BufTy).Contents (Elt Ideal)) (blk : (⟨S16x9, .f32⟩ : BufTy).Contents (Elt Ideal)) : Prop :=
  ∀ (i : Fin 126) (ch : Fin 16) (q : Fin 384),
    (M : S2016x384.Idx → EReal) (ix2 ⟨16 * i.val + ch.val, by omega⟩ q)
      = if h : i.val < k ∧ 3 * i.val ≤ q.val ∧ q.val < 3 * i.val + 9 then
          (blk : S16x9.Idx → EReal) (ix2 ch ⟨q.val - 3 * i.val, by omega⟩)
        else 0

/-- Writing block "k" extends the invariant from "k" blocks to "k + 1". -/
theorem Mat_step {k : Nat} (hk : k < 126) {M : (⟨S2016x384, .f32⟩ : BufTy).Contents (Elt Ideal)}
    {blk : (⟨S16x9, .f32⟩ : BufTy).Contents (Elt Ideal)} {idx : (⟨S2, .i32⟩ : BufTy).Contents (Elt Ideal)}
    (hM : Mat k M blk) (hI : Reads idx k) :
    Mat (k + 1) (Host.scatter scatter_S2016x384_S2_S16x9_01_n_01_0 (fun _ b => b) M idx blk) blk := by
  intro i ch q
  have key : Host.scatter scatter_S2016x384_S2_S16x9_01_n_01_0 (fun _ b => b) M idx blk
        (ix2 (⟨16 * i.val + ch.val, by omega⟩ : Fin 2016) q) = _ :=
    WindowSet.scatter_window_apply scatter_S2016x384_S2_S16x9_01_n_01_0.wf idx (16 * k) (3 * k) M blk hI.1 hI.2
      (by omega) (by omega) ⟨16 * i.val + ch.val, by omega⟩ q
  rw [key, hM i ch q]
  by_cases hik : i.val = k
  · by_cases hq : 3 * k ≤ q.val ∧ q.val < 3 * k + 9
    · rw [dif_pos ⟨by simp only; omega, by simp only; omega, hq.1, hq.2⟩, dif_pos ⟨by omega, by omega, by omega⟩]
      congr 1
      exact WindowSet.ix2_congr (Fin.ext (by simp only; omega)) (Fin.ext (by simp only; omega))
    · rw [dif_neg (by simp only; omega), dif_neg (by omega), dif_neg (by omega)]
  · rw [dif_neg (by simp only; omega)]
    by_cases h2 : i.val < k ∧ 3 * i.val ≤ q.val ∧ q.val < 3 * i.val + 9
    · rw [dif_pos h2, dif_pos ⟨by omega, h2.2.1, h2.2.2⟩]
    · rw [dif_neg h2, dif_neg (by omega)]

/-- The array of zeros the host code starts from holds no block. -/
theorem Mat_zero (blk : (⟨S16x9, .f32⟩ : BufTy).Contents (Elt Ideal)) :
    Mat 0 (broadcastInDim S2016x384 ![] Gen.bcast_S_S2016x384 (constant (F := Ideal) S_ .f32 0x00000000#32)) blk := by
  intro i ch q
  rw [broadcastInDim_scalar_apply, constant_apply, Ideal.ofBits_zero_f32, dif_neg (by omega)]

/-! ## The windows of the host code, one lemma each: what a window of sixty operations does to the invariant -/

set_option maxHeartbeats 1000000 in
/-- Operations 1 … 60: the block is laid out, the zero array made, and blocks 0 … 7 written; the index vector of block 8 is ready. -/
theorem win0 (W : Valuation τ sig (Elt Ideal)) (blk : (⟨S16x9, .f32⟩ : BufTy).Contents (Elt Ideal))
    (hb : StableHlo.after (Gen.main_part0_ops0 (F := Ideal)) W (Proc.devRef .tc main_v4) = blk) :
    Mat 8 (StableHlo.after (Gen.main_part0_ops0 (F := Ideal)) W (Proc.devRef .tc main_v37)) blk
    ∧ Reads (StableHlo.after (Gen.main_part0_ops0 (F := Ideal)) W (Proc.devRef .tc main_v40)) 8 := by
  subst hb
  refine ⟨?_, ?_⟩
  · win_simp
    repeat (first | exact Mat_zero _ | exact reads_const _ _ _ (by decide) (by decide) | refine Mat_step (by decide) ?_ ?_)
  · win_simp
    exact reads_const _ _ _ (by decide) (by decide)

set_option maxHeartbeats 1000000 in
/-- Operations 61 … 120: blocks 8 … 17 written; the index vector of block 18 is ready. -/
theorem win1 (W : Valuation τ sig (Elt Ideal)) (blk : (⟨S16x9, .f32⟩ : BufTy).Contents (Elt Ideal))
    (hb : W (Proc.devRef .tc main_v4) = blk) (hM : Mat 8 (W (Proc.devRef .tc main_v37)) blk)
    (hI : Reads (W (Proc.devRef .tc main_v40)) 8) :
    Mat 18 (StableHlo.after (Gen.main_part1_ops0 (F := Ideal)) W (Proc.devRef .tc main_v77)) blk
    ∧ Reads (StableHlo.after (Gen.main_part1_ops0 (F := Ideal)) W (Proc.devRef .tc main_v80)) 18 := by
  refine ⟨?_, ?_⟩
  · win_simp
    rw [hb]
    repeat (first | exact hM | exact hI | exact reads_const _ _ _ (by decide) (by decide) | refine Mat_step (by decide) ?_ ?_)
  · win_simp
    exact reads_const _ _ _ (by decide) (by decide)

set_option maxHeartbeats 1000000 in
/-- Operations 121 … 180: blocks 18 … 27 written; the index vector of block 28 is ready. -/
theorem win2 (W : Valuation τ sig (Elt Ideal)) (blk : (⟨S16x9, .f32⟩ : BufTy).Contents (Elt Ideal))
    (hb : W (Proc.devRef .tc main_v4) = blk) (hM : Mat 18 (W (Proc.devRef .tc main_v77)) blk)
    (hI : Reads (W (Proc.devRef .tc main_v80)) 18) :
    Mat 28 (StableHlo.after (Gen.main_part2_ops0 (F := Ideal)) W (Proc.devRef .tc main_v117)) blk
    ∧ Reads (StableHlo.after (Gen.main_part2_ops0 (F := Ideal)) W (Proc.devRef .tc main_v120)) 28 := by
  refine ⟨?_, ?_⟩
  · win_simp
    rw [hb]
    repeat (first | exact hM | exact hI | exact reads_const _ _ _ (by decide) (by decide) | refine Mat_step (by decide) ?_ ?_)
  · win_simp
    exact reads_const _ _ _ (by decide) (by decide)

set_option maxHeartbeats 1000000 in
/-- Operations 181 … 240: blocks 28 … 37 written; the index vector of block 38 is ready. -/
theorem win3 (W : Valuation τ sig (Elt Ideal)) (blk : (⟨S16x9, .f32⟩ : BufTy).Contents (Elt Ideal))
    (hb : W (Proc.devRef .tc main_v4) = blk) (hM : Mat 28 (W (Proc.devRef .tc main_v117)) blk)
    (hI : Reads (W (Proc.devRef .tc main_v120)) 28) :
    Mat 38 (StableHlo.after (Gen.main_part3_ops0 (F := Ideal)) W (Proc.devRef .tc main_v157)) blk
    ∧ Reads (StableHlo.after (Gen.main_part3_ops0 (F := Ideal)) W (Proc.devRef .tc main_v160)) 38 := by
  refine ⟨?_, ?_⟩
  · win_simp
    rw [hb]
    repeat (first | exact hM | exact hI | exact reads_const _ _ _ (by decide) (by decide) | refine Mat_step (by decide) ?_ ?_)
  · win_simp
    exact reads_const _ _ _ (by decide) (by decide)

set_option maxHeartbeats 1000000 in
/-- Operations 241 … 300: blocks 38 … 47 written; the index vector of block 48 is ready. -/
theorem win4 (W : Valuation τ sig (Elt Ideal)) (blk : (⟨S16x9, .f32⟩ : BufTy).Contents (Elt Ideal))
    (hb : W (Proc.devRef .tc main_v4) = blk) (hM : Mat 38 (W (Proc.devRef .tc main_v157)) blk)
    (hI : Reads (W (Proc.devRef .tc main_v160)) 38) :
    Mat 48 (StableHlo.after (Gen.main_part4_ops0 (F := Ideal)) W (Proc.devRef .tc main_v197)) blk
    ∧ Reads (StableHlo.after (Gen.main_part4_ops0 (F := Ideal)) W (Proc.devRef .tc main_v200)) 48 := by
  refine ⟨?_, ?_⟩
  · win_simp
    rw [hb]
    repeat (first | exact hM | exact hI | exact reads_const _ _ _ (by decide) (by decide) | refine Mat_step (by decide) ?_ ?_)
  · win_simp
    exact reads_const _ _ _ (by decide) (by decide)

set_option maxHeartbeats 1000000 in
/-- Operations 301 … 360: blocks 48 … 57 written; the index vector of block 58 is ready. -/
theorem win5 (W : Valuation τ sig (Elt Ideal)) (blk : (⟨S16x9, .f32⟩ : BufTy).Contents (Elt Ideal))
    (hb : W (Proc.devRef .tc main_v4) = blk) (hM : Mat 48 (W (Proc.devRef .tc main_v197)) blk)
    (hI : Reads (W (Proc.devRef .tc main_v200)) 48) :
    Mat 58 (StableHlo.after (Gen.main_part5_ops0 (F := Ideal)) W (Proc.devRef .tc main_v237)) blk
    ∧ Reads (StableHlo.after (Gen.main_part5_ops0 (F := Ideal)) W (Proc.devRef .tc main_v240)) 58 := by
  refine ⟨?_, ?_⟩
  · win_simp
    rw [hb]
    repeat (first | exact hM | exact hI | exact reads_const _ _ _ (by decide) (by decide) | refine Mat_step (by decide) ?_ ?_)
  · win_simp
    exact reads_const _ _ _ (by decide) (by decide)

set_option maxHeartbeats 1000000 in
/-- Operations 361 … 420: blocks 58 … 67 written; the index vector of block 68 is ready. -/
theorem win6 (W : Valuation τ sig (Elt Ideal)) (blk : (⟨S16x9, .f32⟩ : BufTy).Contents (Elt Ideal))
    (hb : W (Proc.devRef .tc main_v4) = blk) (hM : Mat 58 (W (Proc.devRef .tc main_v237)) blk)
    (hI : Reads (W (Proc.devRef .tc main_v240)) 58) :
    Mat 68 (StableHlo.after (Gen.main_part6_ops0 (F := Ideal)) W (Proc.devRef .tc main_v277)) blk
    ∧ Reads (StableHlo.after (Gen.main_part6_ops0 (F := Ideal)) W (Proc.devRef .tc main_v280)) 68 := by
  refine ⟨?_, ?_⟩
  · win_simp
    rw [hb]
    repeat (first | exact hM | exact hI | exact reads_const _ _ _ (by decide) (by decide) | refine Mat_step (by decide) ?_ ?_)
  · win_simp
    exact reads_const _ _ _ (by decide) (by decide)

set_option maxHeartbeats 1000000 in
/-- Operations 421 … 480: blocks 68 … 77 written; the index vector of block 78 is ready. -/
theorem win7 (W : Valuation τ sig (Elt Ideal)) (blk : (⟨S16x9, .f32⟩ : BufTy).Contents (Elt Ideal))
    (hb : W (Proc.devRef .tc main_v4) = blk) (hM : Mat 68 (W (Proc.devRef .tc main_v277)) blk)
    (hI : Reads (W (Proc.devRef .tc main_v280)) 68) :
    Mat 78 (StableHlo.after (Gen.main_part7_ops0 (F := Ideal)) W (Proc.devRef .tc main_v317)) blk
    ∧ Reads (StableHlo.after (Gen.main_part7_ops0 (F := Ideal)) W (Proc.devRef .tc main_v320)) 78 := by
  refine ⟨?_, ?_⟩
  · win_simp
    rw [hb]
    repeat (first | exact hM | exact hI | exact reads_const _ _ _ (by decide) (by decide) | refine Mat_step (by decide) ?_ ?_)
  · win_simp
    exact reads_const _ _ _ (by decide) (by decide)

set_option maxHeartbeats 1000000 in
/-- Operations 481 … 540: blocks 78 … 87 written; the index vector of block 88 is ready. -/
theorem win8 (W : Valuation τ sig (Elt Ideal)) (blk : (⟨S16x9, .f32⟩ : BufTy).Contents (Elt Ideal))
    (hb : W (Proc.devRef .tc main_v4) = blk) (hM : Mat 78 (W (Proc.devRef .tc main_v317)) blk)
    (hI : Reads (W (Proc.devRef .tc main_v320)) 78) :
    Mat 88 (StableHlo.after (Gen.main_part8_ops0 (F := Ideal)) W (Proc.devRef .tc main_v357)) blk
    ∧ Reads (StableHlo.after (Gen.main_part8_ops0 (F := Ideal)) W (Proc.devRef .tc main_v360)) 88 := by
  refine ⟨?_, ?_⟩
  · win_simp
    rw [hb]
    repeat (first | exact hM | exact hI | exact reads_const _ _ _ (by decide) (by decide) | refine Mat_step (by decide) ?_ ?_)
  · win_simp
    exact reads_const _ _ _ (by decide) (by decide)

set_option maxHeartbeats 1000000 in
/-- Operations 541 … 600: blocks 88 … 97 written; the index vector of block 98 is ready. -/
theorem win9 (W : Valuation τ sig (Elt Ideal)) (blk : (⟨S16x9, .f32⟩ : BufTy).Contents (Elt Ideal))
    (hb : W (Proc.devRef .tc main_v4) = blk) (hM : Mat 88 (W (Proc.devRef .tc main_v357)) blk)
    (hI : Reads (W (Proc.devRef .tc main_v360)) 88) :
    Mat 98 (StableHlo.after (Gen.main_part9_ops0 (F := Ideal)) W (Proc.devRef .tc main_v397)) blk
    ∧ Reads (StableHlo.after (Gen.main_part9_ops0 (F := Ideal)) W (Proc.devRef .tc main_v400)) 98 := by
  refine ⟨?_, ?_⟩
  · win_simp
    rw [hb]
    repeat (first | exact hM | exact hI | exact reads_const _ _ _ (by decide) (by decide) | refine Mat_step (by decide) ?_ ?_)
  · win_simp
    exact reads_const _ _ _ (by decide) (by decide)

set_option maxHeartbeats 1000000 in
/-- Operations 601 … 660: blocks 98 … 107 written; the index vector of block 108 is ready. -/
theorem win10 (W : Valuation τ sig (Elt Ideal)) (blk : (⟨S16x9, .f32⟩ : BufTy).Contents (Elt Ideal))
    (hb : W (Proc.devRef .tc main_v4) = blk) (hM : Mat 98 (W (Proc.devRef .tc main_v397)) blk)
    (hI : Reads (W (Proc.devRef .tc main_v400)) 98) :
    Mat 108 (StableHlo.after (Gen.main_part10_ops0 (F := Ideal)) W (Proc.devRef .tc main_v437)) blk
    ∧ Reads (StableHlo.after (Gen.main_part10_ops0 (F := Ideal)) W (Proc.devRef .tc main_v440)) 108 := by
  refine ⟨?_, ?_⟩
  · win_simp
    rw [hb]
    repeat (first | exact hM | exact hI | exact reads_const _ _ _ (by decide) (by decide) | refine Mat_step (by decide) ?_ ?_)
  · win_simp
    exact reads_const _ _ _ (by decide) (by decide)

set_option maxHeartbeats 1000000 in
/-- Operations 661 … 720: blocks 108 … 117 written; the index vector of block 118 is ready. -/
theorem win11 (W : Valuation τ sig (Elt Ideal)) (blk : (⟨S16x9, .f32⟩ : BufTy).Contents (Elt Ideal))
    (hb : W (Proc.devRef .tc main_v4) = blk) (hM : Mat 108 (W (Proc.devRef .tc main_v437)) blk)
    (hI : Reads (W (Proc.devRef .tc main_v440)) 108) :
    Mat 118 (StableHlo.after (Gen.main_part11_ops0 (F := Ideal)) W (Proc.devRef .tc main_v477)) blk
    ∧ Reads (StableHlo.after (Gen.main_part11_ops0 (F := Ideal)) W (Proc.devRef .tc main_v480)) 118 := by
  refine ⟨?_, ?_⟩
  · win_simp
    rw [hb]
    repeat (first | exact hM | exact hI | exact reads_const _ _ _ (by decide) (by decide) | refine Mat_step (by decide) ?_ ?_)
  · win_simp
    exact reads_const _ _ _ (by decide) (by decide)

set_option maxHeartbeats 1000000 in
/-- Operations 721 … 780: blocks 118 … 125 written, which completes the array. -/
theorem win12 (W : Valuation τ sig (Elt Ideal)) (blk : (⟨S16x9, .f32⟩ : BufTy).Contents (Elt Ideal))
    (hb : W (Proc.devRef .tc main_v4) = blk) (hM : Mat 118 (W (Proc.devRef .tc main_v477)) blk)
    (hI : Reads (W (Proc.devRef .tc main_v480)) 118) :
    Mat 126 (StableHlo.after (Gen.main_part12_ops0 (F := Ideal)) W (Proc.devRef .tc main_v509)) blk := by
  win_simp
  rw [hb]
  repeat (first | exact hM | exact hI | exact reads_const _ _ _ (by decide) (by decide) | refine Mat_step (by decide) ?_ ?_)

/-! ## The whole line -/

set_option maxHeartbeats 4000000 in
/-- The host code is its nineteen windows of operations laid end to end. -/
theorem ops_split :
    List.flatten [Gen.hostOps0 (F := Ideal)]
      = (Gen.main_part0_ops0 ++ (Gen.main_part1_ops0 ++ (Gen.main_part2_ops0 ++ (Gen.main_part3_ops0 ++ (Gen.main_part4_ops0 ++ (Gen.main_part5_ops0 ++ (Gen.main_part6_ops0 ++ (Gen.main_part7_ops0 ++ (Gen.main_part8_ops0 ++ (Gen.main_part9_ops0 ++ (Gen.main_part10_ops0 ++ (Gen.main_part11_ops0 ++ (Gen.main_part12_ops0 ++ (Gen.main_part13_ops0 ++ (Gen.main_part14_ops0 ++ (Gen.main_part15_ops0 ++ (Gen.main_part16_ops0 ++ (Gen.main_part17_ops0 ++ (Gen.main_part18_ops0)))))))))))))))))) : List (HloOp τ sig (Elt Ideal))) := rfl

set_option maxHeartbeats 4000000 in
/-- After the host code the array holds all 126 blocks of what the block buffer holds. -/
theorem w1t_mat (m : (ℓ : Loc nD τ sig) → Buf (Elt Ideal) ℓ) (c : Dev nD) :
    Mat 126 (RV m c main_v509) (RV m c main_v4) := by
  show Mat 126 (StableHlo.after (List.flatten [Gen.hostOps0 (F := Ideal)]) (fun b => m (c, b)) (Proc.devRef .tc main_v509))
    (StableHlo.after (List.flatten [Gen.hostOps0 (F := Ideal)]) (fun b => m (c, b)) (Proc.devRef .tc main_v4))
  rw [ops_split]
  simp only [after_append]
  generalize (fun b => m (c, b) : Valuation τ sig (Elt Ideal)) = V0
  obtain ⟨hM, hI⟩ := win0 V0 _ rfl
  generalize hblk : StableHlo.after (Gen.main_part0_ops0 (F := Ideal)) V0 (Proc.devRef .tc main_v4) = blk at hM hI
  have hb := hblk
  clear hblk
  generalize StableHlo.after (Gen.main_part0_ops0 (F := Ideal)) V0 = S at *
  obtain ⟨hM', hI'⟩ := win1 S blk hb hM hI
  have hb' := (writes_P1.keep main_v4 (Or.inl (by decide)) S).trans hb
  clear hb hM hI
  generalize StableHlo.after (Gen.main_part1_ops0 (F := Ideal)) S = S' at *
  clear S
  rename' S' => S, hb' => hb, hM' => hM, hI' => hI
  obtain ⟨hM', hI'⟩ := win2 S blk hb hM hI
  have hb' := (writes_P2.keep main_v4 (Or.inl (by decide)) S).trans hb
  clear hb hM hI
  generalize StableHlo.after (Gen.main_part2_ops0 (F := Ideal)) S = S' at *
  clear S
  rename' S' => S, hb' => hb, hM' => hM, hI' => hI
  obtain ⟨hM', hI'⟩ := win3 S blk hb hM hI
  have hb' := (writes_P3.keep main_v4 (Or.inl (by decide)) S).trans hb
  clear hb hM hI
  generalize StableHlo.after (Gen.main_part3_ops0 (F := Ideal)) S = S' at *
  clear S
  rename' S' => S, hb' => hb, hM' => hM, hI' => hI
  obtain ⟨hM', hI'⟩ := win4 S blk hb hM hI
  have hb' := (writes_P4.keep main_v4 (Or.inl (by decide)) S).trans hb
  clear hb hM hI
  generalize StableHlo.after (Gen.main_part4_ops0 (F := Ideal)) S = S' at *
  clear S
  rename' S' => S, hb' => hb, hM' => hM, hI' => hI
  obtain ⟨hM', hI'⟩ := win5 S blk hb hM hI
  have hb' := (writes_P5.keep main_v4 (Or.inl (by decide)) S).trans hb
  clear hb hM hI
  generalize StableHlo.after (Gen.main_part5_ops0 (F := Ideal)) S = S' at *
  clear S
  rename' S' => S, hb' => hb, hM' => hM, hI' => hI
  obtain ⟨hM', hI'⟩ := win6 S blk hb hM hI
  have hb' := (writes_P6.keep main_v4 (Or.inl (by decide)) S).trans hb
  clear hb hM hI
  generalize StableHlo.after (Gen.main_part6_ops0 (F := Ideal)) S = S' at *
  clear S
  rename' S' => S, hb' => hb, hM' => hM, hI' => hI
  obtain ⟨hM', hI'⟩ := win7 S blk hb hM hI
  have hb' := (writes_P7.keep main_v4 (Or.inl (by decide)) S).trans hb
  clear hb hM hI
  generalize StableHlo.after (Gen.main_part7_ops0 (F := Ideal)) S = S' at *
  clear S
  rename' S' => S, hb' => hb, hM' => hM, hI' => hI
  obtain ⟨hM', hI'⟩ := win8 S blk hb hM hI
  have hb' := (writes_P8.keep main_v4 (Or.inl (by decide)) S).trans hb
  clear hb hM hI
  generalize StableHlo.after (Gen.main_part8_ops0 (F := Ideal)) S = S' at *
  clear S
  rename' S' => S, hb' => hb, hM' => hM, hI' => hI
  obtain ⟨hM', hI'⟩ := win9 S blk hb hM hI
  have hb' := (writes_P9.keep main_v4 (Or.inl (by decide)) S).trans hb
  clear hb hM hI
  generalize StableHlo.after (Gen.main_part9_ops0 (F := Ideal)) S = S' at *
  clear S
  rename' S' => S, hb' => hb, hM' => hM, hI' => hI
  obtain ⟨hM', hI'⟩ := win10 S blk hb hM hI
  have hb' := (writes_P10.keep main_v4 (Or.inl (by decide)) S).trans hb
  clear hb hM hI
  generalize StableHlo.after (Gen.main_part10_ops0 (F := Ideal)) S = S' at *
  clear S
  rename' S' => S, hb' => hb, hM' => hM, hI' => hI
  obtain ⟨hM', hI'⟩ := win11 S blk hb hM hI
  have hb' := (writes_P11.keep main_v4 (Or.inl (by decide)) S).trans hb
  clear hb hM hI
  generalize StableHlo.after (Gen.main_part11_ops0 (F := Ideal)) S = S' at *
  clear S
  rename' S' => S, hb' => hb, hM' => hM, hI' => hI
  have hM' := win12 S blk hb hM hI
  have hb' := (writes_P12.keep main_v4 (Or.inl (by decide)) S).trans hb
  clear hb hM hI
  generalize StableHlo.after (Gen.main_part12_ops0 (F := Ideal)) S = S' at *
  rw [writes_P18.keep main_v509 (Or.inl (by decide)), writes_P17.keep main_v509 (Or.inl (by decide)),
    writes_P16.keep main_v509 (Or.inl (by decide)), writes_P15.keep main_v509 (Or.inl (by decide)),
    writes_P14.keep main_v509 (Or.inl (by decide)), writes_P13.keep main_v509 (Or.inl (by decide)),
    writes_P18.keep main_v4 (Or.inl (by decide)), writes_P17.keep main_v4 (Or.inl (by decide)),
    writes_P16.keep main_v4 (Or.inl (by decide)), writes_P15.keep main_v4 (Or.inl (by decide)),
    writes_P14.keep main_v4 (Or.inl (by decide)), writes_P13.keep main_v4 (Or.inl (by decide)), hb']
  exact hM'

end Cert.ReferenceIdeal.Glue.Conv1

namespace Cert.ReferenceIdeal.Glue

open Idealize.ShloMosaic Idealize.ShloMosaic.TcCoe Idealize.SL.Sem Idealize.ShloMosaic.ValueIdx

/-- THE FIRST BANDED MATRIX, ENTRY BY ENTRY: row 16 i + ch, column q of the array the host code hands the kernel is
    the raw block's entry (ch, q − 3 i) when column q lies in block i's nine columns 3 i … 3 i + 8, and zero otherwise. -/
theorem w1t_apply (m : (ℓ : Loc nD τ sig) → Buf (Elt Ideal) ℓ) (c : Dev nD) (i : Fin 126) (ch : Fin 16) (q : Fin 384) :
    (RV m c main_v509 : S2016x384.Idx → EReal) (ix2 ⟨16 * i.val + ch.val, by omega⟩ q)
      = if h : 3 * i.val ≤ q.val ∧ q.val < 3 * i.val + 9 then
          (RV m c main_v4 : S16x9.Idx → EReal) (ix2 ch ⟨q.val - 3 * i.val, by omega⟩)
        else (0 : EReal) := by
  refine (Conv1.w1t_mat m c i ch q).trans ?_
  by_cases h : 3 * i.val ≤ q.val ∧ q.val < 3 * i.val + 9
  · rw [dif_pos ⟨i.isLt, h.1, h.2⟩, dif_pos h]
  · rw [dif_neg (fun h' => h ⟨h'.2.1, h'.2.2⟩), dif_neg h]

end Cert.ReferenceIdeal.Glue
-- ==== Proof.RefConv2.lean ====
import proofs.«169050_g2000504127106898_pallasbulk_898_40_alg».proof.Proof.Gen.ReferenceIdeal.Launch
import proofs.«169050_g2000504127106898_pallasbulk_898_40_alg».proof.Proof.LibWindowSet
import proofs.«169050_g2000504127106898_pallasbulk_898_40_alg».proof.Proof.RefArgs
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Run

/-!
# The reference's second banded weight matrix, entry by entry

The reference builds the matrix of its second convolution by writing one 32 × 48 block of weights 61 times into a
1952 × 1008 matrix of zeros: block j with its corner at row 32 j and column 16 j. The row ranges of the 61 writes are
disjoint, so the entry at row 32 j + o and column q is the block's entry (o, q − 16 j) when 16 j ≤ q < 16 j + 48, and
zero otherwise (`w2t_apply`). The auxiliary statements live in the namespace `Conv2`.
-/

set_option maxRecDepth 16384

noncomputable section

namespace Cert.ReferenceIdeal.Glue

open Idealize.ShloMosaic Idealize.ShloMosaic.TcCoe Idealize.SL.Sem Idealize.ShloMosaic.ValueIdx
open Cert.ReferenceIdeal

namespace Conv2

variable {F : FTy → Type} [FloatOps F]

/-- The start-index vector with components a, b (two scalars, each made a one-element vector, laid end to end). -/
abbrev idxv (a b : BitVec 32) : IVec S2 32 :=
  concatenate S2 0 [⟨S1, broadcastInDim S1 ![] Gen.bcast_S_S1 (constantI S_ 32 a)⟩,
    ⟨S1, broadcastInDim S1 ![] Gen.bcast_S_S1 (constantI S_ 32 b)⟩] Gen.concatenates_S1_S1_S2_d0

/-- Writing the 32 × 48 block X into A with its corner at row 32 k, column 16 k. -/
def stepM {α : Type} (X : S32x48.Idx → α) (A : S1952x1008.Idx → α) (k : ℕ) : S1952x1008.Idx → α :=
  Host.scatter scatter_S1952x1008_S2_S32x48_01_n_01_0 (fun _ b => b) A
    (idxv (BitVec.ofNat 32 (32 * k)) (BitVec.ofNat 32 (16 * k))) X

/-- Component 0 of the start-index vector. -/
theorem idxv_zero (a b : BitVec 32) : idxv a b (ix1 0) = a := by
  unfold idxv
  rw [concatenate_pair_apply_left (0 : Fin S2.rank) _ _ Gen.concatenates_S1_S1_S2_d0 (ix1 (0 : Fin 2)) rfl (ix1 (0 : Fin 1))
    (fun b => match b with | ⟨0, _⟩ => rfl)]
  rw [broadcastInDim_scalar_apply, constantI_apply]

/-- Component 1 of the start-index vector. -/
theorem idxv_one (a b : BitVec 32) : idxv a b (ix1 1) = b := by
  unfold idxv
  rw [concatenate_pair_apply_right (0 : Fin S2.rank) _ _ Gen.concatenates_S1_S1_S2_d0 (ix1 (1 : Fin 2)) rfl rfl (ix1 (0 : Fin 1))
    (fun b hb => match b, hb with | ⟨0, _⟩, hb => absurd rfl hb) rfl]
  rw [broadcastInDim_scalar_apply, constantI_apply]

/-- A small natural number, as a 32-bit word read signed, is itself. -/
theorem toInt_ofNat_small (n : ℕ) (h : n < 2 ^ 31) : (BitVec.ofNat 32 n).toInt = (n : ℤ) := by
  rw [BitVec.toInt_eq_toNat_cond, BitVec.toNat_ofNat, Nat.mod_eq_of_lt (by omega)]
  split <;> omega

/-- One block written: inside the block's rectangle the block's entry, elsewhere what was there. -/
theorem stepM_apply {α : Type} (X : S32x48.Idx → α) (A : S1952x1008.Idx → α) (k : ℕ) (hk : k < 61)
    (p : Fin 1952) (q : Fin 1008) :
    stepM X A k (ix2 p q)
      = if hh : 32 * k ≤ p.val ∧ p.val < 32 * k + 32 ∧ 16 * k ≤ q.val ∧ q.val < 16 * k + 48
        then X (ix2 ⟨p.val - 32 * k, by omega⟩ ⟨q.val - 16 * k, by omega⟩) else A (ix2 p q) :=
  WindowSet.scatter_window_apply scatter_S1952x1008_S2_S32x48_01_n_01_0.wf
    (idxv (BitVec.ofNat 32 (32 * k)) (BitVec.ofNat 32 (16 * k))) (32 * k) (16 * k) A X
    (by rw [idxv_zero]; exact toInt_ofNat_small _ (by omega))
    (by rw [idxv_one]; exact toInt_ofNat_small _ (by omega))
    (by omega) (by omega) p q

/-- The matrix after the first k blocks have been written into Z. -/
def M {α : Type} (Z : S1952x1008.Idx → α) (X : S32x48.Idx → α) : ℕ → S1952x1008.Idx → α
  | 0 => Z
  | k + 1 => stepM X (M Z X k) k

/-- After the first k blocks: row block j holds the block at columns 16 j … 16 j + 47 if j < k, and is untouched
    otherwise (the row ranges of different blocks are disjoint). -/
theorem M_apply {α : Type} (Z : S1952x1008.Idx → α) (X : S32x48.Idx → α) (k : ℕ) (hk : k ≤ 61)
    (j : Fin 61) (o : Fin 32) (q : Fin 1008) :
    M Z X k (ix2 ⟨32 * j.val + o.val, by omega⟩ q)
      = if h : j.val < k ∧ 16 * j.val ≤ q.val ∧ q.val < 16 * j.val + 48
        then X (ix2 o ⟨q.val - 16 * j.val, by omega⟩)
        else Z (ix2 ⟨32 * j.val + o.val, by omega⟩ q) := by
  induction k with
  | zero =>
    rw [dif_neg (show ¬ (j.val < 0 ∧ 16 * j.val ≤ q.val ∧ q.val < 16 * j.val + 48) by omega)]; rfl
  | succ k ih =>
    have ih := ih (by omega)
    show stepM X (M Z X k) k _ = _
    rw [stepM_apply X _ k (by omega)]
    by_cases hjk : j.val = k
    · by_cases hq : 16 * j.val ≤ q.val ∧ q.val < 16 * j.val + 48
      · rw [dif_pos (show 32 * k ≤ 32 * j.val + o.val ∧ 32 * j.val + o.val < 32 * k + 32 ∧ 16 * k ≤ q.val ∧ q.val < 16 * k + 48 by omega),
          dif_pos (show j.val < k + 1 ∧ 16 * j.val ≤ q.val ∧ q.val < 16 * j.val + 48 by omega)]
        exact congrArg X (WindowSet.ix2_congr (Fin.ext (by show 32 * j.val + o.val - 32 * k = o.val; omega))
          (Fin.ext (by show q.val - 16 * k = q.val - 16 * j.val; omega)))
      · rw [dif_neg (show ¬ (32 * k ≤ 32 * j.val + o.val ∧ 32 * j.val + o.val < 32 * k + 32 ∧ 16 * k ≤ q.val ∧ q.val < 16 * k + 48) by omega),
          ih, dif_neg (show ¬ (j.val < k ∧ 16 * j.val ≤ q.val ∧ q.val < 16 * j.val + 48) by omega),
          dif_neg (show ¬ (j.val < k + 1 ∧ 16 * j.val ≤ q.val ∧ q.val < 16 * j.val + 48) by omega)]
    · rw [dif_neg (show ¬ (32 * k ≤ 32 * j.val + o.val ∧ 32 * j.val + o.val < 32 * k + 32 ∧ 16 * k ≤ q.val ∧ q.val < 16 * k + 48) by omega), ih]
      by_cases hc : j.val < k ∧ 16 * j.val ≤ q.val ∧ q.val < 16 * j.val + 48
      · rw [dif_pos hc, dif_pos (show j.val < k + 1 ∧ 16 * j.val ≤ q.val ∧ q.val < 16 * j.val + 48 by omega)]
      · rw [dif_neg hc, dif_neg (show ¬ (j.val < k + 1 ∧ 16 * j.val ≤ q.val ∧ q.val < 16 * j.val + 48) by omega)]

theorem after_append {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons op l ih => simp only [List.cons_append, StableHlo.after_cons, ih]

set_option maxHeartbeats 4000000 in
theorem hostOps0_split : (Gen.hostOps0 : List (HloOp τ sig (Elt F))) = Gen.main_part0_ops0 ++ (Gen.main_part1_ops0 ++ (Gen.main_part2_ops0 ++ (Gen.main_part3_ops0 ++ (Gen.main_part4_ops0 ++ (Gen.main_part5_ops0 ++ (Gen.main_part6_ops0 ++ (Gen.main_part7_ops0 ++ (Gen.main_part8_ops0 ++ (Gen.main_part9_ops0 ++ (Gen.main_part10_ops0 ++ (Gen.main_part11_ops0 ++ (Gen.main_part12_ops0 ++ (Gen.main_part13_ops0 ++ (Gen.main_part14_ops0 ++ (Gen.main_part15_ops0 ++ (Gen.main_part16_ops0 ++ (Gen.main_part17_ops0 ++ (Gen.main_part18_ops0)))))))))))))))))) := rfl

set_option maxHeartbeats 4000000

/-- The first two blocks, written into the zero matrix (the window that also builds the block). -/
theorem win12 (W : Valuation τ sig (Elt F)) :
    (StableHlo.after (Gen.main_part12_ops0 (F := F)) W (Proc.devRef .tc main_v521) : S1952x1008.Idx → Elt F .f32)
      = (stepM (StableHlo.after (Gen.main_part12_ops0 (F := F)) W (Proc.devRef .tc main_v512) : S32x48.Idx → Elt F .f32) (stepM (StableHlo.after (Gen.main_part12_ops0 (F := F)) W (Proc.devRef .tc main_v512) : S32x48.Idx → Elt F .f32) (broadcastInDim S1952x1008 ![] Gen.bcast_S_S1952x1008 (constant (F := F) S_ .f32 0x00000000#32)) 0) 1) := by
  after_results_simp
  rfl

/-- Blocks 2 … 11, written one after the other into what the window finds. -/
theorem win13 (W : Valuation τ sig (Elt F)) :
    (StableHlo.after (Gen.main_part13_ops0 (F := F)) W (Proc.devRef .tc main_v561) : S1952x1008.Idx → Elt F .f32)
      = (stepM (W (Proc.devRef .tc main_v512)) (stepM (W (Proc.devRef .tc main_v512)) (stepM (W (Proc.devRef .tc main_v512)) (stepM (W (Proc.devRef .tc main_v512)) (stepM (W (Proc.devRef .tc main_v512)) (stepM (W (Proc.devRef .tc main_v512)) (stepM (W (Proc.devRef .tc main_v512)) (stepM (W (Proc.devRef .tc main_v512)) (stepM (W (Proc.devRef .tc main_v512)) (stepM (W (Proc.devRef .tc main_v512)) (W (Proc.devRef .tc main_v521)) 2) 3) 4) 5) 6) 7) 8) 9) 10) 11) := by
  after_results_simp
  rfl

/-- The window leaves the block alone. -/
theorem keep13 (W : Valuation τ sig (Elt F)) :
    StableHlo.after (Gen.main_part13_ops0 (F := F)) W (Proc.devRef .tc main_v512) = W (Proc.devRef .tc main_v512) := by
  after_results_simp

/-- Blocks 12 … 21, written one after the other into what the window finds. -/
theorem win14 (W : Valuation τ sig (Elt F)) :
    (StableHlo.after (Gen.main_part14_ops0 (F := F)) W (Proc.devRef .tc main_v601) : S1952x1008.Idx → Elt F .f32)
      = (stepM (W (Proc.devRef .tc main_v512)) (stepM (W (Proc.devRef .tc main_v512)) (stepM (W (Proc.devRef .tc main_v512)) (stepM (W (Proc.devRef .tc main_v512)) (stepM (W (Proc.devRef .tc main_v512)) (stepM (W (Proc.devRef .tc main_v512)) (stepM (W (Proc.devRef .tc main_v512)) (stepM (W (Proc.devRef .tc main_v512)) (stepM (W (Proc.devRef .tc main_v512)) (stepM (W (Proc.devRef .tc main_v512)) (W (Proc.devRef .tc main_v561)) 12) 13) 14) 15) 16) 17) 18) 19) 20) 21) := by
  after_results_simp
  rfl

/-- The window leaves the block alone. -/
theorem keep14 (W : Valuation τ sig (Elt F)) :
    StableHlo.after (Gen.main_part14_ops0 (F := F)) W (Proc.devRef .tc main_v512) = W (Proc.devRef .tc main_v512) := by
  after_results_simp

/-- Blocks 22 … 31, written one after the other into what the window finds. -/
theorem win15 (W : Valuation τ sig (Elt F)) :
    (StableHlo.after (Gen.main_part15_ops0 (F := F)) W (Proc.devRef .tc main_v641) : S1952x1008.Idx → Elt F .f32)
      = (stepM (W (Proc.devRef .tc main_v512)) (stepM (W (Proc.devRef .tc main_v512)) (stepM (W (Proc.devRef .tc main_v512)) (stepM (W (Proc.devRef .tc main_v512)) (stepM (W (Proc.devRef .tc main_v512)) (stepM (W (Proc.devRef .tc main_v512)) (stepM (W (Proc.devRef .tc main_v512)) (stepM (W (Proc.devRef .tc main_v512)) (stepM (W (Proc.devRef .tc main_v512)) (stepM (W (Proc.devRef .tc main_v512)) (W (Proc.devRef .tc main_v601)) 22) 23) 24) 25) 26) 27) 28) 29) 30) 31) := by
  after_results_simp
  rfl

/-- The window leaves the block alone. -/
theorem keep15 (W : Valuation τ sig (Elt F)) :
    StableHlo.after (Gen.main_part15_ops0 (F := F)) W (Proc.devRef .tc main_v512) = W (Proc.devRef .tc main_v512) := by
  after_results_simp

/-- Blocks 32 … 41, written one after the other into what the window finds. -/
theorem win16 (W : Valuation τ sig (Elt F)) :
    (StableHlo.after (Gen.main_part16_ops0 (F := F)) W (Proc.devRef .tc main_v681) : S1952x1008.Idx → Elt F .f32)
      = (stepM (W (Proc.devRef .tc main_v512)) (stepM (W (Proc.devRef .tc main_v512)) (stepM (W (Proc.devRef .tc main_v512)) (stepM (W (Proc.devRef .tc main_v512)) (stepM (W (Proc.devRef .tc main_v512)) (stepM (W (Proc.devRef .tc main_v512)) (stepM (W (Proc.devRef .tc main_v512)) (stepM (W (Proc.devRef .tc main_v512)) (stepM (W (Proc.devRef .tc main_v512)) (stepM (W (Proc.devRef .tc main_v512)) (W (Proc.devRef .tc main_v641)) 32) 33) 34) 35) 36) 37) 38) 39) 40) 41) := by
  after_results_simp
  rfl

/-- The window leaves the block alone. -/
theorem keep16 (W : Valuation τ sig (Elt F)) :
    StableHlo.after (Gen.main_part16_ops0 (F := F)) W (Proc.devRef .tc main_v512) = W (Proc.devRef .tc main_v512) := by
  after_results_simp

/-- Blocks 42 … 51, written one after the other into what the window finds. -/
theorem win17 (W : Valuation τ sig (Elt F)) :
    (StableHlo.after (Gen.main_part17_ops0 (F := F)) W (Proc.devRef .tc main_v721) : S1952x1008.Idx → Elt F .f32)
      = (stepM (W (Proc.devRef .tc main_v512)) (stepM (W (Proc.devRef .tc main_v512)) (stepM (W (Proc.devRef .tc main_v512)) (stepM (W (Proc.devRef .tc main_v512)) (stepM (W (Proc.devRef .tc main_v512)) (stepM (W (Proc.devRef .tc main_v512)) (stepM (W (Proc.devRef .tc main_v512)) (stepM (W (Proc.devRef .tc main_v512)) (stepM (W (Proc.devRef .tc main_v512)) (stepM (W (Proc.devRef .tc main_v512)) (W (Proc.devRef .tc main_v681)) 42) 43) 44) 45) 46) 47) 48) 49) 50) 51) := by
  after_results_simp
  rfl

/-- The window leaves the block alone. -/
theorem keep17 (W : Valuation τ sig (Elt F)) :
    StableHlo.after (Gen.main_part17_ops0 (F := F)) W (Proc.devRef .tc main_v512) = W (Proc.devRef .tc main_v512) := by
  after_results_simp

/-- Blocks 52 … 60, written one after the other into what the window finds. -/
theorem win18 (W : Valuation τ sig (Elt F)) :
    (StableHlo.after (Gen.main_part18_ops0 (F := F)) W (Proc.devRef .tc main_v757) : S1952x1008.Idx → Elt F .f32)
      = (stepM (W (Proc.devRef .tc main_v512)) (stepM (W (Proc.devRef .tc main_v512)) (stepM (W (Proc.devRef .tc main_v512)) (stepM (W (Proc.devRef .tc main_v512)) (stepM (W (Proc.devRef .tc main_v512)) (stepM (W (Proc.devRef .tc main_v512)) (stepM (W (Proc.devRef .tc main_v512)) (stepM (W (Proc.devRef .tc main_v512)) (stepM (W (Proc.devRef .tc main_v512)) (W (Proc.devRef .tc main_v721)) 52) 53) 54) 55) 56) 57) 58) 59) 60) := by
  after_results_simp
  rfl

/-- The window leaves the block alone. -/
theorem keep18 (W : Valuation τ sig (Elt F)) :
    StableHlo.after (Gen.main_part18_ops0 (F := F)) W (Proc.devRef .tc main_v512) = W (Proc.devRef .tc main_v512) := by
  after_results_simp

/-- The operations in order are the nineteen windows in order. -/
theorem flatten_hostOps0 : List.flatten [Gen.hostOps0 (F := F)] = Gen.main_part0_ops0 (F := F) ++ (Gen.main_part1_ops0 (F := F) ++ (Gen.main_part2_ops0 (F := F) ++ (Gen.main_part3_ops0 (F := F) ++ (Gen.main_part4_ops0 (F := F) ++ (Gen.main_part5_ops0 (F := F) ++ (Gen.main_part6_ops0 (F := F) ++ (Gen.main_part7_ops0 (F := F) ++ (Gen.main_part8_ops0 (F := F) ++ (Gen.main_part9_ops0 (F := F) ++ (Gen.main_part10_ops0 (F := F) ++ (Gen.main_part11_ops0 (F := F) ++ (Gen.main_part12_ops0 (F := F) ++ (Gen.main_part13_ops0 (F := F) ++ (Gen.main_part14_ops0 (F := F) ++ (Gen.main_part15_ops0 (F := F) ++ (Gen.main_part16_ops0 (F := F) ++ (Gen.main_part17_ops0 (F := F) ++ (Gen.main_part18_ops0 (F := F))))))))))))))))))) := by
  rw [List.flatten_cons, List.flatten_nil, List.append_nil]; exact hostOps0_split

/-- Running all the operations is running the windows one after the other. -/
theorem after_hostOps0 (W : Valuation τ sig (Elt F)) :
    StableHlo.after (List.flatten [Gen.hostOps0 (F := F)]) W = (StableHlo.after (Gen.main_part18_ops0 (F := F)) (StableHlo.after (Gen.main_part17_ops0 (F := F)) (StableHlo.after (Gen.main_part16_ops0 (F := F)) (StableHlo.after (Gen.main_part15_ops0 (F := F)) (StableHlo.after (Gen.main_part14_ops0 (F := F)) (StableHlo.after (Gen.main_part13_ops0 (F := F)) (StableHlo.after (Gen.main_part12_ops0 (F := F)) (StableHlo.after (Gen.main_part11_ops0 (F := F)) (StableHlo.after (Gen.main_part10_ops0 (F := F)) (StableHlo.after (Gen.main_part9_ops0 (F := F)) (StableHlo.after (Gen.main_part8_ops0 (F := F)) (StableHlo.after (Gen.main_part7_ops0 (F := F)) (StableHlo.after (Gen.main_part6_ops0 (F := F)) (StableHlo.after (Gen.main_part5_ops0 (F := F)) (StableHlo.after (Gen.main_part4_ops0 (F := F)) (StableHlo.after (Gen.main_part3_ops0 (F := F)) (StableHlo.after (Gen.main_part2_ops0 (F := F)) (StableHlo.after (Gen.main_part1_ops0 (F := F)) (StableHlo.after (Gen.main_part0_ops0 (F := F)) W))))))))))))))))))) := by
  rw [flatten_hostOps0]; simp only [after_append]

/-- The zero matrix the chain starts from. -/
abbrev Z0 : S1952x1008.Idx → Elt F .f32 := (broadcastInDim S1952x1008 ![] Gen.bcast_S_S1952x1008 (constant (F := F) S_ .f32 0x00000000#32))

/-- From the valuation W the windows before the chain leave: the last matrix of the chain is all 61 blocks written
    into the zero matrix. -/
theorem chain757 (W : Valuation τ sig (Elt F)) :
    ((StableHlo.after (Gen.main_part18_ops0 (F := F)) (StableHlo.after (Gen.main_part17_ops0 (F := F)) (StableHlo.after (Gen.main_part16_ops0 (F := F)) (StableHlo.after (Gen.main_part15_ops0 (F := F)) (StableHlo.after (Gen.main_part14_ops0 (F := F)) (StableHlo.after (Gen.main_part13_ops0 (F := F)) (StableHlo.after (Gen.main_part12_ops0 (F := F)) W))))))) (Proc.devRef .tc main_v757) : S1952x1008.Idx → Elt F .f32)
      = M (Z0 (F := F)) (StableHlo.after (Gen.main_part12_ops0 (F := F)) W (Proc.devRef .tc main_v512) : S32x48.Idx → Elt F .f32) 61 := by
  rw [win18, keep17, keep16, keep15, keep14, keep13, win17, keep16, keep15, keep14, keep13, win16, keep15, keep14, keep13, win15, keep14, keep13, win14, keep13, win13, win12]
  rfl

/-- The block itself is as the first window of the chain leaves it. -/
theorem chain512 (W : Valuation τ sig (Elt F)) :
    (StableHlo.after (Gen.main_part18_ops0 (F := F)) (StableHlo.after (Gen.main_part17_ops0 (F := F)) (StableHlo.after (Gen.main_part16_ops0 (F := F)) (StableHlo.after (Gen.main_part15_ops0 (F := F)) (StableHlo.after (Gen.main_part14_ops0 (F := F)) (StableHlo.after (Gen.main_part13_ops0 (F := F)) (StableHlo.after (Gen.main_part12_ops0 (F := F)) W))))))) (Proc.devRef .tc main_v512)
      = StableHlo.after (Gen.main_part12_ops0 (F := F)) W (Proc.devRef .tc main_v512) := by
  rw [keep18, keep17, keep16, keep15, keep14, keep13]

/-- The second convolution's banded matrix is the 61 blocks written into zeros. -/
theorem RV_757 (m : (ℓ : Loc nD τ sig) → Buf (Elt Ideal) ℓ) (c : Dev nD) :
    (RV m c main_v757 : S1952x1008.Idx → EReal) = M (Z0 (F := Ideal)) (RV m c main_v512 : S32x48.Idx → EReal) 61 := by
  show (StableHlo.after (List.flatten [Gen.hostOps0 (F := Ideal)]) (fun b => m (c, b)) (Proc.devRef .tc main_v757) : S1952x1008.Idx → EReal)
    = M (Z0 (F := Ideal)) (StableHlo.after (List.flatten [Gen.hostOps0 (F := Ideal)]) (fun b => m (c, b)) (Proc.devRef .tc main_v512) : S32x48.Idx → EReal) 61
  rw [after_hostOps0, chain512]
  exact chain757 _

end Conv2

open Conv2 in
/-- The second convolution's banded weight matrix, entry by entry: row block j (32 rows) holds the 32 × 48 block at
    columns 16 j … 16 j + 47 and zeros elsewhere. -/
theorem w2t_apply (m : (ℓ : Loc nD τ sig) → Buf (Elt Ideal) ℓ) (c : Dev nD) (j : Fin 61) (o : Fin 32) (q : Fin 1008) :
    (RV m c main_v757 : S1952x1008.Idx → EReal) (ix2 ⟨32 * j.val + o.val, by omega⟩ q)
      = if h : 16 * j.val ≤ q.val ∧ q.val < 16 * j.val + 48
        then (RV m c main_v512 : S32x48.Idx → EReal) (ix2 o ⟨q.val - 16 * j.val, by omega⟩) else (0 : EReal) := by
  rw [RV_757, M_apply _ _ 61 (le_refl _) j o q]
  by_cases hq : 16 * j.val ≤ q.val ∧ q.val < 16 * j.val + 48
  · rw [dif_pos hq, dif_pos (show j.val < 61 ∧ 16 * j.val ≤ q.val ∧ q.val < 16 * j.val + 48 from ⟨j.isLt, hq⟩)]
  · rw [dif_neg hq, dif_neg (show ¬ (j.val < 61 ∧ 16 * j.val ≤ q.val ∧ q.val < 16 * j.val + 48) from fun h => hq h.2)]
    show broadcastInDim S1952x1008 ![] Gen.bcast_S_S1952x1008 (constant (F := Ideal) S_ .f32 0x00000000#32) _ = 0
    rw [broadcastInDim_scalar_apply, constant_apply, Ideal.ofBits_zero_f32]

end Cert.ReferenceIdeal.Glue
-- ==== Proof.RefFacts.lean ====
/-
  The reference's region-entry arrays, read at an entry, in the words of the specification:
  each full banded matrix is the specification's block laid along its band, the dense weights are the specification's
  weight of the flattened position, and the images are the specification's columns.
-/
import proofs.«169050_g2000504127106898_pallasbulk_898_40_alg».proof.Proof.RefArgs
import proofs.«169050_g2000504127106898_pallasbulk_898_40_alg».proof.Proof.RefConv1
import proofs.«169050_g2000504127106898_pallasbulk_898_40_alg».proof.Proof.RefConv2
import proofs.«169050_g2000504127106898_pallasbulk_898_40_alg».proof.Proof.CnnSpec

noncomputable section

namespace Cert.ReferenceIdeal.Glue

open Idealize.ShloMosaic Idealize.ShloMosaic.TcCoe Idealize.SL.Sem Idealize.ShloMosaic.ValueIdx Cert.CnnSpec

variable (m : (ℓ : Loc nD τ sig) → Buf (Elt Ideal) ℓ) (c : Dev nD)

theorem band1 (r : Fin 2016) (i ch : ℕ) (hr : r.val = 16 * i + ch) (hch : ch < 16) (q : Fin 384) :
    (RV m c main_v509 : S2016x384.Idx → EReal) (ix2 r q)
      = if 3 * i ≤ q.val ∧ q.val < 3 * i + 9 then B1of (m ((c : Thread nD τ).loc main_arg1) : S16x1x3x3.Idx → EReal) ch (q.val - 3 * i) else 0 := by
  have hi : i < 126 := by have := r.isLt; omega
  have hq := q.isLt
  have key := w1t_apply m c ⟨i, hi⟩ ⟨ch, hch⟩ q
  rw [show (⟨16 * (⟨i, hi⟩ : Fin 126).val + (⟨ch, hch⟩ : Fin 16).val, by omega⟩ : Fin 2016) = r from Fin.ext hr.symm] at key
  rw [key]
  by_cases h : 3 * i ≤ q.val ∧ q.val < 3 * i + 9
  · rw [dif_pos h, if_pos h, blk1R_apply]
    unfold B1of
    rw [dif_pos ⟨hch, by omega⟩]
  · rw [dif_neg h, if_neg h]

theorem band2 (r : Fin 1952) (j oo : ℕ) (hr : r.val = 32 * j + oo) (hoo : oo < 32) (q : Fin 1008) :
    (RV m c main_v757 : S1952x1008.Idx → EReal) (ix2 r q)
      = if 16 * j ≤ q.val ∧ q.val < 16 * j + 48 then B2of (m ((c : Thread nD τ).loc main_arg2) : S32x16x3x1.Idx → EReal) oo (q.val - 16 * j) else 0 := by
  have hj : j < 61 := by have := r.isLt; omega
  have hq := q.isLt
  have key := w2t_apply m c ⟨j, hj⟩ ⟨oo, hoo⟩ q
  rw [show (⟨32 * (⟨j, hj⟩ : Fin 61).val + (⟨oo, hoo⟩ : Fin 32).val, by omega⟩ : Fin 1952) = r from Fin.ext hr.symm] at key
  rw [key]
  by_cases h : 16 * j ≤ q.val ∧ q.val < 16 * j + 48
  · rw [dif_pos h, if_pos h, blk2R_apply]
    unfold B2of
    rw [dif_pos ⟨hoo, by omega⟩]
  · rw [dif_neg h, if_neg h]

theorem fcR (o : Fin 128) (q : Fin 1952) :
    (RV m c main_v760 : S128x1952.Idx → EReal) (ix2 o q) = CnnMath.fcw (Wfof (m ((c : Thread nD τ).loc main_arg3) : S128x1952.Idx → EReal)) o.val q.val := by
  have hq := q.isLt
  have key := wfcR_apply m c o ⟨q.val / 32, by omega⟩ ⟨q.val % 32, Nat.mod_lt _ (by omega)⟩
  rw [show (⟨32 * (⟨q.val / 32, by omega⟩ : Fin 61).val + (⟨q.val % 32, Nat.mod_lt _ (by omega)⟩ : Fin 32).val, by omega⟩ : Fin 1952) = q
    from Fin.ext (by show 32 * (q.val / 32) + q.val % 32 = q.val; omega)] at key
  rw [key]
  unfold CnnMath.fcw Wfof
  rw [dif_pos ⟨o.isLt, by omega⟩]

theorem xR (r : Fin 384) (N : Fin 16384) :
    (RV m c main_v2 : S384x16384.Idx → EReal) (ix2 r N) = Xof (m ((c : Thread nD τ).loc main_arg0) : S16384x1x128x3.Idx → EReal) N r.val := by
  rw [xsR_apply]
  unfold Xof
  rw [dif_pos r.isLt]

end Cert.ReferenceIdeal.Glue

end
-- ==== Proof.RefBody.lean ====
/-
  The reference's body, stage by stage, at the extended reals.

  One grid point takes a block `v0` of 128 images (one per column, 384 rows), the full banded matrices `v2` and `v14` of
  the two convolutions, the dense layer's weights `v19` and the bias column `v22`: the first convolution rectified, the
  pooling of adjacent output rows, the second convolution rectified, the dense layer plus the bias.
-/
import proofs.«169050_g2000504127106898_pallasbulk_898_40_alg».proof.Proof.Gen.ReferenceIdeal.Skeleton
import proofs.«169050_g2000504127106898_pallasbulk_898_40_alg».proof.Proof.LibPlainContract
import proofs.«169050_g2000504127106898_pallasbulk_898_40_alg».proof.Proof.LibLayout3
import proofs.«169050_g2000504127106898_pallasbulk_898_40_alg».proof.Proof.LibKeepdims
import proofs.«169050_g2000504127106898_pallasbulk_898_40_alg».proof.Proof.LibLayoutExtra
import Idealize.ShloMosaic.Lib.ValueLayout
import Idealize.ShloMosaic.Lib.Pipeline.Value

noncomputable section

open scoped BigOperators

namespace Cert.ReferenceIdeal.Body

open Cert.ReferenceIdeal Cert.ReferenceIdeal.Gen Idealize.ShloMosaic Idealize.ShloMosaic.ValueIdx
open Cert.LibPlainContract Cert.LibLayout3 Cert.Lib.Keepdims Cert.LibLayoutExtra

/-- The first convolution, rectified: the banded matrix times the images. -/
def conv1 (v2 : Vec Ideal S2016x384 .f32) (v0 : Vec Ideal S384x128 .f32) : FVec Ideal S2016x128 .f32 :=
  maximumf (matmul dot_S2016x384_S384x128_S2016x128_1_0_0_1_n_n none (shapeCast S2016x384 v2 shapeCasts_S2016x384_S2016x384 : FVec Ideal S2016x384 .f32)
      (shapeCast S384x128 v0 shapeCasts_S384x128_S384x128 : FVec Ideal S384x128 .f32) (constant S2016x128 .f32 0x00000000#32))
    (broadcast S2016x128 (Scalar.ofBits .f32 0x00000000#32))

/-- Pooling of adjacent output rows, flattened back to 1008 rows. -/
def pooled (A : FVec Ideal S2016x128 .f32) : FVec Ideal S1008x128 .f32 :=
  shapeCast S1008x128
    (maximumf
      (shapeCast S63x16x128 (extractStridedSlice S63x1x16x128 ![0, 0, 0, 0] (shapeCast S63x2x16x128 A shapeCasts_S2016x128_S63x2x16x128) slices_S63x2x16x128_o0_0_0_0_S63x1x16x128) shapeCasts_S63x1x16x128_S63x16x128 : FVec Ideal S63x16x128 .f32)
      (shapeCast S63x16x128 (extractStridedSlice S63x1x16x128 ![0, 1, 0, 0] (shapeCast S63x2x16x128 A shapeCasts_S2016x128_S63x2x16x128) slices_S63x2x16x128_o0_1_0_0_S63x1x16x128) shapeCasts_S63x1x16x128_S63x16x128 : FVec Ideal S63x16x128 .f32))
    shapeCasts_S63x16x128_S1008x128

/-- The second convolution, rectified. -/
def conv2 (v14 : Vec Ideal S1952x1008 .f32) (p : FVec Ideal S1008x128 .f32) : FVec Ideal S1952x128 .f32 :=
  maximumf (matmul dot_S1952x1008_S1008x128_S1952x128_1_0_0_1_n_n none (shapeCast S1952x1008 v14 shapeCasts_S1952x1008_S1952x1008 : FVec Ideal S1952x1008 .f32)
      p (constant S1952x128 .f32 0x00000000#32))
    (broadcast S1952x128 (Scalar.ofBits .f32 0x00000000#32))

/-- The dense layer plus the bias. -/
def dense (v19 : Vec Ideal S128x1952 .f32) (a : FVec Ideal S1952x128 .f32) (v22 : Vec Ideal S128x1 .f32) : FVec Ideal S128x128 .f32 :=
  addf (matmul dot_S128x1952_S1952x128_S128x128_1_0_0_1_n_n none (shapeCast S128x1952 v19 shapeCasts_S128x1952_S128x1952 : FVec Ideal S128x1952 .f32)
      a (constant S128x128 .f32 0x00000000#32))
    (broadcastTo S128x128 (shapeCast S128x1 v22 shapeCasts_S128x1_S128x1 : FVec Ideal S128x1 .f32) broadcasts_S128x1_S128x128)

set_option maxRecDepth 65536 in
theorem pay1_eq (v0 : Vec Ideal S384x128 .f32) (v2 : Vec Ideal S2016x384 .f32) (v14 : Vec Ideal S1952x1008 .f32)
    (v19 : Vec Ideal S128x1952 .f32) (v22 : Vec Ideal S128x1 .f32) :
    k0_pay1 v0 v2 v14 v19 v22 = dense v19 (conv2 v14 (pooled (conv1 v2 v0))) v22 := rfl

/-! ## The stages read at one entry -/

theorem conv1_apply (v2 : Vec Ideal S2016x384 .f32) (v0 : Vec Ideal S384x128 .f32) (r : Fin 2016) (n : Fin 128) :
    conv1 v2 v0 (ix2 r n) = max (∑ k : Fin 384, v2 (ix2 r k) * v0 (ix2 k n)) 0 := by
  unfold conv1
  rw [maximumf_apply, broadcast_apply, shapeCast_self, shapeCast_self]
  show max (FloatOps.matmul (DotDims.plain 2016 384 128) none v2 v0 (constant ⟨2, ![2016, 128]⟩ .f32 0x00000000#32) (ix2 r n))
      (Ideal.ofBits .f32 0x00000000#32) = _
  rw [matmul_plain_apply 2016 384 128 none v2 v0 r n, Ideal.ofBits_zero_f32]

/-- Pooled row 16·ip + ch is the maximum of rows 32·ip + ch and 32·ip + 16 + ch. -/
theorem pooled_apply (A : FVec Ideal S2016x128 .f32) (ip : Fin 63) (ch : Fin 16) (n : Fin 128) (r : Fin 1008)
    (hr : r.val = 16 * ip.val + ch.val) :
    pooled A (ix2 r n) = max (A (ix2 ⟨32 * ip.val + ch.val, by omega⟩ n)) (A (ix2 ⟨32 * ip.val + 16 + ch.val, by omega⟩ n)) := by
  unfold pooled
  rw [shapeCast_abc_mc_apply _ shapeCasts_S63x16x128_S1008x128 ip ch n r (by rw [hr]; omega), maximumf_apply,
    shapeCast_a1dc_adc_apply _ shapeCasts_S63x1x16x128_S63x16x128 ip ch n,
    shapeCast_a1dc_adc_apply _ shapeCasts_S63x1x16x128_S63x16x128 ip ch n,
    slice4_axis1_apply 0 _ slices_S63x2x16x128_o0_0_0_0_S63x1x16x128 ip 0 ch n (0 : Fin 2) rfl,
    slice4_axis1_apply 1 _ slices_S63x2x16x128_o0_1_0_0_S63x1x16x128 ip 0 ch n (1 : Fin 2) rfl,
    shapeCast_mc_abdc_apply A shapeCasts_S2016x128_S63x2x16x128 ip (0 : Fin 2) ch n ⟨32 * ip.val + ch.val, by omega⟩ (by show 32 * ip.val + ch.val = (ip.val * 2 + 0) * 16 + ch.val; omega),
    shapeCast_mc_abdc_apply A shapeCasts_S2016x128_S63x2x16x128 ip (1 : Fin 2) ch n ⟨32 * ip.val + 16 + ch.val, by omega⟩ (by show 32 * ip.val + 16 + ch.val = (ip.val * 2 + 1) * 16 + ch.val; omega)]

theorem conv2_apply (v14 : Vec Ideal S1952x1008 .f32) (p : FVec Ideal S1008x128 .f32) (r : Fin 1952) (n : Fin 128) :
    conv2 v14 p (ix2 r n) = max (∑ k : Fin 1008, v14 (ix2 r k) * p (ix2 k n)) 0 := by
  unfold conv2
  rw [maximumf_apply, broadcast_apply, shapeCast_self]
  show max (FloatOps.matmul (DotDims.plain 1952 1008 128) none v14 p (constant ⟨2, ![1952, 128]⟩ .f32 0x00000000#32) (ix2 r n))
      (Ideal.ofBits .f32 0x00000000#32) = _
  rw [matmul_plain_apply 1952 1008 128 none v14 p r n, Ideal.ofBits_zero_f32]

theorem dense_apply (v19 : Vec Ideal S128x1952 .f32) (a : FVec Ideal S1952x128 .f32) (v22 : Vec Ideal S128x1 .f32) (o : Fin 128) (n : Fin 128) :
    dense v19 a v22 (ix2 o n) = (∑ k : Fin 1952, v19 (ix2 o k) * a (ix2 k n)) + v22 (ix2 o 0) := by
  unfold dense
  rw [addf_apply, shapeCast_self, shapeCast_self, broadcastTo_a1_ab_apply _ broadcasts_S128x1_S128x128 o n]
  show FloatOps.matmul (DotDims.plain 128 1952 128) none v19 a (constant ⟨2, ![128, 128]⟩ .f32 0x00000000#32) (ix2 o n) + _ = _
  rw [matmul_plain_apply 128 1952 128 none v19 a o n]

end Cert.ReferenceIdeal.Body

end
-- ==== Proof.RefEntry.lean ====
/-
  The reference's stored block, at one entry, as the network's output for that image and class.

  The facts used about what the body loads are stated over the loaded vectors as variables: row `16·i + ch` of the
  first-convolution matrix is the 16×9 block `B1` laid from column `3·i`; row `32·j + oo` of the second-convolution
  matrix is the 32×48 block `B2` laid from column `16·j`; the dense layer's weight at position `k` is `fcw o k`;
  column `n` of the images is `X`.  Here the rectifier comes before the pooling maximum: `pool_comm`.
-/
import proofs.«169050_g2000504127106898_pallasbulk_898_40_alg».proof.Proof.RefBody
import proofs.«169050_g2000504127106898_pallasbulk_898_40_alg».proof.Proof.CnnMath

noncomputable section

open scoped BigOperators

namespace Cert.ReferenceIdeal.Body

open Cert.ReferenceIdeal Cert.ReferenceIdeal.Gen Idealize.ShloMosaic Idealize.ShloMosaic.ValueIdx Cert.CnnMath

variable (v0 : Vec Ideal S384x128 .f32) (v2 : Vec Ideal S2016x384 .f32) (v14 : Vec Ideal S1952x1008 .f32)
  (v19 : Vec Ideal S128x1952 .f32) (v22 : Vec Ideal S128x1 .f32)
  (X : ℕ → EReal) (B1 B2 Wf : ℕ → ℕ → EReal) (n : Fin 128) (o : Fin 128)
  (h0 : ∀ k : Fin 384, v0 (ix2 k n) = X k.val)
  (h2 : ∀ (r : Fin 2016) (i ch : ℕ), r.val = 16 * i + ch → ch < 16 → ∀ q : Fin 384,
      v2 (ix2 r q) = if 3 * i ≤ q.val ∧ q.val < 3 * i + 9 then B1 ch (q.val - 3 * i) else 0)
  (h14 : ∀ (r : Fin 1952) (j oo : ℕ), r.val = 32 * j + oo → oo < 32 → ∀ q : Fin 1008,
      v14 (ix2 r q) = if 16 * j ≤ q.val ∧ q.val < 16 * j + 48 then B2 oo (q.val - 16 * j) else 0)
  (h19 : ∀ k : Fin 1952, v19 (ix2 o k) = fcw Wf o.val k.val)

include h0 h2 in
/-- The rectified first convolution: row `16·i + ch`. -/
theorem conv1_entry (r : Fin 2016) (i ch : ℕ) (hr : r.val = 16 * i + ch) (hch : ch < 16) :
    conv1 v2 v0 (ix2 r n) = max (CnnMath.c1 X B1 i ch) 0 := by
  rw [conv1_apply, band_sum_fin 384 9 (3 * i) (by have := r.isLt; omega) _ _ (B1 ch) X (h2 r i ch hr hch) h0]
  rfl

include h0 h2 in
/-- The pooled map at flattened position `k`. -/
theorem pooled_entry (k : Fin 1008) : pooled (conv1 v2 v0) (ix2 k n) = CnnMath.P X B1 k.val := by
  have hk := k.isLt
  rw [pooled_apply _ ⟨k.val / 16, by omega⟩ ⟨k.val % 16, Nat.mod_lt _ (by omega)⟩ n k (by show k.val = 16 * (k.val / 16) + k.val % 16; omega),
    conv1_entry v0 v2 X B1 n h0 h2 _ (2 * (k.val / 16)) (k.val % 16) (by show 32 * (k.val / 16) + k.val % 16 = _; omega) (Nat.mod_lt _ (by omega)),
    conv1_entry v0 v2 X B1 n h0 h2 _ (2 * (k.val / 16) + 1) (k.val % 16) (by show 32 * (k.val / 16) + 16 + k.val % 16 = _; omega) (Nat.mod_lt _ (by omega)),
    pool_comm]
  rfl

include h0 h2 h14 in
/-- The rectified second convolution at flattened position `q`. -/
theorem conv2_entry (q : Fin 1952) : conv2 v14 (pooled (conv1 v2 v0)) (ix2 q n) = CnnMath.A2 X B1 B2 q.val := by
  have hq := q.isLt
  rw [conv2_apply, band_sum_fin 1008 48 (16 * (q.val / 32)) (by omega) _ _ (B2 (q.val % 32)) (CnnMath.P X B1)
    (h14 q (q.val / 32) (q.val % 32) (by omega) (Nat.mod_lt _ (by omega))) (pooled_entry v0 v2 X B1 n h0 h2)]
  rfl

include h0 h2 h14 h19 in
/-- What the body stores at (o, n): the network's output for image `n` of the block and class `o`. -/
theorem stored_entry : k0_pay1 v0 v2 v14 v19 v22 (ix2 o n) = CnnMath.out X B1 B2 Wf (v22 (ix2 o 0)) o.val := by
  rw [pay1_eq, dense_apply]
  unfold CnnMath.out
  refine congrArg (· + v22 (ix2 o 0)) ?_
  rw [← Fin.sum_univ_eq_sum_range (fun q => fcw Wf o.val q * CnnMath.A2 X B1 B2 q) 1952]
  exact Finset.sum_congr rfl fun k _ => by rw [h19 k, conv2_entry v0 v2 v14 X B1 B2 n h0 h2 h14 k]

end Cert.ReferenceIdeal.Body

end
-- ==== Proof.RefOut.lean ====
/-
  What a grid point of the reference leaves in its output block, at (o, n), from facts about its five input blocks:
  the network's output for the block's image `n` and class `o`.
-/
import proofs.«169050_g2000504127106898_pallasbulk_898_40_alg».proof.Proof.RefFrameP
import proofs.«169050_g2000504127106898_pallasbulk_898_40_alg».proof.Proof.RefEntry

noncomputable section

namespace Cert.ReferenceIdeal.Body

open Cert.ReferenceIdeal Cert.ReferenceIdeal.Gen Cert.ReferenceIdeal.GenP Idealize.ShloMosaic Idealize.ShloMosaic.ValueIdx Cert.CnnMath

variable (x0 : Vec Ideal S384x128 .f32) (x1 : Vec Ideal S2016x384 .f32) (x2 : Vec Ideal S1952x1008 .f32)
  (x3 : Vec Ideal S128x1952 .f32) (x4 : Vec Ideal S128x1 .f32)
  (X : ℕ → EReal) (B1 B2 Wf : ℕ → ℕ → EReal) (n : Fin 128) (o : Fin 128)

theorem zeros2 : (![0, 0] : Fin 2 → ℕ) = fun _ => 0 := funext fun a => by fin_cases a <;> rfl

theorem out_entry
    (hx0 : ∀ k : Fin 384, x0 (ix2 k n) = X k.val)
    (hx1 : ∀ (r : Fin 2016) (i ch : ℕ), r.val = 16 * i + ch → ch < 16 → ∀ q : Fin 384,
      x1 (ix2 r q) = if 3 * i ≤ q.val ∧ q.val < 3 * i + 9 then B1 ch (q.val - 3 * i) else 0)
    (hx2 : ∀ (r : Fin 1952) (j oo : ℕ), r.val = 32 * j + oo → oo < 32 → ∀ q : Fin 1008,
      x2 (ix2 r q) = if 16 * j ≤ q.val ∧ q.val < 16 * j + 48 then B2 oo (q.val - 16 * j) else 0)
    (hx3 : ∀ k : Fin 1952, x3 (ix2 o k) = fcw Wf o.val k.val) :
    GenP.out0_5 x0 x1 x2 x3 x4 (ix2 o n) = CnnMath.out X B1 B2 Wf (x4 (ix2 o 0)) o.val := by
  unfold GenP.out0_5
  rw [View.canon_unit_zero zeros2]
  simp only [View.ld_unit_zero (S := S384x128) zeros2, View.ld_unit_zero (S := S2016x384) zeros2,
    View.ld_unit_zero (S := S1952x1008) zeros2, View.ld_unit_zero (S := S128x1952) zeros2, View.ld_unit_zero (S := S128x1) zeros2]
  exact stored_entry x0 x1 x2 x3 x4 X B1 B2 Wf n o hx0 hx1 hx2 hx3

end Cert.ReferenceIdeal.Body

end
-- ==== Proof.RefFinal.lean ====
/-
  The reference's result array after the run is the specification's function of the five argument arrays.

  The region leaves the classes-by-images array; the one host line after it transposes that into the result.  Entry
  (N, o) of the result is entry (o, N mod 128) of what grid point N / 128 wrote; that point's image block holds columns
  128·(N / 128) … of the images, so its column N mod 128 is image N; the other blocks are the whole weight arrays.
-/
import proofs.«169050_g2000504127106898_pallasbulk_898_40_alg».proof.Proof.RefBlocks
import proofs.«169050_g2000504127106898_pallasbulk_898_40_alg».proof.Proof.RefFacts
import proofs.«169050_g2000504127106898_pallasbulk_898_40_alg».proof.Proof.RefOut

noncomputable section

namespace Cert.ReferenceIdeal.Final

open Cert.ReferenceIdeal Idealize.ShloMosaic Idealize.ShloMosaic.TcCoe Idealize.SL.Sem Idealize.ShloMosaic.ValueIdx Cert.CnnSpec

variable (m : (ℓ : Loc nD τ sig) → Buf (Elt Ideal) ℓ) (c : Dev nD)

theorem result_entry (N : Fin 16384) (o : Fin 128) :
    (Pipeline.afterTail₀ cfgs (GenP.dats (F := Ideal) m) 0 (GenP.V0 m) [Gen.hostOps1] c main_v763 : S16384x128.Idx → EReal) (ix2 N o)
      = G (m ((c : Thread nD τ).loc main_arg0) : S16384x1x128x3.Idx → EReal) (m ((c : Thread nD τ).loc main_arg1) : S16x1x3x3.Idx → EReal)
          (m ((c : Thread nD τ).loc main_arg2) : S32x16x3x1.Idx → EReal) (m ((c : Thread nD τ).loc main_arg3) : S128x1952.Idx → EReal)
          (m ((c : Thread nD τ).loc main_arg4) : S128.Idx → EReal) (ix2 N o) := by
  have hN : 128 * (Glue.pt N).val + N.val % 128 = N.val := by
    show 128 * (N.val / 128) + N.val % 128 = N.val
    omega
  have hb : (GenP.iblk (F := Ideal) m c 4 (Glue.pt N) : S128x1.Idx → EReal) (ix2 o 0) = (m ((c : Thread nD τ).loc main_arg4) : S128.Idx → EReal) (ix1 o) :=
    (congrFun (Glue.iblk4_eq m c (Glue.pt N)) _).trans (Glue.biasR_apply m c o)
  refine (Glue.result_entry m c N o).trans ?_
  refine (Body.out_entry (GenP.iblk m c 0 (Glue.pt N)) (GenP.iblk m c 1 (Glue.pt N)) (GenP.iblk m c 2 (Glue.pt N)) (GenP.iblk m c 3 (Glue.pt N))
    (GenP.iblk m c 4 (Glue.pt N))
    (Xof (m ((c : Thread nD τ).loc main_arg0) : S16384x1x128x3.Idx → EReal) N) (B1of (m ((c : Thread nD τ).loc main_arg1) : S16x1x3x3.Idx → EReal)) (B2of (m ((c : Thread nD τ).loc main_arg2) : S32x16x3x1.Idx → EReal)) (Wfof (m ((c : Thread nD τ).loc main_arg3) : S128x1952.Idx → EReal))
    (⟨N.val % 128, Nat.mod_lt _ (by decide)⟩ : Fin 128) o ?_ ?_ ?_ ?_).trans ?_
  · intro k
    refine (Glue.iblk0_entry m c (Glue.pt N) k ⟨N.val % 128, Nat.mod_lt _ (by decide)⟩).trans ?_
    rw [show (⟨128 * (Glue.pt N).val + N.val % 128, by have := N.isLt; omega⟩ : Fin 16384) = N from Fin.ext hN]
    exact Glue.xR m c k N
  · intro r i ch hr hch q
    exact (congrFun (Glue.iblk1_eq m c (Glue.pt N)) _).trans (Glue.band1 m c r i ch hr hch q)
  · intro r j oo hr hoo q
    exact (congrFun (Glue.iblk2_eq m c (Glue.pt N)) _).trans (Glue.band2 m c r j oo hr hoo q)
  · intro k
    exact (congrFun (Glue.iblk3_eq m c (Glue.pt N)) _).trans (Glue.fcR m c o k)
  · exact congrArg (fun b => CnnMath.out _ _ _ _ b o.val) hb

/-- The whole array. -/
theorem result :
    (Pipeline.afterTail₀ cfgs (GenP.dats (F := Ideal) m) 0 (GenP.V0 m) [Gen.hostOps1] c main_v763 : S16384x128.Idx → EReal)
      = G (m ((c : Thread nD τ).loc main_arg0) : S16384x1x128x3.Idx → EReal) (m ((c : Thread nD τ).loc main_arg1) : S16x1x3x3.Idx → EReal)
          (m ((c : Thread nD τ).loc main_arg2) : S32x16x3x1.Idx → EReal) (m ((c : Thread nD τ).loc main_arg3) : S128x1952.Idx → EReal)
          (m ((c : Thread nD τ).loc main_arg4) : S128.Idx → EReal) := by
  funext i
  obtain ⟨N, o, rfl⟩ : ∃ (N : Fin 16384) (o : Fin 128), i = ix2 N o := ⟨i 0, i 1, eq_ix2 i⟩
  exact result_entry m c N o

end Cert.ReferenceIdeal.Final

end
-- ==== Proof.lean ====
/-
  Two fused convolutional networks — a first convolution with a 3×3 kernel, a rectifier and a pooling of adjacent rows,
  a second convolution with a 3×1 kernel and a rectifier, and a dense layer — computed on the extended reals by two
  differently organised programs, give the same result array.

  Both programs turn each convolution into a product with a banded matrix built from the raw weights.  The kernel cuts
  the bands into chunks that fit one tile (two chunks for the first convolution, five chunks of thirteen output rows
  for the second, the dense layer accumulated chunk by chunk over weights padded with zero columns); the reference
  multiplies by the full banded matrices.  On the extended reals a zero weight annihilates its term, so every product
  with a banded row is the sum over the band (`CnnMath.band_sum`), whichever matrix holds the band; rectifying before or
  after the pooling maximum is the same (`CnnMath.pool_comm`); and the chunked dense layer is the dense layer
  (`CnnMath.chunks_eq`), addition being commutative and associative there.  No finiteness of the inputs is used.

  `CnnSpec.G` states the common result as one function of the five argument arrays; `KernelIdeal.Final.result` and
  `ReferenceIdeal.Final.result` show that each program's result array is `G` of its arguments.  The three frames are
  the generated frame runs; the idealization rewrote nothing, so `preserves` is trivial.
-/
import proofs.«169050_g2000504127106898_pallasbulk_898_40_alg».proof.Defs
import proofs.«169050_g2000504127106898_pallasbulk_898_40_alg».proof.Proof.Gen.Kernel
import proofs.«169050_g2000504127106898_pallasbulk_898_40_alg».proof.Proof.Gen.Kernel.Skeleton
import proofs.«169050_g2000504127106898_pallasbulk_898_40_alg».proof.Proof.Gen.Kernel.Launch
import proofs.«169050_g2000504127106898_pallasbulk_898_40_alg».proof.Proof.Gen.Kernel.Points
import proofs.«169050_g2000504127106898_pallasbulk_898_40_alg».proof.Proof.Gen.Kernel.Frame
import proofs.«169050_g2000504127106898_pallasbulk_898_40_alg».proof.Proof.Gen.KernelIdeal
import proofs.«169050_g2000504127106898_pallasbulk_898_40_alg».proof.Proof.Gen.KernelIdeal.Skeleton
import proofs.«169050_g2000504127106898_pallasbulk_898_40_alg».proof.Proof.Gen.KernelIdeal.Launch
import proofs.«169050_g2000504127106898_pallasbulk_898_40_alg».proof.Proof.Gen.KernelIdeal.Points
import proofs.«169050_g2000504127106898_pallasbulk_898_40_alg».proof.Proof.Gen.KernelIdeal.Frame
import proofs.«169050_g2000504127106898_pallasbulk_898_40_alg».proof.Proof.Gen.ReferenceIdeal
import proofs.«169050_g2000504127106898_pallasbulk_898_40_alg».proof.Proof.Gen.ReferenceIdeal.Skeleton
import proofs.«169050_g2000504127106898_pallasbulk_898_40_alg».proof.Proof.Gen.ReferenceIdeal.Launch
import proofs.«169050_g2000504127106898_pallasbulk_898_40_alg».proof.Proof.Gen.ReferenceIdeal.Points
import proofs.«169050_g2000504127106898_pallasbulk_898_40_alg».proof.Proof.RefFrameP
import proofs.«169050_g2000504127106898_pallasbulk_898_40_alg».proof.Proof.Gen.Pre_finite_inputs
import proofs.«169050_g2000504127106898_pallasbulk_898_40_alg».proof.Proof.Gen.KernelIdeal.Value
import proofs.«169050_g2000504127106898_pallasbulk_898_40_alg».proof.Proof.KerFinal
import proofs.«169050_g2000504127106898_pallasbulk_898_40_alg».proof.Proof.RefFinal
import Idealize.ShloMosaic.Adequacy
import Idealize.ShloMosaic.Init

noncomputable section

namespace Cert.Proof

open Idealize.ShloMosaic Idealize.ShloMosaic.TcCoe Idealize.SL.Sem Cert.Kernel

/-- The kernel as printed runs and keeps its arguments: the generated frame run. -/
theorem frame_k : Cert.frame_Kernel := fun m ρ _ => Cert.Kernel.Gen.frame m ρ

/-- The idealized kernel runs and keeps its arguments: the generated frame run. -/
theorem frame_ki : Cert.frame_KernelIdeal := fun m ρ _ => Cert.KernelIdeal.Gen.frame m ρ

/-- The idealized reference runs and keeps its arguments: its frame run. -/
theorem frame_ri : Cert.frame_ReferenceIdeal := fun m ρ _ => Cert.ReferenceIdeal.GenP.frame m ρ

/-- The idealization rewrote no operation. -/
theorem preserves : Cert.preserves_Kernel_KernelIdeal := trivial

/-- From memories agreeing on the arguments both idealized programs run, end with the specification's function of the
    arguments in their result arrays, and keep their arguments. -/
theorem algebraic : Cert.algebraic_KernelIdeal_ReferenceIdeal := by
  intro m ρ m' ρ' _ hagree
  refine ⟨fun c => Cert.CnnSpec.G (m ((c : Thread Cert.KernelIdeal.nD Cert.KernelIdeal.τ).loc Cert.KernelIdeal.main_arg0) : Cert.KernelIdeal.S16384x1x128x3.Idx → EReal)
      (m ((c : Thread Cert.KernelIdeal.nD Cert.KernelIdeal.τ).loc Cert.KernelIdeal.main_arg1) : Cert.KernelIdeal.S16x1x3x3.Idx → EReal)
      (m ((c : Thread Cert.KernelIdeal.nD Cert.KernelIdeal.τ).loc Cert.KernelIdeal.main_arg2) : Cert.KernelIdeal.S32x16x3x1.Idx → EReal)
      (m ((c : Thread Cert.KernelIdeal.nD Cert.KernelIdeal.τ).loc Cert.KernelIdeal.main_arg3) : Cert.KernelIdeal.S128x1952.Idx → EReal)
      (m ((c : Thread Cert.KernelIdeal.nD Cert.KernelIdeal.τ).loc Cert.KernelIdeal.main_arg4) : Cert.KernelIdeal.S128.Idx → EReal), ?_, ?_⟩
  · exact (θ_run Cert.KernelIdeal.defs _ _).mono
      (fun r h c => ⟨(h c).1.trans (Cert.KernelIdeal.Final.result m c), (h c).2⟩)
      (Cert.KernelIdeal.Value.run_blocks (F := Ideal) m ρ)
  · refine (θ_run Cert.ReferenceIdeal.defs _ _).mono (fun r h c => ⟨?_, ?_, ?_, ?_, ?_, ?_⟩) (Cert.ReferenceIdeal.GenP.run_main (F := Ideal) m' ρ')
    · refine (Cert.ReferenceIdeal.Glue.post_result m' r h c).trans ((Cert.ReferenceIdeal.Final.result m' c).trans ?_)
      rw [(hagree c).1, (hagree c).2.1, (hagree c).2.2.1, (hagree c).2.2.2.1, (hagree c).2.2.2.2]
    · exact ((h c).2 Cert.ReferenceIdeal.main_arg0 (Pipeline.mem_restRefs_of Cert.ReferenceIdeal.main_arg0 (by decide) (by decide))).trans (Cert.ReferenceIdeal.GenP.W_main_arg0 m' (Cert.ReferenceIdeal.GenP.dats m') c)
    · exact ((h c).2 Cert.ReferenceIdeal.main_arg1 (Pipeline.mem_restRefs_of Cert.ReferenceIdeal.main_arg1 (by decide) (by decide))).trans (Cert.ReferenceIdeal.GenP.W_main_arg1 m' (Cert.ReferenceIdeal.GenP.dats m') c)
    · exact ((h c).2 Cert.ReferenceIdeal.main_arg2 (Pipeline.mem_restRefs_of Cert.ReferenceIdeal.main_arg2 (by decide) (by decide))).trans (Cert.ReferenceIdeal.GenP.W_main_arg2 m' (Cert.ReferenceIdeal.GenP.dats m') c)
    · exact ((h c).2 Cert.ReferenceIdeal.main_arg3 (Pipeline.mem_restRefs_of Cert.ReferenceIdeal.main_arg3 (by decide) (by decide))).trans (Cert.ReferenceIdeal.GenP.W_main_arg3 m' (Cert.ReferenceIdeal.GenP.dats m') c)
    · exact ((h c).2 Cert.ReferenceIdeal.main_arg4 (Pipeline.mem_restRefs_of Cert.ReferenceIdeal.main_arg4 (by decide) (by decide))).trans (Cert.ReferenceIdeal.GenP.W_main_arg4 m' (Cert.ReferenceIdeal.GenP.dats m') c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
